-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![1, 256, 256]⟩ ⟨3, ![4, 256, 256]⟩ 0 4 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S1x256x256 : Shape := ⟨3, ![1, 256, 256]⟩
abbrev S_ : Shape := ⟨0, ![]⟩

class Facts : Prop where
  bcast_S_S1x256x256 : S_.BroadcastsInDim S1x256x256 (![] : Fin 0 → Fin S1x256x256.rank)
  reducesTo_S1x256x256_S_d0_1_2 : S1x256x256.ReducesTo [0, 1, 2] S_
  h_S_ : 0 < S_.numel

variable [Facts]

def fn {F : FTy → Type} [FloatOps F] (main_arg0 : FVec F S1x256x256 .f32) : IVec S_ 1 :=
  let main_v0 : FVec F S1x256x256 .f32 := Host.absf main_arg0
  let main_cst : FVec F S_ .f32 := constant S_ .f32 0x7F800000#32
  let main_v1 : FVec F S1x256x256 .f32 := broadcastInDim S1x256x256 ![] bcast_S_S1x256x256 main_cst
  let main_v2 : IVec S1x256x256 1 := cmpf .olt main_v0 main_v1
  let main_c : IVec S_ 1 := constantI S_ 1 1#1
  let main_v3 : IVec S_ 1 := (fun x v => Host.reduce IntOp.andi x v reducesTo_S1x256x256_S_d0_1_2 h_S_) main_v2 main_c
  main_v3
-- ==== Pre_finite_inputs_ReferenceIdeal.lean ====
abbrev S4x256x256 : Shape := ⟨3, ![4, 256, 256]⟩
abbrev S_ : Shape := ⟨0, ![]⟩

class Facts : Prop where
  bcast_S_S4x256x256 : S_.BroadcastsInDim S4x256x256 (![] : Fin 0 → Fin S4x256x256.rank)
  reducesTo_S4x256x256_S_d0_1_2 : S4x256x256.ReducesTo [0, 1, 2] S_
  h_S_ : 0 < S_.numel

variable [Facts]

def fn {F : FTy → Type} [FloatOps F] (main_arg0 : FVec F S4x256x256 .f32) : IVec S_ 1 :=
  let main_v0 : FVec F S4x256x256 .f32 := Host.absf main_arg0
  let main_cst : FVec F S_ .f32 := constant S_ .f32 0x7F800000#32
  let main_v1 : FVec F S4x256x256 .f32 := broadcastInDim S4x256x256 ![] bcast_S_S4x256x256 main_cst
  let main_v2 : IVec S4x256x256 1 := cmpf .olt main_v0 main_v1
  let main_c : IVec S_ 1 := constantI S_ 1 1#1
  let main_v3 : IVec S_ 1 := (fun x v => Host.reduce IntOp.andi x v reducesTo_S4x256x256_S_d0_1_2 h_S_) main_v2 main_c
  main_v3
-- ==== Kernel.lean ====
abbrev S1x256x256 : Shape := ⟨3, ![1, 256, 256]⟩
abbrev S256x256 : Shape := ⟨2, ![256, 256]⟩
abbrev S8 : Shape := ⟨1, ![8]⟩
abbrev S_ : Shape := ⟨0, ![]⟩
abbrev S1 : Shape := ⟨1, ![1]⟩
abbrev S32x256 : Shape := ⟨2, ![32, 256]⟩
abbrev S1x32x256 : Shape := ⟨3, ![1, 32, 256]⟩

abbrev nBuf : Space → Nat
  | .hbm => 2
  | .vmem => 4
  | .smem => 0
  | _ => 0

abbrev bufTy : (tb : Table) → Fin (tcTables nBuf tb) → BufTy
  | .hbm, ⟨0, _⟩ => ⟨S1x256x256, .f32⟩
  | .hbm, ⟨1, _⟩ => ⟨S256x256, .f32⟩
  | .local _ .vmem, ⟨0, _⟩ => ⟨S1x256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | _, _ => ⟨S1x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  { ofTc nBuf bufTy 1 34 bufScoped semScoped dmaSemScoped tileCredit tileCredit_eq_zero tileCredit_pos with
    barrierSem := RefSig.barrierTable [(0, 0)]
    barrierSem_unscoped := RefSig.barrierTable_unscoped [(0, 0)] semScoped rfl }

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_2 : BitVec 32 := 1#32
  let v6 : BitVec 32 := Scalar.muli v3 c1_i32_2
  let v7 : BitVec 32 := Scalar.addi c0_i32 v6
  v7.toNat
def k0_dev2 (d0 : Dev nD) : Nat :=
  let c0_i32_5 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_4 : BitVec 32 := 1#32
  let v8 : BitVec 32 := Scalar.muli v4 c1_i32_4
  let v9 : BitVec 32 := Scalar.addi c0_i32_5 v8
  v9.toNat
def k0_dev3 (d0 : Dev nD) : Nat :=
  let c0_i32_10 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_9 : BitVec 32 := 1#32
  let v10 : BitVec 32 := Scalar.muli v3 c1_i32_9
  let v11 : BitVec 32 := Scalar.addi c0_i32_10 v10
  v11.toNat
def k0_dev4 (d0 : Dev nD) : Nat :=
  let c0_i32_19 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_18 : BitVec 32 := 1#32
  let v19 : BitVec 32 := Scalar.muli v4 c1_i32_18
  let v20 : BitVec 32 := Scalar.addi c0_i32_19 v19
  v20.toNat
def k0_dev5 (d0 : Dev nD) : Nat :=
  let c0_i32_27 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_26 : BitVec 32 := 1#32
  let v28 : BitVec 32 := Scalar.muli v3 c1_i32_26
  let v29 : BitVec 32 := Scalar.addi c0_i32_27 v28
  v29.toNat
def k0_dev6 (d0 : Dev nD) : Nat :=
  let c0_i32_35 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_34 : BitVec 32 := 1#32
  let v37 : BitVec 32 := Scalar.muli v4 c1_i32_34
  let v38 : BitVec 32 := Scalar.addi c0_i32_35 v37
  v38.toNat
def k0_dev7 (d0 : Dev nD) : Nat :=
  let c0_i32_43 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_42 : BitVec 32 := 1#32
  let v46 : BitVec 32 := Scalar.muli v3 c1_i32_42
  let v47 : BitVec 32 := Scalar.addi c0_i32_43 v46
  v47.toNat
def k0_dev8 (d0 : Dev nD) : Nat :=
  let c0_i32_50 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_49 : BitVec 32 := 1#32
  let v55 : BitVec 32 := Scalar.muli v4 c1_i32_49
  let v56 : BitVec 32 := Scalar.addi c0_i32_50 v55
  v56.toNat
def k0_dev9 (d0 : Dev nD) : Nat :=
  let c0_i32_57 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_56 : BitVec 32 := 1#32
  let v64 : BitVec 32 := Scalar.muli v3 c1_i32_56
  let v65 : BitVec 32 := Scalar.addi c0_i32_57 v64
  v65.toNat
def k0_dev10 (d0 : Dev nD) : Nat :=
  let c0_i32_64 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_63 : BitVec 32 := 1#32
  let v73 : BitVec 32 := Scalar.muli v4 c1_i32_63
  let v74 : BitVec 32 := Scalar.addi c0_i32_64 v73
  v74.toNat
def k0_dev11 (d0 : Dev nD) : Nat :=
  let c0_i32_86 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_85 : BitVec 32 := 1#32
  let v94 : BitVec 32 := Scalar.muli v4 c1_i32_85
  let v95 : BitVec 32 := Scalar.addi c0_i32_86 v94
  v95.toNat
def k0_dev12 (d0 : Dev nD) : Nat :=
  let c0_i32_109 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_108 : BitVec 32 := 1#32
  let v114 : BitVec 32 := Scalar.muli v3 c1_i32_108
  let v115 : BitVec 32 := Scalar.addi c0_i32_109 v114
  v115.toNat
def k0_dev13 (d0 : Dev nD) : Nat :=
  let c0_i32_132 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_131 : BitVec 32 := 1#32
  let v134 : BitVec 32 := Scalar.muli v4 c1_i32_131
  let v135 : BitVec 32 := Scalar.addi c0_i32_132 v134
  v135.toNat
def k0_dev14 (d0 : Dev nD) : Nat :=
  let c0_i32_155 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_154 : BitVec 32 := 1#32
  let v154 : BitVec 32 := Scalar.muli v3 c1_i32_154
  let v155 : BitVec 32 := Scalar.addi c0_i32_155 v154
  v155.toNat
def k0_dev15 (d0 : Dev nD) : Nat :=
  let c0_i32_178 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_177 : BitVec 32 := 1#32
  let v174 : BitVec 32 := Scalar.muli v4 c1_i32_177
  let v175 : BitVec 32 := Scalar.addi c0_i32_178 v174
  v175.toNat
def k0_dev16 (d0 : Dev nD) : Nat :=
  let c0_i32_201 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_200 : BitVec 32 := 1#32
  let v194 : BitVec 32 := Scalar.muli v3 c1_i32_200
  let v195 : BitVec 32 := Scalar.addi c0_i32_201 v194
  v195.toNat
def k0_dev17 (d0 : Dev nD) : Nat :=
  let c0_i32_224 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_223 : BitVec 32 := 1#32
  let v214 : BitVec 32 := Scalar.muli v4 c1_i32_223
  let v215 : BitVec 32 := Scalar.addi c0_i32_224 v214
  v215.toNat
def k0_dev18 (d0 : Dev nD) : Nat :=
  let c0_i32_247 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_246 : BitVec 32 := 1#32
  let v234 : BitVec 32 := Scalar.muli v3 c1_i32_246
  let v235 : BitVec 32 := Scalar.addi c0_i32_247 v234
  v235.toNat
abbrev stage0_0 : Fin 1 → Memref sig .tc .vmem S1x256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  hamt_2 : (2#32 : BitVec 32).msb = false
  inb_S8_S1_0 : ∀ a, (![0] : Fin 1 → Nat) a + S1.size a ≤ S8.size a
  squeezes_S1_S_ : S1.Squeezes S_
  inb_S256x256_S32x256_0_0 : ∀ a, (![0, 0] : Fin 2 → Nat) a + S32x256.size a ≤ S256x256.size a
  inb_S1x256x256_S1x32x256_0_0_0 : ∀ a, (![0, 0, 0] : Fin 3 → Nat) a + S1x32x256.size a ≤ S1x256x256.size a
  squeezes_S1x32x256_S32x256 : S1x32x256.Squeezes S32x256
  inb_S8_S1_1 : ∀ a, (![1] : Fin 1 → Nat) a + S1.size a ≤ S8.size a
  inb_S256x256_S32x256_128_0 : ∀ a, (![128, 0] : Fin 2 → Nat) a + S32x256.size a ≤ S256x256.size a
  inb_S1x256x256_S1x32x256_0_128_0 : ∀ a, (![0, 128, 0] : Fin 3 → Nat) a + S1x32x256.size a ≤ S1x256x256.size a
  inb_S8_S1_2 : ∀ a, (![2] : Fin 1 → Nat) a + S1.size a ≤ S8.size a
  inb_S256x256_S32x256_32_0 : ∀ a, (![32, 0] : Fin 2 → Nat) a + S32x256.size a ≤ S256x256.size a
  inb_S1x256x256_S1x32x256_0_32_0 : ∀ a, (![0, 32, 0] : Fin 3 → Nat) a + S1x32x256.size a ≤ S1x256x256.size a
  inb_S8_S1_3 : ∀ a, (![3] : Fin 1 → Nat) a + S1.size a ≤ S8.size a
  inb_S256x256_S32x256_160_0 : ∀ a, (![160, 0] : Fin 2 → Nat) a + S32x256.size a ≤ S256x256.size a
  inb_S1x256x256_S1x32x256_0_160_0 : ∀ a, (![0, 160, 0] : Fin 3 → Nat) a + S1x32x256.size a ≤ S1x256x256.size a
  inb_S8_S1_4 : ∀ a, (![4] : Fin 1 → Nat) a + S1.size a ≤ S8.size a
  inb_S256x256_S32x256_64_0 : ∀ a, (![64, 0] : Fin 2 → Nat) a + S32x256.size a ≤ S256x256.size a
  inb_S1x256x256_S1x32x256_0_64_0 : ∀ a, (![0, 64, 0] : Fin 3 → Nat) a + S1x32x256.size a ≤ S1x256x256.size a
  inb_S8_S1_5 : ∀ a, (![5] : Fin 1 → Nat) a + S1.size a ≤ S8.size a
  inb_S256x256_S32x256_192_0 : ∀ a, (![192, 0] : Fin 2 → Nat) a + S32x256.size a ≤ S256x256.size a
  inb_S1x256x256_S1x32x256_0_192_0 : ∀ a, (![0, 192, 0] : Fin 3 → Nat) a + S1x32x256.size a ≤ S1x256x256.size a
  inb_S8_S1_6 : ∀ a, (![6] : Fin 1 → Nat) a + S1.size a ≤ S8.size a
  inb_S256x256_S32x256_96_0 : ∀ a, (![96, 0] : Fin 2 → Nat) a + S32x256.size a ≤ S256x256.size a
  inb_S1x256x256_S1x32x256_0_96_0 : ∀ a, (![0, 96, 0] : Fin 3 → Nat) a + S1x32x256.size a ≤ S1x256x256.size a
  inb_S8_S1_7 : ∀ a, (![7] : Fin 1 → Nat) a + S1.size a ≤ S8.size a
  inb_S256x256_S32x256_224_0 : ∀ a, (![224, 0] : Fin 2 → Nat) a + S32x256.size a ≤ S256x256.size a
  inb_S1x256x256_S1x32x256_0_224_0 : ∀ a, (![0, 224, 0] : Fin 3 → Nat) a + S1x32x256.size a ≤ S1x256x256.size a
  h_S1x32x256 : 0 < S1x32x256.numel
  shapeCasts_S1x32x256_S32x256 : S1x32x256.ShapeCasts S32x256
  h_S32x256 : 0 < S32x256.numel
  shapeCasts_S32x256_S32x256 : S32x256.ShapeCasts S32x256
  hcc0_scratch2 : 2 + S8.numel ≤ 34
  hcc0_scratch3 : 10 + S8.numel ≤ 34
  hcc0_scratch4 : 18 + S8.numel ≤ 34
  hcc0_scratch5 : 26 + S8.numel ≤ 34
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_dev16_lt : ∀ d0 : Dev nD, (k0_dev16 d0) < nD
  k0_dev17_lt : ∀ d0 : Dev nD, (k0_dev17 d0) < nD
  k0_dev18_lt : ∀ d0 : Dev nD, (k0_dev18 d0) < nD
  hstage0_0 : ∀ j, (stage0_0 j).IsWhole
  hstage0_1 : ∀ j, (stage0_1 j).IsWhole

variable [Facts₀]

abbrev cc0_scratch2 : DmaSems sig S8 := SemArray.consecutive 2 S8 hcc0_scratch2
abbrev cc0_scratch3 : DmaSems sig S8 := SemArray.consecutive 10 S8 hcc0_scratch3
abbrev cc0_scratch4 : DmaSems sig S8 := SemArray.consecutive 18 S8 hcc0_scratch4
abbrev cc0_scratch5 : DmaSems sig S8 := SemArray.consecutive 26 S8 hcc0_scratch5

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4x256x256 : Shape := ⟨3, ![4, 256, 256]⟩
abbrev S_ : Shape := ⟨0, ![]⟩
abbrev S256x256 : Shape := ⟨2, ![256, 256]⟩

abbrev nBuf : Space → Nat
  | .hbm => 3
  | .vmem => 0
  | .smem => 0
  | _ => 0

abbrev bufTy : (tb : Table) → Fin (tcTables nBuf tb) → BufTy
  | .hbm, ⟨0, _⟩ => ⟨S4x256x256, .f32⟩
  | .hbm, ⟨1, _⟩ => ⟨S_, .f32⟩
  | .hbm, ⟨2, _⟩ => ⟨S256x256, .f32⟩
  | _, _ => ⟨S4x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  reducesTo_S4x256x256_S256x256_d0 : S4x256x256.ReducesTo [0] S256x256
  h_S_ : 0 < S_.numel

variable [Facts₀]

class Facts : Prop extends Facts₀ where

variable [Facts]
-- ==== Proof.Proto.lean ====
/-
  The four-device tree reduction: the vocabulary of its protocol.

  Device c has two partners, p1 c = c xor 1 and p2 c = 3 - c (both involutions of the mesh). The 256 rows are cut into
  eight chunks of 32 rows; chunk j starts at row (j mod 2) * 128 + (j div 2) * 32. In the first exchange chunk j goes to
  p1 c when j is even and to p2 c when j is odd; in the second exchange the partners are swapped. Every exchange of a
  chunk has a send semaphore on the sender and a receive semaphore on the receiver.
-/
import proofs.«900329_g7700000000000330_dist_treered_v7x_i4_m256_n256_f32_1_alg».proof.Proof.Gen.KernelIdeal
import proofs.«900329_g7700000000000330_dist_treered_v7x_i4_m256_n256_f32_1_alg».proof.Proof.Gen.KernelIdeal.Skeleton
import proofs.«900329_g7700000000000330_dist_treered_v7x_i4_m256_n256_f32_1_alg».proof.Proof.Gen.KernelIdeal.Launch
import proofs.«900329_g7700000000000330_dist_treered_v7x_i4_m256_n256_f32_1_alg».proof.Proof.Gen.KernelIdeal.Points
import proofs.«900329_g7700000000000330_dist_treered_v7x_i4_m256_n256_f32_1_alg».proof.Proof.Gen.KernelIdeal.Frame
import Idealize.ShloMosaic.Lib.Pipeline.Launch
import Idealize.ShloMosaic.Lib.Pipeline.Kit
import Idealize.ShloMosaic.Lib.Tactic

noncomputable section

namespace Cert.KernelIdeal.Tree

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The algebra: the pipeline library's own, beside the protocol's rounds (a barrier cell has two duties) -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Partners -/

/-- The partner across the low bit, as the kernel computes it. -/
def p1 (c : Dev nD) : Dev nD := ⟨k0_dev1 c, Facts₀.k0_dev1_lt c⟩
/-- The mirror partner, as the kernel computes it. -/
def p2 (c : Dev nD) : Dev nD := ⟨k0_dev2 c, Facts₀.k0_dev2_lt c⟩

theorem p1_p1 (c : Dev nD) : p1 (p1 c) = c := by revert c; decide +kernel
theorem p2_p2 (c : Dev nD) : p2 (p2 c) = c := by revert c; decide +kernel
theorem p1_ne_p2 (c : Dev nD) : p1 c ≠ p2 c := by revert c; decide +kernel
theorem p1_ne (c : Dev nD) : p1 c ≠ c := by revert c; decide +kernel
theorem p2_ne (c : Dev nD) : p2 c ≠ c := by revert c; decide +kernel

/-- The first row of chunk j. -/
abbrev row : Fin 8 → ℕ := ![0, 128, 32, 160, 64, 192, 96, 224]

theorem inb1 : ∀ (j : Fin 8) a, (![j.val] : Fin 1 → Nat) a + S1.size a ≤ S8.size a := by decide
theorem inb2 : ∀ (j : Fin 8) a, (![row j, 0] : Fin 2 → Nat) a + S32x256.size a ≤ S256x256.size a := by decide
theorem inb3 : ∀ (j : Fin 8) a, (![0, row j, 0] : Fin 3 → Nat) a + S1x32x256.size a ≤ S1x256x256.size a := by decide

/-- Chunk j of a 256 x 256 buffer, and of the staged input block. -/
abbrev rect2 (j : Fin 8) : Rect S256x256 := Rect.unit (s := S256x256) ![row j, 0] S32x256.size (inb2 j)
abbrev rect3 (j : Fin 8) : Rect S1x256x256 := Rect.unit (s := S1x256x256) ![0, row j, 0] S1x32x256.size (inb3 j)

abbrev xM : Memref sig .tc .vmem S1x256x256 .f32 := Memref.whole cc0_stg0_0
abbrev oM : Memref sig .tc .vmem S256x256 .f32 := Memref.whole cc0_stg1_0
abbrev aM : Memref sig .tc .vmem S256x256 .f32 := Memref.whole cc0_scratch0
abbrev bM : Memref sig .tc .vmem S256x256 .f32 := Memref.whole cc0_scratch1

/-- Chunk j as the transfers name it: of the staged input (its leading unit axis dropped), of the result's staging
    buffer, of the two landing buffers. -/
abbrev xS (j : Fin 8) : Memref sig .tc .vmem S32x256 .f32 := (xM.slice (rect3 j) (fun _ => rfl)).squeeze S32x256 Facts₀.squeezes_S1x32x256_S32x256
abbrev oS (j : Fin 8) : Memref sig .tc .vmem S32x256 .f32 := oM.slice (rect2 j) (fun _ => rfl)
abbrev aS (j : Fin 8) : Memref sig .tc .vmem S32x256 .f32 := aM.slice (rect2 j) (fun _ => rfl)
abbrev bS (j : Fin 8) : Memref sig .tc .vmem S32x256 .f32 := bM.slice (rect2 j) (fun _ => rfl)

/-- Semaphore j of one of the kernel's four arrays of eight. -/
abbrev semAt (A : DmaSems sig S8) (j : Fin 8) : DmaSem sig :=
  ((A.slice (Rect.unit (s := S8) ![j.val] S1.size (inb1 j))).squeeze S_ Facts₀.squeezes_S1_S_).sem

abbrev barS : Sem sig := (SemArray.scalar (sig.barrier 0 rfl) : Sems sig S_).sem

/-! ## Cells -/

/-- The kernel's four semaphore arrays: first exchange send / receive, second exchange send / receive. -/
abbrev arr : Fin 4 → DmaSems sig S8 := ![cc0_scratch2, cc0_scratch3, cc0_scratch4, cc0_scratch5]

abbrev barCell (c : Dev nD) : GSem nD τ sig := ((c : Thread nD τ), .reg barS)
/-- Cell j of array k on device c. -/
abbrev dcell (k : Fin 4) (c : Dev nD) (j : Fin 8) : GSem nD τ sig := ((c : Thread nD τ), .dma (semAt (arr k) j))

/-- Which array and which chunk a DMA semaphore of the pool is, if it is one of the kernel's 32. -/
def kind (s : DmaSem sig) : Option (Fin 4 × Fin 8) :=
  if h : 2 ≤ s.val then some (⟨(s.val - 2) / 8, by have : s.val < 34 := s.isLt; omega⟩, ⟨(s.val - 2) % 8, Nat.mod_lt _ (by decide)⟩) else none

theorem kind_semAt : ∀ (k : Fin 4) (j : Fin 8), kind (semAt (arr k) j) = some (k, j) := by decide
theorem semAt_inj : ∀ (k k' : Fin 4) (j j' : Fin 8), semAt (arr k) j = semAt (arr k') j' → k = k' ∧ j = j' := by decide

/-- A chunk's transfer credit. -/
abbrev N : ℕ := 1024
theorem N_pos : 0 < N := by decide
theorem credit_aS : ∀ j : Fin 8, (aS j : Memref sig .tc .vmem S32x256 .f32).view.dmaCredit = N := by decide

/-! ## Who exchanges chunk j with whom -/

/-- First exchange of chunk j: with p1 for an even chunk, with p2 for an odd one; the second exchange the other way. -/
def peer1 (c : Dev nD) (j : Fin 8) : Dev nD := if j.val % 2 = 0 then p1 c else p2 c
def peer2 (c : Dev nD) (j : Fin 8) : Dev nD := if j.val % 2 = 0 then p2 c else p1 c

theorem peer1_peer1 (c : Dev nD) (j : Fin 8) : peer1 (peer1 c j) j = c := by unfold peer1; split <;> simp [*, p1_p1, p2_p2]
theorem peer2_peer2 (c : Dev nD) (j : Fin 8) : peer2 (peer2 c j) j = c := by unfold peer2; split <;> simp [*, p1_p1, p2_p2]

/-! ## Contents -/

variable (m : (ℓ : Loc nD τ sig) → Buf (Elt F) ℓ)

/-- Device c's staged input: its block of the argument array as launched. -/
def X (c : Dev nD) : (cc0_stg0_0 : Ref sig .tc).ty.Contents (Elt F) :=
  (win0_0.blk (0 : Fin 1)).view.read (Elt F) (m ((c : Thread nD τ).loc main_arg0))

/-- Chunk j of device c's input plus chunk j of its first partner's: what the first store leaves in chunk j of the result. -/
def V1 (c : Dev nD) (j : Fin 8) : FVec F S32x256 .f32 :=
  addf (shapeCast S32x256 ((xM : Memref sig .tc .vmem S1x256x256 .f32).view.readAt (Elt F) (rect3 j).toLoadRect (X m c)) Facts₀.shapeCasts_S1x32x256_S32x256)
    ((xS j : Memref sig .tc .vmem S32x256 .f32).view.read (Elt F) (X m (peer1 c j)))

/-- Chunk j of the result's staging buffer after the first store, over arbitrary other rows. -/
def O1 (c : Dev nD) (j : Fin 8) : (cc0_stg1_0 : Ref sig .tc).ty.Contents (Elt F) :=
  ((oM : Memref sig .tc .vmem S256x256 .f32).access (rect2 j)).write (Elt F) (View.junk _) (V1 m c j) Finset.univ

/-! ## The payloads -/

/-- A landing chunk over some contents. -/
abbrev slotA (a : Dev nD) (j : Fin 8) : sProp 𝕄 :=
  iprop(∃ f, (aS j : Memref sig .tc .vmem S32x256 .f32).view.loc (a : Thread nD τ) ↦[(aS j : Memref sig .tc .vmem S32x256 .f32).view.set]{fullShare} f)
abbrev slotB (a : Dev nD) (j : Fin 8) : sProp 𝕄 :=
  iprop(∃ f, (bS j : Memref sig .tc .vmem S32x256 .f32).view.loc (a : Thread nD τ) ↦[(bS j : Memref sig .tc .vmem S32x256 .f32).view.set]{fullShare} f)

/-- What device a hands a partner with its entry signal: the landing chunks that partner will be sending into — to p1 a
    (d = false) the even chunks of the first landing buffer and the odd ones of the second, to p2 a the others. -/
def gift (a : Dev nD) (d : Bool) : sProp 𝕄 :=
  if d then iprop(slotB a 0 ∗ slotA a 1 ∗ slotB a 2 ∗ slotA a 3 ∗ slotB a 4 ∗ slotA a 5 ∗ slotB a 6 ∗ slotA a 7)
  else iprop(slotA a 0 ∗ slotB a 1 ∗ slotA a 2 ∗ slotB a 3 ∗ slotA a 4 ∗ slotB a 5 ∗ slotA a 6 ∗ slotB a 7)

/-- What a DMA cell's one duty hands its owner c: a send cell, the lent source chunk back; a receive cell, the landing
    chunk holding the sender's chunk. -/
def dmaPay (k : Fin 4) (c : Dev nD) (j : Fin 8) : sProp 𝕄 :=
  match k with
  | 0 => iprop((xS j : Memref sig .tc .vmem S32x256 .f32).view.loc (c : Thread nD τ) ↦[(xS j : Memref sig .tc .vmem S32x256 .f32).view.set]{fullShare.right} X m c)
  | 1 => iprop(∃ fd, (aS j : Memref sig .tc .vmem S32x256 .f32).view.loc (c : Thread nD τ) ↦[(aS j : Memref sig .tc .vmem S32x256 .f32).view.set]{fullShare}
            ((aS j : Memref sig .tc .vmem S32x256 .f32).view.write (Elt F) fd ((xS j : Memref sig .tc .vmem S32x256 .f32).view.read (Elt F) (X m (peer1 c j))) Finset.univ))
  | 2 => iprop((oS j : Memref sig .tc .vmem S32x256 .f32).view.loc (c : Thread nD τ) ↦[(oS j : Memref sig .tc .vmem S32x256 .f32).view.set]{fullShare} O1 m c j)
  | 3 => iprop(∃ fd, (bS j : Memref sig .tc .vmem S32x256 .f32).view.loc (c : Thread nD τ) ↦[(bS j : Memref sig .tc .vmem S32x256 .f32).view.set]{fullShare}
            ((bS j : Memref sig .tc .vmem S32x256 .f32).view.write (Elt F) fd ((oS j : Memref sig .tc .vmem S32x256 .f32).view.read (Elt F) (O1 m (peer2 c j) j)) Finset.univ))

/-! ## The schedule: one round; a barrier cell's two unit duties (false from p1, true from p2), a DMA cell's one -/

def sched : Rounds.Schedule (GSem nD τ sig) Bool 𝕄 where
  duties g r :=
    if r = 0 ∧ g.1.2 = .tc then
      match g.2 with
      | .reg s => if s = barS then {false, true} else ∅
      | .dma s => if (kind s).isSome then {false} else ∅
    else ∅
  unitless _ := False
  amount g _ _ := match g.2 with | .reg _ => 1 | .dma _ => N
  payload g _ d :=
    match g.2 with
    | .reg s => if s = barS then gift (if d then p2 g.1.1 else p1 g.1.1) d else iprop(emp)
    | .dma s => match kind s with | some (k, j) => dmaPay m k g.1.1 j | none => iprop(emp)
  amount_pos g _ _ _ := by
    rcases g with ⟨t, s | s⟩
    · exact Nat.one_pos
    · exact N_pos

theorem duties_bar (c : Dev nD) : (sched (F := F) m).duties (barCell c) 0 = {false, true} := by
  dsimp only [sched]; rw [if_pos ⟨rfl, rfl⟩, if_pos rfl]
theorem duties_dma (k : Fin 4) (c : Dev nD) (j : Fin 8) : (sched (F := F) m).duties (dcell k c j) 0 = {false} := by
  dsimp only [sched]; rw [if_pos ⟨rfl, rfl⟩, kind_semAt]; rfl
theorem duties_later (g : GSem nD τ sig) : ∀ r, 1 ≤ r → (sched (F := F) m).duties g r = ∅ :=
  fun r hr => by dsimp only [sched]; rw [if_neg fun h => by omega]
theorem amount_bar (c : Dev nD) (d : Bool) : (sched (F := F) m).amount (barCell c) 0 d = 1 := rfl
theorem amount_dma (k : Fin 4) (c : Dev nD) (j : Fin 8) (d : Bool) : (sched (F := F) m).amount (dcell k c j) 0 d = N := rfl
theorem payload_bar (c : Dev nD) (d : Bool) : (sched (F := F) m).payload (barCell c) 0 d = gift (if d then p2 c else p1 c) d := by
  dsimp only [sched]; rw [if_pos rfl]
theorem payload_dma (k : Fin 4) (c : Dev nD) (j : Fin 8) (d : Bool) : (sched (F := F) m).payload (dcell k c j) 0 d = dmaPay m k c j := by
  dsimp only [sched]; rw [kind_semAt]
theorem expect_bar (c : Dev nD) : (sched (F := F) m).expect (barCell c) 0 = 2 := by
  unfold Schedule.expect Schedule.amountOf
  rw [duties_bar, Finset.sum_pair (by decide), amount_bar, amount_bar]
theorem expect_dma (k : Fin 4) (c : Dev nD) (j : Fin 8) : (sched (F := F) m).expect (dcell k c j) 0 = N := by
  unfold Schedule.expect Schedule.amountOf; rw [duties_dma, Finset.sum_singleton, amount_dma]

theorem gift_false (a : Dev nD) : (gift a false : sProp 𝕄) = iprop(slotA a 0 ∗ slotB a 1 ∗ slotA a 2 ∗ slotB a 3 ∗ slotA a 4 ∗ slotB a 5 ∗ slotA a 6 ∗ slotB a 7) := rfl
theorem gift_true (a : Dev nD) : (gift a true : sProp 𝕄) = iprop(slotB a 0 ∗ slotA a 1 ∗ slotB a 2 ∗ slotA a 3 ∗ slotB a 4 ∗ slotA a 5 ∗ slotB a 6 ∗ slotA a 7) := rfl
theorem ite_true_p (c : Dev nD) : (if true = true then p2 c else p1 c) = p2 c := rfl
theorem ite_false_p (c : Dev nD) : (if false = true then p2 c else p1 c) = p1 c := rfl

theorem slotA_eq (a : Dev nD) (j : Fin 8) : (slotA a j : sProp 𝕄) =
  iprop(∃ f, (aS j : Memref sig .tc .vmem S32x256 .f32).view.loc (a : Thread nD τ) ↦[(aS j : Memref sig .tc .vmem S32x256 .f32).view.set]{fullShare} f) := rfl
theorem slotB_eq (a : Dev nD) (j : Fin 8) : (slotB a j : sProp 𝕄) =
  iprop(∃ f, (bS j : Memref sig .tc .vmem S32x256 .f32).view.loc (a : Thread nD τ) ↦[(bS j : Memref sig .tc .vmem S32x256 .f32).view.set]{fullShare} f) := rfl

theorem dmaPay_0 (c : Dev nD) (j : Fin 8) : dmaPay m 0 c j =
  iprop((xS j : (Memref sig .tc .vmem S32x256 .f32)).view.loc (c : Thread nD τ) ↦[(xS j : (Memref sig .tc .vmem S32x256 .f32)).view.set]{fullShare.right} X m c) := rfl
theorem dmaPay_1 (c : Dev nD) (j : Fin 8) : dmaPay m 1 c j =
  iprop(∃ fd, (aS j : (Memref sig .tc .vmem S32x256 .f32)).view.loc (c : Thread nD τ) ↦[(aS j : (Memref sig .tc .vmem S32x256 .f32)).view.set]{fullShare}
    ((aS j : (Memref sig .tc .vmem S32x256 .f32)).view.write (Elt F) fd ((xS j : (Memref sig .tc .vmem S32x256 .f32)).view.read (Elt F) (X m (peer1 c j))) Finset.univ)) := rfl
theorem dmaPay_2 (c : Dev nD) (j : Fin 8) : dmaPay m 2 c j =
  iprop((oS j : (Memref sig .tc .vmem S32x256 .f32)).view.loc (c : Thread nD τ) ↦[(oS j : (Memref sig .tc .vmem S32x256 .f32)).view.set]{fullShare} O1 m c j) := rfl
theorem dmaPay_3 (c : Dev nD) (j : Fin 8) : dmaPay m 3 c j =
  iprop(∃ fd, (bS j : (Memref sig .tc .vmem S32x256 .f32)).view.loc (c : Thread nD τ) ↦[(bS j : (Memref sig .tc .vmem S32x256 .f32)).view.set]{fullShare}
    ((bS j : (Memref sig .tc .vmem S32x256 .f32)).view.write (Elt F) fd ((oS j : (Memref sig .tc .vmem S32x256 .f32)).view.read (Elt F) (O1 m (peer2 c j) j)) Finset.univ)) := rfl
theorem peer1_0 (a : Dev nD) : peer1 a 0 = p1 a := rfl
theorem peer1_1 (a : Dev nD) : peer1 a 1 = p2 a := rfl
theorem peer1_2 (a : Dev nD) : peer1 a 2 = p1 a := rfl
theorem peer1_3 (a : Dev nD) : peer1 a 3 = p2 a := rfl
theorem peer1_4 (a : Dev nD) : peer1 a 4 = p1 a := rfl
theorem peer1_5 (a : Dev nD) : peer1 a 5 = p2 a := rfl
theorem peer1_6 (a : Dev nD) : peer1 a 6 = p1 a := rfl
theorem peer1_7 (a : Dev nD) : peer1 a 7 = p2 a := rfl
theorem peer2_0 (a : Dev nD) : peer2 a 0 = p2 a := rfl
theorem peer2_1 (a : Dev nD) : peer2 a 1 = p1 a := rfl
theorem peer2_2 (a : Dev nD) : peer2 a 2 = p2 a := rfl
theorem peer2_3 (a : Dev nD) : peer2 a 3 = p1 a := rfl
theorem peer2_4 (a : Dev nD) : peer2 a 4 = p2 a := rfl
theorem peer2_5 (a : Dev nD) : peer2 a 5 = p1 a := rfl
theorem peer2_6 (a : Dev nD) : peer2 a 6 = p2 a := rfl
theorem peer2_7 (a : Dev nD) : peer2 a 7 = p1 a := rfl

/-! ## Levels and what a device owes -/
def Lset (g : GSem nD τ sig) : Finset Unit := if g.1.2 = .tc then {()} else ∅
/-- barrier cells at 1, first-exchange receive cells at 2, second-exchange receive cells at 3, everything else at 0. -/
def lv (g : GSem nD τ sig) (_ : Unit) : ℕ :=
  match g.2 with
  | .reg s => if s = barS then 1 else 0
  | .dma s => match kind s with | some (1, _) => 2 | some (3, _) => 3 | _ => 0

def O₀ (c : Dev nD) : CellTallies nD τ sig Unit := tallyAt (dcell 3 (p1 c) 7) () 1024 + tallyAt (dcell 3 (p2 c) 6) () 1024 + tallyAt (dcell 3 (p1 c) 5) () 1024 + tallyAt (dcell 3 (p2 c) 4) () 1024 + tallyAt (dcell 3 (p1 c) 3) () 1024 + tallyAt (dcell 3 (p2 c) 2) () 1024 + tallyAt (dcell 3 (p1 c) 1) () 1024 + tallyAt (dcell 3 (p2 c) 0) () 1024 + tallyAt (dcell 1 (p2 c) 7) () 1024 + tallyAt (dcell 1 (p1 c) 6) () 1024 + tallyAt (dcell 1 (p2 c) 5) () 1024 + tallyAt (dcell 1 (p1 c) 4) () 1024 + tallyAt (dcell 1 (p2 c) 3) () 1024 + tallyAt (dcell 1 (p1 c) 2) () 1024 + tallyAt (dcell 1 (p2 c) 1) () 1024 + tallyAt (dcell 1 (p1 c) 0) () 1024 + tallyAt (barCell (p2 c)) () 1 + tallyAt (barCell (p1 c)) () 1

abbrev 𝒱₀ : Variants := Variants.none

theorem dev_p1 (c : Dev nD) : ∀ h, (⟨k0_dev1 c, h⟩ : Dev nD) = p1 c := fun _ => rfl
theorem dev_p2 (c : Dev nD) : ∀ h, (⟨k0_dev2 c, h⟩ : Dev nD) = p2 c := fun _ => rfl
theorem dev3_eq (c : Dev nD) : (⟨k0_dev3 c, Facts₀.k0_dev3_lt c⟩ : Dev nD) = p1 c := by revert c; decide +kernel
theorem dev5_eq (c : Dev nD) : (⟨k0_dev5 c, Facts₀.k0_dev5_lt c⟩ : Dev nD) = p1 c := by revert c; decide +kernel
theorem dev7_eq (c : Dev nD) : (⟨k0_dev7 c, Facts₀.k0_dev7_lt c⟩ : Dev nD) = p1 c := by revert c; decide +kernel
theorem dev9_eq (c : Dev nD) : (⟨k0_dev9 c, Facts₀.k0_dev9_lt c⟩ : Dev nD) = p1 c := by revert c; decide +kernel
theorem dev12_eq (c : Dev nD) : (⟨k0_dev12 c, Facts₀.k0_dev12_lt c⟩ : Dev nD) = p1 c := by revert c; decide +kernel
theorem dev14_eq (c : Dev nD) : (⟨k0_dev14 c, Facts₀.k0_dev14_lt c⟩ : Dev nD) = p1 c := by revert c; decide +kernel
theorem dev16_eq (c : Dev nD) : (⟨k0_dev16 c, Facts₀.k0_dev16_lt c⟩ : Dev nD) = p1 c := by revert c; decide +kernel
theorem dev18_eq (c : Dev nD) : (⟨k0_dev18 c, Facts₀.k0_dev18_lt c⟩ : Dev nD) = p1 c := by revert c; decide +kernel
theorem dev4_eq (c : Dev nD) : (⟨k0_dev4 c, Facts₀.k0_dev4_lt c⟩ : Dev nD) = p2 c := by revert c; decide +kernel
theorem dev6_eq (c : Dev nD) : (⟨k0_dev6 c, Facts₀.k0_dev6_lt c⟩ : Dev nD) = p2 c := by revert c; decide +kernel
theorem dev8_eq (c : Dev nD) : (⟨k0_dev8 c, Facts₀.k0_dev8_lt c⟩ : Dev nD) = p2 c := by revert c; decide +kernel
theorem dev10_eq (c : Dev nD) : (⟨k0_dev10 c, Facts₀.k0_dev10_lt c⟩ : Dev nD) = p2 c := by revert c; decide +kernel
theorem dev11_eq (c : Dev nD) : (⟨k0_dev11 c, Facts₀.k0_dev11_lt c⟩ : Dev nD) = p2 c := by revert c; decide +kernel
theorem dev13_eq (c : Dev nD) : (⟨k0_dev13 c, Facts₀.k0_dev13_lt c⟩ : Dev nD) = p2 c := by revert c; decide +kernel
theorem dev15_eq (c : Dev nD) : (⟨k0_dev15 c, Facts₀.k0_dev15_lt c⟩ : Dev nD) = p2 c := by revert c; decide +kernel
theorem dev17_eq (c : Dev nD) : (⟨k0_dev17 c, Facts₀.k0_dev17_lt c⟩ : Dev nD) = p2 c := by revert c; decide +kernel

/-! ## Levels: everything a device still owes lies strictly above the cell it waits on -/

def Above (k : ℕ) (O : CellTallies nD τ sig Unit) : Prop := ∀ g u, 0 < O g u → u ∈ Lset g ∧ k < lv g u
theorem above_add {k : ℕ} {O₁ O₂ : CellTallies nD τ sig Unit} (h₁ : Above k O₁) (h₂ : Above k O₂) : Above k (O₁ + O₂) :=
  fun g u h => (Pipeline.add_pos_cases h).elim (h₁ g u) (h₂ g u)
theorem above_tally {k : ℕ} (g : GSem nD τ sig) (n : ℕ) (hg : g.1.2 = .tc) (hk : k < lv g ()) : Above k (tallyAt g () n) := fun g' u h => by
  rw [tallyAt_apply] at h
  by_cases e : g' = g ∧ u = ()
  · obtain ⟨rfl, rfl⟩ := e
    exact ⟨by unfold Lset; rw [if_pos hg]; exact Finset.mem_singleton_self _, hk⟩
  · rw [if_neg e] at h; exact absurd h (Nat.lt_irrefl 0)
theorem above_zero {k : ℕ} : Above k (0 : CellTallies nD τ sig Unit) := fun g u h => absurd h (Nat.lt_irrefl 0)
theorem ledger (c : Dev nD) (s : SemLoc sig) (O : CellTallies nD τ sig Unit) (h : Above (lv ((c : Thread nD τ), s) ()) O) :
    (levAts Lset lv : sProp 𝕄) ⊢ MayWait (c : Thread nD τ) s () O :=
  Pipeline.mayWait_of_levAts (by unfold Lset; rw [if_pos rfl]; exact Finset.mem_singleton_self _) h

theorem lv_bar (c : Dev nD) : lv (barCell c) () = 1 := by unfold lv; exact if_pos rfl
theorem lv_dma (k : Fin 4) (c : Dev nD) (j : Fin 8) : lv (dcell k c j) () = (if k = 1 then 2 else if k = 3 then 3 else 0) := by
  unfold lv; dsimp only; rw [kind_semAt]; fin_cases k <;> rfl
theorem lv_stage (c : Dev nD) (q : DmaSem sig) (h : kind q = none) : lv ((c : Thread nD τ), .dma q) () = 0 := by unfold lv; dsimp only; rw [h]

macro "above_one" : tactic => `(tactic| (refine above_tally _ _ rfl ?_; first | (rw [lv_bar, lv_dma]; decide) | (rw [lv_dma, lv_dma]; decide) | (rw [lv_stage _ _ (by decide), lv_dma]; decide) | (rw [lv_stage _ _ (by decide), lv_bar]; decide) | (rw [lv_bar, lv_bar]; decide)))
macro "above_tac" : tactic => `(tactic| (first | exact above_zero | (repeat (refine above_add ?_ (by above_one))); above_one))

macro "dev_tac" : tactic => `(tactic| (first | exact dev3_eq _ | exact dev4_eq _ | exact dev5_eq _ | exact dev6_eq _ | exact dev7_eq _ | exact dev8_eq _ | exact dev9_eq _ | exact dev10_eq _ | exact dev11_eq _ | exact dev12_eq _ | exact dev13_eq _ | exact dev14_eq _ | exact dev15_eq _ | exact dev16_eq _ | exact dev17_eq _ | exact dev18_eq _))
macro "tree_disch" : tactic => `(tactic| (first | above_tac | dev_tac))

omit [FloatOps F] in
theorem sep_respell_wand (A B P : sProp 𝕄) : iprop((A ∗ B) -∗ P) ⊢ iprop((Idealize.SL.BI.sep A B : sProp 𝕄) -∗ P) := Entails.of_eq rfl

/-! ## Writing a whole view's worth of values: what was there before does not matter on the view's elements -/

omit [FloatOps F] in
theorem write_univ_agree {κ : Kind} {sp : Space} {s : Shape} {e : EltTy} (v : View sig κ sp s e) (f f' : v.ty.Contents (Elt F)) (w : s.Idx → Elt F e) :
    ∀ i ∈ v.set, v.write (Elt F) f w Finset.univ i = v.write (Elt F) f' w Finset.univ i := by
  intro i hi
  obtain ⟨y, -, rfl⟩ := Finset.mem_map.mp hi
  rw [View.write_emb_of_mem _ _ (Finset.mem_univ y), View.write_emb_of_mem _ _ (Finset.mem_univ y)]

omit [FloatOps F] in
/-- A chunk read back through the enclosing buffer at the chunk's rectangle is what was written to it. -/
theorem readAt_chunk_write (b : Ref sig .tc) (r : Rect b.ty.shape) (fd : b.ty.Contents (Elt F)) (w : r.shape.Idx → Elt F b.ty.elt) :
    (Memref.whole b : Memref sig .tc _ _ _).view.readAt (Elt F) r.toLoadRect (((Memref.whole b : Memref sig .tc _ _ _).view.slice r).write (Elt F) fd w Finset.univ) = w :=
  View.read_write_univ (v := (Memref.whole b : Memref sig .tc _ _ _).view.slice r) fd w

/-! ## The two exchanges' transfers, by the rounds library's rule for an addressed transfer whose destination the sender holds -/

/-- First exchange of chunk j: the source chunk of the staged input goes out at the right half share (it comes back at the
    send cell's wait); the landing chunk on the partner becomes the receive cell's payload. -/
theorem send1_step (K : GSem nD τ sig → ℕ) (c : Dev nD) (j : Fin 8) (n : Dev nD) (hn : n = peer1 c j)
    {hsc : (aS j : Memref sig (Dev.tc n : Thread nD τ).2.kind .vmem S32x256 .f32).view.ref.isScScratch = false}
    {hsrc : (xS j : (Memref sig .tc .vmem S32x256 .f32)).view.WordExact} {hdst : (aS j : (Memref sig .tc .vmem S32x256 .f32)).view.WordExact}
    {hsem : DmaTarget.Typed .vmem (.dma (semAt (arr 1) j)) (.remote (Dev.tc n : Thread nD τ) (aS j : (Memref sig .tc .vmem S32x256 .f32)) (.dma (semAt (arr 0) j)) hsc)}
    {α : Type} {Q : α → sProp 𝕄} {k : PUnit → Prog (TpuEff nD τ sig (Elt F) Λ₀ .tc) α}
    (fn : Buf (Elt F) ((aS j : (Memref sig .tc .vmem S32x256 .f32)).view.loc (peer1 c j : Thread nD τ))) (O : CellTallies nD τ sig Unit) (W : Waits sig Unit) :
    iprop(cellInv ER (sched m) (K (dcell 0 c j)) (dcell 0 c j) ∗ cellInv ER (sched m) (K (dcell 1 (peer1 c j) j)) (dcell 1 (peer1 c j) j)
        ∗ ((xS j : (Memref sig .tc .vmem S32x256 .f32)).view.loc (c : Thread nD τ) ↦[(xS j : (Memref sig .tc .vmem S32x256 .f32)).view.set]{fullShare.right} X m c)
        ∗ ((aS j : (Memref sig .tc .vmem S32x256 .f32)).view.loc (peer1 c j : Thread nD τ) ↦[(aS j : (Memref sig .tc .vmem S32x256 .f32)).view.set]{fullShare} fn)
        ∗ owes (c : Thread nD τ) (O + tallyAt (dcell 1 (peer1 c j) j) () N) W
        ∗ dutyTok ER (dcell 0 c j) 0 false ∗ reached ER (dcell 0 c j) 0
        ∗ dutyTok ER (dcell 1 (peer1 c j) j) 0 false ∗ reached ER (dcell 1 (peer1 c j) j) 0)
      ⊢ iprop(((cred (tallyAt (dcell 0 c j) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (xS j) (.remote (Dev.tc n : Thread nD τ) (aS j) (.dma (semAt (arr 0) j)) hsc) (.dma (semAt (arr 1) j)) hsrc hdst hsem) k) Q) := by
  subst hn
  exact Rounds.wp_send_pointsTo 𝒱₀ ER (sched m) (c : Thread nD τ) none (κ₁ := K (dcell 0 c j)) (κ₂ := K (dcell 1 (peer1 c j) j))
    (r₁ := 0) (r₂ := 0) (d₁ := false) (d₂ := false) (fd := fn)
    (by rw [duties_dma]; exact Finset.mem_singleton_self _) (by rw [duties_dma]; exact Finset.mem_singleton_self _)
    () () N rfl (amount_dma m 0 c j false) (amount_dma m 1 (peer1 c j) j false) O rfl (W := W)
    (by rw [payload_dma]; exact BI.Entails.refl _)
    (by rw [payload_dma, dmaPay_1, peer1_peer1]; iintro H; iexists fn; iexact H)

/-- Second exchange of chunk j: the chunk of the result's staging buffer, holding the first sum, goes out whole. -/
theorem send2_step (K : GSem nD τ sig → ℕ) (c : Dev nD) (j : Fin 8) (n : Dev nD) (hn : n = peer2 c j)
    {hsc : (bS j : Memref sig (Dev.tc n : Thread nD τ).2.kind .vmem S32x256 .f32).view.ref.isScScratch = false}
    {hsrc : (oS j : (Memref sig .tc .vmem S32x256 .f32)).view.WordExact} {hdst : (bS j : (Memref sig .tc .vmem S32x256 .f32)).view.WordExact}
    {hsem : DmaTarget.Typed .vmem (.dma (semAt (arr 3) j)) (.remote (Dev.tc n : Thread nD τ) (bS j : (Memref sig .tc .vmem S32x256 .f32)) (.dma (semAt (arr 2) j)) hsc)}
    {α : Type} {Q : α → sProp 𝕄} {k : PUnit → Prog (TpuEff nD τ sig (Elt F) Λ₀ .tc) α}
    (fn : Buf (Elt F) ((bS j : (Memref sig .tc .vmem S32x256 .f32)).view.loc (peer2 c j : Thread nD τ))) (O : CellTallies nD τ sig Unit) (W : Waits sig Unit) :
    iprop(cellInv ER (sched m) (K (dcell 2 c j)) (dcell 2 c j) ∗ cellInv ER (sched m) (K (dcell 3 (peer2 c j) j)) (dcell 3 (peer2 c j) j)
        ∗ ((oS j : (Memref sig .tc .vmem S32x256 .f32)).view.loc (c : Thread nD τ) ↦[(oS j : (Memref sig .tc .vmem S32x256 .f32)).view.set]{fullShare} O1 m c j)
        ∗ ((bS j : (Memref sig .tc .vmem S32x256 .f32)).view.loc (peer2 c j : Thread nD τ) ↦[(bS j : (Memref sig .tc .vmem S32x256 .f32)).view.set]{fullShare} fn)
        ∗ owes (c : Thread nD τ) (O + tallyAt (dcell 3 (peer2 c j) j) () N) W
        ∗ dutyTok ER (dcell 2 c j) 0 false ∗ reached ER (dcell 2 c j) 0
        ∗ dutyTok ER (dcell 3 (peer2 c j) j) 0 false ∗ reached ER (dcell 3 (peer2 c j) j) 0)
      ⊢ iprop(((cred (tallyAt (dcell 2 c j) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (oS j) (.remote (Dev.tc n : Thread nD τ) (bS j) (.dma (semAt (arr 2) j)) hsc) (.dma (semAt (arr 3) j)) hsrc hdst hsem) k) Q) := by
  subst hn
  exact Rounds.wp_send_pointsTo 𝒱₀ ER (sched m) (c : Thread nD τ) none (κ₁ := K (dcell 2 c j)) (κ₂ := K (dcell 3 (peer2 c j) j))
    (r₁ := 0) (r₂ := 0) (d₁ := false) (d₂ := false) (fd := fn)
    (by rw [duties_dma]; exact Finset.mem_singleton_self _) (by rw [duties_dma]; exact Finset.mem_singleton_self _)
    () () N rfl (amount_dma m 2 c j false) (amount_dma m 3 (peer2 c j) j false) O rfl (W := W)
    (by rw [payload_dma]; exact BI.Entails.refl _)
    (by rw [payload_dma, dmaPay_3, peer2_peer2]; iintro H; iexists fn; iexact H)

/-! ## The first sum, as the body leaves it, is the canonical contents of the chunk -/

omit [FloatOps F] in
theorem restate_o (c : Dev nD) (j : Fin 8) (T T' : (cc0_stg1_0 : Ref sig .tc).ty.Contents (Elt F))
    (h : ∀ i ∈ (oS j : (Memref sig .tc .vmem S32x256 .f32)).view.set, T i = T' i) :
    ((oS j : (Memref sig .tc .vmem S32x256 .f32)).view.loc (c : Thread nD τ) ↦[(oS j : (Memref sig .tc .vmem S32x256 .f32)).view.set]{fullShare} T : sProp 𝕄)
      ⊢ ((oS j : (Memref sig .tc .vmem S32x256 .f32)).view.loc (c : Thread nD τ) ↦[(oS j : (Memref sig .tc .vmem S32x256 .f32)).view.set]{fullShare} T') :=
  Entails.of_eq (pointsTo_congr h)

/-- What the first store writes into chunk j — the device's own rows plus the rows landed from its first partner, read back
    through the landing buffer — is, on the chunk, the canonical first sum. -/
theorem first_store_eq (c : Dev nD) (j : Fin 8) (fo : (cc0_stg1_0 : Ref sig .tc).ty.Contents (Elt F)) (fd : (cc0_scratch0 : Ref sig .tc).ty.Contents (Elt F)) :
    ∀ i ∈ (oS j : (Memref sig .tc .vmem S32x256 .f32)).view.set,
      ((oM : Memref sig .tc .vmem S256x256 .f32).access (rect2 j)).write (Elt F) fo
        (addf (shapeCast S32x256 ((xM : Memref sig .tc .vmem S1x256x256 .f32).view.readAt (Elt F) (rect3 j).toLoadRect (X m c)) Facts₀.shapeCasts_S1x32x256_S32x256)
          ((aM : Memref sig .tc .vmem S256x256 .f32).view.readAt (Elt F) (rect2 j).toLoadRect
            ((aS j : (Memref sig .tc .vmem S32x256 .f32)).view.write (Elt F) fd ((xS j : (Memref sig .tc .vmem S32x256 .f32)).view.read (Elt F) (X m (peer1 c j))) Finset.univ))) Finset.univ i
      = O1 m c j i := by
  intro i hi
  rw [readAt_chunk_write cc0_scratch0 (rect2 j) fd]
  exact write_univ_agree ((oM : Memref sig .tc .vmem S256x256 .f32).access (rect2 j)) fo _ _ i hi

/-! ## The chunks' element sets: pairwise disjoint, together everything -/

theorem row_sep : ∀ j j' : Fin 8, j ≠ j' → row j + 32 ≤ row j' ∨ row j' + 32 ≤ row j := by decide
/-- Chunk number of a block of 32 rows. -/
abbrev jOf : Fin 8 → Fin 8 := ![0, 2, 4, 6, 1, 3, 5, 7]
theorem row_jOf : ∀ q : Fin 8, row (jOf q) = 32 * q.val := by decide

theorem rect2_disjoint (j j' : Fin 8) (h : j ≠ j') : Disjoint (rect2 j).set (rect2 j').set :=
  Rect.unit_disjoint (0 : Fin 2) (row_sep j j' h)
theorem rect3_disjoint (j j' : Fin 8) (h : j ≠ j') : Disjoint (rect3 j).set (rect3 j').set :=
  Rect.unit_disjoint (1 : Fin 3) (row_sep j j' h)

theorem rect2_cover : (Finset.univ : Finset (Fin 8)).biUnion (fun j => (rect2 j).set) = Finset.univ := by
  ext i
  simp only [Finset.mem_biUnion, Finset.mem_univ, true_and, iff_true]
  have h0 : (i 0 : ℕ) < 256 := (i 0).isLt
  have h1 : (i 1 : ℕ) < 256 := (i 1).isLt
  have hq : (i 0 : ℕ) / 32 < 8 := by omega
  have hr : row (jOf ⟨(i 0 : ℕ) / 32, hq⟩) = 32 * ((i 0 : ℕ) / 32) := row_jOf ⟨(i 0 : ℕ) / 32, hq⟩
  refine ⟨jOf ⟨(i 0 : ℕ) / 32, hq⟩, Rect.mem_set_unit.mpr fun a => ?_⟩
  match a with
  | ⟨0, _⟩ =>
    show row (jOf ⟨(i 0 : ℕ) / 32, hq⟩) ≤ (i 0 : ℕ) ∧ (i 0 : ℕ) < row (jOf ⟨(i 0 : ℕ) / 32, hq⟩) + 32
    rw [hr]; omega
  | ⟨1, _⟩ =>
    show 0 ≤ (i 1 : ℕ) ∧ (i 1 : ℕ) < 0 + 256
    omega
theorem rect3_cover : (Finset.univ : Finset (Fin 8)).biUnion (fun j => (rect3 j).set) = Finset.univ := by
  ext i
  simp only [Finset.mem_biUnion, Finset.mem_univ, true_and, iff_true]
  have h0 : (i 0 : ℕ) < 1 := (i 0).isLt
  have h1 : (i 1 : ℕ) < 256 := (i 1).isLt
  have h2 : (i 2 : ℕ) < 256 := (i 2).isLt
  have hq : (i 1 : ℕ) / 32 < 8 := by omega
  have hr : row (jOf ⟨(i 1 : ℕ) / 32, hq⟩) = 32 * ((i 1 : ℕ) / 32) := row_jOf ⟨(i 1 : ℕ) / 32, hq⟩
  refine ⟨jOf ⟨(i 1 : ℕ) / 32, hq⟩, Rect.mem_set_unit.mpr fun a => ?_⟩
  match a with
  | ⟨0, _⟩ =>
    show 0 ≤ (i 0 : ℕ) ∧ (i 0 : ℕ) < 0 + 1
    omega
  | ⟨1, _⟩ =>
    show row (jOf ⟨(i 1 : ℕ) / 32, hq⟩) ≤ (i 1 : ℕ) ∧ (i 1 : ℕ) < row (jOf ⟨(i 1 : ℕ) / 32, hq⟩) + 32
    rw [hr]; omega
  | ⟨2, _⟩ =>
    show 0 ≤ (i 2 : ℕ) ∧ (i 2 : ℕ) < 0 + 256
    omega

theorem set_oS (j : Fin 8) : (oS j : (Memref sig .tc .vmem S32x256 .f32)).view.set = (rect2 j).set := View.set_slice_whole _ _
theorem set_aS (j : Fin 8) : (aS j : (Memref sig .tc .vmem S32x256 .f32)).view.set = (rect2 j).set := View.set_slice_whole _ _
theorem set_bS (j : Fin 8) : (bS j : (Memref sig .tc .vmem S32x256 .f32)).view.set = (rect2 j).set := View.set_slice_whole _ _
theorem set_xS (j : Fin 8) : (xS j : (Memref sig .tc .vmem S32x256 .f32)).view.set = (rect3 j).set := by
  show ((View.whole cc0_stg0_0).slice (rect3 j) |>.reshape S32x256 _).set = _
  rw [View.set_reshape, View.set_slice_whole]

omit [FloatOps F] in
/-- The whole buffer at one contents is its eight chunks at those contents. -/
theorem o_chunks (c : Dev nD) (q : PosShare TreeShare) (f : (cc0_stg1_0 : Ref sig .tc).ty.Contents (Elt F)) :
    (((((c : Thread nD τ).loc cc0_stg1_0)) ↦{q} f) : sProp 𝕄)
      = bigSep Finset.univ fun j : Fin 8 => ((oS j : (Memref sig .tc .vmem S32x256 .f32)).view.loc (c : Thread nD τ) ↦[(oS j : (Memref sig .tc .vmem S32x256 .f32)).view.set]{q} f) := by
  have e : (((((c : Thread nD τ).loc cc0_stg1_0)) ↦{q} f) : sProp 𝕄)
      = ((((c : Thread nD τ).loc cc0_stg1_0)) ↦[(Finset.univ : Finset (Fin 8)).biUnion (fun j => (rect2 j).set)]{q} f) :=
    congrArg (fun S : Finset S256x256.Idx => (((((c : Thread nD τ).loc cc0_stg1_0)) ↦[S]{q} f) : sProp 𝕄)) rect2_cover.symm
  rw [e, pointsTo_biUnion _ _ (fun j _ j' _ h => rect2_disjoint j j' h)]
  exact bigSep_congr fun j _ => congrArg (fun S : Finset S256x256.Idx => (((((c : Thread nD τ).loc cc0_stg1_0)) ↦[S]{q} f) : sProp 𝕄)) (set_oS j).symm
omit [FloatOps F] in
/-- Eight chunks at eight contents are the whole buffer at contents agreeing with each on its chunk. -/
theorem o_join (c : Dev nD) (q : PosShare TreeShare) (fs : Fin 8 → (cc0_stg1_0 : Ref sig .tc).ty.Contents (Elt F)) :
    (bigSep Finset.univ fun j : Fin 8 => ((oS j : (Memref sig .tc .vmem S32x256 .f32)).view.loc (c : Thread nD τ) ↦[(oS j : (Memref sig .tc .vmem S32x256 .f32)).view.set]{q} fs j) : sProp 𝕄)
      ⊢ iprop(∃ g : (cc0_stg1_0 : Ref sig .tc).ty.Contents (Elt F), ⌜∀ j : Fin 8, ∀ i ∈ (rect2 j).set, g i = fs j i⌝ ∗ ((((c : Thread nD τ).loc cc0_stg1_0)) ↦{q} g)) := by
  have e : (bigSep Finset.univ fun j : Fin 8 => ((oS j : (Memref sig .tc .vmem S32x256 .f32)).view.loc (c : Thread nD τ) ↦[(oS j : (Memref sig .tc .vmem S32x256 .f32)).view.set]{q} fs j) : sProp 𝕄)
      = bigSep Finset.univ fun j : Fin 8 => ((((c : Thread nD τ).loc cc0_stg1_0)) ↦[(rect2 j).set]{q} fs j) :=
    bigSep_congr fun j _ => congrArg (fun S : Finset S256x256.Idx => (((((c : Thread nD τ).loc cc0_stg1_0)) ↦[S]{q} fs j) : sProp 𝕄)) (set_oS j)
  rw [e]
  refine (pointsTo_biUnion_join (ℓ := ((c : Thread nD τ).loc cc0_stg1_0)) Finset.univ (fun j : Fin 8 => (rect2 j).set) fs (fs 0) (fun j _ j' _ h => rect2_disjoint j j' h)).trans ?_
  iintro ⟨%g, %hg, H⟩
  iexists g
  isplitr
  · ipureintro; exact fun j i hi => hg j (Finset.mem_univ j) i hi
  · rw [rect2_cover]; iexact H

omit [FloatOps F] in
/-- The whole buffer at one contents is its eight chunks at those contents. -/
theorem a_chunks (c : Dev nD) (q : PosShare TreeShare) (f : (cc0_scratch0 : Ref sig .tc).ty.Contents (Elt F)) :
    (((((c : Thread nD τ).loc cc0_scratch0)) ↦{q} f) : sProp 𝕄)
      = bigSep Finset.univ fun j : Fin 8 => ((aS j : (Memref sig .tc .vmem S32x256 .f32)).view.loc (c : Thread nD τ) ↦[(aS j : (Memref sig .tc .vmem S32x256 .f32)).view.set]{q} f) := by
  have e : (((((c : Thread nD τ).loc cc0_scratch0)) ↦{q} f) : sProp 𝕄)
      = ((((c : Thread nD τ).loc cc0_scratch0)) ↦[(Finset.univ : Finset (Fin 8)).biUnion (fun j => (rect2 j).set)]{q} f) :=
    congrArg (fun S : Finset S256x256.Idx => (((((c : Thread nD τ).loc cc0_scratch0)) ↦[S]{q} f) : sProp 𝕄)) rect2_cover.symm
  rw [e, pointsTo_biUnion _ _ (fun j _ j' _ h => rect2_disjoint j j' h)]
  exact bigSep_congr fun j _ => congrArg (fun S : Finset S256x256.Idx => (((((c : Thread nD τ).loc cc0_scratch0)) ↦[S]{q} f) : sProp 𝕄)) (set_aS j).symm
omit [FloatOps F] in
/-- Eight chunks at eight contents are the whole buffer at contents agreeing with each on its chunk. -/
theorem a_join (c : Dev nD) (q : PosShare TreeShare) (fs : Fin 8 → (cc0_scratch0 : Ref sig .tc).ty.Contents (Elt F)) :
    (bigSep Finset.univ fun j : Fin 8 => ((aS j : (Memref sig .tc .vmem S32x256 .f32)).view.loc (c : Thread nD τ) ↦[(aS j : (Memref sig .tc .vmem S32x256 .f32)).view.set]{q} fs j) : sProp 𝕄)
      ⊢ iprop(∃ g : (cc0_scratch0 : Ref sig .tc).ty.Contents (Elt F), ⌜∀ j : Fin 8, ∀ i ∈ (rect2 j).set, g i = fs j i⌝ ∗ ((((c : Thread nD τ).loc cc0_scratch0)) ↦{q} g)) := by
  have e : (bigSep Finset.univ fun j : Fin 8 => ((aS j : (Memref sig .tc .vmem S32x256 .f32)).view.loc (c : Thread nD τ) ↦[(aS j : (Memref sig .tc .vmem S32x256 .f32)).view.set]{q} fs j) : sProp 𝕄)
      = bigSep Finset.univ fun j : Fin 8 => ((((c : Thread nD τ).loc cc0_scratch0)) ↦[(rect2 j).set]{q} fs j) :=
    bigSep_congr fun j _ => congrArg (fun S : Finset S256x256.Idx => (((((c : Thread nD τ).loc cc0_scratch0)) ↦[S]{q} fs j) : sProp 𝕄)) (set_aS j)
  rw [e]
  refine (pointsTo_biUnion_join (ℓ := ((c : Thread nD τ).loc cc0_scratch0)) Finset.univ (fun j : Fin 8 => (rect2 j).set) fs (fs 0) (fun j _ j' _ h => rect2_disjoint j j' h)).trans ?_
  iintro ⟨%g, %hg, H⟩
  iexists g
  isplitr
  · ipureintro; exact fun j i hi => hg j (Finset.mem_univ j) i hi
  · rw [rect2_cover]; iexact H

omit [FloatOps F] in
/-- The whole buffer at one contents is its eight chunks at those contents. -/
theorem b_chunks (c : Dev nD) (q : PosShare TreeShare) (f : (cc0_scratch1 : Ref sig .tc).ty.Contents (Elt F)) :
    (((((c : Thread nD τ).loc cc0_scratch1)) ↦{q} f) : sProp 𝕄)
      = bigSep Finset.univ fun j : Fin 8 => ((bS j : (Memref sig .tc .vmem S32x256 .f32)).view.loc (c : Thread nD τ) ↦[(bS j : (Memref sig .tc .vmem S32x256 .f32)).view.set]{q} f) := by
  have e : (((((c : Thread nD τ).loc cc0_scratch1)) ↦{q} f) : sProp 𝕄)
      = ((((c : Thread nD τ).loc cc0_scratch1)) ↦[(Finset.univ : Finset (Fin 8)).biUnion (fun j => (rect2 j).set)]{q} f) :=
    congrArg (fun S : Finset S256x256.Idx => (((((c : Thread nD τ).loc cc0_scratch1)) ↦[S]{q} f) : sProp 𝕄)) rect2_cover.symm
  rw [e, pointsTo_biUnion _ _ (fun j _ j' _ h => rect2_disjoint j j' h)]
  exact bigSep_congr fun j _ => congrArg (fun S : Finset S256x256.Idx => (((((c : Thread nD τ).loc cc0_scratch1)) ↦[S]{q} f) : sProp 𝕄)) (set_bS j).symm
omit [FloatOps F] in
/-- Eight chunks at eight contents are the whole buffer at contents agreeing with each on its chunk. -/
theorem b_join (c : Dev nD) (q : PosShare TreeShare) (fs : Fin 8 → (cc0_scratch1 : Ref sig .tc).ty.Contents (Elt F)) :
    (bigSep Finset.univ fun j : Fin 8 => ((bS j : (Memref sig .tc .vmem S32x256 .f32)).view.loc (c : Thread nD τ) ↦[(bS j : (Memref sig .tc .vmem S32x256 .f32)).view.set]{q} fs j) : sProp 𝕄)
      ⊢ iprop(∃ g : (cc0_scratch1 : Ref sig .tc).ty.Contents (Elt F), ⌜∀ j : Fin 8, ∀ i ∈ (rect2 j).set, g i = fs j i⌝ ∗ ((((c : Thread nD τ).loc cc0_scratch1)) ↦{q} g)) := by
  have e : (bigSep Finset.univ fun j : Fin 8 => ((bS j : (Memref sig .tc .vmem S32x256 .f32)).view.loc (c : Thread nD τ) ↦[(bS j : (Memref sig .tc .vmem S32x256 .f32)).view.set]{q} fs j) : sProp 𝕄)
      = bigSep Finset.univ fun j : Fin 8 => ((((c : Thread nD τ).loc cc0_scratch1)) ↦[(rect2 j).set]{q} fs j) :=
    bigSep_congr fun j _ => congrArg (fun S : Finset S256x256.Idx => (((((c : Thread nD τ).loc cc0_scratch1)) ↦[S]{q} fs j) : sProp 𝕄)) (set_bS j)
  rw [e]
  refine (pointsTo_biUnion_join (ℓ := ((c : Thread nD τ).loc cc0_scratch1)) Finset.univ (fun j : Fin 8 => (rect2 j).set) fs (fs 0) (fun j _ j' _ h => rect2_disjoint j j' h)).trans ?_
  iintro ⟨%g, %hg, H⟩
  iexists g
  isplitr
  · ipureintro; exact fun j i hi => hg j (Finset.mem_univ j) i hi
  · rw [rect2_cover]; iexact H

omit [FloatOps F] in
/-- The whole buffer at one contents is its eight chunks at those contents. -/
theorem x_chunks (c : Dev nD) (q : PosShare TreeShare) (f : (cc0_stg0_0 : Ref sig .tc).ty.Contents (Elt F)) :
    (((((c : Thread nD τ).loc cc0_stg0_0)) ↦{q} f) : sProp 𝕄)
      = bigSep Finset.univ fun j : Fin 8 => ((xS j : (Memref sig .tc .vmem S32x256 .f32)).view.loc (c : Thread nD τ) ↦[(xS j : (Memref sig .tc .vmem S32x256 .f32)).view.set]{q} f) := by
  have e : (((((c : Thread nD τ).loc cc0_stg0_0)) ↦{q} f) : sProp 𝕄)
      = ((((c : Thread nD τ).loc cc0_stg0_0)) ↦[(Finset.univ : Finset (Fin 8)).biUnion (fun j => (rect3 j).set)]{q} f) :=
    congrArg (fun S : Finset S1x256x256.Idx => (((((c : Thread nD τ).loc cc0_stg0_0)) ↦[S]{q} f) : sProp 𝕄)) rect3_cover.symm
  rw [e, pointsTo_biUnion _ _ (fun j _ j' _ h => rect3_disjoint j j' h)]
  exact bigSep_congr fun j _ => congrArg (fun S : Finset S1x256x256.Idx => (((((c : Thread nD τ).loc cc0_stg0_0)) ↦[S]{q} f) : sProp 𝕄)) (set_xS j).symm
omit [FloatOps F] in
/-- Eight chunks at eight contents are the whole buffer at contents agreeing with each on its chunk. -/
theorem x_join (c : Dev nD) (q : PosShare TreeShare) (fs : Fin 8 → (cc0_stg0_0 : Ref sig .tc).ty.Contents (Elt F)) :
    (bigSep Finset.univ fun j : Fin 8 => ((xS j : (Memref sig .tc .vmem S32x256 .f32)).view.loc (c : Thread nD τ) ↦[(xS j : (Memref sig .tc .vmem S32x256 .f32)).view.set]{q} fs j) : sProp 𝕄)
      ⊢ iprop(∃ g : (cc0_stg0_0 : Ref sig .tc).ty.Contents (Elt F), ⌜∀ j : Fin 8, ∀ i ∈ (rect3 j).set, g i = fs j i⌝ ∗ ((((c : Thread nD τ).loc cc0_stg0_0)) ↦{q} g)) := by
  have e : (bigSep Finset.univ fun j : Fin 8 => ((xS j : (Memref sig .tc .vmem S32x256 .f32)).view.loc (c : Thread nD τ) ↦[(xS j : (Memref sig .tc .vmem S32x256 .f32)).view.set]{q} fs j) : sProp 𝕄)
      = bigSep Finset.univ fun j : Fin 8 => ((((c : Thread nD τ).loc cc0_stg0_0)) ↦[(rect3 j).set]{q} fs j) :=
    bigSep_congr fun j _ => congrArg (fun S : Finset S1x256x256.Idx => (((((c : Thread nD τ).loc cc0_stg0_0)) ↦[S]{q} fs j) : sProp 𝕄)) (set_xS j)
  rw [e]
  refine (pointsTo_biUnion_join (ℓ := ((c : Thread nD τ).loc cc0_stg0_0)) Finset.univ (fun j : Fin 8 => (rect3 j).set) fs (fs 0) (fun j _ j' _ h => rect3_disjoint j j' h)).trans ?_
  iintro ⟨%g, %hg, H⟩
  iexists g
  isplitr
  · ipureintro; exact fun j i hi => hg j (Finset.mem_univ j) i hi
  · rw [rect3_cover]; iexact H

/-! ## The second sum and the result array -/

/-- Chunk j's first sum plus the second partner's first sum of chunk j: what the second store leaves in chunk j of the result. -/
def V2 (c : Dev nD) (j : Fin 8) : FVec F S32x256 .f32 :=
  addf (shapeCast S32x256 ((oM : Memref sig .tc .vmem S256x256 .f32).view.readAt (Elt F) (rect2 j).toLoadRect (O1 m c j)) Facts₀.shapeCasts_S32x256_S32x256)
    ((oS j : (Memref sig .tc .vmem S32x256 .f32)).view.read (Elt F) (O1 m (peer2 c j) j))

/-- Chunk j of the result's staging buffer after the second store, over arbitrary other rows. -/
def O2 (c : Dev nD) (j : Fin 8) : (cc0_stg1_0 : Ref sig .tc).ty.Contents (Elt F) :=
  ((oM : Memref sig .tc .vmem S256x256 .f32).access (rect2 j)).write (Elt F) (View.junk _) (V2 m c j) Finset.univ

/-- What the second store writes into chunk j is, on the chunk, the canonical second sum. -/
theorem second_store_eq (c : Dev nD) (j : Fin 8) (fd : (cc0_scratch1 : Ref sig .tc).ty.Contents (Elt F)) :
    ∀ i ∈ (oS j : (Memref sig .tc .vmem S32x256 .f32)).view.set,
      ((oM : Memref sig .tc .vmem S256x256 .f32).access (rect2 j)).write (Elt F) (O1 m c j)
        (addf (shapeCast S32x256 ((oM : Memref sig .tc .vmem S256x256 .f32).view.readAt (Elt F) (rect2 j).toLoadRect (O1 m c j)) Facts₀.shapeCasts_S32x256_S32x256)
          ((bM : Memref sig .tc .vmem S256x256 .f32).view.readAt (Elt F) (rect2 j).toLoadRect
            ((bS j : (Memref sig .tc .vmem S32x256 .f32)).view.write (Elt F) fd ((oS j : (Memref sig .tc .vmem S32x256 .f32)).view.read (Elt F) (O1 m (peer2 c j) j)) Finset.univ))) Finset.univ i
      = O2 m c j i := by
  intro i hi
  rw [readAt_chunk_write cc0_scratch1 (rect2 j) fd]
  exact write_univ_agree ((oM : Memref sig .tc .vmem S256x256 .f32).access (rect2 j)) _ _ _ i hi

/-- The chunk a row lies in. -/
def chunkOf (i : S256x256.Idx) : Fin 8 := jOf ⟨(i 0 : ℕ) / 32, by have h : (i 0 : ℕ) < 256 := (i 0).isLt; omega⟩

theorem mem_chunkOf (i : S256x256.Idx) : i ∈ (rect2 (chunkOf i)).set := by
  have h0 : (i 0 : ℕ) < 256 := (i 0).isLt
  have h1 : (i 1 : ℕ) < 256 := (i 1).isLt
  have hq : (i 0 : ℕ) / 32 < 8 := by omega
  have hr : row (jOf ⟨(i 0 : ℕ) / 32, hq⟩) = 32 * ((i 0 : ℕ) / 32) := row_jOf ⟨(i 0 : ℕ) / 32, hq⟩
  refine Rect.mem_set_unit.mpr fun a => ?_
  match a with
  | ⟨0, _⟩ =>
    show row (jOf ⟨(i 0 : ℕ) / 32, hq⟩) ≤ (i 0 : ℕ) ∧ (i 0 : ℕ) < row (jOf ⟨(i 0 : ℕ) / 32, hq⟩) + 32
    rw [hr]; omega
  | ⟨1, _⟩ =>
    show 0 ≤ (i 1 : ℕ) ∧ (i 1 : ℕ) < 0 + 256
    omega

/-- The result array a device ends with: in each chunk, the chunk's second sum. -/
def OutF (c : Dev nD) : (cc0_stg1_0 : Ref sig .tc).ty.Contents (Elt F) := fun i => O2 m c (chunkOf i) i

theorem outF_eq (c : Dev nD) (g : (cc0_stg1_0 : Ref sig .tc).ty.Contents (Elt F))
    (hg : ∀ j : Fin 8, ∀ i ∈ (rect2 j).set, g i = O2 m c j i) : g = OutF m c :=
  funext fun i => hg _ i (mem_chunkOf i)

omit [FloatOps F] in
/-- Values off a chunk's elements are irrelevant, under a wand. -/
theorem restate_wand (c : Dev nD) (j : Fin 8) (T T' : (cc0_stg1_0 : Ref sig .tc).ty.Contents (Elt F)) (G : sProp 𝕄)
    (h : ∀ i ∈ (oS j : (Memref sig .tc .vmem S32x256 .f32)).view.set, T i = T' i) :
    iprop(((oS j : (Memref sig .tc .vmem S32x256 .f32)).view.loc (c : Thread nD τ) ↦[(oS j : (Memref sig .tc .vmem S32x256 .f32)).view.set]{fullShare} T') -∗ G)
      ⊢ iprop(((oS j : (Memref sig .tc .vmem S32x256 .f32)).view.loc (c : Thread nD τ) ↦[(oS j : (Memref sig .tc .vmem S32x256 .f32)).view.set]{fullShare} T) -∗ G) := by
  exact Entails.of_eq (congrArg (fun P : sProp 𝕄 => iprop(P -∗ G)) (pointsTo_congr (q := fullShare) h).symm)

/-- The last transfer: nothing else is owed. -/
theorem send2_step0 (K : GSem nD τ sig → ℕ) (c : Dev nD) (j : Fin 8) (n : Dev nD) (hn : n = peer2 c j)
    {hsc : (bS j : Memref sig (Dev.tc n : Thread nD τ).2.kind .vmem S32x256 .f32).view.ref.isScScratch = false}
    {hsrc : (oS j : (Memref sig .tc .vmem S32x256 .f32)).view.WordExact} {hdst : (bS j : (Memref sig .tc .vmem S32x256 .f32)).view.WordExact}
    {hsem : DmaTarget.Typed .vmem (.dma (semAt (arr 3) j)) (.remote (Dev.tc n : Thread nD τ) (bS j : (Memref sig .tc .vmem S32x256 .f32)) (.dma (semAt (arr 2) j)) hsc)}
    {α : Type} {Q : α → sProp 𝕄} {k : PUnit → Prog (TpuEff nD τ sig (Elt F) Λ₀ .tc) α}
    (fn : Buf (Elt F) ((bS j : (Memref sig .tc .vmem S32x256 .f32)).view.loc (peer2 c j : Thread nD τ))) (W : Waits sig Unit) :
    iprop(cellInv ER (sched m) (K (dcell 2 c j)) (dcell 2 c j) ∗ cellInv ER (sched m) (K (dcell 3 (peer2 c j) j)) (dcell 3 (peer2 c j) j)
        ∗ ((oS j : (Memref sig .tc .vmem S32x256 .f32)).view.loc (c : Thread nD τ) ↦[(oS j : (Memref sig .tc .vmem S32x256 .f32)).view.set]{fullShare} O1 m c j)
        ∗ ((bS j : (Memref sig .tc .vmem S32x256 .f32)).view.loc (peer2 c j : Thread nD τ) ↦[(bS j : (Memref sig .tc .vmem S32x256 .f32)).view.set]{fullShare} fn)
        ∗ owes (c : Thread nD τ) (tallyAt (dcell 3 (peer2 c j) j) () N) W
        ∗ dutyTok ER (dcell 2 c j) 0 false ∗ reached ER (dcell 2 c j) 0
        ∗ dutyTok ER (dcell 3 (peer2 c j) j) 0 false ∗ reached ER (dcell 3 (peer2 c j) j) 0)
      ⊢ iprop(((cred (tallyAt (dcell 2 c j) () N) ∗ owes (c : Thread nD τ) 0 W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (oS j) (.remote (Dev.tc n : Thread nD τ) (bS j) (.dma (semAt (arr 2) j)) hsc) (.dma (semAt (arr 3) j)) hsrc hdst hsem) k) Q) := by
  have h := send2_step m K c j n hn (hsc := hsc) (hsrc := hsrc) (hdst := hdst) (hsem := hsem) (Q := Q) (k := k) fn 0 W
  rwa [zero_add] at h

/-- The protocol's ghost state device c starts from, at the names K the launch allocated the cells' invariants at: the
    invariants of every cell it waits on or pays into; the rounds it pays into reached; its own cells' positions; the duty
    tokens it pays with. -/
def ghost (K : GSem nD τ sig → ℕ) (c : Dev nD) : sProp 𝕄 :=
  iprop((cellInv ER (sched m) (K (barCell c)) (barCell c)
    ∗ cellInv ER (sched m) (K (barCell (p1 c))) (barCell (p1 c))
    ∗ cellInv ER (sched m) (K (barCell (p2 c))) (barCell (p2 c))
    ∗ cellInv ER (sched m) (K (dcell 0 c 0)) (dcell 0 c 0)
    ∗ cellInv ER (sched m) (K (dcell 0 c 1)) (dcell 0 c 1)
    ∗ cellInv ER (sched m) (K (dcell 0 c 2)) (dcell 0 c 2)
    ∗ cellInv ER (sched m) (K (dcell 0 c 3)) (dcell 0 c 3)
    ∗ cellInv ER (sched m) (K (dcell 0 c 4)) (dcell 0 c 4)
    ∗ cellInv ER (sched m) (K (dcell 0 c 5)) (dcell 0 c 5)
    ∗ cellInv ER (sched m) (K (dcell 0 c 6)) (dcell 0 c 6)
    ∗ cellInv ER (sched m) (K (dcell 0 c 7)) (dcell 0 c 7)
    ∗ cellInv ER (sched m) (K (dcell 1 c 0)) (dcell 1 c 0)
    ∗ cellInv ER (sched m) (K (dcell 1 c 1)) (dcell 1 c 1)
    ∗ cellInv ER (sched m) (K (dcell 1 c 2)) (dcell 1 c 2)
    ∗ cellInv ER (sched m) (K (dcell 1 c 3)) (dcell 1 c 3)
    ∗ cellInv ER (sched m) (K (dcell 1 c 4)) (dcell 1 c 4)
    ∗ cellInv ER (sched m) (K (dcell 1 c 5)) (dcell 1 c 5)
    ∗ cellInv ER (sched m) (K (dcell 1 c 6)) (dcell 1 c 6)
    ∗ cellInv ER (sched m) (K (dcell 1 c 7)) (dcell 1 c 7)
    ∗ cellInv ER (sched m) (K (dcell 2 c 0)) (dcell 2 c 0)
    ∗ cellInv ER (sched m) (K (dcell 2 c 1)) (dcell 2 c 1)
    ∗ cellInv ER (sched m) (K (dcell 2 c 2)) (dcell 2 c 2)
    ∗ cellInv ER (sched m) (K (dcell 2 c 3)) (dcell 2 c 3)
    ∗ cellInv ER (sched m) (K (dcell 2 c 4)) (dcell 2 c 4)
    ∗ cellInv ER (sched m) (K (dcell 2 c 5)) (dcell 2 c 5)
    ∗ cellInv ER (sched m) (K (dcell 2 c 6)) (dcell 2 c 6)
    ∗ cellInv ER (sched m) (K (dcell 2 c 7)) (dcell 2 c 7)
    ∗ cellInv ER (sched m) (K (dcell 3 c 0)) (dcell 3 c 0)
    ∗ cellInv ER (sched m) (K (dcell 3 c 1)) (dcell 3 c 1)
    ∗ cellInv ER (sched m) (K (dcell 3 c 2)) (dcell 3 c 2)
    ∗ cellInv ER (sched m) (K (dcell 3 c 3)) (dcell 3 c 3)
    ∗ cellInv ER (sched m) (K (dcell 3 c 4)) (dcell 3 c 4)
    ∗ cellInv ER (sched m) (K (dcell 3 c 5)) (dcell 3 c 5)
    ∗ cellInv ER (sched m) (K (dcell 3 c 6)) (dcell 3 c 6)
    ∗ cellInv ER (sched m) (K (dcell 3 c 7)) (dcell 3 c 7)
    ∗ cellInv ER (sched m) (K (dcell 1 (p1 c) 0)) (dcell 1 (p1 c) 0)
    ∗ cellInv ER (sched m) (K (dcell 1 (p2 c) 1)) (dcell 1 (p2 c) 1)
    ∗ cellInv ER (sched m) (K (dcell 1 (p1 c) 2)) (dcell 1 (p1 c) 2)
    ∗ cellInv ER (sched m) (K (dcell 1 (p2 c) 3)) (dcell 1 (p2 c) 3)
    ∗ cellInv ER (sched m) (K (dcell 1 (p1 c) 4)) (dcell 1 (p1 c) 4)
    ∗ cellInv ER (sched m) (K (dcell 1 (p2 c) 5)) (dcell 1 (p2 c) 5)
    ∗ cellInv ER (sched m) (K (dcell 1 (p1 c) 6)) (dcell 1 (p1 c) 6)
    ∗ cellInv ER (sched m) (K (dcell 1 (p2 c) 7)) (dcell 1 (p2 c) 7)
    ∗ cellInv ER (sched m) (K (dcell 3 (p2 c) 0)) (dcell 3 (p2 c) 0)
    ∗ cellInv ER (sched m) (K (dcell 3 (p1 c) 1)) (dcell 3 (p1 c) 1)
    ∗ cellInv ER (sched m) (K (dcell 3 (p2 c) 2)) (dcell 3 (p2 c) 2)
    ∗ cellInv ER (sched m) (K (dcell 3 (p1 c) 3)) (dcell 3 (p1 c) 3)
    ∗ cellInv ER (sched m) (K (dcell 3 (p2 c) 4)) (dcell 3 (p2 c) 4)
    ∗ cellInv ER (sched m) (K (dcell 3 (p1 c) 5)) (dcell 3 (p1 c) 5)
    ∗ cellInv ER (sched m) (K (dcell 3 (p2 c) 6)) (dcell 3 (p2 c) 6)
    ∗ cellInv ER (sched m) (K (dcell 3 (p1 c) 7)) (dcell 3 (p1 c) 7))
    ∗ (reached ER (barCell (p1 c)) 0
    ∗ reached ER (barCell (p2 c)) 0
    ∗ reached ER (dcell 0 c 0) 0
    ∗ reached ER (dcell 0 c 1) 0
    ∗ reached ER (dcell 0 c 2) 0
    ∗ reached ER (dcell 0 c 3) 0
    ∗ reached ER (dcell 0 c 4) 0
    ∗ reached ER (dcell 0 c 5) 0
    ∗ reached ER (dcell 0 c 6) 0
    ∗ reached ER (dcell 0 c 7) 0
    ∗ reached ER (dcell 2 c 0) 0
    ∗ reached ER (dcell 2 c 1) 0
    ∗ reached ER (dcell 2 c 2) 0
    ∗ reached ER (dcell 2 c 3) 0
    ∗ reached ER (dcell 2 c 4) 0
    ∗ reached ER (dcell 2 c 5) 0
    ∗ reached ER (dcell 2 c 6) 0
    ∗ reached ER (dcell 2 c 7) 0
    ∗ reached ER (dcell 1 (p1 c) 0) 0
    ∗ reached ER (dcell 1 (p2 c) 1) 0
    ∗ reached ER (dcell 1 (p1 c) 2) 0
    ∗ reached ER (dcell 1 (p2 c) 3) 0
    ∗ reached ER (dcell 1 (p1 c) 4) 0
    ∗ reached ER (dcell 1 (p2 c) 5) 0
    ∗ reached ER (dcell 1 (p1 c) 6) 0
    ∗ reached ER (dcell 1 (p2 c) 7) 0
    ∗ reached ER (dcell 3 (p2 c) 0) 0
    ∗ reached ER (dcell 3 (p1 c) 1) 0
    ∗ reached ER (dcell 3 (p2 c) 2) 0
    ∗ reached ER (dcell 3 (p1 c) 3) 0
    ∗ reached ER (dcell 3 (p2 c) 4) 0
    ∗ reached ER (dcell 3 (p1 c) 5) 0
    ∗ reached ER (dcell 3 (p2 c) 6) 0
    ∗ reached ER (dcell 3 (p1 c) 7) 0)
    ∗ (atPos ER (barCell c) 0 ∅ 0
    ∗ atPos ER (dcell 0 c 0) 0 ∅ 0
    ∗ atPos ER (dcell 0 c 1) 0 ∅ 0
    ∗ atPos ER (dcell 0 c 2) 0 ∅ 0
    ∗ atPos ER (dcell 0 c 3) 0 ∅ 0
    ∗ atPos ER (dcell 0 c 4) 0 ∅ 0
    ∗ atPos ER (dcell 0 c 5) 0 ∅ 0
    ∗ atPos ER (dcell 0 c 6) 0 ∅ 0
    ∗ atPos ER (dcell 0 c 7) 0 ∅ 0
    ∗ atPos ER (dcell 1 c 0) 0 ∅ 0
    ∗ atPos ER (dcell 1 c 1) 0 ∅ 0
    ∗ atPos ER (dcell 1 c 2) 0 ∅ 0
    ∗ atPos ER (dcell 1 c 3) 0 ∅ 0
    ∗ atPos ER (dcell 1 c 4) 0 ∅ 0
    ∗ atPos ER (dcell 1 c 5) 0 ∅ 0
    ∗ atPos ER (dcell 1 c 6) 0 ∅ 0
    ∗ atPos ER (dcell 1 c 7) 0 ∅ 0
    ∗ atPos ER (dcell 2 c 0) 0 ∅ 0
    ∗ atPos ER (dcell 2 c 1) 0 ∅ 0
    ∗ atPos ER (dcell 2 c 2) 0 ∅ 0
    ∗ atPos ER (dcell 2 c 3) 0 ∅ 0
    ∗ atPos ER (dcell 2 c 4) 0 ∅ 0
    ∗ atPos ER (dcell 2 c 5) 0 ∅ 0
    ∗ atPos ER (dcell 2 c 6) 0 ∅ 0
    ∗ atPos ER (dcell 2 c 7) 0 ∅ 0
    ∗ atPos ER (dcell 3 c 0) 0 ∅ 0
    ∗ atPos ER (dcell 3 c 1) 0 ∅ 0
    ∗ atPos ER (dcell 3 c 2) 0 ∅ 0
    ∗ atPos ER (dcell 3 c 3) 0 ∅ 0
    ∗ atPos ER (dcell 3 c 4) 0 ∅ 0
    ∗ atPos ER (dcell 3 c 5) 0 ∅ 0
    ∗ atPos ER (dcell 3 c 6) 0 ∅ 0
    ∗ atPos ER (dcell 3 c 7) 0 ∅ 0)
    ∗ (dutyTok ER (barCell (p1 c)) 0 false
    ∗ dutyTok ER (barCell (p2 c)) 0 true
    ∗ dutyTok ER (dcell 0 c 0) 0 false
    ∗ dutyTok ER (dcell 0 c 1) 0 false
    ∗ dutyTok ER (dcell 0 c 2) 0 false
    ∗ dutyTok ER (dcell 0 c 3) 0 false
    ∗ dutyTok ER (dcell 0 c 4) 0 false
    ∗ dutyTok ER (dcell 0 c 5) 0 false
    ∗ dutyTok ER (dcell 0 c 6) 0 false
    ∗ dutyTok ER (dcell 0 c 7) 0 false
    ∗ dutyTok ER (dcell 1 (p1 c) 0) 0 false
    ∗ dutyTok ER (dcell 1 (p2 c) 1) 0 false
    ∗ dutyTok ER (dcell 1 (p1 c) 2) 0 false
    ∗ dutyTok ER (dcell 1 (p2 c) 3) 0 false
    ∗ dutyTok ER (dcell 1 (p1 c) 4) 0 false
    ∗ dutyTok ER (dcell 1 (p2 c) 5) 0 false
    ∗ dutyTok ER (dcell 1 (p1 c) 6) 0 false
    ∗ dutyTok ER (dcell 1 (p2 c) 7) 0 false
    ∗ dutyTok ER (dcell 2 c 0) 0 false
    ∗ dutyTok ER (dcell 2 c 1) 0 false
    ∗ dutyTok ER (dcell 2 c 2) 0 false
    ∗ dutyTok ER (dcell 2 c 3) 0 false
    ∗ dutyTok ER (dcell 2 c 4) 0 false
    ∗ dutyTok ER (dcell 2 c 5) 0 false
    ∗ dutyTok ER (dcell 2 c 6) 0 false
    ∗ dutyTok ER (dcell 2 c 7) 0 false
    ∗ dutyTok ER (dcell 3 (p2 c) 0) 0 false
    ∗ dutyTok ER (dcell 3 (p1 c) 1) 0 false
    ∗ dutyTok ER (dcell 3 (p2 c) 2) 0 false
    ∗ dutyTok ER (dcell 3 (p1 c) 3) 0 false
    ∗ dutyTok ER (dcell 3 (p2 c) 4) 0 false
    ∗ dutyTok ER (dcell 3 (p1 c) 5) 0 false
    ∗ dutyTok ER (dcell 3 (p2 c) 6) 0 false
    ∗ dutyTok ER (dcell 3 (p1 c) 7) 0 false))

/-- Its launch credit: two units on its barrier cell, a chunk's credit on each of its 16 receive cells. -/
def credsOf (c : Dev nD) : sProp 𝕄 :=
  iprop(cred (tallyAt (barCell c) () 2)
    ∗ cred (tallyAt (dcell 1 c 0) () 1024)
    ∗ cred (tallyAt (dcell 1 c 1) () 1024)
    ∗ cred (tallyAt (dcell 1 c 2) () 1024)
    ∗ cred (tallyAt (dcell 1 c 3) () 1024)
    ∗ cred (tallyAt (dcell 1 c 4) () 1024)
    ∗ cred (tallyAt (dcell 1 c 5) () 1024)
    ∗ cred (tallyAt (dcell 1 c 6) () 1024)
    ∗ cred (tallyAt (dcell 1 c 7) () 1024)
    ∗ cred (tallyAt (dcell 3 c 0) () 1024)
    ∗ cred (tallyAt (dcell 3 c 1) () 1024)
    ∗ cred (tallyAt (dcell 3 c 2) () 1024)
    ∗ cred (tallyAt (dcell 3 c 3) () 1024)
    ∗ cred (tallyAt (dcell 3 c 4) () 1024)
    ∗ cred (tallyAt (dcell 3 c 5) () 1024)
    ∗ cred (tallyAt (dcell 3 c 6) () 1024)
    ∗ cred (tallyAt (dcell 3 c 7) () 1024))

/-! ## The body's buffers by chunks, before and after -/

/-- Before the body: the staged input whole at the left half share and by chunks at the right half; the result's staging
    buffer and the two landing buffers by chunks, each over the contents it has. -/
def bufsC (c : Dev nD) (fo : (cc0_stg1_0 : Ref sig .tc).ty.Contents (Elt F)) (fa : (cc0_scratch0 : Ref sig .tc).ty.Contents (Elt F)) (fb : (cc0_scratch1 : Ref sig .tc).ty.Contents (Elt F)) : sProp 𝕄 :=
  iprop(((xM : Memref sig .tc .vmem S1x256x256 .f32).view.loc (c : Thread nD τ) ↦[(xM : Memref sig .tc .vmem S1x256x256 .f32).view.set]{fullShare.left} X m c)
    ∗ ((xS 0 : (Memref sig .tc .vmem S32x256 .f32)).view.loc (c : Thread nD τ) ↦[(xS 0 : (Memref sig .tc .vmem S32x256 .f32)).view.set]{fullShare.right} X m c)
    ∗ ((xS 1 : (Memref sig .tc .vmem S32x256 .f32)).view.loc (c : Thread nD τ) ↦[(xS 1 : (Memref sig .tc .vmem S32x256 .f32)).view.set]{fullShare.right} X m c)
    ∗ ((xS 2 : (Memref sig .tc .vmem S32x256 .f32)).view.loc (c : Thread nD τ) ↦[(xS 2 : (Memref sig .tc .vmem S32x256 .f32)).view.set]{fullShare.right} X m c)
    ∗ ((xS 3 : (Memref sig .tc .vmem S32x256 .f32)).view.loc (c : Thread nD τ) ↦[(xS 3 : (Memref sig .tc .vmem S32x256 .f32)).view.set]{fullShare.right} X m c)
    ∗ ((xS 4 : (Memref sig .tc .vmem S32x256 .f32)).view.loc (c : Thread nD τ) ↦[(xS 4 : (Memref sig .tc .vmem S32x256 .f32)).view.set]{fullShare.right} X m c)
    ∗ ((xS 5 : (Memref sig .tc .vmem S32x256 .f32)).view.loc (c : Thread nD τ) ↦[(xS 5 : (Memref sig .tc .vmem S32x256 .f32)).view.set]{fullShare.right} X m c)
    ∗ ((xS 6 : (Memref sig .tc .vmem S32x256 .f32)).view.loc (c : Thread nD τ) ↦[(xS 6 : (Memref sig .tc .vmem S32x256 .f32)).view.set]{fullShare.right} X m c)
    ∗ ((xS 7 : (Memref sig .tc .vmem S32x256 .f32)).view.loc (c : Thread nD τ) ↦[(xS 7 : (Memref sig .tc .vmem S32x256 .f32)).view.set]{fullShare.right} X m c)
    ∗ ((oS 0 : (Memref sig .tc .vmem S32x256 .f32)).view.loc (c : Thread nD τ) ↦[(oS 0 : (Memref sig .tc .vmem S32x256 .f32)).view.set]{fullShare} fo)
    ∗ ((oS 1 : (Memref sig .tc .vmem S32x256 .f32)).view.loc (c : Thread nD τ) ↦[(oS 1 : (Memref sig .tc .vmem S32x256 .f32)).view.set]{fullShare} fo)
    ∗ ((oS 2 : (Memref sig .tc .vmem S32x256 .f32)).view.loc (c : Thread nD τ) ↦[(oS 2 : (Memref sig .tc .vmem S32x256 .f32)).view.set]{fullShare} fo)
    ∗ ((oS 3 : (Memref sig .tc .vmem S32x256 .f32)).view.loc (c : Thread nD τ) ↦[(oS 3 : (Memref sig .tc .vmem S32x256 .f32)).view.set]{fullShare} fo)
    ∗ ((oS 4 : (Memref sig .tc .vmem S32x256 .f32)).view.loc (c : Thread nD τ) ↦[(oS 4 : (Memref sig .tc .vmem S32x256 .f32)).view.set]{fullShare} fo)
    ∗ ((oS 5 : (Memref sig .tc .vmem S32x256 .f32)).view.loc (c : Thread nD τ) ↦[(oS 5 : (Memref sig .tc .vmem S32x256 .f32)).view.set]{fullShare} fo)
    ∗ ((oS 6 : (Memref sig .tc .vmem S32x256 .f32)).view.loc (c : Thread nD τ) ↦[(oS 6 : (Memref sig .tc .vmem S32x256 .f32)).view.set]{fullShare} fo)
    ∗ ((oS 7 : (Memref sig .tc .vmem S32x256 .f32)).view.loc (c : Thread nD τ) ↦[(oS 7 : (Memref sig .tc .vmem S32x256 .f32)).view.set]{fullShare} fo)
    ∗ ((aS 0 : (Memref sig .tc .vmem S32x256 .f32)).view.loc (c : Thread nD τ) ↦[(aS 0 : (Memref sig .tc .vmem S32x256 .f32)).view.set]{fullShare} fa)
    ∗ ((aS 2 : (Memref sig .tc .vmem S32x256 .f32)).view.loc (c : Thread nD τ) ↦[(aS 2 : (Memref sig .tc .vmem S32x256 .f32)).view.set]{fullShare} fa)
    ∗ ((aS 4 : (Memref sig .tc .vmem S32x256 .f32)).view.loc (c : Thread nD τ) ↦[(aS 4 : (Memref sig .tc .vmem S32x256 .f32)).view.set]{fullShare} fa)
    ∗ ((aS 6 : (Memref sig .tc .vmem S32x256 .f32)).view.loc (c : Thread nD τ) ↦[(aS 6 : (Memref sig .tc .vmem S32x256 .f32)).view.set]{fullShare} fa)
    ∗ ((aS 1 : (Memref sig .tc .vmem S32x256 .f32)).view.loc (c : Thread nD τ) ↦[(aS 1 : (Memref sig .tc .vmem S32x256 .f32)).view.set]{fullShare} fa)
    ∗ ((aS 3 : (Memref sig .tc .vmem S32x256 .f32)).view.loc (c : Thread nD τ) ↦[(aS 3 : (Memref sig .tc .vmem S32x256 .f32)).view.set]{fullShare} fa)
    ∗ ((aS 5 : (Memref sig .tc .vmem S32x256 .f32)).view.loc (c : Thread nD τ) ↦[(aS 5 : (Memref sig .tc .vmem S32x256 .f32)).view.set]{fullShare} fa)
    ∗ ((aS 7 : (Memref sig .tc .vmem S32x256 .f32)).view.loc (c : Thread nD τ) ↦[(aS 7 : (Memref sig .tc .vmem S32x256 .f32)).view.set]{fullShare} fa)
    ∗ ((bS 1 : (Memref sig .tc .vmem S32x256 .f32)).view.loc (c : Thread nD τ) ↦[(bS 1 : (Memref sig .tc .vmem S32x256 .f32)).view.set]{fullShare} fb)
    ∗ ((bS 3 : (Memref sig .tc .vmem S32x256 .f32)).view.loc (c : Thread nD τ) ↦[(bS 3 : (Memref sig .tc .vmem S32x256 .f32)).view.set]{fullShare} fb)
    ∗ ((bS 5 : (Memref sig .tc .vmem S32x256 .f32)).view.loc (c : Thread nD τ) ↦[(bS 5 : (Memref sig .tc .vmem S32x256 .f32)).view.set]{fullShare} fb)
    ∗ ((bS 7 : (Memref sig .tc .vmem S32x256 .f32)).view.loc (c : Thread nD τ) ↦[(bS 7 : (Memref sig .tc .vmem S32x256 .f32)).view.set]{fullShare} fb)
    ∗ ((bS 0 : (Memref sig .tc .vmem S32x256 .f32)).view.loc (c : Thread nD τ) ↦[(bS 0 : (Memref sig .tc .vmem S32x256 .f32)).view.set]{fullShare} fb)
    ∗ ((bS 2 : (Memref sig .tc .vmem S32x256 .f32)).view.loc (c : Thread nD τ) ↦[(bS 2 : (Memref sig .tc .vmem S32x256 .f32)).view.set]{fullShare} fb)
    ∗ ((bS 4 : (Memref sig .tc .vmem S32x256 .f32)).view.loc (c : Thread nD τ) ↦[(bS 4 : (Memref sig .tc .vmem S32x256 .f32)).view.set]{fullShare} fb)
    ∗ ((bS 6 : (Memref sig .tc .vmem S32x256 .f32)).view.loc (c : Thread nD τ) ↦[(bS 6 : (Memref sig .tc .vmem S32x256 .f32)).view.set]{fullShare} fb))

/-- After the body: the input as before; each result chunk at its second sum; the landing chunks over some contents; the 32
    own cells at zero; nothing owed. -/
def postC (c : Dev nD) : sProp 𝕄 :=
  iprop(((xM : Memref sig .tc .vmem S1x256x256 .f32).view.loc (c : Thread nD τ) ↦[(xM : Memref sig .tc .vmem S1x256x256 .f32).view.set]{fullShare.left} X m c)
    ∗ (bigSep Finset.univ fun j : Fin 8 => ((xS j : (Memref sig .tc .vmem S32x256 .f32)).view.loc (c : Thread nD τ) ↦[(xS j : (Memref sig .tc .vmem S32x256 .f32)).view.set]{fullShare.right} X m c))
    ∗ (bigSep Finset.univ fun j : Fin 8 => ((oS j : (Memref sig .tc .vmem S32x256 .f32)).view.loc (c : Thread nD τ) ↦[(oS j : (Memref sig .tc .vmem S32x256 .f32)).view.set]{fullShare} O2 m c j))
    ∗ (bigSep Finset.univ fun j : Fin 8 => iprop(∃ f, (aS j : (Memref sig .tc .vmem S32x256 .f32)).view.loc (c : Thread nD τ) ↦[(aS j : (Memref sig .tc .vmem S32x256 .f32)).view.set]{fullShare} f))
    ∗ (bigSep Finset.univ fun j : Fin 8 => iprop(∃ f, (bS j : (Memref sig .tc .vmem S32x256 .f32)).view.loc (c : Thread nD τ) ↦[(bS j : (Memref sig .tc .vmem S32x256 .f32)).view.set]{fullShare} f))
    ∗ (bigSep Finset.univ fun kj : Fin 4 × Fin 8 => semVal (dcell kj.1 c kj.2) 0)
    ∗ ∃ W : Waits sig Unit, owes (c : Thread nD τ) 0 W)

omit [FloatOps F] in
theorem bigSep_fin8' (Φ : Fin 8 → sProp 𝕄) :
    bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ
omit [FloatOps F] in
theorem bigSep_kj' (Φ : Fin 4 × Fin 8 → sProp 𝕄) :
    bigSep Finset.univ Φ = iprop(Φ (0, 0) ∗ Φ (0, 1) ∗ Φ (0, 2) ∗ Φ (0, 3) ∗ Φ (0, 4) ∗ Φ (0, 5) ∗ Φ (0, 6) ∗ Φ (0, 7) ∗ Φ (1, 0) ∗ Φ (1, 1) ∗ Φ (1, 2) ∗ Φ (1, 3) ∗ Φ (1, 4) ∗ Φ (1, 5) ∗ Φ (1, 6) ∗ Φ (1, 7) ∗ Φ (2, 0) ∗ Φ (2, 1) ∗ Φ (2, 2) ∗ Φ (2, 3) ∗ Φ (2, 4) ∗ Φ (2, 5) ∗ Φ (2, 6) ∗ Φ (2, 7) ∗ Φ (3, 0) ∗ Φ (3, 1) ∗ Φ (3, 2) ∗ Φ (3, 3) ∗ Φ (3, 4) ∗ Φ (3, 5) ∗ Φ (3, 6) ∗ Φ (3, 7)) :=
  bigSep_univ_eq_bigSepL [(0, 0), (0, 1), (0, 2), (0, 3), (0, 4), (0, 5), (0, 6), (0, 7), (1, 0), (1, 1), (1, 2), (1, 3), (1, 4), (1, 5), (1, 6), (1, 7), (2, 0), (2, 1), (2, 2), (2, 3), (2, 4), (2, 5), (2, 6), (2, 7), (3, 0), (3, 1), (3, 2), (3, 3), (3, 4), (3, 5), (3, 6), (3, 7)] (by decide) (by decide) Φ

end Cert.KernelIdeal.Tree
end
-- ==== Proof.Body.lean ====
/-
  One device's run of the kernel body, stepped from the protocol's invariant.
-/
import proofs.«900329_g7700000000000330_dist_treered_v7x_i4_m256_n256_f32_1_alg».proof.Proof.Proto

noncomputable section

namespace Cert.KernelIdeal.Tree

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig Unit (Elt F) ℕ UU ℕ

variable (m : (ℓ : Loc nD τ sig) → Buf (Elt F) ℓ)

attribute [local sl_rounds] slotA_eq slotB_eq gift_false gift_true ite_true_p ite_false_p duties_bar duties_dma amount_bar amount_dma payload_bar payload_dma expect_bar expect_dma p1_p1 p2_p2 dmaPay_0 dmaPay_1 dmaPay_2 dmaPay_3 peer1_0 peer2_0 peer1_1 peer2_1 peer1_2 peer2_2 peer1_3 peer2_3 peer1_4 peer2_4 peer1_5 peer2_5 peer1_6 peer2_6 peer1_7 peer2_7

set_option maxHeartbeats 0 in
/-- One device's body, from the protocol's invariant and its buffers by chunks, to the chunks' final contents. -/
theorem sound_body (K : GSem nD τ sig → ℕ) (c : Dev nD) (W : Waits sig Unit)
    (fo : (cc0_stg1_0 : Ref sig .tc).ty.Contents (Elt F)) (fa : (cc0_scratch0 : Ref sig .tc).ty.Contents (Elt F)) (fb : (cc0_scratch1 : Ref sig .tc).ty.Contents (Elt F))
    (Kt : PUnit → sProp 𝕄) :
    iprop(ghost m K c ∗ credsOf c ∗ owes (c : Thread nD τ) (O₀ c) W ∗ levAts Lset lv ∗ bufsC m c fo fa fb ∗ (postC m c -∗ Kt ⟨⟩))
      ⊢ wp frame (wpE (defs₀ (F := F)) 𝒱₀ (c : Thread nD τ) none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _) cc0_scratch2 cc0_scratch3 cc0_scratch4 cc0_scratch5) Kt := by
  unfold ghost credsOf bufsC
  iintro ⟨⟨⟨#HI0, #HI1, #HI2, #HI3, #HI4, #HI5, #HI6, #HI7, #HI8, #HI9, #HI10, #HI11, #HI12, #HI13, #HI14, #HI15, #HI16, #HI17, #HI18, #HI19, #HI20, #HI21, #HI22, #HI23, #HI24, #HI25, #HI26, #HI27, #HI28, #HI29, #HI30, #HI31, #HI32, #HI33, #HI34, #HI35, #HI36, #HI37, #HI38, #HI39, #HI40, #HI41, #HI42, #HI43, #HI44, #HI45, #HI46, #HI47, #HI48, #HI49, #HI50⟩, ⟨#HR0, #HR1, #HR2, #HR3, #HR4, #HR5, #HR6, #HR7, #HR8, #HR9, #HR10, #HR11, #HR12, #HR13, #HR14, #HR15, #HR16, #HR17, #HR18, #HR19, #HR20, #HR21, #HR22, #HR23, #HR24, #HR25, #HR26, #HR27, #HR28, #HR29, #HR30, #HR31, #HR32, #HR33⟩, ⟨Hat0, Hat1, Hat2, Hat3, Hat4, Hat5, Hat6, Hat7, Hat8, Hat9, Hat10, Hat11, Hat12, Hat13, Hat14, Hat15, Hat16, Hat17, Hat18, Hat19, Hat20, Hat21, Hat22, Hat23, Hat24, Hat25, Hat26, Hat27, Hat28, Hat29, Hat30, Hat31, Hat32⟩, ⟨Ht0, Ht1, Ht2, Ht3, Ht4, Ht5, Ht6, Ht7, Ht8, Ht9, Ht10, Ht11, Ht12, Ht13, Ht14, Ht15, Ht16, Ht17, Ht18, Ht19, Ht20, Ht21, Ht22, Ht23, Ht24, Ht25, Ht26, Ht27, Ht28, Ht29, Ht30, Ht31, Ht32, Ht33⟩⟩, ⟨Hc0, Hc1, Hc2, Hc3, Hc4, Hc5, Hc6, Hc7, Hc8, Hc9, Hc10, Hc11, Hc12, Hc13, Hc14, Hc15, Hc16⟩, HO, #Hlev, ⟨Hb0, Hb1, Hb2, Hb3, Hb4, Hb5, Hb6, Hb7, Hb8, Hb9, Hb10, Hb11, Hb12, Hb13, Hb14, Hb15, Hb16, Hb17, Hb18, Hb19, Hb20, Hb21, Hb22, Hb23, Hb24, Hb25, Hb26, Hb27, Hb28, Hb29, Hb30, Hb31, Hb32⟩, Hk⟩
  unfold O₀
  have hd3 := dev3_eq c
  have hd4 := dev4_eq c
  have hd5 := dev5_eq c
  have hd6 := dev6_eq c
  have hd7 := dev7_eq c
  have hd8 := dev8_eq c
  have hd9 := dev9_eq c
  have hd10 := dev10_eq c
  have hd11 := dev11_eq c
  have hd12 := dev12_eq c
  have hd13 := dev13_eq c
  have hd14 := dev14_eq c
  have hd15 := dev15_eq c
  have hd16 := dev16_eq c
  have hd17 := dev17_eq c
  have hd18 := dev18_eq c
  have hled := fun (s : SemLoc sig) (O : CellTallies nD τ sig Unit) h => ledger (F := F) c s O h
  set_option sl_exec.foldHeartbeats 2 in
  set_option trace.sl_exec true in
  sl_exec (disch := tree_disch)
  irevert Hat0_pay1
  iapply (sep_respell_wand _ _ _)
  iintro ⟨⟨Hg1_0, Hg1_1, Hg1_2, Hg1_3, Hg1_4, Hg1_5, Hg1_6, Hg1_7⟩, ⟨Hg2_0, Hg2_1, Hg2_2, Hg2_3, Hg2_4, Hg2_5, Hg2_6, Hg2_7⟩⟩
  icases Hg1_0 with ⟨%g1_0, Hg1_0⟩
  -- the first exchange's transfer of chunk 0
  iapply (send1_step m K c 0 _ (dev3_eq c) g1_0 _ _) $$ [Hb1 Hg1_0 HO Ht2 Ht10]
  · isplitr; · iexact HI3
    isplitr; · iexact HI35
    isplitl [Hb1]; · iexact Hb1
    isplitl [Hg1_0]; · iexact Hg1_0
    isplitl [HO]; · iexact HO
    isplitl [Ht2]; · iexact Ht2
    isplitr; · iexact HR2
    isplitl [Ht10]; · iexact Ht10
    iexact HR18
  iintro ⟨HcS1_0, HO⟩
  set_option sl_exec.foldHeartbeats 2 in
  sl_exec (disch := tree_disch)
  icases Hg2_1 with ⟨%g2_1, Hg2_1⟩
  -- the first exchange's transfer of chunk 1
  iapply (send1_step m K c 1 _ (dev4_eq c) g2_1 _ _) $$ [Hb2 Hg2_1 HO Ht3 Ht11]
  · isplitr; · iexact HI4
    isplitr; · iexact HI36
    isplitl [Hb2]; · iexact Hb2
    isplitl [Hg2_1]; · iexact Hg2_1
    isplitl [HO]; · iexact HO
    isplitl [Ht3]; · iexact Ht3
    isplitr; · iexact HR3
    isplitl [Ht11]; · iexact Ht11
    iexact HR19
  iintro ⟨HcS1_1, HO⟩
  set_option sl_exec.foldHeartbeats 2 in
  sl_exec (disch := tree_disch)
  icases Hg1_2 with ⟨%g1_2, Hg1_2⟩
  -- the first exchange's transfer of chunk 2
  iapply (send1_step m K c 2 _ (dev5_eq c) g1_2 _ _) $$ [Hb3 Hg1_2 HO Ht4 Ht12]
  · isplitr; · iexact HI5
    isplitr; · iexact HI37
    isplitl [Hb3]; · iexact Hb3
    isplitl [Hg1_2]; · iexact Hg1_2
    isplitl [HO]; · iexact HO
    isplitl [Ht4]; · iexact Ht4
    isplitr; · iexact HR4
    isplitl [Ht12]; · iexact Ht12
    iexact HR20
  iintro ⟨HcS1_2, HO⟩
  set_option sl_exec.foldHeartbeats 2 in
  sl_exec (disch := tree_disch)
  icases Hg2_3 with ⟨%g2_3, Hg2_3⟩
  -- the first exchange's transfer of chunk 3
  iapply (send1_step m K c 3 _ (dev6_eq c) g2_3 _ _) $$ [Hb4 Hg2_3 HO Ht5 Ht13]
  · isplitr; · iexact HI6
    isplitr; · iexact HI38
    isplitl [Hb4]; · iexact Hb4
    isplitl [Hg2_3]; · iexact Hg2_3
    isplitl [HO]; · iexact HO
    isplitl [Ht5]; · iexact Ht5
    isplitr; · iexact HR5
    isplitl [Ht13]; · iexact Ht13
    iexact HR21
  iintro ⟨HcS1_3, HO⟩
  set_option sl_exec.foldHeartbeats 2 in
  sl_exec (disch := tree_disch)
  icases Hg1_4 with ⟨%g1_4, Hg1_4⟩
  -- the first exchange's transfer of chunk 4
  iapply (send1_step m K c 4 _ (dev7_eq c) g1_4 _ _) $$ [Hb5 Hg1_4 HO Ht6 Ht14]
  · isplitr; · iexact HI7
    isplitr; · iexact HI39
    isplitl [Hb5]; · iexact Hb5
    isplitl [Hg1_4]; · iexact Hg1_4
    isplitl [HO]; · iexact HO
    isplitl [Ht6]; · iexact Ht6
    isplitr; · iexact HR6
    isplitl [Ht14]; · iexact Ht14
    iexact HR22
  iintro ⟨HcS1_4, HO⟩
  set_option sl_exec.foldHeartbeats 2 in
  sl_exec (disch := tree_disch)
  icases Hg2_5 with ⟨%g2_5, Hg2_5⟩
  -- the first exchange's transfer of chunk 5
  iapply (send1_step m K c 5 _ (dev8_eq c) g2_5 _ _) $$ [Hb6 Hg2_5 HO Ht7 Ht15]
  · isplitr; · iexact HI8
    isplitr; · iexact HI40
    isplitl [Hb6]; · iexact Hb6
    isplitl [Hg2_5]; · iexact Hg2_5
    isplitl [HO]; · iexact HO
    isplitl [Ht7]; · iexact Ht7
    isplitr; · iexact HR7
    isplitl [Ht15]; · iexact Ht15
    iexact HR23
  iintro ⟨HcS1_5, HO⟩
  set_option sl_exec.foldHeartbeats 2 in
  sl_exec (disch := tree_disch)
  icases Hg1_6 with ⟨%g1_6, Hg1_6⟩
  -- the first exchange's transfer of chunk 6
  iapply (send1_step m K c 6 _ (dev9_eq c) g1_6 _ _) $$ [Hb7 Hg1_6 HO Ht8 Ht16]
  · isplitr; · iexact HI9
    isplitr; · iexact HI41
    isplitl [Hb7]; · iexact Hb7
    isplitl [Hg1_6]; · iexact Hg1_6
    isplitl [HO]; · iexact HO
    isplitl [Ht8]; · iexact Ht8
    isplitr; · iexact HR8
    isplitl [Ht16]; · iexact Ht16
    iexact HR24
  iintro ⟨HcS1_6, HO⟩
  set_option sl_exec.foldHeartbeats 2 in
  sl_exec (disch := tree_disch)
  icases Hg2_7 with ⟨%g2_7, Hg2_7⟩
  -- the first exchange's transfer of chunk 7
  iapply (send1_step m K c 7 _ (dev10_eq c) g2_7 _ _) $$ [Hb8 Hg2_7 HO Ht9 Ht17]
  · isplitr; · iexact HI10
    isplitr; · iexact HI42
    isplitl [Hb8]; · iexact Hb8
    isplitl [Hg2_7]; · iexact Hg2_7
    isplitl [HO]; · iexact HO
    isplitl [Ht9]; · iexact Ht9
    isplitr; · iexact HR9
    isplitl [Ht17]; · iexact Ht17
    iexact HR25
  iintro ⟨HcS1_7, HO⟩
  set_option sl_exec.foldHeartbeats 2 in
  sl_exec (disch := tree_disch)
  -- chunk 0: the first sum restated canonically, then the second exchange's transfer
  ihave Hb9 := (restate_o c 0 (sound_body.sl.Hb9_w1 m c fo Hat9_pay1_v) (O1 m c 0) (first_store_eq m c 0 fo Hat9_pay1_v)) $$ Hb9
  icases Hg2_0 with ⟨%g2_0, Hg2_0⟩
  iapply (send2_step m K c 0 _ (dev11_eq c) g2_0 _ _) $$ [Hb9 Hg2_0 HO Ht18 Ht26]
  · isplitr; · iexact HI19
    isplitr; · iexact HI43
    isplitl [Hb9]; · iexact Hb9
    isplitl [Hg2_0]; · iexact Hg2_0
    isplitl [HO]; · iexact HO
    isplitl [Ht18]; · iexact Ht18
    isplitr; · iexact HR10
    isplitl [Ht26]; · iexact Ht26
    iexact HR26
  iintro ⟨HcS2_0, HO⟩
  set_option sl_exec.foldHeartbeats 2 in
  sl_exec (disch := tree_disch)
  -- chunk 1: the first sum restated canonically, then the second exchange's transfer
  ihave Hb10 := (restate_o c 1 (sound_body.sl.Hb10_w1 m c fo Hat10_pay1_v) (O1 m c 1) (first_store_eq m c 1 fo Hat10_pay1_v)) $$ Hb10
  icases Hg1_1 with ⟨%g1_1, Hg1_1⟩
  iapply (send2_step m K c 1 _ (dev12_eq c) g1_1 _ _) $$ [Hb10 Hg1_1 HO Ht19 Ht27]
  · isplitr; · iexact HI20
    isplitr; · iexact HI44
    isplitl [Hb10]; · iexact Hb10
    isplitl [Hg1_1]; · iexact Hg1_1
    isplitl [HO]; · iexact HO
    isplitl [Ht19]; · iexact Ht19
    isplitr; · iexact HR11
    isplitl [Ht27]; · iexact Ht27
    iexact HR27
  iintro ⟨HcS2_1, HO⟩
  set_option sl_exec.foldHeartbeats 2 in
  sl_exec (disch := tree_disch)
  -- chunk 2: the first sum restated canonically, then the second exchange's transfer
  ihave Hb11 := (restate_o c 2 (sound_body.sl.Hb11_w1 m c fo Hat11_pay1_v) (O1 m c 2) (first_store_eq m c 2 fo Hat11_pay1_v)) $$ Hb11
  icases Hg2_2 with ⟨%g2_2, Hg2_2⟩
  iapply (send2_step m K c 2 _ (dev13_eq c) g2_2 _ _) $$ [Hb11 Hg2_2 HO Ht20 Ht28]
  · isplitr; · iexact HI21
    isplitr; · iexact HI45
    isplitl [Hb11]; · iexact Hb11
    isplitl [Hg2_2]; · iexact Hg2_2
    isplitl [HO]; · iexact HO
    isplitl [Ht20]; · iexact Ht20
    isplitr; · iexact HR12
    isplitl [Ht28]; · iexact Ht28
    iexact HR28
  iintro ⟨HcS2_2, HO⟩
  set_option sl_exec.foldHeartbeats 2 in
  sl_exec (disch := tree_disch)
  -- chunk 3: the first sum restated canonically, then the second exchange's transfer
  ihave Hb12 := (restate_o c 3 (sound_body.sl.Hb12_w1 m c fo Hat12_pay1_v) (O1 m c 3) (first_store_eq m c 3 fo Hat12_pay1_v)) $$ Hb12
  icases Hg1_3 with ⟨%g1_3, Hg1_3⟩
  iapply (send2_step m K c 3 _ (dev14_eq c) g1_3 _ _) $$ [Hb12 Hg1_3 HO Ht21 Ht29]
  · isplitr; · iexact HI22
    isplitr; · iexact HI46
    isplitl [Hb12]; · iexact Hb12
    isplitl [Hg1_3]; · iexact Hg1_3
    isplitl [HO]; · iexact HO
    isplitl [Ht21]; · iexact Ht21
    isplitr; · iexact HR13
    isplitl [Ht29]; · iexact Ht29
    iexact HR29
  iintro ⟨HcS2_3, HO⟩
  set_option sl_exec.foldHeartbeats 2 in
  sl_exec (disch := tree_disch)
  -- chunk 4: the first sum restated canonically, then the second exchange's transfer
  ihave Hb13 := (restate_o c 4 (sound_body.sl.Hb13_w1 m c fo Hat13_pay1_v) (O1 m c 4) (first_store_eq m c 4 fo Hat13_pay1_v)) $$ Hb13
  icases Hg2_4 with ⟨%g2_4, Hg2_4⟩
  iapply (send2_step m K c 4 _ (dev15_eq c) g2_4 _ _) $$ [Hb13 Hg2_4 HO Ht22 Ht30]
  · isplitr; · iexact HI23
    isplitr; · iexact HI47
    isplitl [Hb13]; · iexact Hb13
    isplitl [Hg2_4]; · iexact Hg2_4
    isplitl [HO]; · iexact HO
    isplitl [Ht22]; · iexact Ht22
    isplitr; · iexact HR14
    isplitl [Ht30]; · iexact Ht30
    iexact HR30
  iintro ⟨HcS2_4, HO⟩
  set_option sl_exec.foldHeartbeats 2 in
  sl_exec (disch := tree_disch)
  -- chunk 5: the first sum restated canonically, then the second exchange's transfer
  ihave Hb14 := (restate_o c 5 (sound_body.sl.Hb14_w1 m c fo Hat14_pay1_v) (O1 m c 5) (first_store_eq m c 5 fo Hat14_pay1_v)) $$ Hb14
  icases Hg1_5 with ⟨%g1_5, Hg1_5⟩
  iapply (send2_step m K c 5 _ (dev16_eq c) g1_5 _ _) $$ [Hb14 Hg1_5 HO Ht23 Ht31]
  · isplitr; · iexact HI24
    isplitr; · iexact HI48
    isplitl [Hb14]; · iexact Hb14
    isplitl [Hg1_5]; · iexact Hg1_5
    isplitl [HO]; · iexact HO
    isplitl [Ht23]; · iexact Ht23
    isplitr; · iexact HR15
    isplitl [Ht31]; · iexact Ht31
    iexact HR31
  iintro ⟨HcS2_5, HO⟩
  set_option sl_exec.foldHeartbeats 2 in
  sl_exec (disch := tree_disch)
  -- chunk 6: the first sum restated canonically, then the second exchange's transfer
  ihave Hb15 := (restate_o c 6 (sound_body.sl.Hb15_w1 m c fo Hat15_pay1_v) (O1 m c 6) (first_store_eq m c 6 fo Hat15_pay1_v)) $$ Hb15
  icases Hg2_6 with ⟨%g2_6, Hg2_6⟩
  iapply (send2_step m K c 6 _ (dev17_eq c) g2_6 _ _) $$ [Hb15 Hg2_6 HO Ht24 Ht32]
  · isplitr; · iexact HI25
    isplitr; · iexact HI49
    isplitl [Hb15]; · iexact Hb15
    isplitl [Hg2_6]; · iexact Hg2_6
    isplitl [HO]; · iexact HO
    isplitl [Ht24]; · iexact Ht24
    isplitr; · iexact HR16
    isplitl [Ht32]; · iexact Ht32
    iexact HR32
  iintro ⟨HcS2_6, HO⟩
  set_option sl_exec.foldHeartbeats 2 in
  sl_exec (disch := tree_disch)
  -- chunk 7: the first sum restated canonically, then the second exchange's transfer
  ihave Hb16 := (restate_o c 7 (sound_body.sl.Hb16_w1 m c fo Hat16_pay1_v) (O1 m c 7) (first_store_eq m c 7 fo Hat16_pay1_v)) $$ Hb16
  icases Hg1_7 with ⟨%g1_7, Hg1_7⟩
  iapply (send2_step0 m K c 7 _ (dev18_eq c) g1_7 _) $$ [Hb16 Hg1_7 HO Ht25 Ht33]
  · isplitr; · iexact HI26
    isplitr; · iexact HI50
    isplitl [Hb16]; · iexact Hb16
    isplitl [Hg1_7]; · iexact Hg1_7
    isplitl [HO]; · iexact HO
    isplitl [Ht25]; · iexact Ht25
    isplitr; · iexact HR17
    isplitl [Ht33]; · iexact Ht33
    iexact HR33
  iintro ⟨HcS2_7, HO⟩
  set_option sl_exec.foldHeartbeats 2 in
  sl_exec (disch := tree_disch)
  -- the 32 own cells have no round left: their counters, at zero, are the device's again
  imod (Rounds.cell_close ER (sched m) (Set.mem_univ (K (dcell 0 c 0))) (fun h => h) (R := 1) (duties_later m (dcell 0 c 0))) $$ [Hat1] with Hz0_0
  · isplitr; · iexact HI3
    iexact Hat1
  imod (Rounds.cell_close ER (sched m) (Set.mem_univ (K (dcell 0 c 1))) (fun h => h) (R := 1) (duties_later m (dcell 0 c 1))) $$ [Hat2] with Hz0_1
  · isplitr; · iexact HI4
    iexact Hat2
  imod (Rounds.cell_close ER (sched m) (Set.mem_univ (K (dcell 0 c 2))) (fun h => h) (R := 1) (duties_later m (dcell 0 c 2))) $$ [Hat3] with Hz0_2
  · isplitr; · iexact HI5
    iexact Hat3
  imod (Rounds.cell_close ER (sched m) (Set.mem_univ (K (dcell 0 c 3))) (fun h => h) (R := 1) (duties_later m (dcell 0 c 3))) $$ [Hat4] with Hz0_3
  · isplitr; · iexact HI6
    iexact Hat4
  imod (Rounds.cell_close ER (sched m) (Set.mem_univ (K (dcell 0 c 4))) (fun h => h) (R := 1) (duties_later m (dcell 0 c 4))) $$ [Hat5] with Hz0_4
  · isplitr; · iexact HI7
    iexact Hat5
  imod (Rounds.cell_close ER (sched m) (Set.mem_univ (K (dcell 0 c 5))) (fun h => h) (R := 1) (duties_later m (dcell 0 c 5))) $$ [Hat6] with Hz0_5
  · isplitr; · iexact HI8
    iexact Hat6
  imod (Rounds.cell_close ER (sched m) (Set.mem_univ (K (dcell 0 c 6))) (fun h => h) (R := 1) (duties_later m (dcell 0 c 6))) $$ [Hat7] with Hz0_6
  · isplitr; · iexact HI9
    iexact Hat7
  imod (Rounds.cell_close ER (sched m) (Set.mem_univ (K (dcell 0 c 7))) (fun h => h) (R := 1) (duties_later m (dcell 0 c 7))) $$ [Hat8] with Hz0_7
  · isplitr; · iexact HI10
    iexact Hat8
  imod (Rounds.cell_close ER (sched m) (Set.mem_univ (K (dcell 1 c 0))) (fun h => h) (R := 1) (duties_later m (dcell 1 c 0))) $$ [Hat9] with Hz1_0
  · isplitr; · iexact HI11
    iexact Hat9
  imod (Rounds.cell_close ER (sched m) (Set.mem_univ (K (dcell 1 c 1))) (fun h => h) (R := 1) (duties_later m (dcell 1 c 1))) $$ [Hat10] with Hz1_1
  · isplitr; · iexact HI12
    iexact Hat10
  imod (Rounds.cell_close ER (sched m) (Set.mem_univ (K (dcell 1 c 2))) (fun h => h) (R := 1) (duties_later m (dcell 1 c 2))) $$ [Hat11] with Hz1_2
  · isplitr; · iexact HI13
    iexact Hat11
  imod (Rounds.cell_close ER (sched m) (Set.mem_univ (K (dcell 1 c 3))) (fun h => h) (R := 1) (duties_later m (dcell 1 c 3))) $$ [Hat12] with Hz1_3
  · isplitr; · iexact HI14
    iexact Hat12
  imod (Rounds.cell_close ER (sched m) (Set.mem_univ (K (dcell 1 c 4))) (fun h => h) (R := 1) (duties_later m (dcell 1 c 4))) $$ [Hat13] with Hz1_4
  · isplitr; · iexact HI15
    iexact Hat13
  imod (Rounds.cell_close ER (sched m) (Set.mem_univ (K (dcell 1 c 5))) (fun h => h) (R := 1) (duties_later m (dcell 1 c 5))) $$ [Hat14] with Hz1_5
  · isplitr; · iexact HI16
    iexact Hat14
  imod (Rounds.cell_close ER (sched m) (Set.mem_univ (K (dcell 1 c 6))) (fun h => h) (R := 1) (duties_later m (dcell 1 c 6))) $$ [Hat15] with Hz1_6
  · isplitr; · iexact HI17
    iexact Hat15
  imod (Rounds.cell_close ER (sched m) (Set.mem_univ (K (dcell 1 c 7))) (fun h => h) (R := 1) (duties_later m (dcell 1 c 7))) $$ [Hat16] with Hz1_7
  · isplitr; · iexact HI18
    iexact Hat16
  imod (Rounds.cell_close ER (sched m) (Set.mem_univ (K (dcell 2 c 0))) (fun h => h) (R := 1) (duties_later m (dcell 2 c 0))) $$ [Hat17] with Hz2_0
  · isplitr; · iexact HI19
    iexact Hat17
  imod (Rounds.cell_close ER (sched m) (Set.mem_univ (K (dcell 2 c 1))) (fun h => h) (R := 1) (duties_later m (dcell 2 c 1))) $$ [Hat18] with Hz2_1
  · isplitr; · iexact HI20
    iexact Hat18
  imod (Rounds.cell_close ER (sched m) (Set.mem_univ (K (dcell 2 c 2))) (fun h => h) (R := 1) (duties_later m (dcell 2 c 2))) $$ [Hat19] with Hz2_2
  · isplitr; · iexact HI21
    iexact Hat19
  imod (Rounds.cell_close ER (sched m) (Set.mem_univ (K (dcell 2 c 3))) (fun h => h) (R := 1) (duties_later m (dcell 2 c 3))) $$ [Hat20] with Hz2_3
  · isplitr; · iexact HI22
    iexact Hat20
  imod (Rounds.cell_close ER (sched m) (Set.mem_univ (K (dcell 2 c 4))) (fun h => h) (R := 1) (duties_later m (dcell 2 c 4))) $$ [Hat21] with Hz2_4
  · isplitr; · iexact HI23
    iexact Hat21
  imod (Rounds.cell_close ER (sched m) (Set.mem_univ (K (dcell 2 c 5))) (fun h => h) (R := 1) (duties_later m (dcell 2 c 5))) $$ [Hat22] with Hz2_5
  · isplitr; · iexact HI24
    iexact Hat22
  imod (Rounds.cell_close ER (sched m) (Set.mem_univ (K (dcell 2 c 6))) (fun h => h) (R := 1) (duties_later m (dcell 2 c 6))) $$ [Hat23] with Hz2_6
  · isplitr; · iexact HI25
    iexact Hat23
  imod (Rounds.cell_close ER (sched m) (Set.mem_univ (K (dcell 2 c 7))) (fun h => h) (R := 1) (duties_later m (dcell 2 c 7))) $$ [Hat24] with Hz2_7
  · isplitr; · iexact HI26
    iexact Hat24
  imod (Rounds.cell_close ER (sched m) (Set.mem_univ (K (dcell 3 c 0))) (fun h => h) (R := 1) (duties_later m (dcell 3 c 0))) $$ [Hat25] with Hz3_0
  · isplitr; · iexact HI27
    iexact Hat25
  imod (Rounds.cell_close ER (sched m) (Set.mem_univ (K (dcell 3 c 1))) (fun h => h) (R := 1) (duties_later m (dcell 3 c 1))) $$ [Hat26] with Hz3_1
  · isplitr; · iexact HI28
    iexact Hat26
  imod (Rounds.cell_close ER (sched m) (Set.mem_univ (K (dcell 3 c 2))) (fun h => h) (R := 1) (duties_later m (dcell 3 c 2))) $$ [Hat27] with Hz3_2
  · isplitr; · iexact HI29
    iexact Hat27
  imod (Rounds.cell_close ER (sched m) (Set.mem_univ (K (dcell 3 c 3))) (fun h => h) (R := 1) (duties_later m (dcell 3 c 3))) $$ [Hat28] with Hz3_3
  · isplitr; · iexact HI30
    iexact Hat28
  imod (Rounds.cell_close ER (sched m) (Set.mem_univ (K (dcell 3 c 4))) (fun h => h) (R := 1) (duties_later m (dcell 3 c 4))) $$ [Hat29] with Hz3_4
  · isplitr; · iexact HI31
    iexact Hat29
  imod (Rounds.cell_close ER (sched m) (Set.mem_univ (K (dcell 3 c 5))) (fun h => h) (R := 1) (duties_later m (dcell 3 c 5))) $$ [Hat30] with Hz3_5
  · isplitr; · iexact HI32
    iexact Hat30
  imod (Rounds.cell_close ER (sched m) (Set.mem_univ (K (dcell 3 c 6))) (fun h => h) (R := 1) (duties_later m (dcell 3 c 6))) $$ [Hat31] with Hz3_6
  · isplitr; · iexact HI33
    iexact Hat31
  imod (Rounds.cell_close ER (sched m) (Set.mem_univ (K (dcell 3 c 7))) (fun h => h) (R := 1) (duties_later m (dcell 3 c 7))) $$ [Hat32] with Hz3_7
  · isplitr; · iexact HI34
    iexact Hat32
  -- each result chunk holds its second sum
  ihave Hat17_pay1 := (restate_o c 0 (sound_body.sl.Hat17_pay1_w1 m c Hat25_pay1_v) (O2 m c 0) (second_store_eq m c 0 Hat25_pay1_v)) $$ Hat17_pay1
  ihave Hat18_pay1 := (restate_o c 1 (sound_body.sl.Hat18_pay1_w1 m c Hat26_pay1_v) (O2 m c 1) (second_store_eq m c 1 Hat26_pay1_v)) $$ Hat18_pay1
  ihave Hat19_pay1 := (restate_o c 2 (sound_body.sl.Hat19_pay1_w1 m c Hat27_pay1_v) (O2 m c 2) (second_store_eq m c 2 Hat27_pay1_v)) $$ Hat19_pay1
  ihave Hat20_pay1 := (restate_o c 3 (sound_body.sl.Hat20_pay1_w1 m c Hat28_pay1_v) (O2 m c 3) (second_store_eq m c 3 Hat28_pay1_v)) $$ Hat20_pay1
  ihave Hat21_pay1 := (restate_o c 4 (sound_body.sl.Hat21_pay1_w1 m c Hat29_pay1_v) (O2 m c 4) (second_store_eq m c 4 Hat29_pay1_v)) $$ Hat21_pay1
  ihave Hat22_pay1 := (restate_o c 5 (sound_body.sl.Hat22_pay1_w1 m c Hat30_pay1_v) (O2 m c 5) (second_store_eq m c 5 Hat30_pay1_v)) $$ Hat22_pay1
  ihave Hat23_pay1 := (restate_o c 6 (sound_body.sl.Hat23_pay1_w1 m c Hat31_pay1_v) (O2 m c 6) (second_store_eq m c 6 Hat31_pay1_v)) $$ Hat23_pay1
  ihave Hat24_pay1 := (restate_o c 7 (sound_body.sl.Hat24_pay1_w1 m c Hat32_pay1_v) (O2 m c 7) (second_store_eq m c 7 Hat32_pay1_v)) $$ Hat24_pay1
  first | sl_step | (rw [wp_ret]; imodintro)
  iapply Hk
  unfold postC
  rw [bigSep_fin8', bigSep_fin8', bigSep_fin8', bigSep_fin8', bigSep_kj']
  isplitl [Hb0]; · iexact Hb0
  isplitl [Hat1_pay1 Hat2_pay1 Hat3_pay1 Hat4_pay1 Hat5_pay1 Hat6_pay1 Hat7_pay1 Hat8_pay1]
  · skip
    isplitl [Hat1_pay1]; · iexact Hat1_pay1
    isplitl [Hat2_pay1]; · iexact Hat2_pay1
    isplitl [Hat3_pay1]; · iexact Hat3_pay1
    isplitl [Hat4_pay1]; · iexact Hat4_pay1
    isplitl [Hat5_pay1]; · iexact Hat5_pay1
    isplitl [Hat6_pay1]; · iexact Hat6_pay1
    isplitl [Hat7_pay1]; · iexact Hat7_pay1
    iexact Hat8_pay1
  isplitl [Hat17_pay1 Hat18_pay1 Hat19_pay1 Hat20_pay1 Hat21_pay1 Hat22_pay1 Hat23_pay1 Hat24_pay1]
  · skip
    isplitl [Hat17_pay1]; · iexact Hat17_pay1
    isplitl [Hat18_pay1]; · iexact Hat18_pay1
    isplitl [Hat19_pay1]; · iexact Hat19_pay1
    isplitl [Hat20_pay1]; · iexact Hat20_pay1
    isplitl [Hat21_pay1]; · iexact Hat21_pay1
    isplitl [Hat22_pay1]; · iexact Hat22_pay1
    isplitl [Hat23_pay1]; · iexact Hat23_pay1
    iexact Hat24_pay1
  isplitl [Hat9_pay1 Hat10_pay1 Hat11_pay1 Hat12_pay1 Hat13_pay1 Hat14_pay1 Hat15_pay1 Hat16_pay1]
  · skip
    isplitl [Hat9_pay1]; · (iexists _; iexact Hat9_pay1)
    isplitl [Hat10_pay1]; · (iexists _; iexact Hat10_pay1)
    isplitl [Hat11_pay1]; · (iexists _; iexact Hat11_pay1)
    isplitl [Hat12_pay1]; · (iexists _; iexact Hat12_pay1)
    isplitl [Hat13_pay1]; · (iexists _; iexact Hat13_pay1)
    isplitl [Hat14_pay1]; · (iexists _; iexact Hat14_pay1)
    isplitl [Hat15_pay1]; · (iexists _; iexact Hat15_pay1)
    iexists _; iexact Hat16_pay1
  isplitl [Hat25_pay1 Hat26_pay1 Hat27_pay1 Hat28_pay1 Hat29_pay1 Hat30_pay1 Hat31_pay1 Hat32_pay1]
  · skip
    isplitl [Hat25_pay1]; · (iexists _; iexact Hat25_pay1)
    isplitl [Hat26_pay1]; · (iexists _; iexact Hat26_pay1)
    isplitl [Hat27_pay1]; · (iexists _; iexact Hat27_pay1)
    isplitl [Hat28_pay1]; · (iexists _; iexact Hat28_pay1)
    isplitl [Hat29_pay1]; · (iexists _; iexact Hat29_pay1)
    isplitl [Hat30_pay1]; · (iexists _; iexact Hat30_pay1)
    isplitl [Hat31_pay1]; · (iexists _; iexact Hat31_pay1)
    iexists _; iexact Hat32_pay1
  isplitl [Hz0_0 Hz0_1 Hz0_2 Hz0_3 Hz0_4 Hz0_5 Hz0_6 Hz0_7 Hz1_0 Hz1_1 Hz1_2 Hz1_3 Hz1_4 Hz1_5 Hz1_6 Hz1_7 Hz2_0 Hz2_1 Hz2_2 Hz2_3 Hz2_4 Hz2_5 Hz2_6 Hz2_7 Hz3_0 Hz3_1 Hz3_2 Hz3_3 Hz3_4 Hz3_5 Hz3_6 Hz3_7]
  · skip
    isplitl [Hz0_0]; · iexact Hz0_0
    isplitl [Hz0_1]; · iexact Hz0_1
    isplitl [Hz0_2]; · iexact Hz0_2
    isplitl [Hz0_3]; · iexact Hz0_3
    isplitl [Hz0_4]; · iexact Hz0_4
    isplitl [Hz0_5]; · iexact Hz0_5
    isplitl [Hz0_6]; · iexact Hz0_6
    isplitl [Hz0_7]; · iexact Hz0_7
    isplitl [Hz1_0]; · iexact Hz1_0
    isplitl [Hz1_1]; · iexact Hz1_1
    isplitl [Hz1_2]; · iexact Hz1_2
    isplitl [Hz1_3]; · iexact Hz1_3
    isplitl [Hz1_4]; · iexact Hz1_4
    isplitl [Hz1_5]; · iexact Hz1_5
    isplitl [Hz1_6]; · iexact Hz1_6
    isplitl [Hz1_7]; · iexact Hz1_7
    isplitl [Hz2_0]; · iexact Hz2_0
    isplitl [Hz2_1]; · iexact Hz2_1
    isplitl [Hz2_2]; · iexact Hz2_2
    isplitl [Hz2_3]; · iexact Hz2_3
    isplitl [Hz2_4]; · iexact Hz2_4
    isplitl [Hz2_5]; · iexact Hz2_5
    isplitl [Hz2_6]; · iexact Hz2_6
    isplitl [Hz2_7]; · iexact Hz2_7
    isplitl [Hz3_0]; · iexact Hz3_0
    isplitl [Hz3_1]; · iexact Hz3_1
    isplitl [Hz3_2]; · iexact Hz3_2
    isplitl [Hz3_3]; · iexact Hz3_3
    isplitl [Hz3_4]; · iexact Hz3_4
    isplitl [Hz3_5]; · iexact Hz3_5
    isplitl [Hz3_6]; · iexact Hz3_6
    iexact Hz3_7
  iexists _; iexact HO

end Cert.KernelIdeal.Tree
end
-- ==== Proof.Launch.lean ====
/-
  The launch: what the four devices' resources at kernel entry give each device's body, and what the bodies give back.
-/
import proofs.«900329_g7700000000000330_dist_treered_v7x_i4_m256_n256_f32_1_alg».proof.Proof.Proto
import proofs.«900329_g7700000000000330_dist_treered_v7x_i4_m256_n256_f32_1_alg».proof.Proof.Body

noncomputable section

namespace Cert.KernelIdeal.Tree

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells of one device, indexed -/

/-- A device's 33 cells: its barrier cell, and cell j of array k. -/
abbrev CIx : Type := Option (Fin 4 × Fin 8)
abbrev csem : CIx → SemLoc sig := fun | none => .reg barS | some (k, j) => .dma (semAt (arr k) j)
abbrev kcell (ck : Dev nD × CIx) : GSem nD τ sig := ((ck.1 : Thread nD τ), csem ck.2)
/-- The kernel's own (scoped) semaphores: the 32 DMA semaphores. -/
abbrev osem : Fin 4 × Fin 8 → SemLoc sig := fun kj => .dma (semAt (arr kj.1) kj.2)

theorem csem_injective : Function.Injective csem := by
  intro a b h
  match a, b with
  | none, none => rfl
  | none, some _ => cases h
  | some _, none => cases h
  | some (k, j), some (k', j') =>
    have h' : semAt (arr k) j = semAt (arr k') j' := by injection h
    obtain ⟨rfl, rfl⟩ := semAt_inj k k' j j' h'
    rfl

theorem kcell_injective : Function.Injective (kcell : Dev nD × CIx → GSem nD τ sig) := by
  rintro ⟨c, i⟩ ⟨c', i'⟩ h
  have h1 : c = c' := congrArg (fun g : GSem nD τ sig => g.1.1) h
  subst h1
  have h2 : csem i = csem i' := congrArg Prod.snd h
  rw [csem_injective h2]

def treeCells : Finset (GSem nD τ sig) := Finset.univ.map ⟨kcell, kcell_injective⟩

/-- The duty tokens minted for a device's own cells: the barrier's two, each DMA cell's one. -/
abbrev TIx : Type := Bool ⊕ (Fin 4 × Fin 8)
abbrev tokOf (ct : Dev nD × TIx) : GSem nD τ sig × ℕ × Bool := match ct.2 with
  | .inl d => (barCell ct.1, 0, d)
  | .inr (k, j) => (dcell k ct.1 j, 0, false)
theorem tokOf_injective : Function.Injective (tokOf : Dev nD × TIx → GSem nD τ sig × ℕ × Bool) := by
  rintro ⟨c, t⟩ ⟨c', t'⟩ h
  have h1 : c = c' := by
    have := congrArg (fun x : GSem nD τ sig × ℕ × Bool => x.1.1.1) h
    cases t <;> cases t' <;> exact this
  subst h1
  have h2 := congrArg (fun x : GSem nD τ sig × ℕ × Bool => (x.1.2, x.2.2)) h
  match t, t' with
  | .inl d, .inl d' => have : d = d' := congrArg Prod.snd h2; rw [this]
  | .inl _, .inr (_, _) => exact absurd (congrArg Prod.fst h2) (fun h' => by cases h')
  | .inr (_, _), .inl _ => exact absurd (congrArg Prod.fst h2) (fun h' => by cases h')
  | .inr (k, j), .inr (k', j') =>
    have h3 : semAt (arr k) j = semAt (arr k') j' := by have := congrArg Prod.fst h2; injection this
    obtain ⟨rfl, rfl⟩ := semAt_inj k k' j j' h3
    rfl
def treeToks : Finset (GSem nD τ sig × ℕ × Bool) := Finset.univ.map ⟨tokOf, tokOf_injective⟩

def u₀ : UU :=
  (initOf (Pipeline.cells cfgs cellOf_inj) (Pipeline.launchToks cfgs cellOf_inj), initOf treeCells treeToks)

theorem ownSemFacts : Pipeline.OwnSemFacts cfg0.spec osem := by decide

/-! ## What a device's body starts from, and the proof data -/

def start (c : Dev nD) : sProp 𝕄 := iprop((∃ K, ghost m K c) ∗ credsOf c ∗ levAts Lset lv)

def Φ₀ (c : Dev nD) : sProp 𝕄 :=
  iprop(start m c ∗ (∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))
/-- After the body: the two landing buffers over some contents, the 32 own cells closed at zero. -/
def Φ₁ (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ bigSep Finset.univ fun kj : Fin 4 × Fin 8 => semVal (dcell kj.1 c kj.2) 0)

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def dats (_ : Fin 1) (c : Dev nD) : Dat τ (Elt F) Unit ℕ UU ℕ cfg0 c where
  A w := m ((cfg0.win w).arr.view.loc (c : Thread nD τ))
  after w _ := match w with
    | ⟨0, _⟩ => X m c
    | ⟨1, _⟩ => OutF m c
  Φ t := match t with
    | ⟨0, _⟩ => Φ₀ m c
    | ⟨_ + 1, _⟩ => Φ₁ c
  q _ := fullShare
  owed t := match t with
    | ⟨0, _⟩ => O₀ c
    | ⟨_ + 1, _⟩ => 0

theorem share_eq (c : Dev nD) (w : Fin cfg0.W) : (dats m 0 c).share w = fullShare := by unfold Dat.share; split <;> rfl

/-! ## The launch credit -/

omit [FloatOps F] in
theorem creds (c : Dev nD) : (Pipeline.launchCred O₀ c : sProp 𝕄) ⊢ credsOf c := by
  unfold O₀ credsOf
  simp only [Pipeline.launchCred_add]
  iintro ⟨⟨⟨⟨⟨⟨⟨⟨⟨⟨⟨⟨⟨⟨⟨⟨⟨HR2_7, HR2_6⟩, HR2_5⟩, HR2_4⟩, HR2_3⟩, HR2_2⟩, HR2_1⟩, HR2_0⟩, HR1_7⟩, HR1_6⟩, HR1_5⟩, HR1_4⟩, HR1_3⟩, HR1_2⟩, HR1_1⟩, HR1_0⟩, HB2⟩, HB1⟩
  ihave HR2_7 := (Pipeline.launchCred_tallyAt (.dma (semAt (arr 3) 7)) p1 p1 p1_p1 p1_p1 () 1024 c) $$ HR2_7
  ihave HR2_6 := (Pipeline.launchCred_tallyAt (.dma (semAt (arr 3) 6)) p2 p2 p2_p2 p2_p2 () 1024 c) $$ HR2_6
  ihave HR2_5 := (Pipeline.launchCred_tallyAt (.dma (semAt (arr 3) 5)) p1 p1 p1_p1 p1_p1 () 1024 c) $$ HR2_5
  ihave HR2_4 := (Pipeline.launchCred_tallyAt (.dma (semAt (arr 3) 4)) p2 p2 p2_p2 p2_p2 () 1024 c) $$ HR2_4
  ihave HR2_3 := (Pipeline.launchCred_tallyAt (.dma (semAt (arr 3) 3)) p1 p1 p1_p1 p1_p1 () 1024 c) $$ HR2_3
  ihave HR2_2 := (Pipeline.launchCred_tallyAt (.dma (semAt (arr 3) 2)) p2 p2 p2_p2 p2_p2 () 1024 c) $$ HR2_2
  ihave HR2_1 := (Pipeline.launchCred_tallyAt (.dma (semAt (arr 3) 1)) p1 p1 p1_p1 p1_p1 () 1024 c) $$ HR2_1
  ihave HR2_0 := (Pipeline.launchCred_tallyAt (.dma (semAt (arr 3) 0)) p2 p2 p2_p2 p2_p2 () 1024 c) $$ HR2_0
  ihave HR1_7 := (Pipeline.launchCred_tallyAt (.dma (semAt (arr 1) 7)) p2 p2 p2_p2 p2_p2 () 1024 c) $$ HR1_7
  ihave HR1_6 := (Pipeline.launchCred_tallyAt (.dma (semAt (arr 1) 6)) p1 p1 p1_p1 p1_p1 () 1024 c) $$ HR1_6
  ihave HR1_5 := (Pipeline.launchCred_tallyAt (.dma (semAt (arr 1) 5)) p2 p2 p2_p2 p2_p2 () 1024 c) $$ HR1_5
  ihave HR1_4 := (Pipeline.launchCred_tallyAt (.dma (semAt (arr 1) 4)) p1 p1 p1_p1 p1_p1 () 1024 c) $$ HR1_4
  ihave HR1_3 := (Pipeline.launchCred_tallyAt (.dma (semAt (arr 1) 3)) p2 p2 p2_p2 p2_p2 () 1024 c) $$ HR1_3
  ihave HR1_2 := (Pipeline.launchCred_tallyAt (.dma (semAt (arr 1) 2)) p1 p1 p1_p1 p1_p1 () 1024 c) $$ HR1_2
  ihave HR1_1 := (Pipeline.launchCred_tallyAt (.dma (semAt (arr 1) 1)) p2 p2 p2_p2 p2_p2 () 1024 c) $$ HR1_1
  ihave HR1_0 := (Pipeline.launchCred_tallyAt (.dma (semAt (arr 1) 0)) p1 p1 p1_p1 p1_p1 () 1024 c) $$ HR1_0
  ihave HB2 := (Pipeline.launchCred_tallyAt (.reg barS) p2 p2 p2_p2 p2_p2 () 1 c) $$ HB2
  ihave HB1 := (Pipeline.launchCred_tallyAt (.reg barS) p1 p1 p1_p1 p1_p1 () 1 c) $$ HB1
  isplitl [HB1 HB2]
  · rw [← tallyAt_add (barCell c) () 1 1]
    iapply (cred_add _ _).2
    isplitl [HB1] <;> iassumption
  isplitl [HR1_0]; · iexact HR1_0
  isplitl [HR1_1]; · iexact HR1_1
  isplitl [HR1_2]; · iexact HR1_2
  isplitl [HR1_3]; · iexact HR1_3
  isplitl [HR1_4]; · iexact HR1_4
  isplitl [HR1_5]; · iexact HR1_5
  isplitl [HR1_6]; · iexact HR1_6
  isplitl [HR1_7]; · iexact HR1_7
  isplitl [HR2_0]; · iexact HR2_0
  isplitl [HR2_1]; · iexact HR2_1
  isplitl [HR2_2]; · iexact HR2_2
  isplitl [HR2_3]; · iexact HR2_3
  isplitl [HR2_4]; · iexact HR2_4
  isplitl [HR2_5]; · iexact HR2_5
  isplitl [HR2_6]; · iexact HR2_6
  iexact HR2_7

/-! ## Funding the protocol's ghost state and dealing it to the devices -/

/-- The duty tokens minted for device c's own cells. -/
def toksMint (c : Dev nD) : sProp 𝕄 :=
  bigSep Finset.univ fun t : TIx => dutyTok ER (tokOf (c, t)).1 (tokOf (c, t)).2.1 (tokOf (c, t)).2.2

/-- What the launch element deals device c. -/
def G (c : Dev nD) : sProp 𝕄 :=
  iprop((bigSep Finset.univ fun i : CIx => roundState ER (sched m) (kcell (c, i)) 0)
    ∗ (bigSep Finset.univ fun i : CIx => iprop(atPos ER (kcell (c, i)) 0 ∅ 0 ∗ reached ER (kcell (c, i)) 0)) ∗ toksMint c)

/-- What the global step makes of it. -/
def G' (c : Dev nD) : sProp 𝕄 := iprop(∃ K, ghost m K c)

omit [FloatOps F] in
instance slotA_storable (a : Dev nD) (j : Fin 8) : BI.Storable (upEmb : UEmb _ 𝕄) (slotA (F := F) a j) := by unfold slotA; infer_instance
omit [FloatOps F] in
instance slotB_storable (a : Dev nD) (j : Fin 8) : BI.Storable (upEmb : UEmb _ 𝕄) (slotB (F := F) a j) := by unfold slotB; infer_instance

set_option synthInstance.maxHeartbeats 1000000 in
omit [FloatOps F] in
instance gift_storable (a : Dev nD) (d : Bool) : BI.Storable (upEmb : UEmb _ 𝕄) (gift (F := F) a d) := by
  cases d
  · rw [gift_false]; infer_instance
  · rw [gift_true]; infer_instance

instance sched_payload_storable (g : GSem nD τ sig) (r : ℕ) (d : Bool) :
    BI.Storable (upEmb : UEmb _ 𝕄) ((sched (F := F) m).payload g r d) := by
  rcases g with ⟨t, s | s⟩
  · show BI.Storable upEmb (if s = barS then gift (if d then p2 t.1 else p1 t.1) d else iprop(emp))
    split <;> infer_instance
  · show BI.Storable upEmb (match kind s with | some (k, j) => dmaPay m k t.1 j | none => iprop(emp))
    split
    · rename_i k j _
      fin_cases k <;> (unfold dmaPay; infer_instance)
    · infer_instance

theorem fund_tree : BI.own (ER (initOf treeCells treeToks)) ⊢ (|==> bigSep Finset.univ (G m) : sProp 𝕄) := by
  have hX (Φ : GSem nD τ sig → sProp 𝕄) : bigSep treeCells Φ = bigSep Finset.univ fun c : Dev nD => bigSep Finset.univ fun i : CIx => Φ (kcell (c, i)) := by
    unfold treeCells; rw [bigSep_map, bigSep_univ_prod]; rfl
  have hT : bigSep treeToks (fun x => (dutyTok ER x.1 x.2.1 x.2.2 : sProp 𝕄)) = bigSep Finset.univ fun c : Dev nD => toksMint c := by
    unfold treeToks; rw [bigSep_map, bigSep_univ_prod]; rfl
  iintro HX
  imod (Rounds.fund ER (sched m) treeCells treeToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
theorem bigSep_univ_option {α : Type} [Fintype α] [DecidableEq α] (Φ : Option α → sProp 𝕄) :
    bigSep Finset.univ Φ = iprop(Φ none ∗ bigSep Finset.univ fun a : α => Φ (some a)) := by
  rw [show (Finset.univ : Finset (Option α)) = insert none (Finset.univ.map Function.Embedding.some) from by
    ext x; cases x <;> simp]
  rw [bigSep_insert (by simp), bigSep_map]
  rfl

omit [FloatOps F] in
theorem ownSems0_eq (c : Dev nD) : (Pipeline.ownSems0 (Ix := Unit) (Name := ℕ) (U := UU) (Lvl := ℕ) (Val := Elt F) (τ := τ) osem c : sProp 𝕄)
    = bigSep Finset.univ fun kj : Fin 4 × Fin 8 => semVal (dcell kj.1 c kj.2) 0 := rfl
omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun i : CIx => semVal (kcell (c, i)) 0 : sProp 𝕄) := by
  rw [bigSep_univ_option, ownSems0_eq, unscopedSems0_eq]
  iintro ⟨Hos, Hus⟩
  isplitl [Hus]; · iexact Hus
  iexact Hos

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun i : CIx => iprop(∃ κ : ℕ, cellInv ER (sched m) κ (kcell (c, i))))
          ∗ (bigSep Finset.univ fun i : CIx => iprop(atPos ER (kcell (c, i)) 0 ∅ 0 ∗ reached ER (kcell (c, i)) 0)) ∗ toksMint c) := by
  unfold G
  iintro ⟨Hos, Hus, Hst, Hat, Htok⟩
  ihave Hv := (sems0_eq (F := F) c) $$ [Hos Hus]
  · isplitl [Hos] <;> iassumption
  imod (show iprop((bigSep Finset.univ fun i : CIx => semVal (kcell (c, i)) 0) ∗ bigSep Finset.univ fun i : CIx => roundState ER (sched m) (kcell (c, i)) 0)
      ⊢ (|={Set.univ}=> bigSep Finset.univ fun i : CIx => iprop(∃ κ : ℕ, cellInv ER (sched m) κ (kcell (c, i))) : sProp 𝕄) from by
        rw [← bigSep_sep']
        exact (bigSep_mono fun i _ => (Rounds.body_intro ER (sched m) (kcell (c, i))).trans inv_alloc).trans (bigSep_fupd _ _)) $$ [Hv Hst] with Hinv
  · isplitl [Hv] <;> iassumption
  imodintro
  isplitl [Hinv]; · iexact Hinv
  isplitl [Hat]; · iexact Hat
  iexact Htok

/-! ## Regrouping: every device gets the invariants and marks of the cells it touches, and the tokens it pays with -/

/-- Names by cell, from names by (device, index). -/
def Kof (Kp : Dev nD × CIx → ℕ) : GSem nD τ sig → ℕ := fun g =>
  if h : ∃ ck, kcell ck = g then Kp h.choose else 0
theorem Kof_kcell (Kp : Dev nD × CIx → ℕ) (ck : Dev nD × CIx) : Kof Kp (kcell ck) = Kp ck := by
  unfold Kof
  have h : ∃ ck', kcell ck' = kcell ck := ⟨ck, rfl⟩
  rw [dif_pos h, kcell_injective h.choose_spec]

def records (Kp : Dev nD × CIx → ℕ) : sProp 𝕄 :=
  iprop((bigSep Finset.univ fun ck : Dev nD × CIx => cellInv ER (sched m) (Kp ck) (kcell ck))
    ∗ bigSep Finset.univ fun ck : Dev nD × CIx => reached ER (kcell ck) 0)
instance records_persistent (Kp : Dev nD × CIx → ℕ) : BI.Persistent (records m Kp) := by unfold records; infer_instance

theorem inv_at (Kp : Dev nD × CIx → ℕ) (ck : Dev nD × CIx) :
    (bigSep Finset.univ fun ck : Dev nD × CIx => (cellInv ER (sched m) (Kp ck) (kcell ck) : sProp 𝕄)) ⊢ cellInv ER (sched m) (Kof Kp (kcell ck)) (kcell ck) := by
  rw [Kof_kcell]; exact bigSep_elim (Finset.mem_univ ck)
omit [FloatOps F] in
theorem reached_at (ck : Dev nD × CIx) :
    (bigSep Finset.univ fun ck : Dev nD × CIx => (reached ER (kcell ck) 0 : sProp 𝕄)) ⊢ reached ER (kcell ck) 0 :=
  bigSep_elim (Finset.mem_univ ck)

/-- What stays with device c: its own cells' positions, and the tokens of the duties it pays. -/
def linear (c : Dev nD) : sProp 𝕄 :=
  iprop((atPos ER (barCell c) 0 ∅ 0
    ∗ atPos ER (dcell 0 c 0) 0 ∅ 0
    ∗ atPos ER (dcell 0 c 1) 0 ∅ 0
    ∗ atPos ER (dcell 0 c 2) 0 ∅ 0
    ∗ atPos ER (dcell 0 c 3) 0 ∅ 0
    ∗ atPos ER (dcell 0 c 4) 0 ∅ 0
    ∗ atPos ER (dcell 0 c 5) 0 ∅ 0
    ∗ atPos ER (dcell 0 c 6) 0 ∅ 0
    ∗ atPos ER (dcell 0 c 7) 0 ∅ 0
    ∗ atPos ER (dcell 1 c 0) 0 ∅ 0
    ∗ atPos ER (dcell 1 c 1) 0 ∅ 0
    ∗ atPos ER (dcell 1 c 2) 0 ∅ 0
    ∗ atPos ER (dcell 1 c 3) 0 ∅ 0
    ∗ atPos ER (dcell 1 c 4) 0 ∅ 0
    ∗ atPos ER (dcell 1 c 5) 0 ∅ 0
    ∗ atPos ER (dcell 1 c 6) 0 ∅ 0
    ∗ atPos ER (dcell 1 c 7) 0 ∅ 0
    ∗ atPos ER (dcell 2 c 0) 0 ∅ 0
    ∗ atPos ER (dcell 2 c 1) 0 ∅ 0
    ∗ atPos ER (dcell 2 c 2) 0 ∅ 0
    ∗ atPos ER (dcell 2 c 3) 0 ∅ 0
    ∗ atPos ER (dcell 2 c 4) 0 ∅ 0
    ∗ atPos ER (dcell 2 c 5) 0 ∅ 0
    ∗ atPos ER (dcell 2 c 6) 0 ∅ 0
    ∗ atPos ER (dcell 2 c 7) 0 ∅ 0
    ∗ atPos ER (dcell 3 c 0) 0 ∅ 0
    ∗ atPos ER (dcell 3 c 1) 0 ∅ 0
    ∗ atPos ER (dcell 3 c 2) 0 ∅ 0
    ∗ atPos ER (dcell 3 c 3) 0 ∅ 0
    ∗ atPos ER (dcell 3 c 4) 0 ∅ 0
    ∗ atPos ER (dcell 3 c 5) 0 ∅ 0
    ∗ atPos ER (dcell 3 c 6) 0 ∅ 0
    ∗ atPos ER (dcell 3 c 7) 0 ∅ 0)
    ∗ (dutyTok ER (barCell (p1 c)) 0 false
    ∗ dutyTok ER (barCell (p2 c)) 0 true
    ∗ dutyTok ER (dcell 0 c 0) 0 false
    ∗ dutyTok ER (dcell 0 c 1) 0 false
    ∗ dutyTok ER (dcell 0 c 2) 0 false
    ∗ dutyTok ER (dcell 0 c 3) 0 false
    ∗ dutyTok ER (dcell 0 c 4) 0 false
    ∗ dutyTok ER (dcell 0 c 5) 0 false
    ∗ dutyTok ER (dcell 0 c 6) 0 false
    ∗ dutyTok ER (dcell 0 c 7) 0 false
    ∗ dutyTok ER (dcell 1 (p1 c) 0) 0 false
    ∗ dutyTok ER (dcell 1 (p2 c) 1) 0 false
    ∗ dutyTok ER (dcell 1 (p1 c) 2) 0 false
    ∗ dutyTok ER (dcell 1 (p2 c) 3) 0 false
    ∗ dutyTok ER (dcell 1 (p1 c) 4) 0 false
    ∗ dutyTok ER (dcell 1 (p2 c) 5) 0 false
    ∗ dutyTok ER (dcell 1 (p1 c) 6) 0 false
    ∗ dutyTok ER (dcell 1 (p2 c) 7) 0 false
    ∗ dutyTok ER (dcell 2 c 0) 0 false
    ∗ dutyTok ER (dcell 2 c 1) 0 false
    ∗ dutyTok ER (dcell 2 c 2) 0 false
    ∗ dutyTok ER (dcell 2 c 3) 0 false
    ∗ dutyTok ER (dcell 2 c 4) 0 false
    ∗ dutyTok ER (dcell 2 c 5) 0 false
    ∗ dutyTok ER (dcell 2 c 6) 0 false
    ∗ dutyTok ER (dcell 2 c 7) 0 false
    ∗ dutyTok ER (dcell 3 (p2 c) 0) 0 false
    ∗ dutyTok ER (dcell 3 (p1 c) 1) 0 false
    ∗ dutyTok ER (dcell 3 (p2 c) 2) 0 false
    ∗ dutyTok ER (dcell 3 (p1 c) 3) 0 false
    ∗ dutyTok ER (dcell 3 (p2 c) 4) 0 false
    ∗ dutyTok ER (dcell 3 (p1 c) 5) 0 false
    ∗ dutyTok ER (dcell 3 (p2 c) 6) 0 false
    ∗ dutyTok ER (dcell 3 (p1 c) 7) 0 false))

theorem ghost_intro (Kp : Dev nD × CIx → ℕ) (c : Dev nD) : iprop(records m Kp ∗ linear c) ⊢ G' m c := by
  unfold records linear G' ghost
  iintro ⟨⟨#HI, #HR⟩, Hpos, Htok⟩
  iexists (Kof Kp)
  isplitr
  · isplitr; · (iapply (inv_at m Kp (c, none)); iexact HI)
    isplitr; · (iapply (inv_at m Kp (p1 c, none)); iexact HI)
    isplitr; · (iapply (inv_at m Kp (p2 c, none)); iexact HI)
    isplitr; · (iapply (inv_at m Kp (c, some (0, 0))); iexact HI)
    isplitr; · (iapply (inv_at m Kp (c, some (0, 1))); iexact HI)
    isplitr; · (iapply (inv_at m Kp (c, some (0, 2))); iexact HI)
    isplitr; · (iapply (inv_at m Kp (c, some (0, 3))); iexact HI)
    isplitr; · (iapply (inv_at m Kp (c, some (0, 4))); iexact HI)
    isplitr; · (iapply (inv_at m Kp (c, some (0, 5))); iexact HI)
    isplitr; · (iapply (inv_at m Kp (c, some (0, 6))); iexact HI)
    isplitr; · (iapply (inv_at m Kp (c, some (0, 7))); iexact HI)
    isplitr; · (iapply (inv_at m Kp (c, some (1, 0))); iexact HI)
    isplitr; · (iapply (inv_at m Kp (c, some (1, 1))); iexact HI)
    isplitr; · (iapply (inv_at m Kp (c, some (1, 2))); iexact HI)
    isplitr; · (iapply (inv_at m Kp (c, some (1, 3))); iexact HI)
    isplitr; · (iapply (inv_at m Kp (c, some (1, 4))); iexact HI)
    isplitr; · (iapply (inv_at m Kp (c, some (1, 5))); iexact HI)
    isplitr; · (iapply (inv_at m Kp (c, some (1, 6))); iexact HI)
    isplitr; · (iapply (inv_at m Kp (c, some (1, 7))); iexact HI)
    isplitr; · (iapply (inv_at m Kp (c, some (2, 0))); iexact HI)
    isplitr; · (iapply (inv_at m Kp (c, some (2, 1))); iexact HI)
    isplitr; · (iapply (inv_at m Kp (c, some (2, 2))); iexact HI)
    isplitr; · (iapply (inv_at m Kp (c, some (2, 3))); iexact HI)
    isplitr; · (iapply (inv_at m Kp (c, some (2, 4))); iexact HI)
    isplitr; · (iapply (inv_at m Kp (c, some (2, 5))); iexact HI)
    isplitr; · (iapply (inv_at m Kp (c, some (2, 6))); iexact HI)
    isplitr; · (iapply (inv_at m Kp (c, some (2, 7))); iexact HI)
    isplitr; · (iapply (inv_at m Kp (c, some (3, 0))); iexact HI)
    isplitr; · (iapply (inv_at m Kp (c, some (3, 1))); iexact HI)
    isplitr; · (iapply (inv_at m Kp (c, some (3, 2))); iexact HI)
    isplitr; · (iapply (inv_at m Kp (c, some (3, 3))); iexact HI)
    isplitr; · (iapply (inv_at m Kp (c, some (3, 4))); iexact HI)
    isplitr; · (iapply (inv_at m Kp (c, some (3, 5))); iexact HI)
    isplitr; · (iapply (inv_at m Kp (c, some (3, 6))); iexact HI)
    isplitr; · (iapply (inv_at m Kp (c, some (3, 7))); iexact HI)
    isplitr; · (iapply (inv_at m Kp (p1 c, some (1, 0))); iexact HI)
    isplitr; · (iapply (inv_at m Kp (p2 c, some (1, 1))); iexact HI)
    isplitr; · (iapply (inv_at m Kp (p1 c, some (1, 2))); iexact HI)
    isplitr; · (iapply (inv_at m Kp (p2 c, some (1, 3))); iexact HI)
    isplitr; · (iapply (inv_at m Kp (p1 c, some (1, 4))); iexact HI)
    isplitr; · (iapply (inv_at m Kp (p2 c, some (1, 5))); iexact HI)
    isplitr; · (iapply (inv_at m Kp (p1 c, some (1, 6))); iexact HI)
    isplitr; · (iapply (inv_at m Kp (p2 c, some (1, 7))); iexact HI)
    isplitr; · (iapply (inv_at m Kp (p2 c, some (3, 0))); iexact HI)
    isplitr; · (iapply (inv_at m Kp (p1 c, some (3, 1))); iexact HI)
    isplitr; · (iapply (inv_at m Kp (p2 c, some (3, 2))); iexact HI)
    isplitr; · (iapply (inv_at m Kp (p1 c, some (3, 3))); iexact HI)
    isplitr; · (iapply (inv_at m Kp (p2 c, some (3, 4))); iexact HI)
    isplitr; · (iapply (inv_at m Kp (p1 c, some (3, 5))); iexact HI)
    isplitr; · (iapply (inv_at m Kp (p2 c, some (3, 6))); iexact HI)
    iapply (inv_at m Kp (p1 c, some (3, 7))); iexact HI
  isplitr
  · isplitr; · (iapply (reached_at (F := F) (p1 c, none)); iexact HR)
    isplitr; · (iapply (reached_at (F := F) (p2 c, none)); iexact HR)
    isplitr; · (iapply (reached_at (F := F) (c, some (0, 0))); iexact HR)
    isplitr; · (iapply (reached_at (F := F) (c, some (0, 1))); iexact HR)
    isplitr; · (iapply (reached_at (F := F) (c, some (0, 2))); iexact HR)
    isplitr; · (iapply (reached_at (F := F) (c, some (0, 3))); iexact HR)
    isplitr; · (iapply (reached_at (F := F) (c, some (0, 4))); iexact HR)
    isplitr; · (iapply (reached_at (F := F) (c, some (0, 5))); iexact HR)
    isplitr; · (iapply (reached_at (F := F) (c, some (0, 6))); iexact HR)
    isplitr; · (iapply (reached_at (F := F) (c, some (0, 7))); iexact HR)
    isplitr; · (iapply (reached_at (F := F) (c, some (2, 0))); iexact HR)
    isplitr; · (iapply (reached_at (F := F) (c, some (2, 1))); iexact HR)
    isplitr; · (iapply (reached_at (F := F) (c, some (2, 2))); iexact HR)
    isplitr; · (iapply (reached_at (F := F) (c, some (2, 3))); iexact HR)
    isplitr; · (iapply (reached_at (F := F) (c, some (2, 4))); iexact HR)
    isplitr; · (iapply (reached_at (F := F) (c, some (2, 5))); iexact HR)
    isplitr; · (iapply (reached_at (F := F) (c, some (2, 6))); iexact HR)
    isplitr; · (iapply (reached_at (F := F) (c, some (2, 7))); iexact HR)
    isplitr; · (iapply (reached_at (F := F) (p1 c, some (1, 0))); iexact HR)
    isplitr; · (iapply (reached_at (F := F) (p2 c, some (1, 1))); iexact HR)
    isplitr; · (iapply (reached_at (F := F) (p1 c, some (1, 2))); iexact HR)
    isplitr; · (iapply (reached_at (F := F) (p2 c, some (1, 3))); iexact HR)
    isplitr; · (iapply (reached_at (F := F) (p1 c, some (1, 4))); iexact HR)
    isplitr; · (iapply (reached_at (F := F) (p2 c, some (1, 5))); iexact HR)
    isplitr; · (iapply (reached_at (F := F) (p1 c, some (1, 6))); iexact HR)
    isplitr; · (iapply (reached_at (F := F) (p2 c, some (1, 7))); iexact HR)
    isplitr; · (iapply (reached_at (F := F) (p2 c, some (3, 0))); iexact HR)
    isplitr; · (iapply (reached_at (F := F) (p1 c, some (3, 1))); iexact HR)
    isplitr; · (iapply (reached_at (F := F) (p2 c, some (3, 2))); iexact HR)
    isplitr; · (iapply (reached_at (F := F) (p1 c, some (3, 3))); iexact HR)
    isplitr; · (iapply (reached_at (F := F) (p2 c, some (3, 4))); iexact HR)
    isplitr; · (iapply (reached_at (F := F) (p1 c, some (3, 5))); iexact HR)
    isplitr; · (iapply (reached_at (F := F) (p2 c, some (3, 6))); iexact HR)
    iapply (reached_at (F := F) (p1 c, some (3, 7))); iexact HR
  isplitl [Hpos]; · iexact Hpos
  iexact Htok

/-! ### The tokens dealt round to their payers -/

def p1e : Dev nD ≃ Dev nD := ⟨p1, p1, p1_p1, p1_p1⟩
def p2e : Dev nD ≃ Dev nD := ⟨p2, p2, p2_p2, p2_p2⟩
/-- (device, chunk) to (its first partner on that chunk, chunk): an involution; and the same for the second partner. -/
def pe1 : Dev nD × Fin 8 ≃ Dev nD × Fin 8 := ⟨fun x => (peer1 x.1 x.2, x.2), fun x => (peer1 x.1 x.2, x.2), fun x => by simp [peer1_peer1], fun x => by simp [peer1_peer1]⟩
def pe2 : Dev nD × Fin 8 ≃ Dev nD × Fin 8 := ⟨fun x => (peer2 x.1 x.2, x.2), fun x => (peer2 x.1 x.2, x.2), fun x => by simp [peer2_peer2], fun x => by simp [peer2_peer2]⟩

/-- The minted tokens of device c's own cells, grouped; -/
def toksOwn (c : Dev nD) : sProp 𝕄 :=
  iprop(dutyTok ER (barCell c) 0 false ∗ dutyTok ER (barCell c) 0 true
    ∗ (bigSep Finset.univ fun j : Fin 8 => dutyTok ER (dcell 0 c j) 0 false) ∗ (bigSep Finset.univ fun j : Fin 8 => dutyTok ER (dcell 1 c j) 0 false)
    ∗ (bigSep Finset.univ fun j : Fin 8 => dutyTok ER (dcell 2 c j) 0 false) ∗ (bigSep Finset.univ fun j : Fin 8 => dutyTok ER (dcell 3 c j) 0 false))
/-- the tokens device c pays with, grouped. -/
def toksPay (c : Dev nD) : sProp 𝕄 :=
  iprop(dutyTok ER (barCell (p1 c)) 0 false ∗ dutyTok ER (barCell (p2 c)) 0 true
    ∗ (bigSep Finset.univ fun j : Fin 8 => dutyTok ER (dcell 0 c j) 0 false) ∗ (bigSep Finset.univ fun j : Fin 8 => dutyTok ER (dcell 1 (peer1 c j) j) 0 false)
    ∗ (bigSep Finset.univ fun j : Fin 8 => dutyTok ER (dcell 2 c j) 0 false) ∗ (bigSep Finset.univ fun j : Fin 8 => dutyTok ER (dcell 3 (peer2 c j) j) 0 false))

omit [FloatOps F] in
theorem toks_around : (bigSep Finset.univ fun c : Dev nD => (toksOwn c : sProp 𝕄)) ⊢ bigSep Finset.univ fun c : Dev nD => toksPay c := by
  unfold toksOwn toksPay
  rw [bigSep_sep', bigSep_sep', bigSep_sep', bigSep_sep', bigSep_sep', bigSep_sep', bigSep_sep', bigSep_sep', bigSep_sep', bigSep_sep',
    bigSep_univ_equiv p1e (fun c : Dev nD => (dutyTok ER (barCell c) 0 false : sProp 𝕄)),
    bigSep_univ_equiv p2e (fun c : Dev nD => (dutyTok ER (barCell c) 0 true : sProp 𝕄)),
    ← bigSep_univ_prod (fun x : Dev nD × Fin 8 => (dutyTok ER (dcell 1 x.1 x.2) 0 false : sProp 𝕄)),
    ← bigSep_univ_prod (fun x : Dev nD × Fin 8 => (dutyTok ER (dcell 3 x.1 x.2) 0 false : sProp 𝕄)),
    ← bigSep_univ_prod (fun x : Dev nD × Fin 8 => (dutyTok ER (dcell 1 (peer1 x.1 x.2) x.2) 0 false : sProp 𝕄)),
    ← bigSep_univ_prod (fun x : Dev nD × Fin 8 => (dutyTok ER (dcell 3 (peer2 x.1 x.2) x.2) 0 false : sProp 𝕄)),
    bigSep_univ_equiv pe1 (fun x : Dev nD × Fin 8 => (dutyTok ER (dcell 1 x.1 x.2) 0 false : sProp 𝕄)),
    bigSep_univ_equiv pe2 (fun x : Dev nD × Fin 8 => (dutyTok ER (dcell 3 x.1 x.2) 0 false : sProp 𝕄))]
  exact BI.Entails.refl _

omit [FloatOps F] in
theorem bigSep_fin8 (Φ : Fin 8 → sProp 𝕄) :
    bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ
omit [FloatOps F] in
theorem bigSep_kj (Φ : Fin 4 × Fin 8 → sProp 𝕄) :
    bigSep Finset.univ Φ = iprop(Φ (0, 0) ∗ Φ (0, 1) ∗ Φ (0, 2) ∗ Φ (0, 3) ∗ Φ (0, 4) ∗ Φ (0, 5) ∗ Φ (0, 6) ∗ Φ (0, 7) ∗ Φ (1, 0) ∗ Φ (1, 1) ∗ Φ (1, 2) ∗ Φ (1, 3) ∗ Φ (1, 4) ∗ Φ (1, 5) ∗ Φ (1, 6) ∗ Φ (1, 7) ∗ Φ (2, 0) ∗ Φ (2, 1) ∗ Φ (2, 2) ∗ Φ (2, 3) ∗ Φ (2, 4) ∗ Φ (2, 5) ∗ Φ (2, 6) ∗ Φ (2, 7) ∗ Φ (3, 0) ∗ Φ (3, 1) ∗ Φ (3, 2) ∗ Φ (3, 3) ∗ Φ (3, 4) ∗ Φ (3, 5) ∗ Φ (3, 6) ∗ Φ (3, 7)) :=
  bigSep_univ_eq_bigSepL [(0, 0), (0, 1), (0, 2), (0, 3), (0, 4), (0, 5), (0, 6), (0, 7), (1, 0), (1, 1), (1, 2), (1, 3), (1, 4), (1, 5), (1, 6), (1, 7), (2, 0), (2, 1), (2, 2), (2, 3), (2, 4), (2, 5), (2, 6), (2, 7), (3, 0), (3, 1), (3, 2), (3, 3), (3, 4), (3, 5), (3, 6), (3, 7)] (by decide) (by decide) Φ
omit [FloatOps F] in
theorem bigSep_tix (Φ : TIx → sProp 𝕄) :
    bigSep Finset.univ Φ = iprop(Φ (.inl false) ∗ Φ (.inl true) ∗ Φ (.inr (0, 0)) ∗ Φ (.inr (0, 1)) ∗ Φ (.inr (0, 2)) ∗ Φ (.inr (0, 3)) ∗ Φ (.inr (0, 4)) ∗ Φ (.inr (0, 5)) ∗ Φ (.inr (0, 6)) ∗ Φ (.inr (0, 7)) ∗ Φ (.inr (1, 0)) ∗ Φ (.inr (1, 1)) ∗ Φ (.inr (1, 2)) ∗ Φ (.inr (1, 3)) ∗ Φ (.inr (1, 4)) ∗ Φ (.inr (1, 5)) ∗ Φ (.inr (1, 6)) ∗ Φ (.inr (1, 7)) ∗ Φ (.inr (2, 0)) ∗ Φ (.inr (2, 1)) ∗ Φ (.inr (2, 2)) ∗ Φ (.inr (2, 3)) ∗ Φ (.inr (2, 4)) ∗ Φ (.inr (2, 5)) ∗ Φ (.inr (2, 6)) ∗ Φ (.inr (2, 7)) ∗ Φ (.inr (3, 0)) ∗ Φ (.inr (3, 1)) ∗ Φ (.inr (3, 2)) ∗ Φ (.inr (3, 3)) ∗ Φ (.inr (3, 4)) ∗ Φ (.inr (3, 5)) ∗ Φ (.inr (3, 6)) ∗ Φ (.inr (3, 7))) :=
  bigSep_univ_eq_bigSepL [(Sum.inl false : TIx), (Sum.inl true : TIx), (Sum.inr (0, 0) : TIx), (Sum.inr (0, 1) : TIx), (Sum.inr (0, 2) : TIx), (Sum.inr (0, 3) : TIx), (Sum.inr (0, 4) : TIx), (Sum.inr (0, 5) : TIx), (Sum.inr (0, 6) : TIx), (Sum.inr (0, 7) : TIx), (Sum.inr (1, 0) : TIx), (Sum.inr (1, 1) : TIx), (Sum.inr (1, 2) : TIx), (Sum.inr (1, 3) : TIx), (Sum.inr (1, 4) : TIx), (Sum.inr (1, 5) : TIx), (Sum.inr (1, 6) : TIx), (Sum.inr (1, 7) : TIx), (Sum.inr (2, 0) : TIx), (Sum.inr (2, 1) : TIx), (Sum.inr (2, 2) : TIx), (Sum.inr (2, 3) : TIx), (Sum.inr (2, 4) : TIx), (Sum.inr (2, 5) : TIx), (Sum.inr (2, 6) : TIx), (Sum.inr (2, 7) : TIx), (Sum.inr (3, 0) : TIx), (Sum.inr (3, 1) : TIx), (Sum.inr (3, 2) : TIx), (Sum.inr (3, 3) : TIx), (Sum.inr (3, 4) : TIx), (Sum.inr (3, 5) : TIx), (Sum.inr (3, 6) : TIx), (Sum.inr (3, 7) : TIx)] (by decide) (by decide) Φ

omit [FloatOps F] in
/-- The minted tokens are the own tokens, grouped. -/
theorem mint_own (c : Dev nD) : (toksMint c : sProp 𝕄) ⊢ toksOwn c := by
  unfold toksMint toksOwn
  rw [bigSep_tix, bigSep_fin8, bigSep_fin8, bigSep_fin8, bigSep_fin8]
  iintro ⟨Hf, Ht, H0_0, H0_1, H0_2, H0_3, H0_4, H0_5, H0_6, H0_7, H1_0, H1_1, H1_2, H1_3, H1_4, H1_5, H1_6, H1_7, H2_0, H2_1, H2_2, H2_3, H2_4, H2_5, H2_6, H2_7, H3_0, H3_1, H3_2, H3_3, H3_4, H3_5, H3_6, H3_7⟩
  isplitl [Hf]; · iexact Hf
  isplitl [Ht]; · iexact Ht
  isplitl [H0_0 H0_1 H0_2 H0_3 H0_4 H0_5 H0_6 H0_7]
  · isplitl [H0_0]; · iexact H0_0
    isplitl [H0_1]; · iexact H0_1
    isplitl [H0_2]; · iexact H0_2
    isplitl [H0_3]; · iexact H0_3
    isplitl [H0_4]; · iexact H0_4
    isplitl [H0_5]; · iexact H0_5
    isplitl [H0_6]; · iexact H0_6
    iexact H0_7
  isplitl [H1_0 H1_1 H1_2 H1_3 H1_4 H1_5 H1_6 H1_7]
  · isplitl [H1_0]; · iexact H1_0
    isplitl [H1_1]; · iexact H1_1
    isplitl [H1_2]; · iexact H1_2
    isplitl [H1_3]; · iexact H1_3
    isplitl [H1_4]; · iexact H1_4
    isplitl [H1_5]; · iexact H1_5
    isplitl [H1_6]; · iexact H1_6
    iexact H1_7
  isplitl [H2_0 H2_1 H2_2 H2_3 H2_4 H2_5 H2_6 H2_7]
  · isplitl [H2_0]; · iexact H2_0
    isplitl [H2_1]; · iexact H2_1
    isplitl [H2_2]; · iexact H2_2
    isplitl [H2_3]; · iexact H2_3
    isplitl [H2_4]; · iexact H2_4
    isplitl [H2_5]; · iexact H2_5
    isplitl [H2_6]; · iexact H2_6
    iexact H2_7
  isplitl [H3_0]; · iexact H3_0
  isplitl [H3_1]; · iexact H3_1
  isplitl [H3_2]; · iexact H3_2
  isplitl [H3_3]; · iexact H3_3
  isplitl [H3_4]; · iexact H3_4
  isplitl [H3_5]; · iexact H3_5
  isplitl [H3_6]; · iexact H3_6
  iexact H3_7

/-- A device's positions and the tokens it pays with, written out. -/
theorem lin_intro (c : Dev nD) :
    (iprop((bigSep Finset.univ fun i : CIx => (atPos ER (kcell (c, i)) 0 ∅ 0 : sProp 𝕄)) ∗ toksPay (F := F) c) : sProp 𝕄) ⊢ (linear (F := F) c : sProp 𝕄) := by
  unfold toksPay linear
  iintro ⟨Hpos, Hb1, Hb2, HS1, HR1, HS2, HR2⟩
  ihave Hpos := (Entails.of_eq (bigSep_univ_option (F := F) _)) $$ Hpos
  icases Hpos with ⟨Hp0, Hpr⟩
  ihave Hpr := (Entails.of_eq (bigSep_kj (F := F) _)) $$ Hpr
  ihave HS1 := (Entails.of_eq (bigSep_fin8 (F := F) _)) $$ HS1
  icases HS1 with ⟨HS1_0, HS1_1, HS1_2, HS1_3, HS1_4, HS1_5, HS1_6, HS1_7⟩
  ihave HR1 := (Entails.of_eq (bigSep_fin8 (F := F) _)) $$ HR1
  icases HR1 with ⟨HR1_0, HR1_1, HR1_2, HR1_3, HR1_4, HR1_5, HR1_6, HR1_7⟩
  ihave HS2 := (Entails.of_eq (bigSep_fin8 (F := F) _)) $$ HS2
  icases HS2 with ⟨HS2_0, HS2_1, HS2_2, HS2_3, HS2_4, HS2_5, HS2_6, HS2_7⟩
  ihave HR2 := (Entails.of_eq (bigSep_fin8 (F := F) _)) $$ HR2
  icases HR2 with ⟨HR2_0, HR2_1, HR2_2, HR2_3, HR2_4, HR2_5, HR2_6, HR2_7⟩
  isplitl [Hp0 Hpr]
  · isplitl [Hp0]; · iexact Hp0
    iexact Hpr
  isplitl [Hb1]; · iexact Hb1
  isplitl [Hb2]; · iexact Hb2
  isplitl [HS1_0]; · iexact HS1_0
  isplitl [HS1_1]; · iexact HS1_1
  isplitl [HS1_2]; · iexact HS1_2
  isplitl [HS1_3]; · iexact HS1_3
  isplitl [HS1_4]; · iexact HS1_4
  isplitl [HS1_5]; · iexact HS1_5
  isplitl [HS1_6]; · iexact HS1_6
  isplitl [HS1_7]; · iexact HS1_7
  isplitl [HR1_0]; · iexact HR1_0
  isplitl [HR1_1]; · iexact HR1_1
  isplitl [HR1_2]; · iexact HR1_2
  isplitl [HR1_3]; · iexact HR1_3
  isplitl [HR1_4]; · iexact HR1_4
  isplitl [HR1_5]; · iexact HR1_5
  isplitl [HR1_6]; · iexact HR1_6
  isplitl [HR1_7]; · iexact HR1_7
  isplitl [HS2_0]; · iexact HS2_0
  isplitl [HS2_1]; · iexact HS2_1
  isplitl [HS2_2]; · iexact HS2_2
  isplitl [HS2_3]; · iexact HS2_3
  isplitl [HS2_4]; · iexact HS2_4
  isplitl [HS2_5]; · iexact HS2_5
  isplitl [HS2_6]; · iexact HS2_6
  isplitl [HS2_7]; · iexact HS2_7
  isplitl [HR2_0]; · iexact HR2_0
  isplitl [HR2_1]; · iexact HR2_1
  isplitl [HR2_2]; · iexact HR2_2
  isplitl [HR2_3]; · iexact HR2_3
  isplitl [HR2_4]; · iexact HR2_4
  isplitl [HR2_5]; · iexact HR2_5
  isplitl [HR2_6]; · iexact HR2_6
  iexact HR2_7

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun i : CIx => iprop(∃ κ : ℕ, cellInv ER (sched m) κ (kcell (c, i))))
          ∗ (bigSep Finset.univ fun i : CIx => iprop(atPos ER (kcell (c, i)) 0 ∅ 0 ∗ reached ER (kcell (c, i)) 0)) ∗ toksMint c) : sProp 𝕄)
      ⊢ bigSep Finset.univ (G' m) := by
  rw [bigSep_sep', bigSep_sep', ← bigSep_univ_prod (fun ck : Dev nD × CIx => iprop(∃ κ : ℕ, cellInv ER (sched m) κ (kcell ck))),
    bigSep_congr (s := Finset.univ) (fun (c : Dev nD) _ => bigSep_sep' Finset.univ (fun i : CIx => (atPos ER (kcell (c, i)) 0 ∅ 0 : sProp 𝕄)) (fun i => reached ER (kcell (c, i)) 0)),
    bigSep_sep', ← bigSep_univ_prod (fun ck : Dev nD × CIx => (reached ER (kcell ck) 0 : sProp 𝕄))]
  iintro ⟨HI, ⟨Hat, #HR⟩, Htok⟩
  ihave HK := (BI.bigSep_exists_pi Finset.univ (fun (ck : Dev nD × CIx) (κ : ℕ) => (cellInv ER (sched m) κ (kcell ck) : sProp 𝕄))) $$ HI
  icases HK with ⟨%Kp, #HI⟩
  have htk : (bigSep Finset.univ (fun c : Dev nD => toksMint (F := F) c) : sProp 𝕄) ⊢ bigSep Finset.univ fun c : Dev nD => toksPay (F := F) c :=
    (bigSep_mono fun c _ => mint_own (F := F) c).trans (toks_around (F := F))
  ihave Htk := htk $$ Htok
  iapply (bigSep_with_persistent (R := records m Kp) fun c _ => ghost_intro m Kp c)
  isplitr
  · unfold records; isplitl; · iexact HI
    iexact HR
  · iapply ((Entails.of_eq (bigSep_sep' Finset.univ (fun c : Dev nD => bigSep Finset.univ fun i : CIx => (atPos ER (kcell (c, i)) 0 ∅ 0 : sProp 𝕄)) toksPay).symm).trans
      (bigSep_mono fun c _ => lin_intro (F := F) c))
    isplitl [Hat]; · iexact Hat
    iexact Htk

/-- The global step: every device's own and unscoped semaphores at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch theorem's side conditions -/

theorem start_intro (c : Dev nD) :
    iprop(Pipeline.unscopedRestP Pipeline.Prefetch.none cfg0.spec c (fun b => m ((c : Thread nD τ).loc b)) ∗ levAts Lset lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, Hr⟩
  isplitl [Hs]; · iexact Hs
  iexact Hr

theorem phi1_exit (c : Dev nD) :
    (dats m 0 c).Φ (Fin.last cfg0.N) ⊢ iprop(emp ∗ Pipeline.ownSems0 osem c ∗ Pipeline.scopedRest cfg0.spec c) := by
  rw [show (dats m 0 c).Φ (Fin.last cfg0.N) = Φ₁ c from rfl, scopedRest0_eq, ownSems0_eq]
  unfold Φ₁
  iintro ⟨Ha, Hb, Hz⟩
  isplitr; · iempintro
  isplitl [Hz]; · iexact Hz
  isplitl [Ha] <;> iassumption

theorem waits (c : Dev nD) : (levAts Lset lv : sProp 𝕄) ⊢ Pipeline.cellsWaits cfgs (dats m) () 0 c :=
  Pipeline.cellsWaits_intro cfgs (dats m) () 0 c fun w s t => by
    rcases t with ⟨_ | _, ht⟩
    · refine ledger c _ _ ?_
      show Above _ (O₀ c)
      unfold O₀
      fin_cases w <;> fin_cases s <;> above_tac
    · refine ledger c _ _ ?_
      exact above_zero

/-! ## The run -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- The memory at launch: arbitrary contents, every semaphore counter zero, arbitrary generator registers. -/
def s₀ : MemSt nD τ sig (Elt F) := ⟨m, fun _ => 0, ρ⟩

omit [FloatOps F] in
theorem xM_set : (xM : Memref sig .tc .vmem S1x256x256 .f32).view.set = Finset.univ := View.set_whole _

/-- The staged buffers, whole, are the body's chunks. -/
theorem pre_split (c : Dev nD) (fo : (cc0_stg1_0 : Ref sig .tc).ty.Contents (Elt F)) (fa : (cc0_scratch0 : Ref sig .tc).ty.Contents (Elt F)) (fb : (cc0_scratch1 : Ref sig .tc).ty.Contents (Elt F)) :
    iprop((((c : Thread nD τ).loc cc0_stg0_0) ↦{fullShare} X m c) ∗ (((c : Thread nD τ).loc cc0_stg1_0) ↦{fullShare} fo)
        ∗ (((c : Thread nD τ).loc cc0_scratch0) ↦{fullShare} fa) ∗ (((c : Thread nD τ).loc cc0_scratch1) ↦{fullShare} fb))
      ⊢ bufsC m c fo fa fb := by
  unfold bufsC
  iintro ⟨Hx, Ho, Ha, Hb⟩
  ihave Hx2 := (pointsTo_share (PosShare.mem_left_op_right fullShare)).1 $$ Hx
  icases Hx2 with ⟨Hxl, Hxr⟩
  ihave Hxr := (Entails.of_eq ((x_chunks c fullShare.right (X m c)).trans (bigSep_fin8 (F := F) _))) $$ Hxr
  ihave Ho := (Entails.of_eq ((o_chunks c fullShare fo).trans (bigSep_fin8 (F := F) _))) $$ Ho
  ihave Ha := (Entails.of_eq ((a_chunks c fullShare fa).trans (bigSep_fin8 (F := F) _))) $$ Ha
  ihave Hb := (Entails.of_eq ((b_chunks c fullShare fb).trans (bigSep_fin8 (F := F) _))) $$ Hb
  icases Hxr with ⟨Hx0, Hx1, Hx2, Hx3, Hx4, Hx5, Hx6, Hx7⟩
  icases Ho with ⟨Ho0, Ho1, Ho2, Ho3, Ho4, Ho5, Ho6, Ho7⟩
  icases Ha with ⟨Ha0, Ha1, Ha2, Ha3, Ha4, Ha5, Ha6, Ha7⟩
  icases Hb with ⟨Hb0, Hb1, Hb2, Hb3, Hb4, Hb5, Hb6, Hb7⟩
  isplitl [Hxl]; · (rw [xM_set]; iexact Hxl)
  isplitl [Hx0]; · iexact Hx0
  isplitl [Hx1]; · iexact Hx1
  isplitl [Hx2]; · iexact Hx2
  isplitl [Hx3]; · iexact Hx3
  isplitl [Hx4]; · iexact Hx4
  isplitl [Hx5]; · iexact Hx5
  isplitl [Hx6]; · iexact Hx6
  isplitl [Hx7]; · iexact Hx7
  isplitl [Ho0]; · iexact Ho0
  isplitl [Ho1]; · iexact Ho1
  isplitl [Ho2]; · iexact Ho2
  isplitl [Ho3]; · iexact Ho3
  isplitl [Ho4]; · iexact Ho4
  isplitl [Ho5]; · iexact Ho5
  isplitl [Ho6]; · iexact Ho6
  isplitl [Ho7]; · iexact Ho7
  isplitl [Ha0]; · iexact Ha0
  isplitl [Ha2]; · iexact Ha2
  isplitl [Ha4]; · iexact Ha4
  isplitl [Ha6]; · iexact Ha6
  isplitl [Ha1]; · iexact Ha1
  isplitl [Ha3]; · iexact Ha3
  isplitl [Ha5]; · iexact Ha5
  isplitl [Ha7]; · iexact Ha7
  isplitl [Hb1]; · iexact Hb1
  isplitl [Hb3]; · iexact Hb3
  isplitl [Hb5]; · iexact Hb5
  isplitl [Hb7]; · iexact Hb7
  isplitl [Hb0]; · iexact Hb0
  isplitl [Hb2]; · iexact Hb2
  isplitl [Hb4]; · iexact Hb4
  iexact Hb6

theorem bigSep_exists_whole_a (c : Dev nD) :
    (bigSep Finset.univ fun j : Fin 8 => iprop(∃ f, (aS j : (Memref sig .tc .vmem S32x256 .f32)).view.loc (c : Thread nD τ) ↦[(aS j : (Memref sig .tc .vmem S32x256 .f32)).view.set]{fullShare} f) : sProp 𝕄)
      ⊢ iprop(∃ f : Buf (Elt F) ((c : Thread nD τ).loc cc0_scratch0), ((c : Thread nD τ).loc cc0_scratch0) ↦{fullShare} f) := by
  haveI : ∀ _ : Fin 8, Nonempty ((cc0_scratch0 : Ref sig .tc).ty.Contents (Elt F)) := fun _ => ⟨View.junk (Memref.whole cc0_scratch0 : Memref sig .tc _ _ _).view⟩
  iintro H
  ihave H' := (BI.bigSep_exists_pi Finset.univ (fun (j : Fin 8) (f : (cc0_scratch0 : Ref sig .tc).ty.Contents (Elt F)) =>
      ((aS j : (Memref sig .tc .vmem S32x256 .f32)).view.loc (c : Thread nD τ) ↦[(aS j : (Memref sig .tc .vmem S32x256 .f32)).view.set]{fullShare} f : sProp 𝕄))) $$ H
  icases H' with ⟨%fs, H⟩
  ihave H2 := (a_join c fullShare fs) $$ H
  icases H2 with ⟨%g, -, H⟩
  iexists g; iexact H
theorem bigSep_exists_whole_b (c : Dev nD) :
    (bigSep Finset.univ fun j : Fin 8 => iprop(∃ f, (bS j : (Memref sig .tc .vmem S32x256 .f32)).view.loc (c : Thread nD τ) ↦[(bS j : (Memref sig .tc .vmem S32x256 .f32)).view.set]{fullShare} f) : sProp 𝕄)
      ⊢ iprop(∃ f : Buf (Elt F) ((c : Thread nD τ).loc cc0_scratch1), ((c : Thread nD τ).loc cc0_scratch1) ↦{fullShare} f) := by
  haveI : ∀ _ : Fin 8, Nonempty ((cc0_scratch1 : Ref sig .tc).ty.Contents (Elt F)) := fun _ => ⟨View.junk (Memref.whole cc0_scratch1 : Memref sig .tc _ _ _).view⟩
  iintro H
  ihave H' := (BI.bigSep_exists_pi Finset.univ (fun (j : Fin 8) (f : (cc0_scratch1 : Ref sig .tc).ty.Contents (Elt F)) =>
      ((bS j : (Memref sig .tc .vmem S32x256 .f32)).view.loc (c : Thread nD τ) ↦[(bS j : (Memref sig .tc .vmem S32x256 .f32)).view.set]{fullShare} f : sProp 𝕄))) $$ H
  icases H' with ⟨%fs, H⟩
  ihave H2 := (b_join c fullShare fs) $$ H
  icases H2 with ⟨%g, -, H⟩
  iexists g; iexact H

/-- The body's chunks, joined: the landing buffers whole over some contents, the cells at zero, the input whole as it was,
    the result whole at the result array. -/
theorem post_join (c : Dev nD) :
    postC m c ⊢ iprop(Φ₁ (F := F) c ∗ (∃ W : Waits sig Unit, owes (c : Thread nD τ) 0 W)
      ∗ (((c : Thread nD τ).loc cc0_stg0_0) ↦{fullShare} X m c) ∗ (((c : Thread nD τ).loc cc0_stg1_0) ↦{fullShare} OutF m c)) := by
  unfold postC Φ₁
  iintro ⟨Hxl, Hxr, Ho, Ha, Hb, Hz, HO⟩
  ihave Ha := (bigSep_exists_whole_a (F := F) c) $$ Ha
  ihave Hb := (bigSep_exists_whole_b (F := F) c) $$ Hb
  ihave Hxr := (Entails.of_eq (x_chunks c fullShare.right (X m c)).symm) $$ Hxr
  ihave Ho := (o_join c fullShare (fun j => O2 m c j)) $$ Ho
  icases Ho with ⟨%g, %hg, Ho⟩
  have hgF : g = OutF m c := outF_eq m c g hg
  subst hgF
  isplitl [Ha Hb Hz]
  · isplitl [Ha]; · iexact Ha
    isplitl [Hb]; · iexact Hb
    iexact Hz
  isplitl [HO]; · iexact HO
  isplitl [Hxl Hxr]
  · iapply (pointsTo_share (PosShare.mem_left_op_right fullShare)).2
    isplitl [Hxl]; · (rw [xM_set]; iexact Hxl)
    iexact Hxr
  iexact Ho

/-! ## The body obligation, in the library's form -/

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

theorem fetch_0 (t : Fin cfg0.N) : (cfg0.win (0 : Fin 2)).fetch t = true := by rw [fin_N t]; rfl

set_option maxRecDepth 4000 in
def bodyPre' (c : Dev nD) : sProp 𝕄 :=
  iprop(Φ₀ m c ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

def bodyPost (c : Dev nD) : sProp 𝕄 :=
  iprop(Φ₁ (F := F) c ∗ (dats m 0 c).owesAt () t₀.succ ∗ stg c cc0_stg0_0 (X m c) ∗ stg c cc0_stg1_0 (OutF m c))

set_option maxRecDepth 65536 in
/-- The library's body obligation on device c. -/
theorem body_obligation (c : Dev nD) : BodyObligation (dats (F := F) m 0 c) (defs₀ (F := F)) 𝒱₀ () Set.univ := fun t => by
  rw [fin_N t]
  rw [bigSep_W0, bigSep_W0]
  simp only [owns_whole_eq]
  show bodyPre' m c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _) cc0_scratch2 cc0_scratch3 cc0_scratch4 cc0_scratch5) (fun _ => bodyPost m c)
  unfold bodyPre' Φ₀ start
  iintro ⟨⟨⟨⟨%K, Hg⟩, Hcr, #Hlev⟩, ⟨%fa, Ha⟩, ⟨%fb, Hb⟩⟩, Ho, ⟨%d0, %g0, %hg0, Hx⟩, ⟨%d1, %g1, %hg1, Hout⟩⟩
  have hx : g0 = X m c := by rw [hg0]; unfold Dat.before; rw [if_pos (fetch_0 t₀)]; rfl
  subst hx
  unfold Dat.owesAt Pipeline.owesWithin
  icases Ho with ⟨%W, %hW, HO⟩
  rw [show (dats m 0 c).owed t₀.castSucc = O₀ c from rfl]
  iapply (sound_body m K c W g1 fa fb (fun _ => bodyPost m c))
  isplitl [Hg]; · iexact Hg
  isplitl [Hcr]; · iexact Hcr
  isplitl [HO]; · iexact HO
  isplitr; · iexact Hlev
  isplitl [Hx Hout Ha Hb]
  · iapply (pre_split m c g1 fa fb)
    isplitl [Hx]; · iexact Hx
    isplitl [Hout]; · iexact Hout
    isplitl [Ha] <;> iassumption
  · iintro Hp
    ihave Hp := (post_join m c) $$ Hp
    icases Hp with ⟨HΦ, ⟨%W', HO⟩, Hx, Ho⟩
    unfold bodyPost Dat.owesAt Pipeline.owesWithin
    rw [show (dats m 0 c).owed t₀.succ = 0 from rfl]
    isplitl [HΦ]; · iexact HΦ
    isplitl [HO]
    · iexists W'
      isplitr; · ipureintro; exact fun _ _ => Or.inl trivial
      iexact HO
    isplitl [Hx]
    · iexists _; isplitr; · (ipureintro; rfl)
      iexact Hx
    iexists _; isplitr; · (ipureintro; rfl)
    iexact Ho
def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

set_option maxRecDepth 8000 in
/-- At the compiled mesh of four devices, from any memory with zero counters: every weakly fair execution of @main terminates,
    and every final state has each device's result array at the computed contents and its argument block unchanged. -/
theorem run_main : θ_run defs (onTc (τ := τ) (main (F := F))) (s₀ m ρ) (QC m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := Lset) (lv := lv) (hL := fun g h => if_neg h) (hwaits := waits m)
    (G := G m) (G' := G' m) (u₀ := u₀)
    (hu₀ := by
      unfold u₀
      iintro Hu
      ihave H := (ownU_pair _ _) $$ Hu
      icases H with ⟨HP, HX⟩
      imod (fund_tree m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun _ h c w => (h c).1 w)

end Cert.KernelIdeal.Tree
end
-- ==== Proof.ProtoK.lean ====
/-
  The four-device tree reduction: the vocabulary of its protocol.

  Device c has two partners, p1 c = c xor 1 and p2 c = 3 - c (both involutions of the mesh). The 256 rows are cut into
  eight chunks of 32 rows; chunk j starts at row (j mod 2) * 128 + (j div 2) * 32. In the first exchange chunk j goes to
  p1 c when j is even and to p2 c when j is odd; in the second exchange the partners are swapped. Every exchange of a
  chunk has a send semaphore on the sender and a receive semaphore on the receiver.
-/
import proofs.«900329_g7700000000000330_dist_treered_v7x_i4_m256_n256_f32_1_alg».proof.Proof.Gen.Kernel
import proofs.«900329_g7700000000000330_dist_treered_v7x_i4_m256_n256_f32_1_alg».proof.Proof.Gen.Kernel.Skeleton
import proofs.«900329_g7700000000000330_dist_treered_v7x_i4_m256_n256_f32_1_alg».proof.Proof.Gen.Kernel.Launch
import proofs.«900329_g7700000000000330_dist_treered_v7x_i4_m256_n256_f32_1_alg».proof.Proof.Gen.Kernel.Points
import proofs.«900329_g7700000000000330_dist_treered_v7x_i4_m256_n256_f32_1_alg».proof.Proof.Gen.Kernel.Frame
import Idealize.ShloMosaic.Lib.Pipeline.Launch
import Idealize.ShloMosaic.Lib.Pipeline.Kit
import Idealize.ShloMosaic.Lib.Tactic

noncomputable section

namespace Cert.Kernel.Tree

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The algebra: the pipeline library's own, beside the protocol's rounds (a barrier cell has two duties) -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Partners -/

/-- The partner across the low bit, as the kernel computes it. -/
def p1 (c : Dev nD) : Dev nD := ⟨k0_dev1 c, Facts₀.k0_dev1_lt c⟩
/-- The mirror partner, as the kernel computes it. -/
def p2 (c : Dev nD) : Dev nD := ⟨k0_dev2 c, Facts₀.k0_dev2_lt c⟩

theorem p1_p1 (c : Dev nD) : p1 (p1 c) = c := by revert c; decide +kernel
theorem p2_p2 (c : Dev nD) : p2 (p2 c) = c := by revert c; decide +kernel
theorem p1_ne_p2 (c : Dev nD) : p1 c ≠ p2 c := by revert c; decide +kernel
theorem p1_ne (c : Dev nD) : p1 c ≠ c := by revert c; decide +kernel
theorem p2_ne (c : Dev nD) : p2 c ≠ c := by revert c; decide +kernel

/-- The first row of chunk j. -/
abbrev row : Fin 8 → ℕ := ![0, 128, 32, 160, 64, 192, 96, 224]

theorem inb1 : ∀ (j : Fin 8) a, (![j.val] : Fin 1 → Nat) a + S1.size a ≤ S8.size a := by decide
theorem inb2 : ∀ (j : Fin 8) a, (![row j, 0] : Fin 2 → Nat) a + S32x256.size a ≤ S256x256.size a := by decide
theorem inb3 : ∀ (j : Fin 8) a, (![0, row j, 0] : Fin 3 → Nat) a + S1x32x256.size a ≤ S1x256x256.size a := by decide

/-- Chunk j of a 256 x 256 buffer, and of the staged input block. -/
abbrev rect2 (j : Fin 8) : Rect S256x256 := Rect.unit (s := S256x256) ![row j, 0] S32x256.size (inb2 j)
abbrev rect3 (j : Fin 8) : Rect S1x256x256 := Rect.unit (s := S1x256x256) ![0, row j, 0] S1x32x256.size (inb3 j)

abbrev xM : Memref sig .tc .vmem S1x256x256 .f32 := Memref.whole cc0_stg0_0
abbrev oM : Memref sig .tc .vmem S256x256 .f32 := Memref.whole cc0_stg1_0
abbrev aM : Memref sig .tc .vmem S256x256 .f32 := Memref.whole cc0_scratch0
abbrev bM : Memref sig .tc .vmem S256x256 .f32 := Memref.whole cc0_scratch1

/-- Chunk j as the transfers name it: of the staged input (its leading unit axis dropped), of the result's staging
    buffer, of the two landing buffers. -/
abbrev xS (j : Fin 8) : Memref sig .tc .vmem S32x256 .f32 := (xM.slice (rect3 j) (fun _ => rfl)).squeeze S32x256 Facts₀.squeezes_S1x32x256_S32x256
abbrev oS (j : Fin 8) : Memref sig .tc .vmem S32x256 .f32 := oM.slice (rect2 j) (fun _ => rfl)
abbrev aS (j : Fin 8) : Memref sig .tc .vmem S32x256 .f32 := aM.slice (rect2 j) (fun _ => rfl)
abbrev bS (j : Fin 8) : Memref sig .tc .vmem S32x256 .f32 := bM.slice (rect2 j) (fun _ => rfl)

/-- Semaphore j of one of the kernel's four arrays of eight. -/
abbrev semAt (A : DmaSems sig S8) (j : Fin 8) : DmaSem sig :=
  ((A.slice (Rect.unit (s := S8) ![j.val] S1.size (inb1 j))).squeeze S_ Facts₀.squeezes_S1_S_).sem

abbrev barS : Sem sig := (SemArray.scalar (sig.barrier 0 rfl) : Sems sig S_).sem

/-! ## Cells -/

/-- The kernel's four semaphore arrays: first exchange send / receive, second exchange send / receive. -/
abbrev arr : Fin 4 → DmaSems sig S8 := ![cc0_scratch2, cc0_scratch3, cc0_scratch4, cc0_scratch5]

abbrev barCell (c : Dev nD) : GSem nD τ sig := ((c : Thread nD τ), .reg barS)
/-- Cell j of array k on device c. -/
abbrev dcell (k : Fin 4) (c : Dev nD) (j : Fin 8) : GSem nD τ sig := ((c : Thread nD τ), .dma (semAt (arr k) j))

/-- Which array and which chunk a DMA semaphore of the pool is, if it is one of the kernel's 32. -/
def kind (s : DmaSem sig) : Option (Fin 4 × Fin 8) :=
  if h : 2 ≤ s.val then some (⟨(s.val - 2) / 8, by have : s.val < 34 := s.isLt; omega⟩, ⟨(s.val - 2) % 8, Nat.mod_lt _ (by decide)⟩) else none

theorem kind_semAt : ∀ (k : Fin 4) (j : Fin 8), kind (semAt (arr k) j) = some (k, j) := by decide
theorem semAt_inj : ∀ (k k' : Fin 4) (j j' : Fin 8), semAt (arr k) j = semAt (arr k') j' → k = k' ∧ j = j' := by decide

/-- A chunk's transfer credit. -/
abbrev N : ℕ := 1024
theorem N_pos : 0 < N := by decide
theorem credit_aS : ∀ j : Fin 8, (aS j : Memref sig .tc .vmem S32x256 .f32).view.dmaCredit = N := by decide

/-! ## Who exchanges chunk j with whom -/

/-- First exchange of chunk j: with p1 for an even chunk, with p2 for an odd one; the second exchange the other way. -/
def peer1 (c : Dev nD) (j : Fin 8) : Dev nD := if j.val % 2 = 0 then p1 c else p2 c
def peer2 (c : Dev nD) (j : Fin 8) : Dev nD := if j.val % 2 = 0 then p2 c else p1 c

theorem peer1_peer1 (c : Dev nD) (j : Fin 8) : peer1 (peer1 c j) j = c := by unfold peer1; split <;> simp [*, p1_p1, p2_p2]
theorem peer2_peer2 (c : Dev nD) (j : Fin 8) : peer2 (peer2 c j) j = c := by unfold peer2; split <;> simp [*, p1_p1, p2_p2]

/-! ## Contents -/

variable (m : (ℓ : Loc nD τ sig) → Buf (Elt F) ℓ)

/-- Device c's staged input: its block of the argument array as launched. -/
def X (c : Dev nD) : (cc0_stg0_0 : Ref sig .tc).ty.Contents (Elt F) :=
  (win0_0.blk (0 : Fin 1)).view.read (Elt F) (m ((c : Thread nD τ).loc main_arg0))

/-- Chunk j of device c's input plus chunk j of its first partner's: what the first store leaves in chunk j of the result. -/
def V1 (c : Dev nD) (j : Fin 8) : FVec F S32x256 .f32 :=
  addf (shapeCast S32x256 ((xM : Memref sig .tc .vmem S1x256x256 .f32).view.readAt (Elt F) (rect3 j).toLoadRect (X m c)) Facts₀.shapeCasts_S1x32x256_S32x256)
    ((xS j : Memref sig .tc .vmem S32x256 .f32).view.read (Elt F) (X m (peer1 c j)))

/-- Chunk j of the result's staging buffer after the first store, over arbitrary other rows. -/
def O1 (c : Dev nD) (j : Fin 8) : (cc0_stg1_0 : Ref sig .tc).ty.Contents (Elt F) :=
  ((oM : Memref sig .tc .vmem S256x256 .f32).access (rect2 j)).write (Elt F) (View.junk _) (V1 m c j) Finset.univ

/-! ## The payloads -/

/-- A landing chunk over some contents. -/
abbrev slotA (a : Dev nD) (j : Fin 8) : sProp 𝕄 :=
  iprop(∃ f, (aS j : Memref sig .tc .vmem S32x256 .f32).view.loc (a : Thread nD τ) ↦[(aS j : Memref sig .tc .vmem S32x256 .f32).view.set]{fullShare} f)
abbrev slotB (a : Dev nD) (j : Fin 8) : sProp 𝕄 :=
  iprop(∃ f, (bS j : Memref sig .tc .vmem S32x256 .f32).view.loc (a : Thread nD τ) ↦[(bS j : Memref sig .tc .vmem S32x256 .f32).view.set]{fullShare} f)

/-- What device a hands a partner with its entry signal: the landing chunks that partner will be sending into — to p1 a
    (d = false) the even chunks of the first landing buffer and the odd ones of the second, to p2 a the others. -/
def gift (a : Dev nD) (d : Bool) : sProp 𝕄 :=
  if d then iprop(slotB a 0 ∗ slotA a 1 ∗ slotB a 2 ∗ slotA a 3 ∗ slotB a 4 ∗ slotA a 5 ∗ slotB a 6 ∗ slotA a 7)
  else iprop(slotA a 0 ∗ slotB a 1 ∗ slotA a 2 ∗ slotB a 3 ∗ slotA a 4 ∗ slotB a 5 ∗ slotA a 6 ∗ slotB a 7)

/-- What a DMA cell's one duty hands its owner c: a send cell, the lent source chunk back; a receive cell, the landing
    chunk holding the sender's chunk. -/
def dmaPay (k : Fin 4) (c : Dev nD) (j : Fin 8) : sProp 𝕄 :=
  match k with
  | 0 => iprop((xS j : Memref sig .tc .vmem S32x256 .f32).view.loc (c : Thread nD τ) ↦[(xS j : Memref sig .tc .vmem S32x256 .f32).view.set]{fullShare.right} X m c)
  | 1 => iprop(∃ fd, (aS j : Memref sig .tc .vmem S32x256 .f32).view.loc (c : Thread nD τ) ↦[(aS j : Memref sig .tc .vmem S32x256 .f32).view.set]{fullShare}
            ((aS j : Memref sig .tc .vmem S32x256 .f32).view.write (Elt F) fd ((xS j : Memref sig .tc .vmem S32x256 .f32).view.read (Elt F) (X m (peer1 c j))) Finset.univ))
  | 2 => iprop((oS j : Memref sig .tc .vmem S32x256 .f32).view.loc (c : Thread nD τ) ↦[(oS j : Memref sig .tc .vmem S32x256 .f32).view.set]{fullShare} O1 m c j)
  | 3 => iprop(∃ fd, (bS j : Memref sig .tc .vmem S32x256 .f32).view.loc (c : Thread nD τ) ↦[(bS j : Memref sig .tc .vmem S32x256 .f32).view.set]{fullShare}
            ((bS j : Memref sig .tc .vmem S32x256 .f32).view.write (Elt F) fd ((oS j : Memref sig .tc .vmem S32x256 .f32).view.read (Elt F) (O1 m (peer2 c j) j)) Finset.univ))

/-! ## The schedule: one round; a barrier cell's two unit duties (false from p1, true from p2), a DMA cell's one -/

def sched : Rounds.Schedule (GSem nD τ sig) Bool 𝕄 where
  duties g r :=
    if r = 0 ∧ g.1.2 = .tc then
      match g.2 with
      | .reg s => if s = barS then {false, true} else ∅
      | .dma s => if (kind s).isSome then {false} else ∅
    else ∅
  unitless _ := False
  amount g _ _ := match g.2 with | .reg _ => 1 | .dma _ => N
  payload g _ d :=
    match g.2 with
    | .reg s => if s = barS then gift (if d then p2 g.1.1 else p1 g.1.1) d else iprop(emp)
    | .dma s => match kind s with | some (k, j) => dmaPay m k g.1.1 j | none => iprop(emp)
  amount_pos g _ _ _ := by
    rcases g with ⟨t, s | s⟩
    · exact Nat.one_pos
    · exact N_pos

theorem duties_bar (c : Dev nD) : (sched (F := F) m).duties (barCell c) 0 = {false, true} := by
  dsimp only [sched]; rw [if_pos ⟨rfl, rfl⟩, if_pos rfl]
theorem duties_dma (k : Fin 4) (c : Dev nD) (j : Fin 8) : (sched (F := F) m).duties (dcell k c j) 0 = {false} := by
  dsimp only [sched]; rw [if_pos ⟨rfl, rfl⟩, kind_semAt]; rfl
theorem duties_later (g : GSem nD τ sig) : ∀ r, 1 ≤ r → (sched (F := F) m).duties g r = ∅ :=
  fun r hr => by dsimp only [sched]; rw [if_neg fun h => by omega]
theorem amount_bar (c : Dev nD) (d : Bool) : (sched (F := F) m).amount (barCell c) 0 d = 1 := rfl
theorem amount_dma (k : Fin 4) (c : Dev nD) (j : Fin 8) (d : Bool) : (sched (F := F) m).amount (dcell k c j) 0 d = N := rfl
theorem payload_bar (c : Dev nD) (d : Bool) : (sched (F := F) m).payload (barCell c) 0 d = gift (if d then p2 c else p1 c) d := by
  dsimp only [sched]; rw [if_pos rfl]
theorem payload_dma (k : Fin 4) (c : Dev nD) (j : Fin 8) (d : Bool) : (sched (F := F) m).payload (dcell k c j) 0 d = dmaPay m k c j := by
  dsimp only [sched]; rw [kind_semAt]
theorem expect_bar (c : Dev nD) : (sched (F := F) m).expect (barCell c) 0 = 2 := by
  unfold Schedule.expect Schedule.amountOf
  rw [duties_bar, Finset.sum_pair (by decide), amount_bar, amount_bar]
theorem expect_dma (k : Fin 4) (c : Dev nD) (j : Fin 8) : (sched (F := F) m).expect (dcell k c j) 0 = N := by
  unfold Schedule.expect Schedule.amountOf; rw [duties_dma, Finset.sum_singleton, amount_dma]

theorem gift_false (a : Dev nD) : (gift a false : sProp 𝕄) = iprop(slotA a 0 ∗ slotB a 1 ∗ slotA a 2 ∗ slotB a 3 ∗ slotA a 4 ∗ slotB a 5 ∗ slotA a 6 ∗ slotB a 7) := rfl
theorem gift_true (a : Dev nD) : (gift a true : sProp 𝕄) = iprop(slotB a 0 ∗ slotA a 1 ∗ slotB a 2 ∗ slotA a 3 ∗ slotB a 4 ∗ slotA a 5 ∗ slotB a 6 ∗ slotA a 7) := rfl
theorem ite_true_p (c : Dev nD) : (if true = true then p2 c else p1 c) = p2 c := rfl
theorem ite_false_p (c : Dev nD) : (if false = true then p2 c else p1 c) = p1 c := rfl

theorem slotA_eq (a : Dev nD) (j : Fin 8) : (slotA a j : sProp 𝕄) =
  iprop(∃ f, (aS j : Memref sig .tc .vmem S32x256 .f32).view.loc (a : Thread nD τ) ↦[(aS j : Memref sig .tc .vmem S32x256 .f32).view.set]{fullShare} f) := rfl
theorem slotB_eq (a : Dev nD) (j : Fin 8) : (slotB a j : sProp 𝕄) =
  iprop(∃ f, (bS j : Memref sig .tc .vmem S32x256 .f32).view.loc (a : Thread nD τ) ↦[(bS j : Memref sig .tc .vmem S32x256 .f32).view.set]{fullShare} f) := rfl

theorem dmaPay_0 (c : Dev nD) (j : Fin 8) : dmaPay m 0 c j =
  iprop((xS j : (Memref sig .tc .vmem S32x256 .f32)).view.loc (c : Thread nD τ) ↦[(xS j : (Memref sig .tc .vmem S32x256 .f32)).view.set]{fullShare.right} X m c) := rfl
theorem dmaPay_1 (c : Dev nD) (j : Fin 8) : dmaPay m 1 c j =
  iprop(∃ fd, (aS j : (Memref sig .tc .vmem S32x256 .f32)).view.loc (c : Thread nD τ) ↦[(aS j : (Memref sig .tc .vmem S32x256 .f32)).view.set]{fullShare}
    ((aS j : (Memref sig .tc .vmem S32x256 .f32)).view.write (Elt F) fd ((xS j : (Memref sig .tc .vmem S32x256 .f32)).view.read (Elt F) (X m (peer1 c j))) Finset.univ)) := rfl
theorem dmaPay_2 (c : Dev nD) (j : Fin 8) : dmaPay m 2 c j =
  iprop((oS j : (Memref sig .tc .vmem S32x256 .f32)).view.loc (c : Thread nD τ) ↦[(oS j : (Memref sig .tc .vmem S32x256 .f32)).view.set]{fullShare} O1 m c j) := rfl
theorem dmaPay_3 (c : Dev nD) (j : Fin 8) : dmaPay m 3 c j =
  iprop(∃ fd, (bS j : (Memref sig .tc .vmem S32x256 .f32)).view.loc (c : Thread nD τ) ↦[(bS j : (Memref sig .tc .vmem S32x256 .f32)).view.set]{fullShare}
    ((bS j : (Memref sig .tc .vmem S32x256 .f32)).view.write (Elt F) fd ((oS j : (Memref sig .tc .vmem S32x256 .f32)).view.read (Elt F) (O1 m (peer2 c j) j)) Finset.univ)) := rfl
theorem peer1_0 (a : Dev nD) : peer1 a 0 = p1 a := rfl
theorem peer1_1 (a : Dev nD) : peer1 a 1 = p2 a := rfl
theorem peer1_2 (a : Dev nD) : peer1 a 2 = p1 a := rfl
theorem peer1_3 (a : Dev nD) : peer1 a 3 = p2 a := rfl
theorem peer1_4 (a : Dev nD) : peer1 a 4 = p1 a := rfl
theorem peer1_5 (a : Dev nD) : peer1 a 5 = p2 a := rfl
theorem peer1_6 (a : Dev nD) : peer1 a 6 = p1 a := rfl
theorem peer1_7 (a : Dev nD) : peer1 a 7 = p2 a := rfl
theorem peer2_0 (a : Dev nD) : peer2 a 0 = p2 a := rfl
theorem peer2_1 (a : Dev nD) : peer2 a 1 = p1 a := rfl
theorem peer2_2 (a : Dev nD) : peer2 a 2 = p2 a := rfl
theorem peer2_3 (a : Dev nD) : peer2 a 3 = p1 a := rfl
theorem peer2_4 (a : Dev nD) : peer2 a 4 = p2 a := rfl
theorem peer2_5 (a : Dev nD) : peer2 a 5 = p1 a := rfl
theorem peer2_6 (a : Dev nD) : peer2 a 6 = p2 a := rfl
theorem peer2_7 (a : Dev nD) : peer2 a 7 = p1 a := rfl

/-! ## Levels and what a device owes -/
def Lset (g : GSem nD τ sig) : Finset Unit := if g.1.2 = .tc then {()} else ∅
/-- barrier cells at 1, first-exchange receive cells at 2, second-exchange receive cells at 3, everything else at 0. -/
def lv (g : GSem nD τ sig) (_ : Unit) : ℕ :=
  match g.2 with
  | .reg s => if s = barS then 1 else 0
  | .dma s => match kind s with | some (1, _) => 2 | some (3, _) => 3 | _ => 0

def O₀ (c : Dev nD) : CellTallies nD τ sig Unit := tallyAt (dcell 3 (p1 c) 7) () 1024 + tallyAt (dcell 3 (p2 c) 6) () 1024 + tallyAt (dcell 3 (p1 c) 5) () 1024 + tallyAt (dcell 3 (p2 c) 4) () 1024 + tallyAt (dcell 3 (p1 c) 3) () 1024 + tallyAt (dcell 3 (p2 c) 2) () 1024 + tallyAt (dcell 3 (p1 c) 1) () 1024 + tallyAt (dcell 3 (p2 c) 0) () 1024 + tallyAt (dcell 1 (p2 c) 7) () 1024 + tallyAt (dcell 1 (p1 c) 6) () 1024 + tallyAt (dcell 1 (p2 c) 5) () 1024 + tallyAt (dcell 1 (p1 c) 4) () 1024 + tallyAt (dcell 1 (p2 c) 3) () 1024 + tallyAt (dcell 1 (p1 c) 2) () 1024 + tallyAt (dcell 1 (p2 c) 1) () 1024 + tallyAt (dcell 1 (p1 c) 0) () 1024 + tallyAt (barCell (p2 c)) () 1 + tallyAt (barCell (p1 c)) () 1

abbrev 𝒱₀ : Variants := Variants.none

theorem dev_p1 (c : Dev nD) : ∀ h, (⟨k0_dev1 c, h⟩ : Dev nD) = p1 c := fun _ => rfl
theorem dev_p2 (c : Dev nD) : ∀ h, (⟨k0_dev2 c, h⟩ : Dev nD) = p2 c := fun _ => rfl
theorem dev3_eq (c : Dev nD) : (⟨k0_dev3 c, Facts₀.k0_dev3_lt c⟩ : Dev nD) = p1 c := by revert c; decide +kernel
theorem dev5_eq (c : Dev nD) : (⟨k0_dev5 c, Facts₀.k0_dev5_lt c⟩ : Dev nD) = p1 c := by revert c; decide +kernel
theorem dev7_eq (c : Dev nD) : (⟨k0_dev7 c, Facts₀.k0_dev7_lt c⟩ : Dev nD) = p1 c := by revert c; decide +kernel
theorem dev9_eq (c : Dev nD) : (⟨k0_dev9 c, Facts₀.k0_dev9_lt c⟩ : Dev nD) = p1 c := by revert c; decide +kernel
theorem dev12_eq (c : Dev nD) : (⟨k0_dev12 c, Facts₀.k0_dev12_lt c⟩ : Dev nD) = p1 c := by revert c; decide +kernel
theorem dev14_eq (c : Dev nD) : (⟨k0_dev14 c, Facts₀.k0_dev14_lt c⟩ : Dev nD) = p1 c := by revert c; decide +kernel
theorem dev16_eq (c : Dev nD) : (⟨k0_dev16 c, Facts₀.k0_dev16_lt c⟩ : Dev nD) = p1 c := by revert c; decide +kernel
theorem dev18_eq (c : Dev nD) : (⟨k0_dev18 c, Facts₀.k0_dev18_lt c⟩ : Dev nD) = p1 c := by revert c; decide +kernel
theorem dev4_eq (c : Dev nD) : (⟨k0_dev4 c, Facts₀.k0_dev4_lt c⟩ : Dev nD) = p2 c := by revert c; decide +kernel
theorem dev6_eq (c : Dev nD) : (⟨k0_dev6 c, Facts₀.k0_dev6_lt c⟩ : Dev nD) = p2 c := by revert c; decide +kernel
theorem dev8_eq (c : Dev nD) : (⟨k0_dev8 c, Facts₀.k0_dev8_lt c⟩ : Dev nD) = p2 c := by revert c; decide +kernel
theorem dev10_eq (c : Dev nD) : (⟨k0_dev10 c, Facts₀.k0_dev10_lt c⟩ : Dev nD) = p2 c := by revert c; decide +kernel
theorem dev11_eq (c : Dev nD) : (⟨k0_dev11 c, Facts₀.k0_dev11_lt c⟩ : Dev nD) = p2 c := by revert c; decide +kernel
theorem dev13_eq (c : Dev nD) : (⟨k0_dev13 c, Facts₀.k0_dev13_lt c⟩ : Dev nD) = p2 c := by revert c; decide +kernel
theorem dev15_eq (c : Dev nD) : (⟨k0_dev15 c, Facts₀.k0_dev15_lt c⟩ : Dev nD) = p2 c := by revert c; decide +kernel
theorem dev17_eq (c : Dev nD) : (⟨k0_dev17 c, Facts₀.k0_dev17_lt c⟩ : Dev nD) = p2 c := by revert c; decide +kernel

/-! ## Levels: everything a device still owes lies strictly above the cell it waits on -/

def Above (k : ℕ) (O : CellTallies nD τ sig Unit) : Prop := ∀ g u, 0 < O g u → u ∈ Lset g ∧ k < lv g u
theorem above_add {k : ℕ} {O₁ O₂ : CellTallies nD τ sig Unit} (h₁ : Above k O₁) (h₂ : Above k O₂) : Above k (O₁ + O₂) :=
  fun g u h => (Pipeline.add_pos_cases h).elim (h₁ g u) (h₂ g u)
theorem above_tally {k : ℕ} (g : GSem nD τ sig) (n : ℕ) (hg : g.1.2 = .tc) (hk : k < lv g ()) : Above k (tallyAt g () n) := fun g' u h => by
  rw [tallyAt_apply] at h
  by_cases e : g' = g ∧ u = ()
  · obtain ⟨rfl, rfl⟩ := e
    exact ⟨by unfold Lset; rw [if_pos hg]; exact Finset.mem_singleton_self _, hk⟩
  · rw [if_neg e] at h; exact absurd h (Nat.lt_irrefl 0)
theorem above_zero {k : ℕ} : Above k (0 : CellTallies nD τ sig Unit) := fun g u h => absurd h (Nat.lt_irrefl 0)
theorem ledger (c : Dev nD) (s : SemLoc sig) (O : CellTallies nD τ sig Unit) (h : Above (lv ((c : Thread nD τ), s) ()) O) :
    (levAts Lset lv : sProp 𝕄) ⊢ MayWait (c : Thread nD τ) s () O :=
  Pipeline.mayWait_of_levAts (by unfold Lset; rw [if_pos rfl]; exact Finset.mem_singleton_self _) h

theorem lv_bar (c : Dev nD) : lv (barCell c) () = 1 := by unfold lv; exact if_pos rfl
theorem lv_dma (k : Fin 4) (c : Dev nD) (j : Fin 8) : lv (dcell k c j) () = (if k = 1 then 2 else if k = 3 then 3 else 0) := by
  unfold lv; dsimp only; rw [kind_semAt]; fin_cases k <;> rfl
theorem lv_stage (c : Dev nD) (q : DmaSem sig) (h : kind q = none) : lv ((c : Thread nD τ), .dma q) () = 0 := by unfold lv; dsimp only; rw [h]

macro "above_one" : tactic => `(tactic| (refine above_tally _ _ rfl ?_; first | (rw [lv_bar, lv_dma]; decide) | (rw [lv_dma, lv_dma]; decide) | (rw [lv_stage _ _ (by decide), lv_dma]; decide) | (rw [lv_stage _ _ (by decide), lv_bar]; decide) | (rw [lv_bar, lv_bar]; decide)))
macro "above_tac" : tactic => `(tactic| (first | exact above_zero | (repeat (refine above_add ?_ (by above_one))); above_one))

macro "dev_tac" : tactic => `(tactic| (first | exact dev3_eq _ | exact dev4_eq _ | exact dev5_eq _ | exact dev6_eq _ | exact dev7_eq _ | exact dev8_eq _ | exact dev9_eq _ | exact dev10_eq _ | exact dev11_eq _ | exact dev12_eq _ | exact dev13_eq _ | exact dev14_eq _ | exact dev15_eq _ | exact dev16_eq _ | exact dev17_eq _ | exact dev18_eq _))
macro "tree_disch" : tactic => `(tactic| (first | above_tac | dev_tac))

omit [FloatOps F] in
theorem sep_respell_wand (A B P : sProp 𝕄) : iprop((A ∗ B) -∗ P) ⊢ iprop((Idealize.SL.BI.sep A B : sProp 𝕄) -∗ P) := Entails.of_eq rfl

/-! ## Writing a whole view's worth of values: what was there before does not matter on the view's elements -/

omit [FloatOps F] in
theorem write_univ_agree {κ : Kind} {sp : Space} {s : Shape} {e : EltTy} (v : View sig κ sp s e) (f f' : v.ty.Contents (Elt F)) (w : s.Idx → Elt F e) :
    ∀ i ∈ v.set, v.write (Elt F) f w Finset.univ i = v.write (Elt F) f' w Finset.univ i := by
  intro i hi
  obtain ⟨y, -, rfl⟩ := Finset.mem_map.mp hi
  rw [View.write_emb_of_mem _ _ (Finset.mem_univ y), View.write_emb_of_mem _ _ (Finset.mem_univ y)]

omit [FloatOps F] in
/-- A chunk read back through the enclosing buffer at the chunk's rectangle is what was written to it. -/
theorem readAt_chunk_write (b : Ref sig .tc) (r : Rect b.ty.shape) (fd : b.ty.Contents (Elt F)) (w : r.shape.Idx → Elt F b.ty.elt) :
    (Memref.whole b : Memref sig .tc _ _ _).view.readAt (Elt F) r.toLoadRect (((Memref.whole b : Memref sig .tc _ _ _).view.slice r).write (Elt F) fd w Finset.univ) = w :=
  View.read_write_univ (v := (Memref.whole b : Memref sig .tc _ _ _).view.slice r) fd w

/-! ## The two exchanges' transfers, by the rounds library's rule for an addressed transfer whose destination the sender holds -/

/-- First exchange of chunk j: the source chunk of the staged input goes out at the right half share (it comes back at the
    send cell's wait); the landing chunk on the partner becomes the receive cell's payload. -/
theorem send1_step (K : GSem nD τ sig → ℕ) (c : Dev nD) (j : Fin 8) (n : Dev nD) (hn : n = peer1 c j)
    {hsc : (aS j : Memref sig (Dev.tc n : Thread nD τ).2.kind .vmem S32x256 .f32).view.ref.isScScratch = false}
    {hsrc : (xS j : (Memref sig .tc .vmem S32x256 .f32)).view.WordExact} {hdst : (aS j : (Memref sig .tc .vmem S32x256 .f32)).view.WordExact}
    {hsem : DmaTarget.Typed .vmem (.dma (semAt (arr 1) j)) (.remote (Dev.tc n : Thread nD τ) (aS j : (Memref sig .tc .vmem S32x256 .f32)) (.dma (semAt (arr 0) j)) hsc)}
    {α : Type} {Q : α → sProp 𝕄} {k : PUnit → Prog (TpuEff nD τ sig (Elt F) Λ₀ .tc) α}
    (fn : Buf (Elt F) ((aS j : (Memref sig .tc .vmem S32x256 .f32)).view.loc (peer1 c j : Thread nD τ))) (O : CellTallies nD τ sig Unit) (W : Waits sig Unit) :
    iprop(cellInv ER (sched m) (K (dcell 0 c j)) (dcell 0 c j) ∗ cellInv ER (sched m) (K (dcell 1 (peer1 c j) j)) (dcell 1 (peer1 c j) j)
        ∗ ((xS j : (Memref sig .tc .vmem S32x256 .f32)).view.loc (c : Thread nD τ) ↦[(xS j : (Memref sig .tc .vmem S32x256 .f32)).view.set]{fullShare.right} X m c)
        ∗ ((aS j : (Memref sig .tc .vmem S32x256 .f32)).view.loc (peer1 c j : Thread nD τ) ↦[(aS j : (Memref sig .tc .vmem S32x256 .f32)).view.set]{fullShare} fn)
        ∗ owes (c : Thread nD τ) (O + tallyAt (dcell 1 (peer1 c j) j) () N) W
        ∗ dutyTok ER (dcell 0 c j) 0 false ∗ reached ER (dcell 0 c j) 0
        ∗ dutyTok ER (dcell 1 (peer1 c j) j) 0 false ∗ reached ER (dcell 1 (peer1 c j) j) 0)
      ⊢ iprop(((cred (tallyAt (dcell 0 c j) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (xS j) (.remote (Dev.tc n : Thread nD τ) (aS j) (.dma (semAt (arr 0) j)) hsc) (.dma (semAt (arr 1) j)) hsrc hdst hsem) k) Q) := by
  subst hn
  exact Rounds.wp_send_pointsTo 𝒱₀ ER (sched m) (c : Thread nD τ) none (κ₁ := K (dcell 0 c j)) (κ₂ := K (dcell 1 (peer1 c j) j))
    (r₁ := 0) (r₂ := 0) (d₁ := false) (d₂ := false) (fd := fn)
    (by rw [duties_dma]; exact Finset.mem_singleton_self _) (by rw [duties_dma]; exact Finset.mem_singleton_self _)
    () () N rfl (amount_dma m 0 c j false) (amount_dma m 1 (peer1 c j) j false) O rfl (W := W)
    (by rw [payload_dma]; exact BI.Entails.refl _)
    (by rw [payload_dma, dmaPay_1, peer1_peer1]; iintro H; iexists fn; iexact H)

/-- Second exchange of chunk j: the chunk of the result's staging buffer, holding the first sum, goes out whole. -/
theorem send2_step (K : GSem nD τ sig → ℕ) (c : Dev nD) (j : Fin 8) (n : Dev nD) (hn : n = peer2 c j)
    {hsc : (bS j : Memref sig (Dev.tc n : Thread nD τ).2.kind .vmem S32x256 .f32).view.ref.isScScratch = false}
    {hsrc : (oS j : (Memref sig .tc .vmem S32x256 .f32)).view.WordExact} {hdst : (bS j : (Memref sig .tc .vmem S32x256 .f32)).view.WordExact}
    {hsem : DmaTarget.Typed .vmem (.dma (semAt (arr 3) j)) (.remote (Dev.tc n : Thread nD τ) (bS j : (Memref sig .tc .vmem S32x256 .f32)) (.dma (semAt (arr 2) j)) hsc)}
    {α : Type} {Q : α → sProp 𝕄} {k : PUnit → Prog (TpuEff nD τ sig (Elt F) Λ₀ .tc) α}
    (fn : Buf (Elt F) ((bS j : (Memref sig .tc .vmem S32x256 .f32)).view.loc (peer2 c j : Thread nD τ))) (O : CellTallies nD τ sig Unit) (W : Waits sig Unit) :
    iprop(cellInv ER (sched m) (K (dcell 2 c j)) (dcell 2 c j) ∗ cellInv ER (sched m) (K (dcell 3 (peer2 c j) j)) (dcell 3 (peer2 c j) j)
        ∗ ((oS j : (Memref sig .tc .vmem S32x256 .f32)).view.loc (c : Thread nD τ) ↦[(oS j : (Memref sig .tc .vmem S32x256 .f32)).view.set]{fullShare} O1 m c j)
        ∗ ((bS j : (Memref sig .tc .vmem S32x256 .f32)).view.loc (peer2 c j : Thread nD τ) ↦[(bS j : (Memref sig .tc .vmem S32x256 .f32)).view.set]{fullShare} fn)
        ∗ owes (c : Thread nD τ) (O + tallyAt (dcell 3 (peer2 c j) j) () N) W
        ∗ dutyTok ER (dcell 2 c j) 0 false ∗ reached ER (dcell 2 c j) 0
        ∗ dutyTok ER (dcell 3 (peer2 c j) j) 0 false ∗ reached ER (dcell 3 (peer2 c j) j) 0)
      ⊢ iprop(((cred (tallyAt (dcell 2 c j) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (oS j) (.remote (Dev.tc n : Thread nD τ) (bS j) (.dma (semAt (arr 2) j)) hsc) (.dma (semAt (arr 3) j)) hsrc hdst hsem) k) Q) := by
  subst hn
  exact Rounds.wp_send_pointsTo 𝒱₀ ER (sched m) (c : Thread nD τ) none (κ₁ := K (dcell 2 c j)) (κ₂ := K (dcell 3 (peer2 c j) j))
    (r₁ := 0) (r₂ := 0) (d₁ := false) (d₂ := false) (fd := fn)
    (by rw [duties_dma]; exact Finset.mem_singleton_self _) (by rw [duties_dma]; exact Finset.mem_singleton_self _)
    () () N rfl (amount_dma m 2 c j false) (amount_dma m 3 (peer2 c j) j false) O rfl (W := W)
    (by rw [payload_dma]; exact BI.Entails.refl _)
    (by rw [payload_dma, dmaPay_3, peer2_peer2]; iintro H; iexists fn; iexact H)

/-! ## The first sum, as the body leaves it, is the canonical contents of the chunk -/

omit [FloatOps F] in
theorem restate_o (c : Dev nD) (j : Fin 8) (T T' : (cc0_stg1_0 : Ref sig .tc).ty.Contents (Elt F))
    (h : ∀ i ∈ (oS j : (Memref sig .tc .vmem S32x256 .f32)).view.set, T i = T' i) :
    ((oS j : (Memref sig .tc .vmem S32x256 .f32)).view.loc (c : Thread nD τ) ↦[(oS j : (Memref sig .tc .vmem S32x256 .f32)).view.set]{fullShare} T : sProp 𝕄)
      ⊢ ((oS j : (Memref sig .tc .vmem S32x256 .f32)).view.loc (c : Thread nD τ) ↦[(oS j : (Memref sig .tc .vmem S32x256 .f32)).view.set]{fullShare} T') :=
  Entails.of_eq (pointsTo_congr h)

/-- What the first store writes into chunk j — the device's own rows plus the rows landed from its first partner, read back
    through the landing buffer — is, on the chunk, the canonical first sum. -/
theorem first_store_eq (c : Dev nD) (j : Fin 8) (fo : (cc0_stg1_0 : Ref sig .tc).ty.Contents (Elt F)) (fd : (cc0_scratch0 : Ref sig .tc).ty.Contents (Elt F)) :
    ∀ i ∈ (oS j : (Memref sig .tc .vmem S32x256 .f32)).view.set,
      ((oM : Memref sig .tc .vmem S256x256 .f32).access (rect2 j)).write (Elt F) fo
        (addf (shapeCast S32x256 ((xM : Memref sig .tc .vmem S1x256x256 .f32).view.readAt (Elt F) (rect3 j).toLoadRect (X m c)) Facts₀.shapeCasts_S1x32x256_S32x256)
          ((aM : Memref sig .tc .vmem S256x256 .f32).view.readAt (Elt F) (rect2 j).toLoadRect
            ((aS j : (Memref sig .tc .vmem S32x256 .f32)).view.write (Elt F) fd ((xS j : (Memref sig .tc .vmem S32x256 .f32)).view.read (Elt F) (X m (peer1 c j))) Finset.univ))) Finset.univ i
      = O1 m c j i := by
  intro i hi
  rw [readAt_chunk_write cc0_scratch0 (rect2 j) fd]
  exact write_univ_agree ((oM : Memref sig .tc .vmem S256x256 .f32).access (rect2 j)) fo _ _ i hi

/-! ## The chunks' element sets: pairwise disjoint, together everything -/

theorem row_sep : ∀ j j' : Fin 8, j ≠ j' → row j + 32 ≤ row j' ∨ row j' + 32 ≤ row j := by decide
/-- Chunk number of a block of 32 rows. -/
abbrev jOf : Fin 8 → Fin 8 := ![0, 2, 4, 6, 1, 3, 5, 7]
theorem row_jOf : ∀ q : Fin 8, row (jOf q) = 32 * q.val := by decide

theorem rect2_disjoint (j j' : Fin 8) (h : j ≠ j') : Disjoint (rect2 j).set (rect2 j').set :=
  Rect.unit_disjoint (0 : Fin 2) (row_sep j j' h)
theorem rect3_disjoint (j j' : Fin 8) (h : j ≠ j') : Disjoint (rect3 j).set (rect3 j').set :=
  Rect.unit_disjoint (1 : Fin 3) (row_sep j j' h)

theorem rect2_cover : (Finset.univ : Finset (Fin 8)).biUnion (fun j => (rect2 j).set) = Finset.univ := by
  ext i
  simp only [Finset.mem_biUnion, Finset.mem_univ, true_and, iff_true]
  have h0 : (i 0 : ℕ) < 256 := (i 0).isLt
  have h1 : (i 1 : ℕ) < 256 := (i 1).isLt
  have hq : (i 0 : ℕ) / 32 < 8 := by omega
  have hr : row (jOf ⟨(i 0 : ℕ) / 32, hq⟩) = 32 * ((i 0 : ℕ) / 32) := row_jOf ⟨(i 0 : ℕ) / 32, hq⟩
  refine ⟨jOf ⟨(i 0 : ℕ) / 32, hq⟩, Rect.mem_set_unit.mpr fun a => ?_⟩
  match a with
  | ⟨0, _⟩ =>
    show row (jOf ⟨(i 0 : ℕ) / 32, hq⟩) ≤ (i 0 : ℕ) ∧ (i 0 : ℕ) < row (jOf ⟨(i 0 : ℕ) / 32, hq⟩) + 32
    rw [hr]; omega
  | ⟨1, _⟩ =>
    show 0 ≤ (i 1 : ℕ) ∧ (i 1 : ℕ) < 0 + 256
    omega
theorem rect3_cover : (Finset.univ : Finset (Fin 8)).biUnion (fun j => (rect3 j).set) = Finset.univ := by
  ext i
  simp only [Finset.mem_biUnion, Finset.mem_univ, true_and, iff_true]
  have h0 : (i 0 : ℕ) < 1 := (i 0).isLt
  have h1 : (i 1 : ℕ) < 256 := (i 1).isLt
  have h2 : (i 2 : ℕ) < 256 := (i 2).isLt
  have hq : (i 1 : ℕ) / 32 < 8 := by omega
  have hr : row (jOf ⟨(i 1 : ℕ) / 32, hq⟩) = 32 * ((i 1 : ℕ) / 32) := row_jOf ⟨(i 1 : ℕ) / 32, hq⟩
  refine ⟨jOf ⟨(i 1 : ℕ) / 32, hq⟩, Rect.mem_set_unit.mpr fun a => ?_⟩
  match a with
  | ⟨0, _⟩ =>
    show 0 ≤ (i 0 : ℕ) ∧ (i 0 : ℕ) < 0 + 1
    omega
  | ⟨1, _⟩ =>
    show row (jOf ⟨(i 1 : ℕ) / 32, hq⟩) ≤ (i 1 : ℕ) ∧ (i 1 : ℕ) < row (jOf ⟨(i 1 : ℕ) / 32, hq⟩) + 32
    rw [hr]; omega
  | ⟨2, _⟩ =>
    show 0 ≤ (i 2 : ℕ) ∧ (i 2 : ℕ) < 0 + 256
    omega

theorem set_oS (j : Fin 8) : (oS j : (Memref sig .tc .vmem S32x256 .f32)).view.set = (rect2 j).set := View.set_slice_whole _ _
theorem set_aS (j : Fin 8) : (aS j : (Memref sig .tc .vmem S32x256 .f32)).view.set = (rect2 j).set := View.set_slice_whole _ _
theorem set_bS (j : Fin 8) : (bS j : (Memref sig .tc .vmem S32x256 .f32)).view.set = (rect2 j).set := View.set_slice_whole _ _
theorem set_xS (j : Fin 8) : (xS j : (Memref sig .tc .vmem S32x256 .f32)).view.set = (rect3 j).set := by
  show ((View.whole cc0_stg0_0).slice (rect3 j) |>.reshape S32x256 _).set = _
  rw [View.set_reshape, View.set_slice_whole]

omit [FloatOps F] in
/-- The whole buffer at one contents is its eight chunks at those contents. -/
theorem o_chunks (c : Dev nD) (q : PosShare TreeShare) (f : (cc0_stg1_0 : Ref sig .tc).ty.Contents (Elt F)) :
    (((((c : Thread nD τ).loc cc0_stg1_0)) ↦{q} f) : sProp 𝕄)
      = bigSep Finset.univ fun j : Fin 8 => ((oS j : (Memref sig .tc .vmem S32x256 .f32)).view.loc (c : Thread nD τ) ↦[(oS j : (Memref sig .tc .vmem S32x256 .f32)).view.set]{q} f) := by
  have e : (((((c : Thread nD τ).loc cc0_stg1_0)) ↦{q} f) : sProp 𝕄)
      = ((((c : Thread nD τ).loc cc0_stg1_0)) ↦[(Finset.univ : Finset (Fin 8)).biUnion (fun j => (rect2 j).set)]{q} f) :=
    congrArg (fun S : Finset S256x256.Idx => (((((c : Thread nD τ).loc cc0_stg1_0)) ↦[S]{q} f) : sProp 𝕄)) rect2_cover.symm
  rw [e, pointsTo_biUnion _ _ (fun j _ j' _ h => rect2_disjoint j j' h)]
  exact bigSep_congr fun j _ => congrArg (fun S : Finset S256x256.Idx => (((((c : Thread nD τ).loc cc0_stg1_0)) ↦[S]{q} f) : sProp 𝕄)) (set_oS j).symm
omit [FloatOps F] in
/-- Eight chunks at eight contents are the whole buffer at contents agreeing with each on its chunk. -/
theorem o_join (c : Dev nD) (q : PosShare TreeShare) (fs : Fin 8 → (cc0_stg1_0 : Ref sig .tc).ty.Contents (Elt F)) :
    (bigSep Finset.univ fun j : Fin 8 => ((oS j : (Memref sig .tc .vmem S32x256 .f32)).view.loc (c : Thread nD τ) ↦[(oS j : (Memref sig .tc .vmem S32x256 .f32)).view.set]{q} fs j) : sProp 𝕄)
      ⊢ iprop(∃ g : (cc0_stg1_0 : Ref sig .tc).ty.Contents (Elt F), ⌜∀ j : Fin 8, ∀ i ∈ (rect2 j).set, g i = fs j i⌝ ∗ ((((c : Thread nD τ).loc cc0_stg1_0)) ↦{q} g)) := by
  have e : (bigSep Finset.univ fun j : Fin 8 => ((oS j : (Memref sig .tc .vmem S32x256 .f32)).view.loc (c : Thread nD τ) ↦[(oS j : (Memref sig .tc .vmem S32x256 .f32)).view.set]{q} fs j) : sProp 𝕄)
      = bigSep Finset.univ fun j : Fin 8 => ((((c : Thread nD τ).loc cc0_stg1_0)) ↦[(rect2 j).set]{q} fs j) :=
    bigSep_congr fun j _ => congrArg (fun S : Finset S256x256.Idx => (((((c : Thread nD τ).loc cc0_stg1_0)) ↦[S]{q} fs j) : sProp 𝕄)) (set_oS j)
  rw [e]
  refine (pointsTo_biUnion_join (ℓ := ((c : Thread nD τ).loc cc0_stg1_0)) Finset.univ (fun j : Fin 8 => (rect2 j).set) fs (fs 0) (fun j _ j' _ h => rect2_disjoint j j' h)).trans ?_
  iintro ⟨%g, %hg, H⟩
  iexists g
  isplitr
  · ipureintro; exact fun j i hi => hg j (Finset.mem_univ j) i hi
  · rw [rect2_cover]; iexact H

omit [FloatOps F] in
/-- The whole buffer at one contents is its eight chunks at those contents. -/
theorem a_chunks (c : Dev nD) (q : PosShare TreeShare) (f : (cc0_scratch0 : Ref sig .tc).ty.Contents (Elt F)) :
    (((((c : Thread nD τ).loc cc0_scratch0)) ↦{q} f) : sProp 𝕄)
      = bigSep Finset.univ fun j : Fin 8 => ((aS j : (Memref sig .tc .vmem S32x256 .f32)).view.loc (c : Thread nD τ) ↦[(aS j : (Memref sig .tc .vmem S32x256 .f32)).view.set]{q} f) := by
  have e : (((((c : Thread nD τ).loc cc0_scratch0)) ↦{q} f) : sProp 𝕄)
      = ((((c : Thread nD τ).loc cc0_scratch0)) ↦[(Finset.univ : Finset (Fin 8)).biUnion (fun j => (rect2 j).set)]{q} f) :=
    congrArg (fun S : Finset S256x256.Idx => (((((c : Thread nD τ).loc cc0_scratch0)) ↦[S]{q} f) : sProp 𝕄)) rect2_cover.symm
  rw [e, pointsTo_biUnion _ _ (fun j _ j' _ h => rect2_disjoint j j' h)]
  exact bigSep_congr fun j _ => congrArg (fun S : Finset S256x256.Idx => (((((c : Thread nD τ).loc cc0_scratch0)) ↦[S]{q} f) : sProp 𝕄)) (set_aS j).symm
omit [FloatOps F] in
/-- Eight chunks at eight contents are the whole buffer at contents agreeing with each on its chunk. -/
theorem a_join (c : Dev nD) (q : PosShare TreeShare) (fs : Fin 8 → (cc0_scratch0 : Ref sig .tc).ty.Contents (Elt F)) :
    (bigSep Finset.univ fun j : Fin 8 => ((aS j : (Memref sig .tc .vmem S32x256 .f32)).view.loc (c : Thread nD τ) ↦[(aS j : (Memref sig .tc .vmem S32x256 .f32)).view.set]{q} fs j) : sProp 𝕄)
      ⊢ iprop(∃ g : (cc0_scratch0 : Ref sig .tc).ty.Contents (Elt F), ⌜∀ j : Fin 8, ∀ i ∈ (rect2 j).set, g i = fs j i⌝ ∗ ((((c : Thread nD τ).loc cc0_scratch0)) ↦{q} g)) := by
  have e : (bigSep Finset.univ fun j : Fin 8 => ((aS j : (Memref sig .tc .vmem S32x256 .f32)).view.loc (c : Thread nD τ) ↦[(aS j : (Memref sig .tc .vmem S32x256 .f32)).view.set]{q} fs j) : sProp 𝕄)
      = bigSep Finset.univ fun j : Fin 8 => ((((c : Thread nD τ).loc cc0_scratch0)) ↦[(rect2 j).set]{q} fs j) :=
    bigSep_congr fun j _ => congrArg (fun S : Finset S256x256.Idx => (((((c : Thread nD τ).loc cc0_scratch0)) ↦[S]{q} fs j) : sProp 𝕄)) (set_aS j)
  rw [e]
  refine (pointsTo_biUnion_join (ℓ := ((c : Thread nD τ).loc cc0_scratch0)) Finset.univ (fun j : Fin 8 => (rect2 j).set) fs (fs 0) (fun j _ j' _ h => rect2_disjoint j j' h)).trans ?_
  iintro ⟨%g, %hg, H⟩
  iexists g
  isplitr
  · ipureintro; exact fun j i hi => hg j (Finset.mem_univ j) i hi
  · rw [rect2_cover]; iexact H

omit [FloatOps F] in
/-- The whole buffer at one contents is its eight chunks at those contents. -/
theorem b_chunks (c : Dev nD) (q : PosShare TreeShare) (f : (cc0_scratch1 : Ref sig .tc).ty.Contents (Elt F)) :
    (((((c : Thread nD τ).loc cc0_scratch1)) ↦{q} f) : sProp 𝕄)
      = bigSep Finset.univ fun j : Fin 8 => ((bS j : (Memref sig .tc .vmem S32x256 .f32)).view.loc (c : Thread nD τ) ↦[(bS j : (Memref sig .tc .vmem S32x256 .f32)).view.set]{q} f) := by
  have e : (((((c : Thread nD τ).loc cc0_scratch1)) ↦{q} f) : sProp 𝕄)
      = ((((c : Thread nD τ).loc cc0_scratch1)) ↦[(Finset.univ : Finset (Fin 8)).biUnion (fun j => (rect2 j).set)]{q} f) :=
    congrArg (fun S : Finset S256x256.Idx => (((((c : Thread nD τ).loc cc0_scratch1)) ↦[S]{q} f) : sProp 𝕄)) rect2_cover.symm
  rw [e, pointsTo_biUnion _ _ (fun j _ j' _ h => rect2_disjoint j j' h)]
  exact bigSep_congr fun j _ => congrArg (fun S : Finset S256x256.Idx => (((((c : Thread nD τ).loc cc0_scratch1)) ↦[S]{q} f) : sProp 𝕄)) (set_bS j).symm
omit [FloatOps F] in
/-- Eight chunks at eight contents are the whole buffer at contents agreeing with each on its chunk. -/
theorem b_join (c : Dev nD) (q : PosShare TreeShare) (fs : Fin 8 → (cc0_scratch1 : Ref sig .tc).ty.Contents (Elt F)) :
    (bigSep Finset.univ fun j : Fin 8 => ((bS j : (Memref sig .tc .vmem S32x256 .f32)).view.loc (c : Thread nD τ) ↦[(bS j : (Memref sig .tc .vmem S32x256 .f32)).view.set]{q} fs j) : sProp 𝕄)
      ⊢ iprop(∃ g : (cc0_scratch1 : Ref sig .tc).ty.Contents (Elt F), ⌜∀ j : Fin 8, ∀ i ∈ (rect2 j).set, g i = fs j i⌝ ∗ ((((c : Thread nD τ).loc cc0_scratch1)) ↦{q} g)) := by
  have e : (bigSep Finset.univ fun j : Fin 8 => ((bS j : (Memref sig .tc .vmem S32x256 .f32)).view.loc (c : Thread nD τ) ↦[(bS j : (Memref sig .tc .vmem S32x256 .f32)).view.set]{q} fs j) : sProp 𝕄)
      = bigSep Finset.univ fun j : Fin 8 => ((((c : Thread nD τ).loc cc0_scratch1)) ↦[(rect2 j).set]{q} fs j) :=
    bigSep_congr fun j _ => congrArg (fun S : Finset S256x256.Idx => (((((c : Thread nD τ).loc cc0_scratch1)) ↦[S]{q} fs j) : sProp 𝕄)) (set_bS j)
  rw [e]
  refine (pointsTo_biUnion_join (ℓ := ((c : Thread nD τ).loc cc0_scratch1)) Finset.univ (fun j : Fin 8 => (rect2 j).set) fs (fs 0) (fun j _ j' _ h => rect2_disjoint j j' h)).trans ?_
  iintro ⟨%g, %hg, H⟩
  iexists g
  isplitr
  · ipureintro; exact fun j i hi => hg j (Finset.mem_univ j) i hi
  · rw [rect2_cover]; iexact H

omit [FloatOps F] in
/-- The whole buffer at one contents is its eight chunks at those contents. -/
theorem x_chunks (c : Dev nD) (q : PosShare TreeShare) (f : (cc0_stg0_0 : Ref sig .tc).ty.Contents (Elt F)) :
    (((((c : Thread nD τ).loc cc0_stg0_0)) ↦{q} f) : sProp 𝕄)
      = bigSep Finset.univ fun j : Fin 8 => ((xS j : (Memref sig .tc .vmem S32x256 .f32)).view.loc (c : Thread nD τ) ↦[(xS j : (Memref sig .tc .vmem S32x256 .f32)).view.set]{q} f) := by
  have e : (((((c : Thread nD τ).loc cc0_stg0_0)) ↦{q} f) : sProp 𝕄)
      = ((((c : Thread nD τ).loc cc0_stg0_0)) ↦[(Finset.univ : Finset (Fin 8)).biUnion (fun j => (rect3 j).set)]{q} f) :=
    congrArg (fun S : Finset S1x256x256.Idx => (((((c : Thread nD τ).loc cc0_stg0_0)) ↦[S]{q} f) : sProp 𝕄)) rect3_cover.symm
  rw [e, pointsTo_biUnion _ _ (fun j _ j' _ h => rect3_disjoint j j' h)]
  exact bigSep_congr fun j _ => congrArg (fun S : Finset S1x256x256.Idx => (((((c : Thread nD τ).loc cc0_stg0_0)) ↦[S]{q} f) : sProp 𝕄)) (set_xS j).symm
omit [FloatOps F] in
/-- Eight chunks at eight contents are the whole buffer at contents agreeing with each on its chunk. -/
theorem x_join (c : Dev nD) (q : PosShare TreeShare) (fs : Fin 8 → (cc0_stg0_0 : Ref sig .tc).ty.Contents (Elt F)) :
    (bigSep Finset.univ fun j : Fin 8 => ((xS j : (Memref sig .tc .vmem S32x256 .f32)).view.loc (c : Thread nD τ) ↦[(xS j : (Memref sig .tc .vmem S32x256 .f32)).view.set]{q} fs j) : sProp 𝕄)
      ⊢ iprop(∃ g : (cc0_stg0_0 : Ref sig .tc).ty.Contents (Elt F), ⌜∀ j : Fin 8, ∀ i ∈ (rect3 j).set, g i = fs j i⌝ ∗ ((((c : Thread nD τ).loc cc0_stg0_0)) ↦{q} g)) := by
  have e : (bigSep Finset.univ fun j : Fin 8 => ((xS j : (Memref sig .tc .vmem S32x256 .f32)).view.loc (c : Thread nD τ) ↦[(xS j : (Memref sig .tc .vmem S32x256 .f32)).view.set]{q} fs j) : sProp 𝕄)
      = bigSep Finset.univ fun j : Fin 8 => ((((c : Thread nD τ).loc cc0_stg0_0)) ↦[(rect3 j).set]{q} fs j) :=
    bigSep_congr fun j _ => congrArg (fun S : Finset S1x256x256.Idx => (((((c : Thread nD τ).loc cc0_stg0_0)) ↦[S]{q} fs j) : sProp 𝕄)) (set_xS j)
  rw [e]
  refine (pointsTo_biUnion_join (ℓ := ((c : Thread nD τ).loc cc0_stg0_0)) Finset.univ (fun j : Fin 8 => (rect3 j).set) fs (fs 0) (fun j _ j' _ h => rect3_disjoint j j' h)).trans ?_
  iintro ⟨%g, %hg, H⟩
  iexists g
  isplitr
  · ipureintro; exact fun j i hi => hg j (Finset.mem_univ j) i hi
  · rw [rect3_cover]; iexact H

/-! ## The second sum and the result array -/

/-- Chunk j's first sum plus the second partner's first sum of chunk j: what the second store leaves in chunk j of the result. -/
def V2 (c : Dev nD) (j : Fin 8) : FVec F S32x256 .f32 :=
  addf (shapeCast S32x256 ((oM : Memref sig .tc .vmem S256x256 .f32).view.readAt (Elt F) (rect2 j).toLoadRect (O1 m c j)) Facts₀.shapeCasts_S32x256_S32x256)
    ((oS j : (Memref sig .tc .vmem S32x256 .f32)).view.read (Elt F) (O1 m (peer2 c j) j))

/-- Chunk j of the result's staging buffer after the second store, over arbitrary other rows. -/
def O2 (c : Dev nD) (j : Fin 8) : (cc0_stg1_0 : Ref sig .tc).ty.Contents (Elt F) :=
  ((oM : Memref sig .tc .vmem S256x256 .f32).access (rect2 j)).write (Elt F) (View.junk _) (V2 m c j) Finset.univ

/-- What the second store writes into chunk j is, on the chunk, the canonical second sum. -/
theorem second_store_eq (c : Dev nD) (j : Fin 8) (fd : (cc0_scratch1 : Ref sig .tc).ty.Contents (Elt F)) :
    ∀ i ∈ (oS j : (Memref sig .tc .vmem S32x256 .f32)).view.set,
      ((oM : Memref sig .tc .vmem S256x256 .f32).access (rect2 j)).write (Elt F) (O1 m c j)
        (addf (shapeCast S32x256 ((oM : Memref sig .tc .vmem S256x256 .f32).view.readAt (Elt F) (rect2 j).toLoadRect (O1 m c j)) Facts₀.shapeCasts_S32x256_S32x256)
          ((bM : Memref sig .tc .vmem S256x256 .f32).view.readAt (Elt F) (rect2 j).toLoadRect
            ((bS j : (Memref sig .tc .vmem S32x256 .f32)).view.write (Elt F) fd ((oS j : (Memref sig .tc .vmem S32x256 .f32)).view.read (Elt F) (O1 m (peer2 c j) j)) Finset.univ))) Finset.univ i
      = O2 m c j i := by
  intro i hi
  rw [readAt_chunk_write cc0_scratch1 (rect2 j) fd]
  exact write_univ_agree ((oM : Memref sig .tc .vmem S256x256 .f32).access (rect2 j)) _ _ _ i hi

/-- The chunk a row lies in. -/
def chunkOf (i : S256x256.Idx) : Fin 8 := jOf ⟨(i 0 : ℕ) / 32, by have h : (i 0 : ℕ) < 256 := (i 0).isLt; omega⟩

theorem mem_chunkOf (i : S256x256.Idx) : i ∈ (rect2 (chunkOf i)).set := by
  have h0 : (i 0 : ℕ) < 256 := (i 0).isLt
  have h1 : (i 1 : ℕ) < 256 := (i 1).isLt
  have hq : (i 0 : ℕ) / 32 < 8 := by omega
  have hr : row (jOf ⟨(i 0 : ℕ) / 32, hq⟩) = 32 * ((i 0 : ℕ) / 32) := row_jOf ⟨(i 0 : ℕ) / 32, hq⟩
  refine Rect.mem_set_unit.mpr fun a => ?_
  match a with
  | ⟨0, _⟩ =>
    show row (jOf ⟨(i 0 : ℕ) / 32, hq⟩) ≤ (i 0 : ℕ) ∧ (i 0 : ℕ) < row (jOf ⟨(i 0 : ℕ) / 32, hq⟩) + 32
    rw [hr]; omega
  | ⟨1, _⟩ =>
    show 0 ≤ (i 1 : ℕ) ∧ (i 1 : ℕ) < 0 + 256
    omega

/-- The result array a device ends with: in each chunk, the chunk's second sum. -/
def OutF (c : Dev nD) : (cc0_stg1_0 : Ref sig .tc).ty.Contents (Elt F) := fun i => O2 m c (chunkOf i) i

theorem outF_eq (c : Dev nD) (g : (cc0_stg1_0 : Ref sig .tc).ty.Contents (Elt F))
    (hg : ∀ j : Fin 8, ∀ i ∈ (rect2 j).set, g i = O2 m c j i) : g = OutF m c :=
  funext fun i => hg _ i (mem_chunkOf i)

omit [FloatOps F] in
/-- Values off a chunk's elements are irrelevant, under a wand. -/
theorem restate_wand (c : Dev nD) (j : Fin 8) (T T' : (cc0_stg1_0 : Ref sig .tc).ty.Contents (Elt F)) (G : sProp 𝕄)
    (h : ∀ i ∈ (oS j : (Memref sig .tc .vmem S32x256 .f32)).view.set, T i = T' i) :
    iprop(((oS j : (Memref sig .tc .vmem S32x256 .f32)).view.loc (c : Thread nD τ) ↦[(oS j : (Memref sig .tc .vmem S32x256 .f32)).view.set]{fullShare} T') -∗ G)
      ⊢ iprop(((oS j : (Memref sig .tc .vmem S32x256 .f32)).view.loc (c : Thread nD τ) ↦[(oS j : (Memref sig .tc .vmem S32x256 .f32)).view.set]{fullShare} T) -∗ G) := by
  exact Entails.of_eq (congrArg (fun P : sProp 𝕄 => iprop(P -∗ G)) (pointsTo_congr (q := fullShare) h).symm)

/-- The last transfer: nothing else is owed. -/
theorem send2_step0 (K : GSem nD τ sig → ℕ) (c : Dev nD) (j : Fin 8) (n : Dev nD) (hn : n = peer2 c j)
    {hsc : (bS j : Memref sig (Dev.tc n : Thread nD τ).2.kind .vmem S32x256 .f32).view.ref.isScScratch = false}
    {hsrc : (oS j : (Memref sig .tc .vmem S32x256 .f32)).view.WordExact} {hdst : (bS j : (Memref sig .tc .vmem S32x256 .f32)).view.WordExact}
    {hsem : DmaTarget.Typed .vmem (.dma (semAt (arr 3) j)) (.remote (Dev.tc n : Thread nD τ) (bS j : (Memref sig .tc .vmem S32x256 .f32)) (.dma (semAt (arr 2) j)) hsc)}
    {α : Type} {Q : α → sProp 𝕄} {k : PUnit → Prog (TpuEff nD τ sig (Elt F) Λ₀ .tc) α}
    (fn : Buf (Elt F) ((bS j : (Memref sig .tc .vmem S32x256 .f32)).view.loc (peer2 c j : Thread nD τ))) (W : Waits sig Unit) :
    iprop(cellInv ER (sched m) (K (dcell 2 c j)) (dcell 2 c j) ∗ cellInv ER (sched m) (K (dcell 3 (peer2 c j) j)) (dcell 3 (peer2 c j) j)
        ∗ ((oS j : (Memref sig .tc .vmem S32x256 .f32)).view.loc (c : Thread nD τ) ↦[(oS j : (Memref sig .tc .vmem S32x256 .f32)).view.set]{fullShare} O1 m c j)
        ∗ ((bS j : (Memref sig .tc .vmem S32x256 .f32)).view.loc (peer2 c j : Thread nD τ) ↦[(bS j : (Memref sig .tc .vmem S32x256 .f32)).view.set]{fullShare} fn)
        ∗ owes (c : Thread nD τ) (tallyAt (dcell 3 (peer2 c j) j) () N) W
        ∗ dutyTok ER (dcell 2 c j) 0 false ∗ reached ER (dcell 2 c j) 0
        ∗ dutyTok ER (dcell 3 (peer2 c j) j) 0 false ∗ reached ER (dcell 3 (peer2 c j) j) 0)
      ⊢ iprop(((cred (tallyAt (dcell 2 c j) () N) ∗ owes (c : Thread nD τ) 0 W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (oS j) (.remote (Dev.tc n : Thread nD τ) (bS j) (.dma (semAt (arr 2) j)) hsc) (.dma (semAt (arr 3) j)) hsrc hdst hsem) k) Q) := by
  have h := send2_step m K c j n hn (hsc := hsc) (hsrc := hsrc) (hdst := hdst) (hsem := hsem) (Q := Q) (k := k) fn 0 W
  rwa [zero_add] at h

/-- The protocol's ghost state device c starts from, at the names K the launch allocated the cells' invariants at: the
    invariants of every cell it waits on or pays into; the rounds it pays into reached; its own cells' positions; the duty
    tokens it pays with. -/
def ghost (K : GSem nD τ sig → ℕ) (c : Dev nD) : sProp 𝕄 :=
  iprop((cellInv ER (sched m) (K (barCell c)) (barCell c)
    ∗ cellInv ER (sched m) (K (barCell (p1 c))) (barCell (p1 c))
    ∗ cellInv ER (sched m) (K (barCell (p2 c))) (barCell (p2 c))
    ∗ cellInv ER (sched m) (K (dcell 0 c 0)) (dcell 0 c 0)
    ∗ cellInv ER (sched m) (K (dcell 0 c 1)) (dcell 0 c 1)
    ∗ cellInv ER (sched m) (K (dcell 0 c 2)) (dcell 0 c 2)
    ∗ cellInv ER (sched m) (K (dcell 0 c 3)) (dcell 0 c 3)
    ∗ cellInv ER (sched m) (K (dcell 0 c 4)) (dcell 0 c 4)
    ∗ cellInv ER (sched m) (K (dcell 0 c 5)) (dcell 0 c 5)
    ∗ cellInv ER (sched m) (K (dcell 0 c 6)) (dcell 0 c 6)
    ∗ cellInv ER (sched m) (K (dcell 0 c 7)) (dcell 0 c 7)
    ∗ cellInv ER (sched m) (K (dcell 1 c 0)) (dcell 1 c 0)
    ∗ cellInv ER (sched m) (K (dcell 1 c 1)) (dcell 1 c 1)
    ∗ cellInv ER (sched m) (K (dcell 1 c 2)) (dcell 1 c 2)
    ∗ cellInv ER (sched m) (K (dcell 1 c 3)) (dcell 1 c 3)
    ∗ cellInv ER (sched m) (K (dcell 1 c 4)) (dcell 1 c 4)
    ∗ cellInv ER (sched m) (K (dcell 1 c 5)) (dcell 1 c 5)
    ∗ cellInv ER (sched m) (K (dcell 1 c 6)) (dcell 1 c 6)
    ∗ cellInv ER (sched m) (K (dcell 1 c 7)) (dcell 1 c 7)
    ∗ cellInv ER (sched m) (K (dcell 2 c 0)) (dcell 2 c 0)
    ∗ cellInv ER (sched m) (K (dcell 2 c 1)) (dcell 2 c 1)
    ∗ cellInv ER (sched m) (K (dcell 2 c 2)) (dcell 2 c 2)
    ∗ cellInv ER (sched m) (K (dcell 2 c 3)) (dcell 2 c 3)
    ∗ cellInv ER (sched m) (K (dcell 2 c 4)) (dcell 2 c 4)
    ∗ cellInv ER (sched m) (K (dcell 2 c 5)) (dcell 2 c 5)
    ∗ cellInv ER (sched m) (K (dcell 2 c 6)) (dcell 2 c 6)
    ∗ cellInv ER (sched m) (K (dcell 2 c 7)) (dcell 2 c 7)
    ∗ cellInv ER (sched m) (K (dcell 3 c 0)) (dcell 3 c 0)
    ∗ cellInv ER (sched m) (K (dcell 3 c 1)) (dcell 3 c 1)
    ∗ cellInv ER (sched m) (K (dcell 3 c 2)) (dcell 3 c 2)
    ∗ cellInv ER (sched m) (K (dcell 3 c 3)) (dcell 3 c 3)
    ∗ cellInv ER (sched m) (K (dcell 3 c 4)) (dcell 3 c 4)
    ∗ cellInv ER (sched m) (K (dcell 3 c 5)) (dcell 3 c 5)
    ∗ cellInv ER (sched m) (K (dcell 3 c 6)) (dcell 3 c 6)
    ∗ cellInv ER (sched m) (K (dcell 3 c 7)) (dcell 3 c 7)
    ∗ cellInv ER (sched m) (K (dcell 1 (p1 c) 0)) (dcell 1 (p1 c) 0)
    ∗ cellInv ER (sched m) (K (dcell 1 (p2 c) 1)) (dcell 1 (p2 c) 1)
    ∗ cellInv ER (sched m) (K (dcell 1 (p1 c) 2)) (dcell 1 (p1 c) 2)
    ∗ cellInv ER (sched m) (K (dcell 1 (p2 c) 3)) (dcell 1 (p2 c) 3)
    ∗ cellInv ER (sched m) (K (dcell 1 (p1 c) 4)) (dcell 1 (p1 c) 4)
    ∗ cellInv ER (sched m) (K (dcell 1 (p2 c) 5)) (dcell 1 (p2 c) 5)
    ∗ cellInv ER (sched m) (K (dcell 1 (p1 c) 6)) (dcell 1 (p1 c) 6)
    ∗ cellInv ER (sched m) (K (dcell 1 (p2 c) 7)) (dcell 1 (p2 c) 7)
    ∗ cellInv ER (sched m) (K (dcell 3 (p2 c) 0)) (dcell 3 (p2 c) 0)
    ∗ cellInv ER (sched m) (K (dcell 3 (p1 c) 1)) (dcell 3 (p1 c) 1)
    ∗ cellInv ER (sched m) (K (dcell 3 (p2 c) 2)) (dcell 3 (p2 c) 2)
    ∗ cellInv ER (sched m) (K (dcell 3 (p1 c) 3)) (dcell 3 (p1 c) 3)
    ∗ cellInv ER (sched m) (K (dcell 3 (p2 c) 4)) (dcell 3 (p2 c) 4)
    ∗ cellInv ER (sched m) (K (dcell 3 (p1 c) 5)) (dcell 3 (p1 c) 5)
    ∗ cellInv ER (sched m) (K (dcell 3 (p2 c) 6)) (dcell 3 (p2 c) 6)
    ∗ cellInv ER (sched m) (K (dcell 3 (p1 c) 7)) (dcell 3 (p1 c) 7))
    ∗ (reached ER (barCell (p1 c)) 0
    ∗ reached ER (barCell (p2 c)) 0
    ∗ reached ER (dcell 0 c 0) 0
    ∗ reached ER (dcell 0 c 1) 0
    ∗ reached ER (dcell 0 c 2) 0
    ∗ reached ER (dcell 0 c 3) 0
    ∗ reached ER (dcell 0 c 4) 0
    ∗ reached ER (dcell 0 c 5) 0
    ∗ reached ER (dcell 0 c 6) 0
    ∗ reached ER (dcell 0 c 7) 0
    ∗ reached ER (dcell 2 c 0) 0
    ∗ reached ER (dcell 2 c 1) 0
    ∗ reached ER (dcell 2 c 2) 0
    ∗ reached ER (dcell 2 c 3) 0
    ∗ reached ER (dcell 2 c 4) 0
    ∗ reached ER (dcell 2 c 5) 0
    ∗ reached ER (dcell 2 c 6) 0
    ∗ reached ER (dcell 2 c 7) 0
    ∗ reached ER (dcell 1 (p1 c) 0) 0
    ∗ reached ER (dcell 1 (p2 c) 1) 0
    ∗ reached ER (dcell 1 (p1 c) 2) 0
    ∗ reached ER (dcell 1 (p2 c) 3) 0
    ∗ reached ER (dcell 1 (p1 c) 4) 0
    ∗ reached ER (dcell 1 (p2 c) 5) 0
    ∗ reached ER (dcell 1 (p1 c) 6) 0
    ∗ reached ER (dcell 1 (p2 c) 7) 0
    ∗ reached ER (dcell 3 (p2 c) 0) 0
    ∗ reached ER (dcell 3 (p1 c) 1) 0
    ∗ reached ER (dcell 3 (p2 c) 2) 0
    ∗ reached ER (dcell 3 (p1 c) 3) 0
    ∗ reached ER (dcell 3 (p2 c) 4) 0
    ∗ reached ER (dcell 3 (p1 c) 5) 0
    ∗ reached ER (dcell 3 (p2 c) 6) 0
    ∗ reached ER (dcell 3 (p1 c) 7) 0)
    ∗ (atPos ER (barCell c) 0 ∅ 0
    ∗ atPos ER (dcell 0 c 0) 0 ∅ 0
    ∗ atPos ER (dcell 0 c 1) 0 ∅ 0
    ∗ atPos ER (dcell 0 c 2) 0 ∅ 0
    ∗ atPos ER (dcell 0 c 3) 0 ∅ 0
    ∗ atPos ER (dcell 0 c 4) 0 ∅ 0
    ∗ atPos ER (dcell 0 c 5) 0 ∅ 0
    ∗ atPos ER (dcell 0 c 6) 0 ∅ 0
    ∗ atPos ER (dcell 0 c 7) 0 ∅ 0
    ∗ atPos ER (dcell 1 c 0) 0 ∅ 0
    ∗ atPos ER (dcell 1 c 1) 0 ∅ 0
    ∗ atPos ER (dcell 1 c 2) 0 ∅ 0
    ∗ atPos ER (dcell 1 c 3) 0 ∅ 0
    ∗ atPos ER (dcell 1 c 4) 0 ∅ 0
    ∗ atPos ER (dcell 1 c 5) 0 ∅ 0
    ∗ atPos ER (dcell 1 c 6) 0 ∅ 0
    ∗ atPos ER (dcell 1 c 7) 0 ∅ 0
    ∗ atPos ER (dcell 2 c 0) 0 ∅ 0
    ∗ atPos ER (dcell 2 c 1) 0 ∅ 0
    ∗ atPos ER (dcell 2 c 2) 0 ∅ 0
    ∗ atPos ER (dcell 2 c 3) 0 ∅ 0
    ∗ atPos ER (dcell 2 c 4) 0 ∅ 0
    ∗ atPos ER (dcell 2 c 5) 0 ∅ 0
    ∗ atPos ER (dcell 2 c 6) 0 ∅ 0
    ∗ atPos ER (dcell 2 c 7) 0 ∅ 0
    ∗ atPos ER (dcell 3 c 0) 0 ∅ 0
    ∗ atPos ER (dcell 3 c 1) 0 ∅ 0
    ∗ atPos ER (dcell 3 c 2) 0 ∅ 0
    ∗ atPos ER (dcell 3 c 3) 0 ∅ 0
    ∗ atPos ER (dcell 3 c 4) 0 ∅ 0
    ∗ atPos ER (dcell 3 c 5) 0 ∅ 0
    ∗ atPos ER (dcell 3 c 6) 0 ∅ 0
    ∗ atPos ER (dcell 3 c 7) 0 ∅ 0)
    ∗ (dutyTok ER (barCell (p1 c)) 0 false
    ∗ dutyTok ER (barCell (p2 c)) 0 true
    ∗ dutyTok ER (dcell 0 c 0) 0 false
    ∗ dutyTok ER (dcell 0 c 1) 0 false
    ∗ dutyTok ER (dcell 0 c 2) 0 false
    ∗ dutyTok ER (dcell 0 c 3) 0 false
    ∗ dutyTok ER (dcell 0 c 4) 0 false
    ∗ dutyTok ER (dcell 0 c 5) 0 false
    ∗ dutyTok ER (dcell 0 c 6) 0 false
    ∗ dutyTok ER (dcell 0 c 7) 0 false
    ∗ dutyTok ER (dcell 1 (p1 c) 0) 0 false
    ∗ dutyTok ER (dcell 1 (p2 c) 1) 0 false
    ∗ dutyTok ER (dcell 1 (p1 c) 2) 0 false
    ∗ dutyTok ER (dcell 1 (p2 c) 3) 0 false
    ∗ dutyTok ER (dcell 1 (p1 c) 4) 0 false
    ∗ dutyTok ER (dcell 1 (p2 c) 5) 0 false
    ∗ dutyTok ER (dcell 1 (p1 c) 6) 0 false
    ∗ dutyTok ER (dcell 1 (p2 c) 7) 0 false
    ∗ dutyTok ER (dcell 2 c 0) 0 false
    ∗ dutyTok ER (dcell 2 c 1) 0 false
    ∗ dutyTok ER (dcell 2 c 2) 0 false
    ∗ dutyTok ER (dcell 2 c 3) 0 false
    ∗ dutyTok ER (dcell 2 c 4) 0 false
    ∗ dutyTok ER (dcell 2 c 5) 0 false
    ∗ dutyTok ER (dcell 2 c 6) 0 false
    ∗ dutyTok ER (dcell 2 c 7) 0 false
    ∗ dutyTok ER (dcell 3 (p2 c) 0) 0 false
    ∗ dutyTok ER (dcell 3 (p1 c) 1) 0 false
    ∗ dutyTok ER (dcell 3 (p2 c) 2) 0 false
    ∗ dutyTok ER (dcell 3 (p1 c) 3) 0 false
    ∗ dutyTok ER (dcell 3 (p2 c) 4) 0 false
    ∗ dutyTok ER (dcell 3 (p1 c) 5) 0 false
    ∗ dutyTok ER (dcell 3 (p2 c) 6) 0 false
    ∗ dutyTok ER (dcell 3 (p1 c) 7) 0 false))

/-- Its launch credit: two units on its barrier cell, a chunk's credit on each of its 16 receive cells. -/
def credsOf (c : Dev nD) : sProp 𝕄 :=
  iprop(cred (tallyAt (barCell c) () 2)
    ∗ cred (tallyAt (dcell 1 c 0) () 1024)
    ∗ cred (tallyAt (dcell 1 c 1) () 1024)
    ∗ cred (tallyAt (dcell 1 c 2) () 1024)
    ∗ cred (tallyAt (dcell 1 c 3) () 1024)
    ∗ cred (tallyAt (dcell 1 c 4) () 1024)
    ∗ cred (tallyAt (dcell 1 c 5) () 1024)
    ∗ cred (tallyAt (dcell 1 c 6) () 1024)
    ∗ cred (tallyAt (dcell 1 c 7) () 1024)
    ∗ cred (tallyAt (dcell 3 c 0) () 1024)
    ∗ cred (tallyAt (dcell 3 c 1) () 1024)
    ∗ cred (tallyAt (dcell 3 c 2) () 1024)
    ∗ cred (tallyAt (dcell 3 c 3) () 1024)
    ∗ cred (tallyAt (dcell 3 c 4) () 1024)
    ∗ cred (tallyAt (dcell 3 c 5) () 1024)
    ∗ cred (tallyAt (dcell 3 c 6) () 1024)
    ∗ cred (tallyAt (dcell 3 c 7) () 1024))

/-! ## The body's buffers by chunks, before and after -/

/-- Before the body: the staged input whole at the left half share and by chunks at the right half; the result's staging
    buffer and the two landing buffers by chunks, each over the contents it has. -/
def bufsC (c : Dev nD) (fo : (cc0_stg1_0 : Ref sig .tc).ty.Contents (Elt F)) (fa : (cc0_scratch0 : Ref sig .tc).ty.Contents (Elt F)) (fb : (cc0_scratch1 : Ref sig .tc).ty.Contents (Elt F)) : sProp 𝕄 :=
  iprop(((xM : Memref sig .tc .vmem S1x256x256 .f32).view.loc (c : Thread nD τ) ↦[(xM : Memref sig .tc .vmem S1x256x256 .f32).view.set]{fullShare.left} X m c)
    ∗ ((xS 0 : (Memref sig .tc .vmem S32x256 .f32)).view.loc (c : Thread nD τ) ↦[(xS 0 : (Memref sig .tc .vmem S32x256 .f32)).view.set]{fullShare.right} X m c)
    ∗ ((xS 1 : (Memref sig .tc .vmem S32x256 .f32)).view.loc (c : Thread nD τ) ↦[(xS 1 : (Memref sig .tc .vmem S32x256 .f32)).view.set]{fullShare.right} X m c)
    ∗ ((xS 2 : (Memref sig .tc .vmem S32x256 .f32)).view.loc (c : Thread nD τ) ↦[(xS 2 : (Memref sig .tc .vmem S32x256 .f32)).view.set]{fullShare.right} X m c)
    ∗ ((xS 3 : (Memref sig .tc .vmem S32x256 .f32)).view.loc (c : Thread nD τ) ↦[(xS 3 : (Memref sig .tc .vmem S32x256 .f32)).view.set]{fullShare.right} X m c)
    ∗ ((xS 4 : (Memref sig .tc .vmem S32x256 .f32)).view.loc (c : Thread nD τ) ↦[(xS 4 : (Memref sig .tc .vmem S32x256 .f32)).view.set]{fullShare.right} X m c)
    ∗ ((xS 5 : (Memref sig .tc .vmem S32x256 .f32)).view.loc (c : Thread nD τ) ↦[(xS 5 : (Memref sig .tc .vmem S32x256 .f32)).view.set]{fullShare.right} X m c)
    ∗ ((xS 6 : (Memref sig .tc .vmem S32x256 .f32)).view.loc (c : Thread nD τ) ↦[(xS 6 : (Memref sig .tc .vmem S32x256 .f32)).view.set]{fullShare.right} X m c)
    ∗ ((xS 7 : (Memref sig .tc .vmem S32x256 .f32)).view.loc (c : Thread nD τ) ↦[(xS 7 : (Memref sig .tc .vmem S32x256 .f32)).view.set]{fullShare.right} X m c)
    ∗ ((oS 0 : (Memref sig .tc .vmem S32x256 .f32)).view.loc (c : Thread nD τ) ↦[(oS 0 : (Memref sig .tc .vmem S32x256 .f32)).view.set]{fullShare} fo)
    ∗ ((oS 1 : (Memref sig .tc .vmem S32x256 .f32)).view.loc (c : Thread nD τ) ↦[(oS 1 : (Memref sig .tc .vmem S32x256 .f32)).view.set]{fullShare} fo)
    ∗ ((oS 2 : (Memref sig .tc .vmem S32x256 .f32)).view.loc (c : Thread nD τ) ↦[(oS 2 : (Memref sig .tc .vmem S32x256 .f32)).view.set]{fullShare} fo)
    ∗ ((oS 3 : (Memref sig .tc .vmem S32x256 .f32)).view.loc (c : Thread nD τ) ↦[(oS 3 : (Memref sig .tc .vmem S32x256 .f32)).view.set]{fullShare} fo)
    ∗ ((oS 4 : (Memref sig .tc .vmem S32x256 .f32)).view.loc (c : Thread nD τ) ↦[(oS 4 : (Memref sig .tc .vmem S32x256 .f32)).view.set]{fullShare} fo)
    ∗ ((oS 5 : (Memref sig .tc .vmem S32x256 .f32)).view.loc (c : Thread nD τ) ↦[(oS 5 : (Memref sig .tc .vmem S32x256 .f32)).view.set]{fullShare} fo)
    ∗ ((oS 6 : (Memref sig .tc .vmem S32x256 .f32)).view.loc (c : Thread nD τ) ↦[(oS 6 : (Memref sig .tc .vmem S32x256 .f32)).view.set]{fullShare} fo)
    ∗ ((oS 7 : (Memref sig .tc .vmem S32x256 .f32)).view.loc (c : Thread nD τ) ↦[(oS 7 : (Memref sig .tc .vmem S32x256 .f32)).view.set]{fullShare} fo)
    ∗ ((aS 0 : (Memref sig .tc .vmem S32x256 .f32)).view.loc (c : Thread nD τ) ↦[(aS 0 : (Memref sig .tc .vmem S32x256 .f32)).view.set]{fullShare} fa)
    ∗ ((aS 2 : (Memref sig .tc .vmem S32x256 .f32)).view.loc (c : Thread nD τ) ↦[(aS 2 : (Memref sig .tc .vmem S32x256 .f32)).view.set]{fullShare} fa)
    ∗ ((aS 4 : (Memref sig .tc .vmem S32x256 .f32)).view.loc (c : Thread nD τ) ↦[(aS 4 : (Memref sig .tc .vmem S32x256 .f32)).view.set]{fullShare} fa)
    ∗ ((aS 6 : (Memref sig .tc .vmem S32x256 .f32)).view.loc (c : Thread nD τ) ↦[(aS 6 : (Memref sig .tc .vmem S32x256 .f32)).view.set]{fullShare} fa)
    ∗ ((aS 1 : (Memref sig .tc .vmem S32x256 .f32)).view.loc (c : Thread nD τ) ↦[(aS 1 : (Memref sig .tc .vmem S32x256 .f32)).view.set]{fullShare} fa)
    ∗ ((aS 3 : (Memref sig .tc .vmem S32x256 .f32)).view.loc (c : Thread nD τ) ↦[(aS 3 : (Memref sig .tc .vmem S32x256 .f32)).view.set]{fullShare} fa)
    ∗ ((aS 5 : (Memref sig .tc .vmem S32x256 .f32)).view.loc (c : Thread nD τ) ↦[(aS 5 : (Memref sig .tc .vmem S32x256 .f32)).view.set]{fullShare} fa)
    ∗ ((aS 7 : (Memref sig .tc .vmem S32x256 .f32)).view.loc (c : Thread nD τ) ↦[(aS 7 : (Memref sig .tc .vmem S32x256 .f32)).view.set]{fullShare} fa)
    ∗ ((bS 1 : (Memref sig .tc .vmem S32x256 .f32)).view.loc (c : Thread nD τ) ↦[(bS 1 : (Memref sig .tc .vmem S32x256 .f32)).view.set]{fullShare} fb)
    ∗ ((bS 3 : (Memref sig .tc .vmem S32x256 .f32)).view.loc (c : Thread nD τ) ↦[(bS 3 : (Memref sig .tc .vmem S32x256 .f32)).view.set]{fullShare} fb)
    ∗ ((bS 5 : (Memref sig .tc .vmem S32x256 .f32)).view.loc (c : Thread nD τ) ↦[(bS 5 : (Memref sig .tc .vmem S32x256 .f32)).view.set]{fullShare} fb)
    ∗ ((bS 7 : (Memref sig .tc .vmem S32x256 .f32)).view.loc (c : Thread nD τ) ↦[(bS 7 : (Memref sig .tc .vmem S32x256 .f32)).view.set]{fullShare} fb)
    ∗ ((bS 0 : (Memref sig .tc .vmem S32x256 .f32)).view.loc (c : Thread nD τ) ↦[(bS 0 : (Memref sig .tc .vmem S32x256 .f32)).view.set]{fullShare} fb)
    ∗ ((bS 2 : (Memref sig .tc .vmem S32x256 .f32)).view.loc (c : Thread nD τ) ↦[(bS 2 : (Memref sig .tc .vmem S32x256 .f32)).view.set]{fullShare} fb)
    ∗ ((bS 4 : (Memref sig .tc .vmem S32x256 .f32)).view.loc (c : Thread nD τ) ↦[(bS 4 : (Memref sig .tc .vmem S32x256 .f32)).view.set]{fullShare} fb)
    ∗ ((bS 6 : (Memref sig .tc .vmem S32x256 .f32)).view.loc (c : Thread nD τ) ↦[(bS 6 : (Memref sig .tc .vmem S32x256 .f32)).view.set]{fullShare} fb))

/-- After the body: the input as before; each result chunk at its second sum; the landing chunks over some contents; the 32
    own cells at zero; nothing owed. -/
def postC (c : Dev nD) : sProp 𝕄 :=
  iprop(((xM : Memref sig .tc .vmem S1x256x256 .f32).view.loc (c : Thread nD τ) ↦[(xM : Memref sig .tc .vmem S1x256x256 .f32).view.set]{fullShare.left} X m c)
    ∗ (bigSep Finset.univ fun j : Fin 8 => ((xS j : (Memref sig .tc .vmem S32x256 .f32)).view.loc (c : Thread nD τ) ↦[(xS j : (Memref sig .tc .vmem S32x256 .f32)).view.set]{fullShare.right} X m c))
    ∗ (bigSep Finset.univ fun j : Fin 8 => ((oS j : (Memref sig .tc .vmem S32x256 .f32)).view.loc (c : Thread nD τ) ↦[(oS j : (Memref sig .tc .vmem S32x256 .f32)).view.set]{fullShare} O2 m c j))
    ∗ (bigSep Finset.univ fun j : Fin 8 => iprop(∃ f, (aS j : (Memref sig .tc .vmem S32x256 .f32)).view.loc (c : Thread nD τ) ↦[(aS j : (Memref sig .tc .vmem S32x256 .f32)).view.set]{fullShare} f))
    ∗ (bigSep Finset.univ fun j : Fin 8 => iprop(∃ f, (bS j : (Memref sig .tc .vmem S32x256 .f32)).view.loc (c : Thread nD τ) ↦[(bS j : (Memref sig .tc .vmem S32x256 .f32)).view.set]{fullShare} f))
    ∗ (bigSep Finset.univ fun kj : Fin 4 × Fin 8 => semVal (dcell kj.1 c kj.2) 0)
    ∗ ∃ W : Waits sig Unit, owes (c : Thread nD τ) 0 W)

omit [FloatOps F] in
theorem bigSep_fin8' (Φ : Fin 8 → sProp 𝕄) :
    bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ
omit [FloatOps F] in
theorem bigSep_kj' (Φ : Fin 4 × Fin 8 → sProp 𝕄) :
    bigSep Finset.univ Φ = iprop(Φ (0, 0) ∗ Φ (0, 1) ∗ Φ (0, 2) ∗ Φ (0, 3) ∗ Φ (0, 4) ∗ Φ (0, 5) ∗ Φ (0, 6) ∗ Φ (0, 7) ∗ Φ (1, 0) ∗ Φ (1, 1) ∗ Φ (1, 2) ∗ Φ (1, 3) ∗ Φ (1, 4) ∗ Φ (1, 5) ∗ Φ (1, 6) ∗ Φ (1, 7) ∗ Φ (2, 0) ∗ Φ (2, 1) ∗ Φ (2, 2) ∗ Φ (2, 3) ∗ Φ (2, 4) ∗ Φ (2, 5) ∗ Φ (2, 6) ∗ Φ (2, 7) ∗ Φ (3, 0) ∗ Φ (3, 1) ∗ Φ (3, 2) ∗ Φ (3, 3) ∗ Φ (3, 4) ∗ Φ (3, 5) ∗ Φ (3, 6) ∗ Φ (3, 7)) :=
  bigSep_univ_eq_bigSepL [(0, 0), (0, 1), (0, 2), (0, 3), (0, 4), (0, 5), (0, 6), (0, 7), (1, 0), (1, 1), (1, 2), (1, 3), (1, 4), (1, 5), (1, 6), (1, 7), (2, 0), (2, 1), (2, 2), (2, 3), (2, 4), (2, 5), (2, 6), (2, 7), (3, 0), (3, 1), (3, 2), (3, 3), (3, 4), (3, 5), (3, 6), (3, 7)] (by decide) (by decide) Φ

end Cert.Kernel.Tree
end
-- ==== Proof.BodyK.lean ====
/-
  One device's run of the kernel body, stepped from the protocol's invariant.
-/
import proofs.«900329_g7700000000000330_dist_treered_v7x_i4_m256_n256_f32_1_alg».proof.Proof.ProtoK

noncomputable section

namespace Cert.Kernel.Tree

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig Unit (Elt F) ℕ UU ℕ

variable (m : (ℓ : Loc nD τ sig) → Buf (Elt F) ℓ)

attribute [local sl_rounds] slotA_eq slotB_eq gift_false gift_true ite_true_p ite_false_p duties_bar duties_dma amount_bar amount_dma payload_bar payload_dma expect_bar expect_dma p1_p1 p2_p2 dmaPay_0 dmaPay_1 dmaPay_2 dmaPay_3 peer1_0 peer2_0 peer1_1 peer2_1 peer1_2 peer2_2 peer1_3 peer2_3 peer1_4 peer2_4 peer1_5 peer2_5 peer1_6 peer2_6 peer1_7 peer2_7

set_option maxHeartbeats 0 in
/-- One device's body, from the protocol's invariant and its buffers by chunks, to the chunks' final contents. -/
theorem sound_body (K : GSem nD τ sig → ℕ) (c : Dev nD) (W : Waits sig Unit)
    (fo : (cc0_stg1_0 : Ref sig .tc).ty.Contents (Elt F)) (fa : (cc0_scratch0 : Ref sig .tc).ty.Contents (Elt F)) (fb : (cc0_scratch1 : Ref sig .tc).ty.Contents (Elt F))
    (Kt : PUnit → sProp 𝕄) :
    iprop(ghost m K c ∗ credsOf c ∗ owes (c : Thread nD τ) (O₀ c) W ∗ levAts Lset lv ∗ bufsC m c fo fa fb ∗ (postC m c -∗ Kt ⟨⟩))
      ⊢ wp frame (wpE (defs₀ (F := F)) 𝒱₀ (c : Thread nD τ) none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _) cc0_scratch2 cc0_scratch3 cc0_scratch4 cc0_scratch5) Kt := by
  unfold ghost credsOf bufsC
  iintro ⟨⟨⟨#HI0, #HI1, #HI2, #HI3, #HI4, #HI5, #HI6, #HI7, #HI8, #HI9, #HI10, #HI11, #HI12, #HI13, #HI14, #HI15, #HI16, #HI17, #HI18, #HI19, #HI20, #HI21, #HI22, #HI23, #HI24, #HI25, #HI26, #HI27, #HI28, #HI29, #HI30, #HI31, #HI32, #HI33, #HI34, #HI35, #HI36, #HI37, #HI38, #HI39, #HI40, #HI41, #HI42, #HI43, #HI44, #HI45, #HI46, #HI47, #HI48, #HI49, #HI50⟩, ⟨#HR0, #HR1, #HR2, #HR3, #HR4, #HR5, #HR6, #HR7, #HR8, #HR9, #HR10, #HR11, #HR12, #HR13, #HR14, #HR15, #HR16, #HR17, #HR18, #HR19, #HR20, #HR21, #HR22, #HR23, #HR24, #HR25, #HR26, #HR27, #HR28, #HR29, #HR30, #HR31, #HR32, #HR33⟩, ⟨Hat0, Hat1, Hat2, Hat3, Hat4, Hat5, Hat6, Hat7, Hat8, Hat9, Hat10, Hat11, Hat12, Hat13, Hat14, Hat15, Hat16, Hat17, Hat18, Hat19, Hat20, Hat21, Hat22, Hat23, Hat24, Hat25, Hat26, Hat27, Hat28, Hat29, Hat30, Hat31, Hat32⟩, ⟨Ht0, Ht1, Ht2, Ht3, Ht4, Ht5, Ht6, Ht7, Ht8, Ht9, Ht10, Ht11, Ht12, Ht13, Ht14, Ht15, Ht16, Ht17, Ht18, Ht19, Ht20, Ht21, Ht22, Ht23, Ht24, Ht25, Ht26, Ht27, Ht28, Ht29, Ht30, Ht31, Ht32, Ht33⟩⟩, ⟨Hc0, Hc1, Hc2, Hc3, Hc4, Hc5, Hc6, Hc7, Hc8, Hc9, Hc10, Hc11, Hc12, Hc13, Hc14, Hc15, Hc16⟩, HO, #Hlev, ⟨Hb0, Hb1, Hb2, Hb3, Hb4, Hb5, Hb6, Hb7, Hb8, Hb9, Hb10, Hb11, Hb12, Hb13, Hb14, Hb15, Hb16, Hb17, Hb18, Hb19, Hb20, Hb21, Hb22, Hb23, Hb24, Hb25, Hb26, Hb27, Hb28, Hb29, Hb30, Hb31, Hb32⟩, Hk⟩
  unfold O₀
  have hd3 := dev3_eq c
  have hd4 := dev4_eq c
  have hd5 := dev5_eq c
  have hd6 := dev6_eq c
  have hd7 := dev7_eq c
  have hd8 := dev8_eq c
  have hd9 := dev9_eq c
  have hd10 := dev10_eq c
  have hd11 := dev11_eq c
  have hd12 := dev12_eq c
  have hd13 := dev13_eq c
  have hd14 := dev14_eq c
  have hd15 := dev15_eq c
  have hd16 := dev16_eq c
  have hd17 := dev17_eq c
  have hd18 := dev18_eq c
  have hled := fun (s : SemLoc sig) (O : CellTallies nD τ sig Unit) h => ledger (F := F) c s O h
  set_option sl_exec.foldHeartbeats 2 in
  set_option trace.sl_exec true in
  sl_exec (disch := tree_disch)
  irevert Hat0_pay1
  iapply (sep_respell_wand _ _ _)
  iintro ⟨⟨Hg1_0, Hg1_1, Hg1_2, Hg1_3, Hg1_4, Hg1_5, Hg1_6, Hg1_7⟩, ⟨Hg2_0, Hg2_1, Hg2_2, Hg2_3, Hg2_4, Hg2_5, Hg2_6, Hg2_7⟩⟩
  icases Hg1_0 with ⟨%g1_0, Hg1_0⟩
  -- the first exchange's transfer of chunk 0
  iapply (send1_step m K c 0 _ (dev3_eq c) g1_0 _ _) $$ [Hb1 Hg1_0 HO Ht2 Ht10]
  · isplitr; · iexact HI3
    isplitr; · iexact HI35
    isplitl [Hb1]; · iexact Hb1
    isplitl [Hg1_0]; · iexact Hg1_0
    isplitl [HO]; · iexact HO
    isplitl [Ht2]; · iexact Ht2
    isplitr; · iexact HR2
    isplitl [Ht10]; · iexact Ht10
    iexact HR18
  iintro ⟨HcS1_0, HO⟩
  set_option sl_exec.foldHeartbeats 2 in
  sl_exec (disch := tree_disch)
  icases Hg2_1 with ⟨%g2_1, Hg2_1⟩
  -- the first exchange's transfer of chunk 1
  iapply (send1_step m K c 1 _ (dev4_eq c) g2_1 _ _) $$ [Hb2 Hg2_1 HO Ht3 Ht11]
  · isplitr; · iexact HI4
    isplitr; · iexact HI36
    isplitl [Hb2]; · iexact Hb2
    isplitl [Hg2_1]; · iexact Hg2_1
    isplitl [HO]; · iexact HO
    isplitl [Ht3]; · iexact Ht3
    isplitr; · iexact HR3
    isplitl [Ht11]; · iexact Ht11
    iexact HR19
  iintro ⟨HcS1_1, HO⟩
  set_option sl_exec.foldHeartbeats 2 in
  sl_exec (disch := tree_disch)
  icases Hg1_2 with ⟨%g1_2, Hg1_2⟩
  -- the first exchange's transfer of chunk 2
  iapply (send1_step m K c 2 _ (dev5_eq c) g1_2 _ _) $$ [Hb3 Hg1_2 HO Ht4 Ht12]
  · isplitr; · iexact HI5
    isplitr; · iexact HI37
    isplitl [Hb3]; · iexact Hb3
    isplitl [Hg1_2]; · iexact Hg1_2
    isplitl [HO]; · iexact HO
    isplitl [Ht4]; · iexact Ht4
    isplitr; · iexact HR4
    isplitl [Ht12]; · iexact Ht12
    iexact HR20
  iintro ⟨HcS1_2, HO⟩
  set_option sl_exec.foldHeartbeats 2 in
  sl_exec (disch := tree_disch)
  icases Hg2_3 with ⟨%g2_3, Hg2_3⟩
  -- the first exchange's transfer of chunk 3
  iapply (send1_step m K c 3 _ (dev6_eq c) g2_3 _ _) $$ [Hb4 Hg2_3 HO Ht5 Ht13]
  · isplitr; · iexact HI6
    isplitr; · iexact HI38
    isplitl [Hb4]; · iexact Hb4
    isplitl [Hg2_3]; · iexact Hg2_3
    isplitl [HO]; · iexact HO
    isplitl [Ht5]; · iexact Ht5
    isplitr; · iexact HR5
    isplitl [Ht13]; · iexact Ht13
    iexact HR21
  iintro ⟨HcS1_3, HO⟩
  set_option sl_exec.foldHeartbeats 2 in
  sl_exec (disch := tree_disch)
  icases Hg1_4 with ⟨%g1_4, Hg1_4⟩
  -- the first exchange's transfer of chunk 4
  iapply (send1_step m K c 4 _ (dev7_eq c) g1_4 _ _) $$ [Hb5 Hg1_4 HO Ht6 Ht14]
  · isplitr; · iexact HI7
    isplitr; · iexact HI39
    isplitl [Hb5]; · iexact Hb5
    isplitl [Hg1_4]; · iexact Hg1_4
    isplitl [HO]; · iexact HO
    isplitl [Ht6]; · iexact Ht6
    isplitr; · iexact HR6
    isplitl [Ht14]; · iexact Ht14
    iexact HR22
  iintro ⟨HcS1_4, HO⟩
  set_option sl_exec.foldHeartbeats 2 in
  sl_exec (disch := tree_disch)
  icases Hg2_5 with ⟨%g2_5, Hg2_5⟩
  -- the first exchange's transfer of chunk 5
  iapply (send1_step m K c 5 _ (dev8_eq c) g2_5 _ _) $$ [Hb6 Hg2_5 HO Ht7 Ht15]
  · isplitr; · iexact HI8
    isplitr; · iexact HI40
    isplitl [Hb6]; · iexact Hb6
    isplitl [Hg2_5]; · iexact Hg2_5
    isplitl [HO]; · iexact HO
    isplitl [Ht7]; · iexact Ht7
    isplitr; · iexact HR7
    isplitl [Ht15]; · iexact Ht15
    iexact HR23
  iintro ⟨HcS1_5, HO⟩
  set_option sl_exec.foldHeartbeats 2 in
  sl_exec (disch := tree_disch)
  icases Hg1_6 with ⟨%g1_6, Hg1_6⟩
  -- the first exchange's transfer of chunk 6
  iapply (send1_step m K c 6 _ (dev9_eq c) g1_6 _ _) $$ [Hb7 Hg1_6 HO Ht8 Ht16]
  · isplitr; · iexact HI9
    isplitr; · iexact HI41
    isplitl [Hb7]; · iexact Hb7
    isplitl [Hg1_6]; · iexact Hg1_6
    isplitl [HO]; · iexact HO
    isplitl [Ht8]; · iexact Ht8
    isplitr; · iexact HR8
    isplitl [Ht16]; · iexact Ht16
    iexact HR24
  iintro ⟨HcS1_6, HO⟩
  set_option sl_exec.foldHeartbeats 2 in
  sl_exec (disch := tree_disch)
  icases Hg2_7 with ⟨%g2_7, Hg2_7⟩
  -- the first exchange's transfer of chunk 7
  iapply (send1_step m K c 7 _ (dev10_eq c) g2_7 _ _) $$ [Hb8 Hg2_7 HO Ht9 Ht17]
  · isplitr; · iexact HI10
    isplitr; · iexact HI42
    isplitl [Hb8]; · iexact Hb8
    isplitl [Hg2_7]; · iexact Hg2_7
    isplitl [HO]; · iexact HO
    isplitl [Ht9]; · iexact Ht9
    isplitr; · iexact HR9
    isplitl [Ht17]; · iexact Ht17
    iexact HR25
  iintro ⟨HcS1_7, HO⟩
  set_option sl_exec.foldHeartbeats 2 in
  sl_exec (disch := tree_disch)
  -- chunk 0: the first sum restated canonically, then the second exchange's transfer
  ihave Hb9 := (restate_o c 0 (sound_body.sl.Hb9_w1 m c fo Hat9_pay1_v) (O1 m c 0) (first_store_eq m c 0 fo Hat9_pay1_v)) $$ Hb9
  icases Hg2_0 with ⟨%g2_0, Hg2_0⟩
  iapply (send2_step m K c 0 _ (dev11_eq c) g2_0 _ _) $$ [Hb9 Hg2_0 HO Ht18 Ht26]
  · isplitr; · iexact HI19
    isplitr; · iexact HI43
    isplitl [Hb9]; · iexact Hb9
    isplitl [Hg2_0]; · iexact Hg2_0
    isplitl [HO]; · iexact HO
    isplitl [Ht18]; · iexact Ht18
    isplitr; · iexact HR10
    isplitl [Ht26]; · iexact Ht26
    iexact HR26
  iintro ⟨HcS2_0, HO⟩
  set_option sl_exec.foldHeartbeats 2 in
  sl_exec (disch := tree_disch)
  -- chunk 1: the first sum restated canonically, then the second exchange's transfer
  ihave Hb10 := (restate_o c 1 (sound_body.sl.Hb10_w1 m c fo Hat10_pay1_v) (O1 m c 1) (first_store_eq m c 1 fo Hat10_pay1_v)) $$ Hb10
  icases Hg1_1 with ⟨%g1_1, Hg1_1⟩
  iapply (send2_step m K c 1 _ (dev12_eq c) g1_1 _ _) $$ [Hb10 Hg1_1 HO Ht19 Ht27]
  · isplitr; · iexact HI20
    isplitr; · iexact HI44
    isplitl [Hb10]; · iexact Hb10
    isplitl [Hg1_1]; · iexact Hg1_1
    isplitl [HO]; · iexact HO
    isplitl [Ht19]; · iexact Ht19
    isplitr; · iexact HR11
    isplitl [Ht27]; · iexact Ht27
    iexact HR27
  iintro ⟨HcS2_1, HO⟩
  set_option sl_exec.foldHeartbeats 2 in
  sl_exec (disch := tree_disch)
  -- chunk 2: the first sum restated canonically, then the second exchange's transfer
  ihave Hb11 := (restate_o c 2 (sound_body.sl.Hb11_w1 m c fo Hat11_pay1_v) (O1 m c 2) (first_store_eq m c 2 fo Hat11_pay1_v)) $$ Hb11
  icases Hg2_2 with ⟨%g2_2, Hg2_2⟩
  iapply (send2_step m K c 2 _ (dev13_eq c) g2_2 _ _) $$ [Hb11 Hg2_2 HO Ht20 Ht28]
  · isplitr; · iexact HI21
    isplitr; · iexact HI45
    isplitl [Hb11]; · iexact Hb11
    isplitl [Hg2_2]; · iexact Hg2_2
    isplitl [HO]; · iexact HO
    isplitl [Ht20]; · iexact Ht20
    isplitr; · iexact HR12
    isplitl [Ht28]; · iexact Ht28
    iexact HR28
  iintro ⟨HcS2_2, HO⟩
  set_option sl_exec.foldHeartbeats 2 in
  sl_exec (disch := tree_disch)
  -- chunk 3: the first sum restated canonically, then the second exchange's transfer
  ihave Hb12 := (restate_o c 3 (sound_body.sl.Hb12_w1 m c fo Hat12_pay1_v) (O1 m c 3) (first_store_eq m c 3 fo Hat12_pay1_v)) $$ Hb12
  icases Hg1_3 with ⟨%g1_3, Hg1_3⟩
  iapply (send2_step m K c 3 _ (dev14_eq c) g1_3 _ _) $$ [Hb12 Hg1_3 HO Ht21 Ht29]
  · isplitr; · iexact HI22
    isplitr; · iexact HI46
    isplitl [Hb12]; · iexact Hb12
    isplitl [Hg1_3]; · iexact Hg1_3
    isplitl [HO]; · iexact HO
    isplitl [Ht21]; · iexact Ht21
    isplitr; · iexact HR13
    isplitl [Ht29]; · iexact Ht29
    iexact HR29
  iintro ⟨HcS2_3, HO⟩
  set_option sl_exec.foldHeartbeats 2 in
  sl_exec (disch := tree_disch)
  -- chunk 4: the first sum restated canonically, then the second exchange's transfer
  ihave Hb13 := (restate_o c 4 (sound_body.sl.Hb13_w1 m c fo Hat13_pay1_v) (O1 m c 4) (first_store_eq m c 4 fo Hat13_pay1_v)) $$ Hb13
  icases Hg2_4 with ⟨%g2_4, Hg2_4⟩
  iapply (send2_step m K c 4 _ (dev15_eq c) g2_4 _ _) $$ [Hb13 Hg2_4 HO Ht22 Ht30]
  · isplitr; · iexact HI23
    isplitr; · iexact HI47
    isplitl [Hb13]; · iexact Hb13
    isplitl [Hg2_4]; · iexact Hg2_4
    isplitl [HO]; · iexact HO
    isplitl [Ht22]; · iexact Ht22
    isplitr; · iexact HR14
    isplitl [Ht30]; · iexact Ht30
    iexact HR30
  iintro ⟨HcS2_4, HO⟩
  set_option sl_exec.foldHeartbeats 2 in
  sl_exec (disch := tree_disch)
  -- chunk 5: the first sum restated canonically, then the second exchange's transfer
  ihave Hb14 := (restate_o c 5 (sound_body.sl.Hb14_w1 m c fo Hat14_pay1_v) (O1 m c 5) (first_store_eq m c 5 fo Hat14_pay1_v)) $$ Hb14
  icases Hg1_5 with ⟨%g1_5, Hg1_5⟩
  iapply (send2_step m K c 5 _ (dev16_eq c) g1_5 _ _) $$ [Hb14 Hg1_5 HO Ht23 Ht31]
  · isplitr; · iexact HI24
    isplitr; · iexact HI48
    isplitl [Hb14]; · iexact Hb14
    isplitl [Hg1_5]; · iexact Hg1_5
    isplitl [HO]; · iexact HO
    isplitl [Ht23]; · iexact Ht23
    isplitr; · iexact HR15
    isplitl [Ht31]; · iexact Ht31
    iexact HR31
  iintro ⟨HcS2_5, HO⟩
  set_option sl_exec.foldHeartbeats 2 in
  sl_exec (disch := tree_disch)
  -- chunk 6: the first sum restated canonically, then the second exchange's transfer
  ihave Hb15 := (restate_o c 6 (sound_body.sl.Hb15_w1 m c fo Hat15_pay1_v) (O1 m c 6) (first_store_eq m c 6 fo Hat15_pay1_v)) $$ Hb15
  icases Hg2_6 with ⟨%g2_6, Hg2_6⟩
  iapply (send2_step m K c 6 _ (dev17_eq c) g2_6 _ _) $$ [Hb15 Hg2_6 HO Ht24 Ht32]
  · isplitr; · iexact HI25
    isplitr; · iexact HI49
    isplitl [Hb15]; · iexact Hb15
    isplitl [Hg2_6]; · iexact Hg2_6
    isplitl [HO]; · iexact HO
    isplitl [Ht24]; · iexact Ht24
    isplitr; · iexact HR16
    isplitl [Ht32]; · iexact Ht32
    iexact HR32
  iintro ⟨HcS2_6, HO⟩
  set_option sl_exec.foldHeartbeats 2 in
  sl_exec (disch := tree_disch)
  -- chunk 7: the first sum restated canonically, then the second exchange's transfer
  ihave Hb16 := (restate_o c 7 (sound_body.sl.Hb16_w1 m c fo Hat16_pay1_v) (O1 m c 7) (first_store_eq m c 7 fo Hat16_pay1_v)) $$ Hb16
  icases Hg1_7 with ⟨%g1_7, Hg1_7⟩
  iapply (send2_step0 m K c 7 _ (dev18_eq c) g1_7 _) $$ [Hb16 Hg1_7 HO Ht25 Ht33]
  · isplitr; · iexact HI26
    isplitr; · iexact HI50
    isplitl [Hb16]; · iexact Hb16
    isplitl [Hg1_7]; · iexact Hg1_7
    isplitl [HO]; · iexact HO
    isplitl [Ht25]; · iexact Ht25
    isplitr; · iexact HR17
    isplitl [Ht33]; · iexact Ht33
    iexact HR33
  iintro ⟨HcS2_7, HO⟩
  set_option sl_exec.foldHeartbeats 2 in
  sl_exec (disch := tree_disch)
  -- the 32 own cells have no round left: their counters, at zero, are the device's again
  imod (Rounds.cell_close ER (sched m) (Set.mem_univ (K (dcell 0 c 0))) (fun h => h) (R := 1) (duties_later m (dcell 0 c 0))) $$ [Hat1] with Hz0_0
  · isplitr; · iexact HI3
    iexact Hat1
  imod (Rounds.cell_close ER (sched m) (Set.mem_univ (K (dcell 0 c 1))) (fun h => h) (R := 1) (duties_later m (dcell 0 c 1))) $$ [Hat2] with Hz0_1
  · isplitr; · iexact HI4
    iexact Hat2
  imod (Rounds.cell_close ER (sched m) (Set.mem_univ (K (dcell 0 c 2))) (fun h => h) (R := 1) (duties_later m (dcell 0 c 2))) $$ [Hat3] with Hz0_2
  · isplitr; · iexact HI5
    iexact Hat3
  imod (Rounds.cell_close ER (sched m) (Set.mem_univ (K (dcell 0 c 3))) (fun h => h) (R := 1) (duties_later m (dcell 0 c 3))) $$ [Hat4] with Hz0_3
  · isplitr; · iexact HI6
    iexact Hat4
  imod (Rounds.cell_close ER (sched m) (Set.mem_univ (K (dcell 0 c 4))) (fun h => h) (R := 1) (duties_later m (dcell 0 c 4))) $$ [Hat5] with Hz0_4
  · isplitr; · iexact HI7
    iexact Hat5
  imod (Rounds.cell_close ER (sched m) (Set.mem_univ (K (dcell 0 c 5))) (fun h => h) (R := 1) (duties_later m (dcell 0 c 5))) $$ [Hat6] with Hz0_5
  · isplitr; · iexact HI8
    iexact Hat6
  imod (Rounds.cell_close ER (sched m) (Set.mem_univ (K (dcell 0 c 6))) (fun h => h) (R := 1) (duties_later m (dcell 0 c 6))) $$ [Hat7] with Hz0_6
  · isplitr; · iexact HI9
    iexact Hat7
  imod (Rounds.cell_close ER (sched m) (Set.mem_univ (K (dcell 0 c 7))) (fun h => h) (R := 1) (duties_later m (dcell 0 c 7))) $$ [Hat8] with Hz0_7
  · isplitr; · iexact HI10
    iexact Hat8
  imod (Rounds.cell_close ER (sched m) (Set.mem_univ (K (dcell 1 c 0))) (fun h => h) (R := 1) (duties_later m (dcell 1 c 0))) $$ [Hat9] with Hz1_0
  · isplitr; · iexact HI11
    iexact Hat9
  imod (Rounds.cell_close ER (sched m) (Set.mem_univ (K (dcell 1 c 1))) (fun h => h) (R := 1) (duties_later m (dcell 1 c 1))) $$ [Hat10] with Hz1_1
  · isplitr; · iexact HI12
    iexact Hat10
  imod (Rounds.cell_close ER (sched m) (Set.mem_univ (K (dcell 1 c 2))) (fun h => h) (R := 1) (duties_later m (dcell 1 c 2))) $$ [Hat11] with Hz1_2
  · isplitr; · iexact HI13
    iexact Hat11
  imod (Rounds.cell_close ER (sched m) (Set.mem_univ (K (dcell 1 c 3))) (fun h => h) (R := 1) (duties_later m (dcell 1 c 3))) $$ [Hat12] with Hz1_3
  · isplitr; · iexact HI14
    iexact Hat12
  imod (Rounds.cell_close ER (sched m) (Set.mem_univ (K (dcell 1 c 4))) (fun h => h) (R := 1) (duties_later m (dcell 1 c 4))) $$ [Hat13] with Hz1_4
  · isplitr; · iexact HI15
    iexact Hat13
  imod (Rounds.cell_close ER (sched m) (Set.mem_univ (K (dcell 1 c 5))) (fun h => h) (R := 1) (duties_later m (dcell 1 c 5))) $$ [Hat14] with Hz1_5
  · isplitr; · iexact HI16
    iexact Hat14
  imod (Rounds.cell_close ER (sched m) (Set.mem_univ (K (dcell 1 c 6))) (fun h => h) (R := 1) (duties_later m (dcell 1 c 6))) $$ [Hat15] with Hz1_6
  · isplitr; · iexact HI17
    iexact Hat15
  imod (Rounds.cell_close ER (sched m) (Set.mem_univ (K (dcell 1 c 7))) (fun h => h) (R := 1) (duties_later m (dcell 1 c 7))) $$ [Hat16] with Hz1_7
  · isplitr; · iexact HI18
    iexact Hat16
  imod (Rounds.cell_close ER (sched m) (Set.mem_univ (K (dcell 2 c 0))) (fun h => h) (R := 1) (duties_later m (dcell 2 c 0))) $$ [Hat17] with Hz2_0
  · isplitr; · iexact HI19
    iexact Hat17
  imod (Rounds.cell_close ER (sched m) (Set.mem_univ (K (dcell 2 c 1))) (fun h => h) (R := 1) (duties_later m (dcell 2 c 1))) $$ [Hat18] with Hz2_1
  · isplitr; · iexact HI20
    iexact Hat18
  imod (Rounds.cell_close ER (sched m) (Set.mem_univ (K (dcell 2 c 2))) (fun h => h) (R := 1) (duties_later m (dcell 2 c 2))) $$ [Hat19] with Hz2_2
  · isplitr; · iexact HI21
    iexact Hat19
  imod (Rounds.cell_close ER (sched m) (Set.mem_univ (K (dcell 2 c 3))) (fun h => h) (R := 1) (duties_later m (dcell 2 c 3))) $$ [Hat20] with Hz2_3
  · isplitr; · iexact HI22
    iexact Hat20
  imod (Rounds.cell_close ER (sched m) (Set.mem_univ (K (dcell 2 c 4))) (fun h => h) (R := 1) (duties_later m (dcell 2 c 4))) $$ [Hat21] with Hz2_4
  · isplitr; · iexact HI23
    iexact Hat21
  imod (Rounds.cell_close ER (sched m) (Set.mem_univ (K (dcell 2 c 5))) (fun h => h) (R := 1) (duties_later m (dcell 2 c 5))) $$ [Hat22] with Hz2_5
  · isplitr; · iexact HI24
    iexact Hat22
  imod (Rounds.cell_close ER (sched m) (Set.mem_univ (K (dcell 2 c 6))) (fun h => h) (R := 1) (duties_later m (dcell 2 c 6))) $$ [Hat23] with Hz2_6
  · isplitr; · iexact HI25
    iexact Hat23
  imod (Rounds.cell_close ER (sched m) (Set.mem_univ (K (dcell 2 c 7))) (fun h => h) (R := 1) (duties_later m (dcell 2 c 7))) $$ [Hat24] with Hz2_7
  · isplitr; · iexact HI26
    iexact Hat24
  imod (Rounds.cell_close ER (sched m) (Set.mem_univ (K (dcell 3 c 0))) (fun h => h) (R := 1) (duties_later m (dcell 3 c 0))) $$ [Hat25] with Hz3_0
  · isplitr; · iexact HI27
    iexact Hat25
  imod (Rounds.cell_close ER (sched m) (Set.mem_univ (K (dcell 3 c 1))) (fun h => h) (R := 1) (duties_later m (dcell 3 c 1))) $$ [Hat26] with Hz3_1
  · isplitr; · iexact HI28
    iexact Hat26
  imod (Rounds.cell_close ER (sched m) (Set.mem_univ (K (dcell 3 c 2))) (fun h => h) (R := 1) (duties_later m (dcell 3 c 2))) $$ [Hat27] with Hz3_2
  · isplitr; · iexact HI29
    iexact Hat27
  imod (Rounds.cell_close ER (sched m) (Set.mem_univ (K (dcell 3 c 3))) (fun h => h) (R := 1) (duties_later m (dcell 3 c 3))) $$ [Hat28] with Hz3_3
  · isplitr; · iexact HI30
    iexact Hat28
  imod (Rounds.cell_close ER (sched m) (Set.mem_univ (K (dcell 3 c 4))) (fun h => h) (R := 1) (duties_later m (dcell 3 c 4))) $$ [Hat29] with Hz3_4
  · isplitr; · iexact HI31
    iexact Hat29
  imod (Rounds.cell_close ER (sched m) (Set.mem_univ (K (dcell 3 c 5))) (fun h => h) (R := 1) (duties_later m (dcell 3 c 5))) $$ [Hat30] with Hz3_5
  · isplitr; · iexact HI32
    iexact Hat30
  imod (Rounds.cell_close ER (sched m) (Set.mem_univ (K (dcell 3 c 6))) (fun h => h) (R := 1) (duties_later m (dcell 3 c 6))) $$ [Hat31] with Hz3_6
  · isplitr; · iexact HI33
    iexact Hat31
  imod (Rounds.cell_close ER (sched m) (Set.mem_univ (K (dcell 3 c 7))) (fun h => h) (R := 1) (duties_later m (dcell 3 c 7))) $$ [Hat32] with Hz3_7
  · isplitr; · iexact HI34
    iexact Hat32
  -- each result chunk holds its second sum
  ihave Hat17_pay1 := (restate_o c 0 (sound_body.sl.Hat17_pay1_w1 m c Hat25_pay1_v) (O2 m c 0) (second_store_eq m c 0 Hat25_pay1_v)) $$ Hat17_pay1
  ihave Hat18_pay1 := (restate_o c 1 (sound_body.sl.Hat18_pay1_w1 m c Hat26_pay1_v) (O2 m c 1) (second_store_eq m c 1 Hat26_pay1_v)) $$ Hat18_pay1
  ihave Hat19_pay1 := (restate_o c 2 (sound_body.sl.Hat19_pay1_w1 m c Hat27_pay1_v) (O2 m c 2) (second_store_eq m c 2 Hat27_pay1_v)) $$ Hat19_pay1
  ihave Hat20_pay1 := (restate_o c 3 (sound_body.sl.Hat20_pay1_w1 m c Hat28_pay1_v) (O2 m c 3) (second_store_eq m c 3 Hat28_pay1_v)) $$ Hat20_pay1
  ihave Hat21_pay1 := (restate_o c 4 (sound_body.sl.Hat21_pay1_w1 m c Hat29_pay1_v) (O2 m c 4) (second_store_eq m c 4 Hat29_pay1_v)) $$ Hat21_pay1
  ihave Hat22_pay1 := (restate_o c 5 (sound_body.sl.Hat22_pay1_w1 m c Hat30_pay1_v) (O2 m c 5) (second_store_eq m c 5 Hat30_pay1_v)) $$ Hat22_pay1
  ihave Hat23_pay1 := (restate_o c 6 (sound_body.sl.Hat23_pay1_w1 m c Hat31_pay1_v) (O2 m c 6) (second_store_eq m c 6 Hat31_pay1_v)) $$ Hat23_pay1
  ihave Hat24_pay1 := (restate_o c 7 (sound_body.sl.Hat24_pay1_w1 m c Hat32_pay1_v) (O2 m c 7) (second_store_eq m c 7 Hat32_pay1_v)) $$ Hat24_pay1
  first | sl_step | (rw [wp_ret]; imodintro)
  iapply Hk
  unfold postC
  rw [bigSep_fin8', bigSep_fin8', bigSep_fin8', bigSep_fin8', bigSep_kj']
  isplitl [Hb0]; · iexact Hb0
  isplitl [Hat1_pay1 Hat2_pay1 Hat3_pay1 Hat4_pay1 Hat5_pay1 Hat6_pay1 Hat7_pay1 Hat8_pay1]
  · skip
    isplitl [Hat1_pay1]; · iexact Hat1_pay1
    isplitl [Hat2_pay1]; · iexact Hat2_pay1
    isplitl [Hat3_pay1]; · iexact Hat3_pay1
    isplitl [Hat4_pay1]; · iexact Hat4_pay1
    isplitl [Hat5_pay1]; · iexact Hat5_pay1
    isplitl [Hat6_pay1]; · iexact Hat6_pay1
    isplitl [Hat7_pay1]; · iexact Hat7_pay1
    iexact Hat8_pay1
  isplitl [Hat17_pay1 Hat18_pay1 Hat19_pay1 Hat20_pay1 Hat21_pay1 Hat22_pay1 Hat23_pay1 Hat24_pay1]
  · skip
    isplitl [Hat17_pay1]; · iexact Hat17_pay1
    isplitl [Hat18_pay1]; · iexact Hat18_pay1
    isplitl [Hat19_pay1]; · iexact Hat19_pay1
    isplitl [Hat20_pay1]; · iexact Hat20_pay1
    isplitl [Hat21_pay1]; · iexact Hat21_pay1
    isplitl [Hat22_pay1]; · iexact Hat22_pay1
    isplitl [Hat23_pay1]; · iexact Hat23_pay1
    iexact Hat24_pay1
  isplitl [Hat9_pay1 Hat10_pay1 Hat11_pay1 Hat12_pay1 Hat13_pay1 Hat14_pay1 Hat15_pay1 Hat16_pay1]
  · skip
    isplitl [Hat9_pay1]; · (iexists _; iexact Hat9_pay1)
    isplitl [Hat10_pay1]; · (iexists _; iexact Hat10_pay1)
    isplitl [Hat11_pay1]; · (iexists _; iexact Hat11_pay1)
    isplitl [Hat12_pay1]; · (iexists _; iexact Hat12_pay1)
    isplitl [Hat13_pay1]; · (iexists _; iexact Hat13_pay1)
    isplitl [Hat14_pay1]; · (iexists _; iexact Hat14_pay1)
    isplitl [Hat15_pay1]; · (iexists _; iexact Hat15_pay1)
    iexists _; iexact Hat16_pay1
  isplitl [Hat25_pay1 Hat26_pay1 Hat27_pay1 Hat28_pay1 Hat29_pay1 Hat30_pay1 Hat31_pay1 Hat32_pay1]
  · skip
    isplitl [Hat25_pay1]; · (iexists _; iexact Hat25_pay1)
    isplitl [Hat26_pay1]; · (iexists _; iexact Hat26_pay1)
    isplitl [Hat27_pay1]; · (iexists _; iexact Hat27_pay1)
    isplitl [Hat28_pay1]; · (iexists _; iexact Hat28_pay1)
    isplitl [Hat29_pay1]; · (iexists _; iexact Hat29_pay1)
    isplitl [Hat30_pay1]; · (iexists _; iexact Hat30_pay1)
    isplitl [Hat31_pay1]; · (iexists _; iexact Hat31_pay1)
    iexists _; iexact Hat32_pay1
  isplitl [Hz0_0 Hz0_1 Hz0_2 Hz0_3 Hz0_4 Hz0_5 Hz0_6 Hz0_7 Hz1_0 Hz1_1 Hz1_2 Hz1_3 Hz1_4 Hz1_5 Hz1_6 Hz1_7 Hz2_0 Hz2_1 Hz2_2 Hz2_3 Hz2_4 Hz2_5 Hz2_6 Hz2_7 Hz3_0 Hz3_1 Hz3_2 Hz3_3 Hz3_4 Hz3_5 Hz3_6 Hz3_7]
  · skip
    isplitl [Hz0_0]; · iexact Hz0_0
    isplitl [Hz0_1]; · iexact Hz0_1
    isplitl [Hz0_2]; · iexact Hz0_2
    isplitl [Hz0_3]; · iexact Hz0_3
    isplitl [Hz0_4]; · iexact Hz0_4
    isplitl [Hz0_5]; · iexact Hz0_5
    isplitl [Hz0_6]; · iexact Hz0_6
    isplitl [Hz0_7]; · iexact Hz0_7
    isplitl [Hz1_0]; · iexact Hz1_0
    isplitl [Hz1_1]; · iexact Hz1_1
    isplitl [Hz1_2]; · iexact Hz1_2
    isplitl [Hz1_3]; · iexact Hz1_3
    isplitl [Hz1_4]; · iexact Hz1_4
    isplitl [Hz1_5]; · iexact Hz1_5
    isplitl [Hz1_6]; · iexact Hz1_6
    isplitl [Hz1_7]; · iexact Hz1_7
    isplitl [Hz2_0]; · iexact Hz2_0
    isplitl [Hz2_1]; · iexact Hz2_1
    isplitl [Hz2_2]; · iexact Hz2_2
    isplitl [Hz2_3]; · iexact Hz2_3
    isplitl [Hz2_4]; · iexact Hz2_4
    isplitl [Hz2_5]; · iexact Hz2_5
    isplitl [Hz2_6]; · iexact Hz2_6
    isplitl [Hz2_7]; · iexact Hz2_7
    isplitl [Hz3_0]; · iexact Hz3_0
    isplitl [Hz3_1]; · iexact Hz3_1
    isplitl [Hz3_2]; · iexact Hz3_2
    isplitl [Hz3_3]; · iexact Hz3_3
    isplitl [Hz3_4]; · iexact Hz3_4
    isplitl [Hz3_5]; · iexact Hz3_5
    isplitl [Hz3_6]; · iexact Hz3_6
    iexact Hz3_7
  iexists _; iexact HO

end Cert.Kernel.Tree
end
-- ==== Proof.LaunchK.lean ====
/-
  The launch: what the four devices' resources at kernel entry give each device's body, and what the bodies give back.
-/
import proofs.«900329_g7700000000000330_dist_treered_v7x_i4_m256_n256_f32_1_alg».proof.Proof.ProtoK
import proofs.«900329_g7700000000000330_dist_treered_v7x_i4_m256_n256_f32_1_alg».proof.Proof.BodyK

noncomputable section

namespace Cert.Kernel.Tree

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells of one device, indexed -/

/-- A device's 33 cells: its barrier cell, and cell j of array k. -/
abbrev CIx : Type := Option (Fin 4 × Fin 8)
abbrev csem : CIx → SemLoc sig := fun | none => .reg barS | some (k, j) => .dma (semAt (arr k) j)
abbrev kcell (ck : Dev nD × CIx) : GSem nD τ sig := ((ck.1 : Thread nD τ), csem ck.2)
/-- The kernel's own (scoped) semaphores: the 32 DMA semaphores. -/
abbrev osem : Fin 4 × Fin 8 → SemLoc sig := fun kj => .dma (semAt (arr kj.1) kj.2)

theorem csem_injective : Function.Injective csem := by
  intro a b h
  match a, b with
  | none, none => rfl
  | none, some _ => cases h
  | some _, none => cases h
  | some (k, j), some (k', j') =>
    have h' : semAt (arr k) j = semAt (arr k') j' := by injection h
    obtain ⟨rfl, rfl⟩ := semAt_inj k k' j j' h'
    rfl

theorem kcell_injective : Function.Injective (kcell : Dev nD × CIx → GSem nD τ sig) := by
  rintro ⟨c, i⟩ ⟨c', i'⟩ h
  have h1 : c = c' := congrArg (fun g : GSem nD τ sig => g.1.1) h
  subst h1
  have h2 : csem i = csem i' := congrArg Prod.snd h
  rw [csem_injective h2]

def treeCells : Finset (GSem nD τ sig) := Finset.univ.map ⟨kcell, kcell_injective⟩

/-- The duty tokens minted for a device's own cells: the barrier's two, each DMA cell's one. -/
abbrev TIx : Type := Bool ⊕ (Fin 4 × Fin 8)
abbrev tokOf (ct : Dev nD × TIx) : GSem nD τ sig × ℕ × Bool := match ct.2 with
  | .inl d => (barCell ct.1, 0, d)
  | .inr (k, j) => (dcell k ct.1 j, 0, false)
theorem tokOf_injective : Function.Injective (tokOf : Dev nD × TIx → GSem nD τ sig × ℕ × Bool) := by
  rintro ⟨c, t⟩ ⟨c', t'⟩ h
  have h1 : c = c' := by
    have := congrArg (fun x : GSem nD τ sig × ℕ × Bool => x.1.1.1) h
    cases t <;> cases t' <;> exact this
  subst h1
  have h2 := congrArg (fun x : GSem nD τ sig × ℕ × Bool => (x.1.2, x.2.2)) h
  match t, t' with
  | .inl d, .inl d' => have : d = d' := congrArg Prod.snd h2; rw [this]
  | .inl _, .inr (_, _) => exact absurd (congrArg Prod.fst h2) (fun h' => by cases h')
  | .inr (_, _), .inl _ => exact absurd (congrArg Prod.fst h2) (fun h' => by cases h')
  | .inr (k, j), .inr (k', j') =>
    have h3 : semAt (arr k) j = semAt (arr k') j' := by have := congrArg Prod.fst h2; injection this
    obtain ⟨rfl, rfl⟩ := semAt_inj k k' j j' h3
    rfl
def treeToks : Finset (GSem nD τ sig × ℕ × Bool) := Finset.univ.map ⟨tokOf, tokOf_injective⟩

def u₀ : UU :=
  (initOf (Pipeline.cells cfgs cellOf_inj) (Pipeline.launchToks cfgs cellOf_inj), initOf treeCells treeToks)

theorem ownSemFacts : Pipeline.OwnSemFacts cfg0.spec osem := by decide

/-! ## What a device's body starts from, and the proof data -/

def start (c : Dev nD) : sProp 𝕄 := iprop((∃ K, ghost m K c) ∗ credsOf c ∗ levAts Lset lv)

def Φ₀ (c : Dev nD) : sProp 𝕄 :=
  iprop(start m c ∗ (∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))
/-- After the body: the two landing buffers over some contents, the 32 own cells closed at zero. -/
def Φ₁ (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ bigSep Finset.univ fun kj : Fin 4 × Fin 8 => semVal (dcell kj.1 c kj.2) 0)

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def dats (_ : Fin 1) (c : Dev nD) : Dat τ (Elt F) Unit ℕ UU ℕ cfg0 c where
  A w := m ((cfg0.win w).arr.view.loc (c : Thread nD τ))
  after w _ := match w with
    | ⟨0, _⟩ => X m c
    | ⟨1, _⟩ => OutF m c
  Φ t := match t with
    | ⟨0, _⟩ => Φ₀ m c
    | ⟨_ + 1, _⟩ => Φ₁ c
  q _ := fullShare
  owed t := match t with
    | ⟨0, _⟩ => O₀ c
    | ⟨_ + 1, _⟩ => 0

theorem share_eq (c : Dev nD) (w : Fin cfg0.W) : (dats m 0 c).share w = fullShare := by unfold Dat.share; split <;> rfl

/-! ## The launch credit -/

omit [FloatOps F] in
theorem creds (c : Dev nD) : (Pipeline.launchCred O₀ c : sProp 𝕄) ⊢ credsOf c := by
  unfold O₀ credsOf
  simp only [Pipeline.launchCred_add]
  iintro ⟨⟨⟨⟨⟨⟨⟨⟨⟨⟨⟨⟨⟨⟨⟨⟨⟨HR2_7, HR2_6⟩, HR2_5⟩, HR2_4⟩, HR2_3⟩, HR2_2⟩, HR2_1⟩, HR2_0⟩, HR1_7⟩, HR1_6⟩, HR1_5⟩, HR1_4⟩, HR1_3⟩, HR1_2⟩, HR1_1⟩, HR1_0⟩, HB2⟩, HB1⟩
  ihave HR2_7 := (Pipeline.launchCred_tallyAt (.dma (semAt (arr 3) 7)) p1 p1 p1_p1 p1_p1 () 1024 c) $$ HR2_7
  ihave HR2_6 := (Pipeline.launchCred_tallyAt (.dma (semAt (arr 3) 6)) p2 p2 p2_p2 p2_p2 () 1024 c) $$ HR2_6
  ihave HR2_5 := (Pipeline.launchCred_tallyAt (.dma (semAt (arr 3) 5)) p1 p1 p1_p1 p1_p1 () 1024 c) $$ HR2_5
  ihave HR2_4 := (Pipeline.launchCred_tallyAt (.dma (semAt (arr 3) 4)) p2 p2 p2_p2 p2_p2 () 1024 c) $$ HR2_4
  ihave HR2_3 := (Pipeline.launchCred_tallyAt (.dma (semAt (arr 3) 3)) p1 p1 p1_p1 p1_p1 () 1024 c) $$ HR2_3
  ihave HR2_2 := (Pipeline.launchCred_tallyAt (.dma (semAt (arr 3) 2)) p2 p2 p2_p2 p2_p2 () 1024 c) $$ HR2_2
  ihave HR2_1 := (Pipeline.launchCred_tallyAt (.dma (semAt (arr 3) 1)) p1 p1 p1_p1 p1_p1 () 1024 c) $$ HR2_1
  ihave HR2_0 := (Pipeline.launchCred_tallyAt (.dma (semAt (arr 3) 0)) p2 p2 p2_p2 p2_p2 () 1024 c) $$ HR2_0
  ihave HR1_7 := (Pipeline.launchCred_tallyAt (.dma (semAt (arr 1) 7)) p2 p2 p2_p2 p2_p2 () 1024 c) $$ HR1_7
  ihave HR1_6 := (Pipeline.launchCred_tallyAt (.dma (semAt (arr 1) 6)) p1 p1 p1_p1 p1_p1 () 1024 c) $$ HR1_6
  ihave HR1_5 := (Pipeline.launchCred_tallyAt (.dma (semAt (arr 1) 5)) p2 p2 p2_p2 p2_p2 () 1024 c) $$ HR1_5
  ihave HR1_4 := (Pipeline.launchCred_tallyAt (.dma (semAt (arr 1) 4)) p1 p1 p1_p1 p1_p1 () 1024 c) $$ HR1_4
  ihave HR1_3 := (Pipeline.launchCred_tallyAt (.dma (semAt (arr 1) 3)) p2 p2 p2_p2 p2_p2 () 1024 c) $$ HR1_3
  ihave HR1_2 := (Pipeline.launchCred_tallyAt (.dma (semAt (arr 1) 2)) p1 p1 p1_p1 p1_p1 () 1024 c) $$ HR1_2
  ihave HR1_1 := (Pipeline.launchCred_tallyAt (.dma (semAt (arr 1) 1)) p2 p2 p2_p2 p2_p2 () 1024 c) $$ HR1_1
  ihave HR1_0 := (Pipeline.launchCred_tallyAt (.dma (semAt (arr 1) 0)) p1 p1 p1_p1 p1_p1 () 1024 c) $$ HR1_0
  ihave HB2 := (Pipeline.launchCred_tallyAt (.reg barS) p2 p2 p2_p2 p2_p2 () 1 c) $$ HB2
  ihave HB1 := (Pipeline.launchCred_tallyAt (.reg barS) p1 p1 p1_p1 p1_p1 () 1 c) $$ HB1
  isplitl [HB1 HB2]
  · rw [← tallyAt_add (barCell c) () 1 1]
    iapply (cred_add _ _).2
    isplitl [HB1] <;> iassumption
  isplitl [HR1_0]; · iexact HR1_0
  isplitl [HR1_1]; · iexact HR1_1
  isplitl [HR1_2]; · iexact HR1_2
  isplitl [HR1_3]; · iexact HR1_3
  isplitl [HR1_4]; · iexact HR1_4
  isplitl [HR1_5]; · iexact HR1_5
  isplitl [HR1_6]; · iexact HR1_6
  isplitl [HR1_7]; · iexact HR1_7
  isplitl [HR2_0]; · iexact HR2_0
  isplitl [HR2_1]; · iexact HR2_1
  isplitl [HR2_2]; · iexact HR2_2
  isplitl [HR2_3]; · iexact HR2_3
  isplitl [HR2_4]; · iexact HR2_4
  isplitl [HR2_5]; · iexact HR2_5
  isplitl [HR2_6]; · iexact HR2_6
  iexact HR2_7

/-! ## Funding the protocol's ghost state and dealing it to the devices -/

/-- The duty tokens minted for device c's own cells. -/
def toksMint (c : Dev nD) : sProp 𝕄 :=
  bigSep Finset.univ fun t : TIx => dutyTok ER (tokOf (c, t)).1 (tokOf (c, t)).2.1 (tokOf (c, t)).2.2

/-- What the launch element deals device c. -/
def G (c : Dev nD) : sProp 𝕄 :=
  iprop((bigSep Finset.univ fun i : CIx => roundState ER (sched m) (kcell (c, i)) 0)
    ∗ (bigSep Finset.univ fun i : CIx => iprop(atPos ER (kcell (c, i)) 0 ∅ 0 ∗ reached ER (kcell (c, i)) 0)) ∗ toksMint c)

/-- What the global step makes of it. -/
def G' (c : Dev nD) : sProp 𝕄 := iprop(∃ K, ghost m K c)

omit [FloatOps F] in
instance slotA_storable (a : Dev nD) (j : Fin 8) : BI.Storable (upEmb : UEmb _ 𝕄) (slotA (F := F) a j) := by unfold slotA; infer_instance
omit [FloatOps F] in
instance slotB_storable (a : Dev nD) (j : Fin 8) : BI.Storable (upEmb : UEmb _ 𝕄) (slotB (F := F) a j) := by unfold slotB; infer_instance

set_option synthInstance.maxHeartbeats 1000000 in
omit [FloatOps F] in
instance gift_storable (a : Dev nD) (d : Bool) : BI.Storable (upEmb : UEmb _ 𝕄) (gift (F := F) a d) := by
  cases d
  · rw [gift_false]; infer_instance
  · rw [gift_true]; infer_instance

instance sched_payload_storable (g : GSem nD τ sig) (r : ℕ) (d : Bool) :
    BI.Storable (upEmb : UEmb _ 𝕄) ((sched (F := F) m).payload g r d) := by
  rcases g with ⟨t, s | s⟩
  · show BI.Storable upEmb (if s = barS then gift (if d then p2 t.1 else p1 t.1) d else iprop(emp))
    split <;> infer_instance
  · show BI.Storable upEmb (match kind s with | some (k, j) => dmaPay m k t.1 j | none => iprop(emp))
    split
    · rename_i k j _
      fin_cases k <;> (unfold dmaPay; infer_instance)
    · infer_instance

theorem fund_tree : BI.own (ER (initOf treeCells treeToks)) ⊢ (|==> bigSep Finset.univ (G m) : sProp 𝕄) := by
  have hX (Φ : GSem nD τ sig → sProp 𝕄) : bigSep treeCells Φ = bigSep Finset.univ fun c : Dev nD => bigSep Finset.univ fun i : CIx => Φ (kcell (c, i)) := by
    unfold treeCells; rw [bigSep_map, bigSep_univ_prod]; rfl
  have hT : bigSep treeToks (fun x => (dutyTok ER x.1 x.2.1 x.2.2 : sProp 𝕄)) = bigSep Finset.univ fun c : Dev nD => toksMint c := by
    unfold treeToks; rw [bigSep_map, bigSep_univ_prod]; rfl
  iintro HX
  imod (Rounds.fund ER (sched m) treeCells treeToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
theorem bigSep_univ_option {α : Type} [Fintype α] [DecidableEq α] (Φ : Option α → sProp 𝕄) :
    bigSep Finset.univ Φ = iprop(Φ none ∗ bigSep Finset.univ fun a : α => Φ (some a)) := by
  rw [show (Finset.univ : Finset (Option α)) = insert none (Finset.univ.map Function.Embedding.some) from by
    ext x; cases x <;> simp]
  rw [bigSep_insert (by simp), bigSep_map]
  rfl

omit [FloatOps F] in
theorem ownSems0_eq (c : Dev nD) : (Pipeline.ownSems0 (Ix := Unit) (Name := ℕ) (U := UU) (Lvl := ℕ) (Val := Elt F) (τ := τ) osem c : sProp 𝕄)
    = bigSep Finset.univ fun kj : Fin 4 × Fin 8 => semVal (dcell kj.1 c kj.2) 0 := rfl
omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun i : CIx => semVal (kcell (c, i)) 0 : sProp 𝕄) := by
  rw [bigSep_univ_option, ownSems0_eq, unscopedSems0_eq]
  iintro ⟨Hos, Hus⟩
  isplitl [Hus]; · iexact Hus
  iexact Hos

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun i : CIx => iprop(∃ κ : ℕ, cellInv ER (sched m) κ (kcell (c, i))))
          ∗ (bigSep Finset.univ fun i : CIx => iprop(atPos ER (kcell (c, i)) 0 ∅ 0 ∗ reached ER (kcell (c, i)) 0)) ∗ toksMint c) := by
  unfold G
  iintro ⟨Hos, Hus, Hst, Hat, Htok⟩
  ihave Hv := (sems0_eq (F := F) c) $$ [Hos Hus]
  · isplitl [Hos] <;> iassumption
  imod (show iprop((bigSep Finset.univ fun i : CIx => semVal (kcell (c, i)) 0) ∗ bigSep Finset.univ fun i : CIx => roundState ER (sched m) (kcell (c, i)) 0)
      ⊢ (|={Set.univ}=> bigSep Finset.univ fun i : CIx => iprop(∃ κ : ℕ, cellInv ER (sched m) κ (kcell (c, i))) : sProp 𝕄) from by
        rw [← bigSep_sep']
        exact (bigSep_mono fun i _ => (Rounds.body_intro ER (sched m) (kcell (c, i))).trans inv_alloc).trans (bigSep_fupd _ _)) $$ [Hv Hst] with Hinv
  · isplitl [Hv] <;> iassumption
  imodintro
  isplitl [Hinv]; · iexact Hinv
  isplitl [Hat]; · iexact Hat
  iexact Htok

/-! ## Regrouping: every device gets the invariants and marks of the cells it touches, and the tokens it pays with -/

/-- Names by cell, from names by (device, index). -/
def Kof (Kp : Dev nD × CIx → ℕ) : GSem nD τ sig → ℕ := fun g =>
  if h : ∃ ck, kcell ck = g then Kp h.choose else 0
theorem Kof_kcell (Kp : Dev nD × CIx → ℕ) (ck : Dev nD × CIx) : Kof Kp (kcell ck) = Kp ck := by
  unfold Kof
  have h : ∃ ck', kcell ck' = kcell ck := ⟨ck, rfl⟩
  rw [dif_pos h, kcell_injective h.choose_spec]

def records (Kp : Dev nD × CIx → ℕ) : sProp 𝕄 :=
  iprop((bigSep Finset.univ fun ck : Dev nD × CIx => cellInv ER (sched m) (Kp ck) (kcell ck))
    ∗ bigSep Finset.univ fun ck : Dev nD × CIx => reached ER (kcell ck) 0)
instance records_persistent (Kp : Dev nD × CIx → ℕ) : BI.Persistent (records m Kp) := by unfold records; infer_instance

theorem inv_at (Kp : Dev nD × CIx → ℕ) (ck : Dev nD × CIx) :
    (bigSep Finset.univ fun ck : Dev nD × CIx => (cellInv ER (sched m) (Kp ck) (kcell ck) : sProp 𝕄)) ⊢ cellInv ER (sched m) (Kof Kp (kcell ck)) (kcell ck) := by
  rw [Kof_kcell]; exact bigSep_elim (Finset.mem_univ ck)
omit [FloatOps F] in
theorem reached_at (ck : Dev nD × CIx) :
    (bigSep Finset.univ fun ck : Dev nD × CIx => (reached ER (kcell ck) 0 : sProp 𝕄)) ⊢ reached ER (kcell ck) 0 :=
  bigSep_elim (Finset.mem_univ ck)

/-- What stays with device c: its own cells' positions, and the tokens of the duties it pays. -/
def linear (c : Dev nD) : sProp 𝕄 :=
  iprop((atPos ER (barCell c) 0 ∅ 0
    ∗ atPos ER (dcell 0 c 0) 0 ∅ 0
    ∗ atPos ER (dcell 0 c 1) 0 ∅ 0
    ∗ atPos ER (dcell 0 c 2) 0 ∅ 0
    ∗ atPos ER (dcell 0 c 3) 0 ∅ 0
    ∗ atPos ER (dcell 0 c 4) 0 ∅ 0
    ∗ atPos ER (dcell 0 c 5) 0 ∅ 0
    ∗ atPos ER (dcell 0 c 6) 0 ∅ 0
    ∗ atPos ER (dcell 0 c 7) 0 ∅ 0
    ∗ atPos ER (dcell 1 c 0) 0 ∅ 0
    ∗ atPos ER (dcell 1 c 1) 0 ∅ 0
    ∗ atPos ER (dcell 1 c 2) 0 ∅ 0
    ∗ atPos ER (dcell 1 c 3) 0 ∅ 0
    ∗ atPos ER (dcell 1 c 4) 0 ∅ 0
    ∗ atPos ER (dcell 1 c 5) 0 ∅ 0
    ∗ atPos ER (dcell 1 c 6) 0 ∅ 0
    ∗ atPos ER (dcell 1 c 7) 0 ∅ 0
    ∗ atPos ER (dcell 2 c 0) 0 ∅ 0
    ∗ atPos ER (dcell 2 c 1) 0 ∅ 0
    ∗ atPos ER (dcell 2 c 2) 0 ∅ 0
    ∗ atPos ER (dcell 2 c 3) 0 ∅ 0
    ∗ atPos ER (dcell 2 c 4) 0 ∅ 0
    ∗ atPos ER (dcell 2 c 5) 0 ∅ 0
    ∗ atPos ER (dcell 2 c 6) 0 ∅ 0
    ∗ atPos ER (dcell 2 c 7) 0 ∅ 0
    ∗ atPos ER (dcell 3 c 0) 0 ∅ 0
    ∗ atPos ER (dcell 3 c 1) 0 ∅ 0
    ∗ atPos ER (dcell 3 c 2) 0 ∅ 0
    ∗ atPos ER (dcell 3 c 3) 0 ∅ 0
    ∗ atPos ER (dcell 3 c 4) 0 ∅ 0
    ∗ atPos ER (dcell 3 c 5) 0 ∅ 0
    ∗ atPos ER (dcell 3 c 6) 0 ∅ 0
    ∗ atPos ER (dcell 3 c 7) 0 ∅ 0)
    ∗ (dutyTok ER (barCell (p1 c)) 0 false
    ∗ dutyTok ER (barCell (p2 c)) 0 true
    ∗ dutyTok ER (dcell 0 c 0) 0 false
    ∗ dutyTok ER (dcell 0 c 1) 0 false
    ∗ dutyTok ER (dcell 0 c 2) 0 false
    ∗ dutyTok ER (dcell 0 c 3) 0 false
    ∗ dutyTok ER (dcell 0 c 4) 0 false
    ∗ dutyTok ER (dcell 0 c 5) 0 false
    ∗ dutyTok ER (dcell 0 c 6) 0 false
    ∗ dutyTok ER (dcell 0 c 7) 0 false
    ∗ dutyTok ER (dcell 1 (p1 c) 0) 0 false
    ∗ dutyTok ER (dcell 1 (p2 c) 1) 0 false
    ∗ dutyTok ER (dcell 1 (p1 c) 2) 0 false
    ∗ dutyTok ER (dcell 1 (p2 c) 3) 0 false
    ∗ dutyTok ER (dcell 1 (p1 c) 4) 0 false
    ∗ dutyTok ER (dcell 1 (p2 c) 5) 0 false
    ∗ dutyTok ER (dcell 1 (p1 c) 6) 0 false
    ∗ dutyTok ER (dcell 1 (p2 c) 7) 0 false
    ∗ dutyTok ER (dcell 2 c 0) 0 false
    ∗ dutyTok ER (dcell 2 c 1) 0 false
    ∗ dutyTok ER (dcell 2 c 2) 0 false
    ∗ dutyTok ER (dcell 2 c 3) 0 false
    ∗ dutyTok ER (dcell 2 c 4) 0 false
    ∗ dutyTok ER (dcell 2 c 5) 0 false
    ∗ dutyTok ER (dcell 2 c 6) 0 false
    ∗ dutyTok ER (dcell 2 c 7) 0 false
    ∗ dutyTok ER (dcell 3 (p2 c) 0) 0 false
    ∗ dutyTok ER (dcell 3 (p1 c) 1) 0 false
    ∗ dutyTok ER (dcell 3 (p2 c) 2) 0 false
    ∗ dutyTok ER (dcell 3 (p1 c) 3) 0 false
    ∗ dutyTok ER (dcell 3 (p2 c) 4) 0 false
    ∗ dutyTok ER (dcell 3 (p1 c) 5) 0 false
    ∗ dutyTok ER (dcell 3 (p2 c) 6) 0 false
    ∗ dutyTok ER (dcell 3 (p1 c) 7) 0 false))

theorem ghost_intro (Kp : Dev nD × CIx → ℕ) (c : Dev nD) : iprop(records m Kp ∗ linear c) ⊢ G' m c := by
  unfold records linear G' ghost
  iintro ⟨⟨#HI, #HR⟩, Hpos, Htok⟩
  iexists (Kof Kp)
  isplitr
  · isplitr; · (iapply (inv_at m Kp (c, none)); iexact HI)
    isplitr; · (iapply (inv_at m Kp (p1 c, none)); iexact HI)
    isplitr; · (iapply (inv_at m Kp (p2 c, none)); iexact HI)
    isplitr; · (iapply (inv_at m Kp (c, some (0, 0))); iexact HI)
    isplitr; · (iapply (inv_at m Kp (c, some (0, 1))); iexact HI)
    isplitr; · (iapply (inv_at m Kp (c, some (0, 2))); iexact HI)
    isplitr; · (iapply (inv_at m Kp (c, some (0, 3))); iexact HI)
    isplitr; · (iapply (inv_at m Kp (c, some (0, 4))); iexact HI)
    isplitr; · (iapply (inv_at m Kp (c, some (0, 5))); iexact HI)
    isplitr; · (iapply (inv_at m Kp (c, some (0, 6))); iexact HI)
    isplitr; · (iapply (inv_at m Kp (c, some (0, 7))); iexact HI)
    isplitr; · (iapply (inv_at m Kp (c, some (1, 0))); iexact HI)
    isplitr; · (iapply (inv_at m Kp (c, some (1, 1))); iexact HI)
    isplitr; · (iapply (inv_at m Kp (c, some (1, 2))); iexact HI)
    isplitr; · (iapply (inv_at m Kp (c, some (1, 3))); iexact HI)
    isplitr; · (iapply (inv_at m Kp (c, some (1, 4))); iexact HI)
    isplitr; · (iapply (inv_at m Kp (c, some (1, 5))); iexact HI)
    isplitr; · (iapply (inv_at m Kp (c, some (1, 6))); iexact HI)
    isplitr; · (iapply (inv_at m Kp (c, some (1, 7))); iexact HI)
    isplitr; · (iapply (inv_at m Kp (c, some (2, 0))); iexact HI)
    isplitr; · (iapply (inv_at m Kp (c, some (2, 1))); iexact HI)
    isplitr; · (iapply (inv_at m Kp (c, some (2, 2))); iexact HI)
    isplitr; · (iapply (inv_at m Kp (c, some (2, 3))); iexact HI)
    isplitr; · (iapply (inv_at m Kp (c, some (2, 4))); iexact HI)
    isplitr; · (iapply (inv_at m Kp (c, some (2, 5))); iexact HI)
    isplitr; · (iapply (inv_at m Kp (c, some (2, 6))); iexact HI)
    isplitr; · (iapply (inv_at m Kp (c, some (2, 7))); iexact HI)
    isplitr; · (iapply (inv_at m Kp (c, some (3, 0))); iexact HI)
    isplitr; · (iapply (inv_at m Kp (c, some (3, 1))); iexact HI)
    isplitr; · (iapply (inv_at m Kp (c, some (3, 2))); iexact HI)
    isplitr; · (iapply (inv_at m Kp (c, some (3, 3))); iexact HI)
    isplitr; · (iapply (inv_at m Kp (c, some (3, 4))); iexact HI)
    isplitr; · (iapply (inv_at m Kp (c, some (3, 5))); iexact HI)
    isplitr; · (iapply (inv_at m Kp (c, some (3, 6))); iexact HI)
    isplitr; · (iapply (inv_at m Kp (c, some (3, 7))); iexact HI)
    isplitr; · (iapply (inv_at m Kp (p1 c, some (1, 0))); iexact HI)
    isplitr; · (iapply (inv_at m Kp (p2 c, some (1, 1))); iexact HI)
    isplitr; · (iapply (inv_at m Kp (p1 c, some (1, 2))); iexact HI)
    isplitr; · (iapply (inv_at m Kp (p2 c, some (1, 3))); iexact HI)
    isplitr; · (iapply (inv_at m Kp (p1 c, some (1, 4))); iexact HI)
    isplitr; · (iapply (inv_at m Kp (p2 c, some (1, 5))); iexact HI)
    isplitr; · (iapply (inv_at m Kp (p1 c, some (1, 6))); iexact HI)
    isplitr; · (iapply (inv_at m Kp (p2 c, some (1, 7))); iexact HI)
    isplitr; · (iapply (inv_at m Kp (p2 c, some (3, 0))); iexact HI)
    isplitr; · (iapply (inv_at m Kp (p1 c, some (3, 1))); iexact HI)
    isplitr; · (iapply (inv_at m Kp (p2 c, some (3, 2))); iexact HI)
    isplitr; · (iapply (inv_at m Kp (p1 c, some (3, 3))); iexact HI)
    isplitr; · (iapply (inv_at m Kp (p2 c, some (3, 4))); iexact HI)
    isplitr; · (iapply (inv_at m Kp (p1 c, some (3, 5))); iexact HI)
    isplitr; · (iapply (inv_at m Kp (p2 c, some (3, 6))); iexact HI)
    iapply (inv_at m Kp (p1 c, some (3, 7))); iexact HI
  isplitr
  · isplitr; · (iapply (reached_at (F := F) (p1 c, none)); iexact HR)
    isplitr; · (iapply (reached_at (F := F) (p2 c, none)); iexact HR)
    isplitr; · (iapply (reached_at (F := F) (c, some (0, 0))); iexact HR)
    isplitr; · (iapply (reached_at (F := F) (c, some (0, 1))); iexact HR)
    isplitr; · (iapply (reached_at (F := F) (c, some (0, 2))); iexact HR)
    isplitr; · (iapply (reached_at (F := F) (c, some (0, 3))); iexact HR)
    isplitr; · (iapply (reached_at (F := F) (c, some (0, 4))); iexact HR)
    isplitr; · (iapply (reached_at (F := F) (c, some (0, 5))); iexact HR)
    isplitr; · (iapply (reached_at (F := F) (c, some (0, 6))); iexact HR)
    isplitr; · (iapply (reached_at (F := F) (c, some (0, 7))); iexact HR)
    isplitr; · (iapply (reached_at (F := F) (c, some (2, 0))); iexact HR)
    isplitr; · (iapply (reached_at (F := F) (c, some (2, 1))); iexact HR)
    isplitr; · (iapply (reached_at (F := F) (c, some (2, 2))); iexact HR)
    isplitr; · (iapply (reached_at (F := F) (c, some (2, 3))); iexact HR)
    isplitr; · (iapply (reached_at (F := F) (c, some (2, 4))); iexact HR)
    isplitr; · (iapply (reached_at (F := F) (c, some (2, 5))); iexact HR)
    isplitr; · (iapply (reached_at (F := F) (c, some (2, 6))); iexact HR)
    isplitr; · (iapply (reached_at (F := F) (c, some (2, 7))); iexact HR)
    isplitr; · (iapply (reached_at (F := F) (p1 c, some (1, 0))); iexact HR)
    isplitr; · (iapply (reached_at (F := F) (p2 c, some (1, 1))); iexact HR)
    isplitr; · (iapply (reached_at (F := F) (p1 c, some (1, 2))); iexact HR)
    isplitr; · (iapply (reached_at (F := F) (p2 c, some (1, 3))); iexact HR)
    isplitr; · (iapply (reached_at (F := F) (p1 c, some (1, 4))); iexact HR)
    isplitr; · (iapply (reached_at (F := F) (p2 c, some (1, 5))); iexact HR)
    isplitr; · (iapply (reached_at (F := F) (p1 c, some (1, 6))); iexact HR)
    isplitr; · (iapply (reached_at (F := F) (p2 c, some (1, 7))); iexact HR)
    isplitr; · (iapply (reached_at (F := F) (p2 c, some (3, 0))); iexact HR)
    isplitr; · (iapply (reached_at (F := F) (p1 c, some (3, 1))); iexact HR)
    isplitr; · (iapply (reached_at (F := F) (p2 c, some (3, 2))); iexact HR)
    isplitr; · (iapply (reached_at (F := F) (p1 c, some (3, 3))); iexact HR)
    isplitr; · (iapply (reached_at (F := F) (p2 c, some (3, 4))); iexact HR)
    isplitr; · (iapply (reached_at (F := F) (p1 c, some (3, 5))); iexact HR)
    isplitr; · (iapply (reached_at (F := F) (p2 c, some (3, 6))); iexact HR)
    iapply (reached_at (F := F) (p1 c, some (3, 7))); iexact HR
  isplitl [Hpos]; · iexact Hpos
  iexact Htok

/-! ### The tokens dealt round to their payers -/

def p1e : Dev nD ≃ Dev nD := ⟨p1, p1, p1_p1, p1_p1⟩
def p2e : Dev nD ≃ Dev nD := ⟨p2, p2, p2_p2, p2_p2⟩
/-- (device, chunk) to (its first partner on that chunk, chunk): an involution; and the same for the second partner. -/
def pe1 : Dev nD × Fin 8 ≃ Dev nD × Fin 8 := ⟨fun x => (peer1 x.1 x.2, x.2), fun x => (peer1 x.1 x.2, x.2), fun x => by simp [peer1_peer1], fun x => by simp [peer1_peer1]⟩
def pe2 : Dev nD × Fin 8 ≃ Dev nD × Fin 8 := ⟨fun x => (peer2 x.1 x.2, x.2), fun x => (peer2 x.1 x.2, x.2), fun x => by simp [peer2_peer2], fun x => by simp [peer2_peer2]⟩

/-- The minted tokens of device c's own cells, grouped; -/
def toksOwn (c : Dev nD) : sProp 𝕄 :=
  iprop(dutyTok ER (barCell c) 0 false ∗ dutyTok ER (barCell c) 0 true
    ∗ (bigSep Finset.univ fun j : Fin 8 => dutyTok ER (dcell 0 c j) 0 false) ∗ (bigSep Finset.univ fun j : Fin 8 => dutyTok ER (dcell 1 c j) 0 false)
    ∗ (bigSep Finset.univ fun j : Fin 8 => dutyTok ER (dcell 2 c j) 0 false) ∗ (bigSep Finset.univ fun j : Fin 8 => dutyTok ER (dcell 3 c j) 0 false))
/-- the tokens device c pays with, grouped. -/
def toksPay (c : Dev nD) : sProp 𝕄 :=
  iprop(dutyTok ER (barCell (p1 c)) 0 false ∗ dutyTok ER (barCell (p2 c)) 0 true
    ∗ (bigSep Finset.univ fun j : Fin 8 => dutyTok ER (dcell 0 c j) 0 false) ∗ (bigSep Finset.univ fun j : Fin 8 => dutyTok ER (dcell 1 (peer1 c j) j) 0 false)
    ∗ (bigSep Finset.univ fun j : Fin 8 => dutyTok ER (dcell 2 c j) 0 false) ∗ (bigSep Finset.univ fun j : Fin 8 => dutyTok ER (dcell 3 (peer2 c j) j) 0 false))

omit [FloatOps F] in
theorem toks_around : (bigSep Finset.univ fun c : Dev nD => (toksOwn c : sProp 𝕄)) ⊢ bigSep Finset.univ fun c : Dev nD => toksPay c := by
  unfold toksOwn toksPay
  rw [bigSep_sep', bigSep_sep', bigSep_sep', bigSep_sep', bigSep_sep', bigSep_sep', bigSep_sep', bigSep_sep', bigSep_sep', bigSep_sep',
    bigSep_univ_equiv p1e (fun c : Dev nD => (dutyTok ER (barCell c) 0 false : sProp 𝕄)),
    bigSep_univ_equiv p2e (fun c : Dev nD => (dutyTok ER (barCell c) 0 true : sProp 𝕄)),
    ← bigSep_univ_prod (fun x : Dev nD × Fin 8 => (dutyTok ER (dcell 1 x.1 x.2) 0 false : sProp 𝕄)),
    ← bigSep_univ_prod (fun x : Dev nD × Fin 8 => (dutyTok ER (dcell 3 x.1 x.2) 0 false : sProp 𝕄)),
    ← bigSep_univ_prod (fun x : Dev nD × Fin 8 => (dutyTok ER (dcell 1 (peer1 x.1 x.2) x.2) 0 false : sProp 𝕄)),
    ← bigSep_univ_prod (fun x : Dev nD × Fin 8 => (dutyTok ER (dcell 3 (peer2 x.1 x.2) x.2) 0 false : sProp 𝕄)),
    bigSep_univ_equiv pe1 (fun x : Dev nD × Fin 8 => (dutyTok ER (dcell 1 x.1 x.2) 0 false : sProp 𝕄)),
    bigSep_univ_equiv pe2 (fun x : Dev nD × Fin 8 => (dutyTok ER (dcell 3 x.1 x.2) 0 false : sProp 𝕄))]
  exact BI.Entails.refl _

omit [FloatOps F] in
theorem bigSep_fin8 (Φ : Fin 8 → sProp 𝕄) :
    bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ
omit [FloatOps F] in
theorem bigSep_kj (Φ : Fin 4 × Fin 8 → sProp 𝕄) :
    bigSep Finset.univ Φ = iprop(Φ (0, 0) ∗ Φ (0, 1) ∗ Φ (0, 2) ∗ Φ (0, 3) ∗ Φ (0, 4) ∗ Φ (0, 5) ∗ Φ (0, 6) ∗ Φ (0, 7) ∗ Φ (1, 0) ∗ Φ (1, 1) ∗ Φ (1, 2) ∗ Φ (1, 3) ∗ Φ (1, 4) ∗ Φ (1, 5) ∗ Φ (1, 6) ∗ Φ (1, 7) ∗ Φ (2, 0) ∗ Φ (2, 1) ∗ Φ (2, 2) ∗ Φ (2, 3) ∗ Φ (2, 4) ∗ Φ (2, 5) ∗ Φ (2, 6) ∗ Φ (2, 7) ∗ Φ (3, 0) ∗ Φ (3, 1) ∗ Φ (3, 2) ∗ Φ (3, 3) ∗ Φ (3, 4) ∗ Φ (3, 5) ∗ Φ (3, 6) ∗ Φ (3, 7)) :=
  bigSep_univ_eq_bigSepL [(0, 0), (0, 1), (0, 2), (0, 3), (0, 4), (0, 5), (0, 6), (0, 7), (1, 0), (1, 1), (1, 2), (1, 3), (1, 4), (1, 5), (1, 6), (1, 7), (2, 0), (2, 1), (2, 2), (2, 3), (2, 4), (2, 5), (2, 6), (2, 7), (3, 0), (3, 1), (3, 2), (3, 3), (3, 4), (3, 5), (3, 6), (3, 7)] (by decide) (by decide) Φ
omit [FloatOps F] in
theorem bigSep_tix (Φ : TIx → sProp 𝕄) :
    bigSep Finset.univ Φ = iprop(Φ (.inl false) ∗ Φ (.inl true) ∗ Φ (.inr (0, 0)) ∗ Φ (.inr (0, 1)) ∗ Φ (.inr (0, 2)) ∗ Φ (.inr (0, 3)) ∗ Φ (.inr (0, 4)) ∗ Φ (.inr (0, 5)) ∗ Φ (.inr (0, 6)) ∗ Φ (.inr (0, 7)) ∗ Φ (.inr (1, 0)) ∗ Φ (.inr (1, 1)) ∗ Φ (.inr (1, 2)) ∗ Φ (.inr (1, 3)) ∗ Φ (.inr (1, 4)) ∗ Φ (.inr (1, 5)) ∗ Φ (.inr (1, 6)) ∗ Φ (.inr (1, 7)) ∗ Φ (.inr (2, 0)) ∗ Φ (.inr (2, 1)) ∗ Φ (.inr (2, 2)) ∗ Φ (.inr (2, 3)) ∗ Φ (.inr (2, 4)) ∗ Φ (.inr (2, 5)) ∗ Φ (.inr (2, 6)) ∗ Φ (.inr (2, 7)) ∗ Φ (.inr (3, 0)) ∗ Φ (.inr (3, 1)) ∗ Φ (.inr (3, 2)) ∗ Φ (.inr (3, 3)) ∗ Φ (.inr (3, 4)) ∗ Φ (.inr (3, 5)) ∗ Φ (.inr (3, 6)) ∗ Φ (.inr (3, 7))) :=
  bigSep_univ_eq_bigSepL [(Sum.inl false : TIx), (Sum.inl true : TIx), (Sum.inr (0, 0) : TIx), (Sum.inr (0, 1) : TIx), (Sum.inr (0, 2) : TIx), (Sum.inr (0, 3) : TIx), (Sum.inr (0, 4) : TIx), (Sum.inr (0, 5) : TIx), (Sum.inr (0, 6) : TIx), (Sum.inr (0, 7) : TIx), (Sum.inr (1, 0) : TIx), (Sum.inr (1, 1) : TIx), (Sum.inr (1, 2) : TIx), (Sum.inr (1, 3) : TIx), (Sum.inr (1, 4) : TIx), (Sum.inr (1, 5) : TIx), (Sum.inr (1, 6) : TIx), (Sum.inr (1, 7) : TIx), (Sum.inr (2, 0) : TIx), (Sum.inr (2, 1) : TIx), (Sum.inr (2, 2) : TIx), (Sum.inr (2, 3) : TIx), (Sum.inr (2, 4) : TIx), (Sum.inr (2, 5) : TIx), (Sum.inr (2, 6) : TIx), (Sum.inr (2, 7) : TIx), (Sum.inr (3, 0) : TIx), (Sum.inr (3, 1) : TIx), (Sum.inr (3, 2) : TIx), (Sum.inr (3, 3) : TIx), (Sum.inr (3, 4) : TIx), (Sum.inr (3, 5) : TIx), (Sum.inr (3, 6) : TIx), (Sum.inr (3, 7) : TIx)] (by decide) (by decide) Φ

omit [FloatOps F] in
/-- The minted tokens are the own tokens, grouped. -/
theorem mint_own (c : Dev nD) : (toksMint c : sProp 𝕄) ⊢ toksOwn c := by
  unfold toksMint toksOwn
  rw [bigSep_tix, bigSep_fin8, bigSep_fin8, bigSep_fin8, bigSep_fin8]
  iintro ⟨Hf, Ht, H0_0, H0_1, H0_2, H0_3, H0_4, H0_5, H0_6, H0_7, H1_0, H1_1, H1_2, H1_3, H1_4, H1_5, H1_6, H1_7, H2_0, H2_1, H2_2, H2_3, H2_4, H2_5, H2_6, H2_7, H3_0, H3_1, H3_2, H3_3, H3_4, H3_5, H3_6, H3_7⟩
  isplitl [Hf]; · iexact Hf
  isplitl [Ht]; · iexact Ht
  isplitl [H0_0 H0_1 H0_2 H0_3 H0_4 H0_5 H0_6 H0_7]
  · isplitl [H0_0]; · iexact H0_0
    isplitl [H0_1]; · iexact H0_1
    isplitl [H0_2]; · iexact H0_2
    isplitl [H0_3]; · iexact H0_3
    isplitl [H0_4]; · iexact H0_4
    isplitl [H0_5]; · iexact H0_5
    isplitl [H0_6]; · iexact H0_6
    iexact H0_7
  isplitl [H1_0 H1_1 H1_2 H1_3 H1_4 H1_5 H1_6 H1_7]
  · isplitl [H1_0]; · iexact H1_0
    isplitl [H1_1]; · iexact H1_1
    isplitl [H1_2]; · iexact H1_2
    isplitl [H1_3]; · iexact H1_3
    isplitl [H1_4]; · iexact H1_4
    isplitl [H1_5]; · iexact H1_5
    isplitl [H1_6]; · iexact H1_6
    iexact H1_7
  isplitl [H2_0 H2_1 H2_2 H2_3 H2_4 H2_5 H2_6 H2_7]
  · isplitl [H2_0]; · iexact H2_0
    isplitl [H2_1]; · iexact H2_1
    isplitl [H2_2]; · iexact H2_2
    isplitl [H2_3]; · iexact H2_3
    isplitl [H2_4]; · iexact H2_4
    isplitl [H2_5]; · iexact H2_5
    isplitl [H2_6]; · iexact H2_6
    iexact H2_7
  isplitl [H3_0]; · iexact H3_0
  isplitl [H3_1]; · iexact H3_1
  isplitl [H3_2]; · iexact H3_2
  isplitl [H3_3]; · iexact H3_3
  isplitl [H3_4]; · iexact H3_4
  isplitl [H3_5]; · iexact H3_5
  isplitl [H3_6]; · iexact H3_6
  iexact H3_7

/-- A device's positions and the tokens it pays with, written out. -/
theorem lin_intro (c : Dev nD) :
    (iprop((bigSep Finset.univ fun i : CIx => (atPos ER (kcell (c, i)) 0 ∅ 0 : sProp 𝕄)) ∗ toksPay (F := F) c) : sProp 𝕄) ⊢ (linear (F := F) c : sProp 𝕄) := by
  unfold toksPay linear
  iintro ⟨Hpos, Hb1, Hb2, HS1, HR1, HS2, HR2⟩
  ihave Hpos := (Entails.of_eq (bigSep_univ_option (F := F) _)) $$ Hpos
  icases Hpos with ⟨Hp0, Hpr⟩
  ihave Hpr := (Entails.of_eq (bigSep_kj (F := F) _)) $$ Hpr
  ihave HS1 := (Entails.of_eq (bigSep_fin8 (F := F) _)) $$ HS1
  icases HS1 with ⟨HS1_0, HS1_1, HS1_2, HS1_3, HS1_4, HS1_5, HS1_6, HS1_7⟩
  ihave HR1 := (Entails.of_eq (bigSep_fin8 (F := F) _)) $$ HR1
  icases HR1 with ⟨HR1_0, HR1_1, HR1_2, HR1_3, HR1_4, HR1_5, HR1_6, HR1_7⟩
  ihave HS2 := (Entails.of_eq (bigSep_fin8 (F := F) _)) $$ HS2
  icases HS2 with ⟨HS2_0, HS2_1, HS2_2, HS2_3, HS2_4, HS2_5, HS2_6, HS2_7⟩
  ihave HR2 := (Entails.of_eq (bigSep_fin8 (F := F) _)) $$ HR2
  icases HR2 with ⟨HR2_0, HR2_1, HR2_2, HR2_3, HR2_4, HR2_5, HR2_6, HR2_7⟩
  isplitl [Hp0 Hpr]
  · isplitl [Hp0]; · iexact Hp0
    iexact Hpr
  isplitl [Hb1]; · iexact Hb1
  isplitl [Hb2]; · iexact Hb2
  isplitl [HS1_0]; · iexact HS1_0
  isplitl [HS1_1]; · iexact HS1_1
  isplitl [HS1_2]; · iexact HS1_2
  isplitl [HS1_3]; · iexact HS1_3
  isplitl [HS1_4]; · iexact HS1_4
  isplitl [HS1_5]; · iexact HS1_5
  isplitl [HS1_6]; · iexact HS1_6
  isplitl [HS1_7]; · iexact HS1_7
  isplitl [HR1_0]; · iexact HR1_0
  isplitl [HR1_1]; · iexact HR1_1
  isplitl [HR1_2]; · iexact HR1_2
  isplitl [HR1_3]; · iexact HR1_3
  isplitl [HR1_4]; · iexact HR1_4
  isplitl [HR1_5]; · iexact HR1_5
  isplitl [HR1_6]; · iexact HR1_6
  isplitl [HR1_7]; · iexact HR1_7
  isplitl [HS2_0]; · iexact HS2_0
  isplitl [HS2_1]; · iexact HS2_1
  isplitl [HS2_2]; · iexact HS2_2
  isplitl [HS2_3]; · iexact HS2_3
  isplitl [HS2_4]; · iexact HS2_4
  isplitl [HS2_5]; · iexact HS2_5
  isplitl [HS2_6]; · iexact HS2_6
  isplitl [HS2_7]; · iexact HS2_7
  isplitl [HR2_0]; · iexact HR2_0
  isplitl [HR2_1]; · iexact HR2_1
  isplitl [HR2_2]; · iexact HR2_2
  isplitl [HR2_3]; · iexact HR2_3
  isplitl [HR2_4]; · iexact HR2_4
  isplitl [HR2_5]; · iexact HR2_5
  isplitl [HR2_6]; · iexact HR2_6
  iexact HR2_7

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun i : CIx => iprop(∃ κ : ℕ, cellInv ER (sched m) κ (kcell (c, i))))
          ∗ (bigSep Finset.univ fun i : CIx => iprop(atPos ER (kcell (c, i)) 0 ∅ 0 ∗ reached ER (kcell (c, i)) 0)) ∗ toksMint c) : sProp 𝕄)
      ⊢ bigSep Finset.univ (G' m) := by
  rw [bigSep_sep', bigSep_sep', ← bigSep_univ_prod (fun ck : Dev nD × CIx => iprop(∃ κ : ℕ, cellInv ER (sched m) κ (kcell ck))),
    bigSep_congr (s := Finset.univ) (fun (c : Dev nD) _ => bigSep_sep' Finset.univ (fun i : CIx => (atPos ER (kcell (c, i)) 0 ∅ 0 : sProp 𝕄)) (fun i => reached ER (kcell (c, i)) 0)),
    bigSep_sep', ← bigSep_univ_prod (fun ck : Dev nD × CIx => (reached ER (kcell ck) 0 : sProp 𝕄))]
  iintro ⟨HI, ⟨Hat, #HR⟩, Htok⟩
  ihave HK := (BI.bigSep_exists_pi Finset.univ (fun (ck : Dev nD × CIx) (κ : ℕ) => (cellInv ER (sched m) κ (kcell ck) : sProp 𝕄))) $$ HI
  icases HK with ⟨%Kp, #HI⟩
  have htk : (bigSep Finset.univ (fun c : Dev nD => toksMint (F := F) c) : sProp 𝕄) ⊢ bigSep Finset.univ fun c : Dev nD => toksPay (F := F) c :=
    (bigSep_mono fun c _ => mint_own (F := F) c).trans (toks_around (F := F))
  ihave Htk := htk $$ Htok
  iapply (bigSep_with_persistent (R := records m Kp) fun c _ => ghost_intro m Kp c)
  isplitr
  · unfold records; isplitl; · iexact HI
    iexact HR
  · iapply ((Entails.of_eq (bigSep_sep' Finset.univ (fun c : Dev nD => bigSep Finset.univ fun i : CIx => (atPos ER (kcell (c, i)) 0 ∅ 0 : sProp 𝕄)) toksPay).symm).trans
      (bigSep_mono fun c _ => lin_intro (F := F) c))
    isplitl [Hat]; · iexact Hat
    iexact Htk

/-- The global step: every device's own and unscoped semaphores at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch theorem's side conditions -/

theorem start_intro (c : Dev nD) :
    iprop(Pipeline.unscopedRestP Pipeline.Prefetch.none cfg0.spec c (fun b => m ((c : Thread nD τ).loc b)) ∗ levAts Lset lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, Hr⟩
  isplitl [Hs]; · iexact Hs
  iexact Hr

theorem phi1_exit (c : Dev nD) :
    (dats m 0 c).Φ (Fin.last cfg0.N) ⊢ iprop(emp ∗ Pipeline.ownSems0 osem c ∗ Pipeline.scopedRest cfg0.spec c) := by
  rw [show (dats m 0 c).Φ (Fin.last cfg0.N) = Φ₁ c from rfl, scopedRest0_eq, ownSems0_eq]
  unfold Φ₁
  iintro ⟨Ha, Hb, Hz⟩
  isplitr; · iempintro
  isplitl [Hz]; · iexact Hz
  isplitl [Ha] <;> iassumption

theorem waits (c : Dev nD) : (levAts Lset lv : sProp 𝕄) ⊢ Pipeline.cellsWaits cfgs (dats m) () 0 c :=
  Pipeline.cellsWaits_intro cfgs (dats m) () 0 c fun w s t => by
    rcases t with ⟨_ | _, ht⟩
    · refine ledger c _ _ ?_
      show Above _ (O₀ c)
      unfold O₀
      fin_cases w <;> fin_cases s <;> above_tac
    · refine ledger c _ _ ?_
      exact above_zero

/-! ## The run -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- The memory at launch: arbitrary contents, every semaphore counter zero, arbitrary generator registers. -/
def s₀ : MemSt nD τ sig (Elt F) := ⟨m, fun _ => 0, ρ⟩

omit [FloatOps F] in
theorem xM_set : (xM : Memref sig .tc .vmem S1x256x256 .f32).view.set = Finset.univ := View.set_whole _

/-- The staged buffers, whole, are the body's chunks. -/
theorem pre_split (c : Dev nD) (fo : (cc0_stg1_0 : Ref sig .tc).ty.Contents (Elt F)) (fa : (cc0_scratch0 : Ref sig .tc).ty.Contents (Elt F)) (fb : (cc0_scratch1 : Ref sig .tc).ty.Contents (Elt F)) :
    iprop((((c : Thread nD τ).loc cc0_stg0_0) ↦{fullShare} X m c) ∗ (((c : Thread nD τ).loc cc0_stg1_0) ↦{fullShare} fo)
        ∗ (((c : Thread nD τ).loc cc0_scratch0) ↦{fullShare} fa) ∗ (((c : Thread nD τ).loc cc0_scratch1) ↦{fullShare} fb))
      ⊢ bufsC m c fo fa fb := by
  unfold bufsC
  iintro ⟨Hx, Ho, Ha, Hb⟩
  ihave Hx2 := (pointsTo_share (PosShare.mem_left_op_right fullShare)).1 $$ Hx
  icases Hx2 with ⟨Hxl, Hxr⟩
  ihave Hxr := (Entails.of_eq ((x_chunks c fullShare.right (X m c)).trans (bigSep_fin8 (F := F) _))) $$ Hxr
  ihave Ho := (Entails.of_eq ((o_chunks c fullShare fo).trans (bigSep_fin8 (F := F) _))) $$ Ho
  ihave Ha := (Entails.of_eq ((a_chunks c fullShare fa).trans (bigSep_fin8 (F := F) _))) $$ Ha
  ihave Hb := (Entails.of_eq ((b_chunks c fullShare fb).trans (bigSep_fin8 (F := F) _))) $$ Hb
  icases Hxr with ⟨Hx0, Hx1, Hx2, Hx3, Hx4, Hx5, Hx6, Hx7⟩
  icases Ho with ⟨Ho0, Ho1, Ho2, Ho3, Ho4, Ho5, Ho6, Ho7⟩
  icases Ha with ⟨Ha0, Ha1, Ha2, Ha3, Ha4, Ha5, Ha6, Ha7⟩
  icases Hb with ⟨Hb0, Hb1, Hb2, Hb3, Hb4, Hb5, Hb6, Hb7⟩
  isplitl [Hxl]; · (rw [xM_set]; iexact Hxl)
  isplitl [Hx0]; · iexact Hx0
  isplitl [Hx1]; · iexact Hx1
  isplitl [Hx2]; · iexact Hx2
  isplitl [Hx3]; · iexact Hx3
  isplitl [Hx4]; · iexact Hx4
  isplitl [Hx5]; · iexact Hx5
  isplitl [Hx6]; · iexact Hx6
  isplitl [Hx7]; · iexact Hx7
  isplitl [Ho0]; · iexact Ho0
  isplitl [Ho1]; · iexact Ho1
  isplitl [Ho2]; · iexact Ho2
  isplitl [Ho3]; · iexact Ho3
  isplitl [Ho4]; · iexact Ho4
  isplitl [Ho5]; · iexact Ho5
  isplitl [Ho6]; · iexact Ho6
  isplitl [Ho7]; · iexact Ho7
  isplitl [Ha0]; · iexact Ha0
  isplitl [Ha2]; · iexact Ha2
  isplitl [Ha4]; · iexact Ha4
  isplitl [Ha6]; · iexact Ha6
  isplitl [Ha1]; · iexact Ha1
  isplitl [Ha3]; · iexact Ha3
  isplitl [Ha5]; · iexact Ha5
  isplitl [Ha7]; · iexact Ha7
  isplitl [Hb1]; · iexact Hb1
  isplitl [Hb3]; · iexact Hb3
  isplitl [Hb5]; · iexact Hb5
  isplitl [Hb7]; · iexact Hb7
  isplitl [Hb0]; · iexact Hb0
  isplitl [Hb2]; · iexact Hb2
  isplitl [Hb4]; · iexact Hb4
  iexact Hb6

theorem bigSep_exists_whole_a (c : Dev nD) :
    (bigSep Finset.univ fun j : Fin 8 => iprop(∃ f, (aS j : (Memref sig .tc .vmem S32x256 .f32)).view.loc (c : Thread nD τ) ↦[(aS j : (Memref sig .tc .vmem S32x256 .f32)).view.set]{fullShare} f) : sProp 𝕄)
      ⊢ iprop(∃ f : Buf (Elt F) ((c : Thread nD τ).loc cc0_scratch0), ((c : Thread nD τ).loc cc0_scratch0) ↦{fullShare} f) := by
  haveI : ∀ _ : Fin 8, Nonempty ((cc0_scratch0 : Ref sig .tc).ty.Contents (Elt F)) := fun _ => ⟨View.junk (Memref.whole cc0_scratch0 : Memref sig .tc _ _ _).view⟩
  iintro H
  ihave H' := (BI.bigSep_exists_pi Finset.univ (fun (j : Fin 8) (f : (cc0_scratch0 : Ref sig .tc).ty.Contents (Elt F)) =>
      ((aS j : (Memref sig .tc .vmem S32x256 .f32)).view.loc (c : Thread nD τ) ↦[(aS j : (Memref sig .tc .vmem S32x256 .f32)).view.set]{fullShare} f : sProp 𝕄))) $$ H
  icases H' with ⟨%fs, H⟩
  ihave H2 := (a_join c fullShare fs) $$ H
  icases H2 with ⟨%g, -, H⟩
  iexists g; iexact H
theorem bigSep_exists_whole_b (c : Dev nD) :
    (bigSep Finset.univ fun j : Fin 8 => iprop(∃ f, (bS j : (Memref sig .tc .vmem S32x256 .f32)).view.loc (c : Thread nD τ) ↦[(bS j : (Memref sig .tc .vmem S32x256 .f32)).view.set]{fullShare} f) : sProp 𝕄)
      ⊢ iprop(∃ f : Buf (Elt F) ((c : Thread nD τ).loc cc0_scratch1), ((c : Thread nD τ).loc cc0_scratch1) ↦{fullShare} f) := by
  haveI : ∀ _ : Fin 8, Nonempty ((cc0_scratch1 : Ref sig .tc).ty.Contents (Elt F)) := fun _ => ⟨View.junk (Memref.whole cc0_scratch1 : Memref sig .tc _ _ _).view⟩
  iintro H
  ihave H' := (BI.bigSep_exists_pi Finset.univ (fun (j : Fin 8) (f : (cc0_scratch1 : Ref sig .tc).ty.Contents (Elt F)) =>
      ((bS j : (Memref sig .tc .vmem S32x256 .f32)).view.loc (c : Thread nD τ) ↦[(bS j : (Memref sig .tc .vmem S32x256 .f32)).view.set]{fullShare} f : sProp 𝕄))) $$ H
  icases H' with ⟨%fs, H⟩
  ihave H2 := (b_join c fullShare fs) $$ H
  icases H2 with ⟨%g, -, H⟩
  iexists g; iexact H

/-- The body's chunks, joined: the landing buffers whole over some contents, the cells at zero, the input whole as it was,
    the result whole at the result array. -/
theorem post_join (c : Dev nD) :
    postC m c ⊢ iprop(Φ₁ (F := F) c ∗ (∃ W : Waits sig Unit, owes (c : Thread nD τ) 0 W)
      ∗ (((c : Thread nD τ).loc cc0_stg0_0) ↦{fullShare} X m c) ∗ (((c : Thread nD τ).loc cc0_stg1_0) ↦{fullShare} OutF m c)) := by
  unfold postC Φ₁
  iintro ⟨Hxl, Hxr, Ho, Ha, Hb, Hz, HO⟩
  ihave Ha := (bigSep_exists_whole_a (F := F) c) $$ Ha
  ihave Hb := (bigSep_exists_whole_b (F := F) c) $$ Hb
  ihave Hxr := (Entails.of_eq (x_chunks c fullShare.right (X m c)).symm) $$ Hxr
  ihave Ho := (o_join c fullShare (fun j => O2 m c j)) $$ Ho
  icases Ho with ⟨%g, %hg, Ho⟩
  have hgF : g = OutF m c := outF_eq m c g hg
  subst hgF
  isplitl [Ha Hb Hz]
  · isplitl [Ha]; · iexact Ha
    isplitl [Hb]; · iexact Hb
    iexact Hz
  isplitl [HO]; · iexact HO
  isplitl [Hxl Hxr]
  · iapply (pointsTo_share (PosShare.mem_left_op_right fullShare)).2
    isplitl [Hxl]; · (rw [xM_set]; iexact Hxl)
    iexact Hxr
  iexact Ho

/-! ## The body obligation, in the library's form -/

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

theorem fetch_0 (t : Fin cfg0.N) : (cfg0.win (0 : Fin 2)).fetch t = true := by rw [fin_N t]; rfl

set_option maxRecDepth 4000 in
def bodyPre' (c : Dev nD) : sProp 𝕄 :=
  iprop(Φ₀ m c ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

def bodyPost (c : Dev nD) : sProp 𝕄 :=
  iprop(Φ₁ (F := F) c ∗ (dats m 0 c).owesAt () t₀.succ ∗ stg c cc0_stg0_0 (X m c) ∗ stg c cc0_stg1_0 (OutF m c))

set_option maxRecDepth 65536 in
/-- The library's body obligation on device c. -/
theorem body_obligation (c : Dev nD) : BodyObligation (dats (F := F) m 0 c) (defs₀ (F := F)) 𝒱₀ () Set.univ := fun t => by
  rw [fin_N t]
  rw [bigSep_W0, bigSep_W0]
  simp only [owns_whole_eq]
  show bodyPre' m c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _) cc0_scratch2 cc0_scratch3 cc0_scratch4 cc0_scratch5) (fun _ => bodyPost m c)
  unfold bodyPre' Φ₀ start
  iintro ⟨⟨⟨⟨%K, Hg⟩, Hcr, #Hlev⟩, ⟨%fa, Ha⟩, ⟨%fb, Hb⟩⟩, Ho, ⟨%d0, %g0, %hg0, Hx⟩, ⟨%d1, %g1, %hg1, Hout⟩⟩
  have hx : g0 = X m c := by rw [hg0]; unfold Dat.before; rw [if_pos (fetch_0 t₀)]; rfl
  subst hx
  unfold Dat.owesAt Pipeline.owesWithin
  icases Ho with ⟨%W, %hW, HO⟩
  rw [show (dats m 0 c).owed t₀.castSucc = O₀ c from rfl]
  iapply (sound_body m K c W g1 fa fb (fun _ => bodyPost m c))
  isplitl [Hg]; · iexact Hg
  isplitl [Hcr]; · iexact Hcr
  isplitl [HO]; · iexact HO
  isplitr; · iexact Hlev
  isplitl [Hx Hout Ha Hb]
  · iapply (pre_split m c g1 fa fb)
    isplitl [Hx]; · iexact Hx
    isplitl [Hout]; · iexact Hout
    isplitl [Ha] <;> iassumption
  · iintro Hp
    ihave Hp := (post_join m c) $$ Hp
    icases Hp with ⟨HΦ, ⟨%W', HO⟩, Hx, Ho⟩
    unfold bodyPost Dat.owesAt Pipeline.owesWithin
    rw [show (dats m 0 c).owed t₀.succ = 0 from rfl]
    isplitl [HΦ]; · iexact HΦ
    isplitl [HO]
    · iexists W'
      isplitr; · ipureintro; exact fun _ _ => Or.inl trivial
      iexact HO
    isplitl [Hx]
    · iexists _; isplitr; · (ipureintro; rfl)
      iexact Hx
    iexists _; isplitr; · (ipureintro; rfl)
    iexact Ho
def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

set_option maxRecDepth 8000 in
/-- At the compiled mesh of four devices, from any memory with zero counters: every weakly fair execution of @main terminates,
    and every final state has each device's result array at the computed contents and its argument block unchanged. -/
theorem run_main : θ_run defs (onTc (τ := τ) (main (F := F))) (s₀ m ρ) (QC m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := Lset) (lv := lv) (hL := fun g h => if_neg h) (hwaits := waits m)
    (G := G m) (G' := G' m) (u₀ := u₀)
    (hu₀ := by
      unfold u₀
      iintro Hu
      ihave H := (ownU_pair _ _) $$ Hu
      icases H with ⟨HP, HX⟩
      imod (fund_tree m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun _ h c w => (h c).1 w)

end Cert.Kernel.Tree
end
-- ==== Proof.Ref.lean ====
/-
  The reference, one device over the whole array: its run, read back from the generated modules.
-/
import proofs.«900329_g7700000000000330_dist_treered_v7x_i4_m256_n256_f32_1_alg».proof.Defs
import proofs.«900329_g7700000000000330_dist_treered_v7x_i4_m256_n256_f32_1_alg».proof.Proof.Gen.ReferenceIdeal
import proofs.«900329_g7700000000000330_dist_treered_v7x_i4_m256_n256_f32_1_alg».proof.Proof.Gen.ReferenceIdeal.Run
import proofs.«900329_g7700000000000330_dist_treered_v7x_i4_m256_n256_f32_1_alg».proof.Proof.Gen.ReferenceIdeal.Read
import Idealize.ShloMosaic.Lib.StableHlo.Run

noncomputable section

namespace Cert.ReferenceIdeal.RefValue

open Idealize.ShloMosaic Idealize.ShloMosaic.TcCoe Idealize.SL.Sem

end Cert.ReferenceIdeal.RefValue

end
-- ==== Proof.Value.lean ====
/-
  The value: every device ends with the sum of the four blocks, which is what the reference computes.

  In each chunk a device first adds its first partner's rows to its own, then adds its second partner's first sum. The four
  devices met this way are all four devices of the mesh, and addition of extended reals is commutative and associative.
-/
import proofs.«900329_g7700000000000330_dist_treered_v7x_i4_m256_n256_f32_1_alg».proof.Proof.Launch
import proofs.«900329_g7700000000000330_dist_treered_v7x_i4_m256_n256_f32_1_alg».proof.Proof.Ref
import Idealize.ShloMosaic.Lib.ValueIdx
import Idealize.ShloMosaic.Lib.ValueLayout
import Idealize.ShloMosaic.Lib.Layout
import Idealize.ShloMosaic.Lib.Pipeline.Value

noncomputable section

namespace Cert.KernelIdeal.TreeValue

open Cert.KernelIdeal Cert.KernelIdeal.Gen Cert.KernelIdeal.Tree
open Idealize.ShloMosaic Idealize.ShloMosaic.TcCoe Idealize.ShloMosaic.ValueIdx
open Idealize.SL Idealize.SL.Sem

variable (m : (ℓ : Loc nD τ sig) → Buf (Elt Ideal) ℓ)

/-! ## Chunks by coordinates -/

theorem row_lt : ∀ (j : Fin 8) (p : Fin 32), row j + p.val < 256 := by decide

/-- Row p, column q of chunk j of a 256 x 256 buffer is row (first row of chunk j) + p, column q. -/
theorem emb_o (j : Fin 8) (p : Fin 32) (q : Fin 256) :
    ((oS j : Memref sig .tc .vmem S32x256 .f32).view.emb (ix2 p q) : S256x256.Idx) = ix2 (⟨row j + p.val, row_lt j p⟩ : Fin 256) q := by
  funext a; apply Fin.ext
  match a with
  | ⟨0, _⟩ => show row j + 1 * p.val = row j + p.val; omega
  | ⟨1, _⟩ => show 0 + 1 * q.val = q.val; omega

/-- The same element of chunk j of the staged input block, whose leading axis has one entry. -/
theorem emb_x (j : Fin 8) (p : Fin 32) (q : Fin 256) :
    ((xS j : Memref sig .tc .vmem S32x256 .f32).view.emb (ix2 p q) : S1x256x256.Idx)
      = ix3 (⟨0, Nat.one_pos⟩ : Fin 1) (⟨row j + p.val, row_lt j p⟩ : Fin 256) q := by
  show (rect3 j).emb (Shape.reshapeEquiv _ (ix2 p q)) = _
  rw [reshapeEquiv_ix2_1ab]
  funext a; apply Fin.ext
  match a with
  | ⟨0, _⟩ => show 0 + 1 * 0 = 0; omega
  | ⟨1, _⟩ => show row j + 1 * p.val = row j + p.val; omega
  | ⟨2, _⟩ => show 0 + 1 * q.val = q.val; omega

/-! ## The two sums at an index -/

/-- Chunk j of device c's staged input, read through the chunk. -/
def R (c : Dev nD) (j : Fin 8) : S32x256.Idx → EReal := (xS j : Memref sig .tc .vmem S32x256 .f32).view.read (Elt Ideal) (X m c)

theorem V1_apply (c : Dev nD) (j : Fin 8) (y : S32x256.Idx) : V1 m c j y = R m c j y + R m (peer1 c j) j y := rfl

theorem read_O1 (c : Dev nD) (j : Fin 8) : (oS j : Memref sig .tc .vmem S32x256 .f32).view.read (Elt Ideal) (O1 m c j) = V1 m c j :=
  View.read_write_univ (v := (oM : Memref sig .tc .vmem S256x256 .f32).access (rect2 j)) _ _

theorem V2_apply (c : Dev nD) (j : Fin 8) (y : S32x256.Idx) : V2 m c j y = V1 m c j y + V1 m (peer2 c j) j y := by
  unfold V2
  rw [show (oM : Memref sig .tc .vmem S256x256 .f32).view.readAt (Elt Ideal) (rect2 j).toLoadRect (O1 m c j)
      = (oS j : Memref sig .tc .vmem S32x256 .f32).view.read (Elt Ideal) (O1 m c j) from rfl, read_O1, read_O1]
  show V1 m c j (Shape.reshapeEquiv _ y) + V1 m (peer2 c j) j y = _
  rw [Shape.reshapeEquiv_self]

theorem read_O2 (c : Dev nD) (j : Fin 8) : (oS j : Memref sig .tc .vmem S32x256 .f32).view.read (Elt Ideal) (O2 m c j) = V2 m c j :=
  View.read_write_univ (v := (oM : Memref sig .tc .vmem S256x256 .f32).access (rect2 j)) _ _

/-! ## The four devices met -/

theorem p1_tab : p1 (0 : Dev nD) = 1 ∧ p1 (1 : Dev nD) = 0 ∧ p1 (2 : Dev nD) = 3 ∧ p1 (3 : Dev nD) = 2 := by decide +kernel
theorem p2_tab : p2 (0 : Dev nD) = 3 ∧ p2 (1 : Dev nD) = 2 ∧ p2 (2 : Dev nD) = 1 ∧ p2 (3 : Dev nD) = 0 := by decide +kernel

/-- Own, first partner, second partner, the second partner's first partner: all four devices. -/
theorem four (c : Dev nD) (j : Fin 8) (f : Dev nD → EReal) :
    f c + f (peer1 c j) + (f (peer2 c j) + f (peer1 (peer2 c j) j)) = f 0 + f 1 + f 2 + f 3 := by
  obtain ⟨a0, a1, a2, a3⟩ := p1_tab
  obtain ⟨b0, b1, b2, b3⟩ := p2_tab
  have hc : c = 0 ∨ c = 1 ∨ c = 2 ∨ c = 3 := by revert c; decide
  unfold peer1 peer2
  by_cases hj : j.val % 2 = 0
  · simp only [if_pos hj]
    rcases hc with rfl | rfl | rfl | rfl <;> simp only [a0, a1, a2, a3, b0, b1, b2, b3] <;> abel
  · simp only [if_neg hj]
    rcases hc with rfl | rfl | rfl | rfl <;> simp only [a0, a1, a2, a3, b0, b1, b2, b3] <;> abel

/-! ## A device's block inside the whole array, and the result array -/

open Cert.ReferenceIdeal.Read in
/-- Row r, column q of device c's block is entry (c, r, q) of the whole array. -/
theorem block_idx (h : Layout.Tiles ⟨3, ![1, 256, 256]⟩ ⟨3, ![4, 256, 256]⟩ 0 4) (c : Fin 4) (r q : Fin 256) :
    h.idx c (ix3 (⟨0, Nat.one_pos⟩ : Fin 1) r q) = idx_main_v0 (ix2 r q) c := by
  funext a; apply Fin.ext
  match a with
  | ⟨0, _⟩ => show c.val * 1 + 0 = c.val; omega
  | ⟨1, _⟩ => rfl
  | ⟨2, _⟩ => rfl

theorem chunk_rows (r q : Fin 256) (j : Fin 8) (hj : chunkOf (ix2 r q) = j) : row j ≤ r.val ∧ r.val < row j + 32 := by
  have hi := mem_chunkOf (ix2 r q)
  rw [hj] at hi
  exact (Rect.mem_set_unit.mp hi) (0 : Fin 2)

open Cert.ReferenceIdeal.Read in
/-- At row r, column q: the result array is the sum over the four devices of entry (device, r, q) of the whole array. -/
theorem outF_at (x0 : (⟨Cert.ReferenceIdeal.S4x256x256, .f32⟩ : BufTy).Contents (Elt Ideal))
    (hagree : ∀ c : Dev nD, X m c = Layout.block ⟨3, ![1, 256, 256]⟩ ⟨3, ![4, 256, 256]⟩ 0 4 c x0) (c : Dev nD) (r q : Fin 256) :
    OutF m c (ix2 r q) = val_main_v0 (F := Ideal) x0 (ix2 r q) := by
  generalize hj : chunkOf (ix2 r q) = j
  obtain ⟨hr0, hr1⟩ := chunk_rows r q j hj
  have hp : r.val - row j < 32 := by omega
  have hrow : (⟨row j + (⟨r.val - row j, hp⟩ : Fin 32).val, row_lt j ⟨r.val - row j, hp⟩⟩ : Fin 256) = r := Fin.ext (by show row j + (r.val - row j) = r.val; omega)
  have hemb : ((oS j : Memref sig .tc .vmem S32x256 .f32).view.emb (ix2 (⟨r.val - row j, hp⟩ : Fin 32) q) : S256x256.Idx) = ix2 r q := by
    rw [emb_o, hrow]
  have h1 : OutF m c (ix2 r q) = V2 m c j (ix2 (⟨r.val - row j, hp⟩ : Fin 32) q) := by
    show O2 m c (chunkOf (ix2 r q)) (ix2 r q) = _
    rw [hj, ← read_O2 m c j, View.read_apply, hemb]; rfl
  have hR : ∀ c' : Dev nD, R m c' j (ix2 (⟨r.val - row j, hp⟩ : Fin 32) q) = x0 (idx_main_v0 (ix2 r q) c') := fun c' => by
    unfold R
    rw [View.read_apply, emb_x, hrow, hagree c']
    show x0 (Layout.Tiles.idx _ c' _) = _
    exact congrArg x0 (block_idx (by decide) c' r q)
  rw [h1, V2_apply, V1_apply, V1_apply, hR, hR, hR, hR, val_main_v0_apply, Fin.sum_univ_four,
    four c j (fun c' => x0 (idx_main_v0 (ix2 r q) c'))]
  show _ = Ideal.ofBits .f32 0x00000000#32 + _
  rw [Ideal.ofBits_zero_f32, zero_add]

open Cert.ReferenceIdeal.Read in
/-- With every device's staged block its block of the whole array, each device's result array is the reference's result. -/
theorem outF_eq_ref (x0 : (⟨Cert.ReferenceIdeal.S4x256x256, .f32⟩ : BufTy).Contents (Elt Ideal))
    (hagree : ∀ c : Dev nD, X m c = Layout.block ⟨3, ![1, 256, 256]⟩ ⟨3, ![4, 256, 256]⟩ 0 4 c x0) (c : Dev nD) :
    OutF m c = val_main_v0 (F := Ideal) x0 := by
  funext i
  obtain ⟨r, q, rfl⟩ : ∃ (r q : Fin 256), i = ix2 r q := ⟨i 0, i 1, eq_ix2 i⟩
  exact outF_at m x0 hagree c r q

/-! ## The final arrays -/

/-- The staged input block is the device's argument buffer: the one block is the whole array. -/
theorem X_eq (c : Dev nD) : X m c = m ((c : Thread nD τ).loc main_arg0) := by
  unfold X
  funext j
  rw [View.read_apply]
  refine (cast_eq _ _).trans ?_
  refine congrArg (m ((c : Thread nD τ).loc main_arg0)) (funext fun a => Fin.ext ?_)
  show ((win0_0.rect (0 : Fin 1)).emb j a).val = (j a).val
  rw [Rect.emb_apply]
  have h0 : (win0_0.rect (0 : Fin 1)).off a = 0 := by show 0 * _ = 0; exact Nat.zero_mul _
  have h1 : (win0_0.rect (0 : Fin 1)).stride a = 1 := rfl
  rw [h0, h1]; omega

/-- The argument block is never written back. -/
theorem finalA_x (c : Dev nD) : finalA m c (0 : Fin 2) = m ((c : Thread nD τ).loc main_arg0) :=
  (dats (F := Ideal) m 0 c).arrAt_in (0 : Fin 2) rfl _

theorem flushed_o (c : Dev nD) (t : Fin cfg0.N) :
    (dats m 0 c).flushed 1 t = ((cfg0.win 1).blk t).view.read (Elt Ideal) (OutF m c) := by
  funext j
  rw [View.read_apply]
  refine Eq.trans ?_ (cast_eq _ _).symm
  show OutF m c _ = OutF m c _
  refine congrArg (OutF m c) (funext fun a => Fin.ext ?_)
  show (j a).val = ((win0_1.rect t).emb j a).val
  rw [Rect.emb_apply]
  have h0 : (win0_1.rect t).off a = 0 := by show 0 * _ = 0; exact Nat.zero_mul _
  have h1 : (win0_1.rect t).stride a = 1 := rfl
  rw [h0, h1]; omega

omit m in
theorem mem_blk_o (t : Fin cfg0.N) (i : S256x256.Idx) : i ∈ ((cfg0.win 1).blk t).view.set := by
  show i ∈ ((View.whole main_v1).slice (win0_1.rect t)).set
  rw [View.set_slice_whole, Rect.mem_set_unit]
  intro a
  have hidx : win0_1.index t a = 0 := rfl
  rw [hidx, Nat.zero_mul, Nat.zero_add]
  exact ⟨Nat.zero_le _, (i a).isLt⟩

/-- The result array after the run is the result array the body leaves: the one block is the whole array. -/
theorem finalA_o (c : Dev nD) : finalA m c (1 : Fin 2) = OutF m c :=
  (dats (F := Ideal) m 0 c).arrAt_eq_of_cover (1 : Fin 2) (OutF m c) (fun t _ => flushed_o m c t)
    (fun i => ⟨t₀, flush0_1 t₀, mem_blk_o t₀ i⟩)

end Cert.KernelIdeal.TreeValue

end
-- ==== Proof.lean ====
/-
  Four devices hold one block each of a [4, 256, 256] array; the kernel leaves on every device the sum of the four blocks,
  which is what the one-device reference computes by reducing the whole array over its first axis.

  The rows are cut into eight chunks of 32. For each chunk a device exchanges its rows with one partner and adds (c xor 1
  for an even chunk, 3 - c for an odd one), then exchanges that first sum with the other partner and adds again. The two
  partners' partners cover the mesh, so each chunk ends as the sum over all four devices; addition of extended reals is
  commutative and associative, so the order does not matter and no finiteness is used. The devices meet on a barrier cell
  (two unit duties, one from each partner, each handing over the landing chunks that partner will write) and on one send and
  one receive cell per chunk and exchange; levels barrier < first receive < second receive order the waits.
  The three frames are the runs with the values dropped; the idealization rewrote nothing.
-/
import proofs.«900329_g7700000000000330_dist_treered_v7x_i4_m256_n256_f32_1_alg».proof.Defs
import proofs.«900329_g7700000000000330_dist_treered_v7x_i4_m256_n256_f32_1_alg».proof.Proof.Gen.Kernel
import proofs.«900329_g7700000000000330_dist_treered_v7x_i4_m256_n256_f32_1_alg».proof.Proof.Gen.Kernel.Skeleton
import proofs.«900329_g7700000000000330_dist_treered_v7x_i4_m256_n256_f32_1_alg».proof.Proof.Gen.Kernel.Launch
import proofs.«900329_g7700000000000330_dist_treered_v7x_i4_m256_n256_f32_1_alg».proof.Proof.Gen.Kernel.Points
import proofs.«900329_g7700000000000330_dist_treered_v7x_i4_m256_n256_f32_1_alg».proof.Proof.Gen.Kernel.Frame
import proofs.«900329_g7700000000000330_dist_treered_v7x_i4_m256_n256_f32_1_alg».proof.Proof.Gen.KernelIdeal
import proofs.«900329_g7700000000000330_dist_treered_v7x_i4_m256_n256_f32_1_alg».proof.Proof.Gen.KernelIdeal.Skeleton
import proofs.«900329_g7700000000000330_dist_treered_v7x_i4_m256_n256_f32_1_alg».proof.Proof.Gen.KernelIdeal.Launch
import proofs.«900329_g7700000000000330_dist_treered_v7x_i4_m256_n256_f32_1_alg».proof.Proof.Gen.KernelIdeal.Points
import proofs.«900329_g7700000000000330_dist_treered_v7x_i4_m256_n256_f32_1_alg».proof.Proof.Gen.KernelIdeal.Frame
import proofs.«900329_g7700000000000330_dist_treered_v7x_i4_m256_n256_f32_1_alg».proof.Proof.Gen.ReferenceIdeal
import proofs.«900329_g7700000000000330_dist_treered_v7x_i4_m256_n256_f32_1_alg».proof.Proof.Gen.Pre_finite_inputs_Kernel
import proofs.«900329_g7700000000000330_dist_treered_v7x_i4_m256_n256_f32_1_alg».proof.Proof.Gen.Pre_finite_inputs_ReferenceIdeal
import proofs.«900329_g7700000000000330_dist_treered_v7x_i4_m256_n256_f32_1_alg».proof.Proof.Launch
import proofs.«900329_g7700000000000330_dist_treered_v7x_i4_m256_n256_f32_1_alg».proof.Proof.LaunchK
import proofs.«900329_g7700000000000330_dist_treered_v7x_i4_m256_n256_f32_1_alg».proof.Proof.Value
import Idealize.ShloMosaic.Adequacy
import Idealize.ShloMosaic.Init

noncomputable section

namespace Cert.Proof

open Idealize.ShloMosaic Idealize.ShloMosaic.TcCoe Idealize.SL.Sem

/-- The word-level kernel runs and leaves each device's block as it was. -/
theorem frame_k : Cert.frame_Kernel := fun m g _ =>
  (θ_run (Cert.Kernel.defs (F := Bits)) _ _).mono
    (fun r h c => (h c (0 : Fin 2)).trans ((Cert.Kernel.Tree.dats (F := Bits) m 0 c).arrAt_in (0 : Fin 2) rfl _))
    (Cert.Kernel.Tree.run_main (F := Bits) m g)

/-- So does the idealized kernel. -/
theorem frame_ki : Cert.frame_KernelIdeal := fun m g _ =>
  (θ_run (Cert.KernelIdeal.defs (F := Ideal)) _ _).mono
    (fun r h c => (h c (0 : Fin 2)).trans (Cert.KernelIdeal.TreeValue.finalA_x m c))
    (Cert.KernelIdeal.Tree.run_main (F := Ideal) m g)

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Every device's result is the reference's: the sum of the four blocks. -/
theorem algebraic : Cert.algebraic_KernelIdeal_ReferenceIdeal := by
  intro m g m' g' _ hagree
  refine ⟨Cert.ReferenceIdeal.Read.val_main_v0 (F := Ideal) (m' (((0 : Dev Cert.ReferenceIdeal.nD).tc : Thread Cert.ReferenceIdeal.nD Cert.ReferenceIdeal.τ).loc Cert.ReferenceIdeal.main_arg0)), ?_, ?_⟩
  · refine (θ_run (Cert.KernelIdeal.defs (F := Ideal)) _ _).mono (fun r h c => ⟨?_, ?_⟩) (Cert.KernelIdeal.Tree.run_main (F := Ideal) m g)
    · exact ((h c (1 : Fin 2)).trans (Cert.KernelIdeal.TreeValue.finalA_o m c)).trans
        (Cert.KernelIdeal.TreeValue.outF_eq_ref m _ (fun c' => (Cert.KernelIdeal.TreeValue.X_eq m c').trans (hagree c')) c)
    · exact (h c (0 : Fin 2)).trans (Cert.KernelIdeal.TreeValue.finalA_x m c)
  · exact (θ_run (Cert.ReferenceIdeal.defs (F := Ideal)) _ _).mono
      (fun r h => ⟨(h 0).1.trans (Cert.ReferenceIdeal.Read.val_main_v0_eq _), (h 0).2⟩)
      (Cert.ReferenceIdeal.Value.run (F := Ideal) m' g')

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  frame_k, frame_ki, frame_ri, preserves, algebraic⟩

end Cert.Proof

end
